-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v38)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v38) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v70) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S128x128 : Shape := ⟨2, ![128, 128]⟩
abbrev S128 : Shape := ⟨1, ![128]⟩
abbrev S2x800000 : Shape := ⟨2, ![2, 800000]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_

variable [Facts]

def fn_part1 {F : FTy → Type} [FloatOps F] (main_arg4 : FVec F S128 .f32) (main_arg5 : FVec F S128 .f32) (main_v13 : IVec S_ 1) (main_v16 : IVec S128x128 1) : IVec S_ 1 :=
  let main_c_5 : IVec S_ 1 := constantI S_ 1 1#1
  let main_v17 : IVec S_ 1 := (fun x v => Host.reduce IntOp.andi x v reducesTo_S128x128_S_d0_1 h_S_) main_v16 main_c_5
  let main_v18 : IVec S_ 1 := andi main_v13 main_v17
  let main_v19 : FVec F S128 .f32 := Host.absf main_arg4
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  let main_v24 : FVec F S128 .f32 := Host.absf main_arg5
  let main_cst_8 : FVec F S_ .f32 := constant S_ .f32 0x7F800000#32
  let main_v25 : FVec F S128 .f32 := broadcastInDim S128 ![] bcast_S_S128 main_cst_8
  let main_v26 : IVec S128 1 := cmpf .olt main_v24 main_v25
  let main_c_9 : IVec S_ 1 := constantI S_ 1 1#1
  let main_v27 : IVec S_ 1 := (fun x v => Host.reduce IntOp.andi x v reducesTo_S128_S_d0 h_S_) main_v26 main_c_9
  let main_v28 : IVec S_ 1 := andi main_v23 main_v27
  main_v28

def fn {F : FTy → Type} [FloatOps F] (main_arg0 : FVec F S50000x128 .f32) (main_arg1 : FVec F S128x128 .f32) (main_arg2 : FVec F S128 .f32) (main_arg3 : FVec F S128x128 .f32) (main_arg4 : FVec F S128 .f32) (main_arg5 : FVec F S128 .f32) (main_arg6 : IVec S2x800000 32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S128x128 .f32 := Host.absf main_arg1
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128 .f32 := Host.absf main_arg2
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x128 .f32 := Host.absf main_arg3
  let main_cst_4 : FVec F S_ .f32 := constant S_ .f32 0x7F800000#32
  let main_v15 : FVec F S128x128 .f32 := broadcastInDim S128x128 ![] bcast_S_S128x128 main_cst_4
  let main_v16 : IVec S128x128 1 := cmpf .olt main_v14 main_v15
  fn_part1 (F := F) main_arg4 main_arg5 main_v13 main_v16
-- ==== Kernel.lean ====
abbrev S50000x128 : Shape := ⟨2, ![50000, 128]⟩
abbrev S128x128 : Shape := ⟨2, ![128, 128]⟩
abbrev S128 : Shape := ⟨1, ![128]⟩
abbrev S2x800000 : Shape := ⟨2, ![2, 800000]⟩
abbrev S1x800000 : Shape := ⟨2, ![1, 800000]⟩
abbrev S800000 : Shape := ⟨1, ![800000]⟩
abbrev S_ : Shape := ⟨0, ![]⟩
abbrev S50000 : Shape := ⟨1, ![50000]⟩
abbrev S800000x1 : Shape := ⟨2, ![800000, 1]⟩
abbrev S50000x1 : Shape := ⟨2, ![50000, 1]⟩
abbrev S5000x128 : Shape := ⟨2, ![5000, 128]⟩
abbrev S5000x1 : Shape := ⟨2, ![5000, 1]⟩
abbrev S800000x128 : Shape := ⟨2, ![800000, 128]⟩
abbrev S1x128 : Shape := ⟨2, ![1, 128]⟩

abbrev nBuf : Space → Nat
  | .hbm => 61
  | .vmem => 29
  | .smem => 0
  | _ => 0

abbrev bufTy : (tb : Table) → Fin (tcTables nBuf tb) → BufTy
  | .hbm, ⟨0, _⟩ => ⟨S50000x128, .f32⟩
  | .hbm, ⟨1, _⟩ => ⟨S128x128, .f32⟩
  | .hbm, ⟨2, _⟩ => ⟨S128, .f32⟩
  | .hbm, ⟨3, _⟩ => ⟨S128x128, .f32⟩
  | .hbm, ⟨4, _⟩ => ⟨S128, .f32⟩
  | .hbm, ⟨5, _⟩ => ⟨S128, .f32⟩
  | .hbm, ⟨6, _⟩ => ⟨S2x800000, .i32⟩
  | .hbm, ⟨7, _⟩ => ⟨S1x800000, .i32⟩
  | .hbm, ⟨8, _⟩ => ⟨S800000, .i32⟩
  | .hbm, ⟨9, _⟩ => ⟨S1x800000, .i32⟩
  | .hbm, ⟨10, _⟩ => ⟨S800000, .i32⟩
  | .hbm, ⟨11, _⟩ => ⟨S_, .f32⟩
  | .hbm, ⟨12, _⟩ => ⟨S800000, .f32⟩
  | .hbm, ⟨13, _⟩ => ⟨S_, .f32⟩
  | .hbm, ⟨14, _⟩ => ⟨S50000, .f32⟩
  | .hbm, ⟨15, _⟩ => ⟨S800000x1, .i32⟩
  | .hbm, ⟨16, _⟩ => ⟨S50000, .f32⟩
  | .hbm, ⟨17, _⟩ => ⟨S_, .f32⟩
  | .hbm, ⟨18, _⟩ => ⟨S50000, .f32⟩
  | .hbm, ⟨19, _⟩ => ⟨S50000, .f32⟩
  | .hbm, ⟨20, _⟩ => ⟨S_, .f32⟩
  | .hbm, ⟨21, _⟩ => ⟨S50000, .f32⟩
  | .hbm, ⟨22, _⟩ => ⟨S50000, .i1⟩
  | .hbm, ⟨23, _⟩ => ⟨S50000, .f32⟩
  | .hbm, ⟨24, _⟩ => ⟨S_, .f32⟩
  | .hbm, ⟨25, _⟩ => ⟨S_, .f32⟩
  | .hbm, ⟨26, _⟩ => ⟨S50000, .f32⟩
  | .hbm, ⟨27, _⟩ => ⟨S50000, .f32⟩
  | .hbm, ⟨28, _⟩ => ⟨S50000x1, .f32⟩
  | .hbm, ⟨29, _⟩ => ⟨S50000x128, .f32⟩
  | .hbm, ⟨30, _⟩ => ⟨S_, .i32⟩
  | .hbm, ⟨31, _⟩ => ⟨S800000, .i32⟩
  | .hbm, ⟨32, _⟩ => ⟨S800000, .i1⟩
  | .hbm, ⟨33, _⟩ => ⟨S_, .i32⟩
  | .hbm, ⟨34, _⟩ => ⟨S800000, .i32⟩
  | .hbm, ⟨35, _⟩ => ⟨S800000, .i32⟩
  | .hbm, ⟨36, _⟩ => ⟨S800000, .i32⟩
  | .hbm, ⟨37, _⟩ => ⟨S800000x1, .i32⟩
  | .hbm, ⟨38, _⟩ => ⟨S800000x128, .f32⟩
  | .hbm, ⟨39, _⟩ => ⟨S_, .f32⟩
  | .hbm, ⟨40, _⟩ => ⟨S50000x128, .f32⟩
  | .hbm, ⟨41, _⟩ => ⟨S800000x1, .i32⟩
  | .hbm, ⟨42, _⟩ => ⟨S50000x128, .f32⟩
  | .hbm, ⟨43, _⟩ => ⟨S1x128, .f32⟩
  | .hbm, ⟨44, _⟩ => ⟨S50000x128, .f32⟩
  | .hbm, ⟨45, _⟩ => ⟨S1x128, .f32⟩
  | .hbm, ⟨46, _⟩ => ⟨S1x128, .f32⟩
  | .hbm, ⟨47, _⟩ => ⟨S_, .f32⟩
  | .hbm, ⟨48, _⟩ => ⟨S1x128, .f32⟩
  | .hbm, ⟨49, _⟩ => ⟨S1x128, .f32⟩
  | .hbm, ⟨50, _⟩ => ⟨S_, .f32⟩
  | .hbm, ⟨51, _⟩ => ⟨S1x128, .f32⟩
  | .hbm, ⟨52, _⟩ => ⟨S1x128, .f32⟩
  | .hbm, ⟨53, _⟩ => ⟨S1x128, .f32⟩
  | .hbm, ⟨54, _⟩ => ⟨S1x128, .f32⟩
  | .hbm, ⟨55, _⟩ => ⟨S_, .f32⟩
  | .hbm, ⟨56, _⟩ => ⟨S1x128, .f32⟩
  | .hbm, ⟨57, _⟩ => ⟨S1x128, .f32⟩
  | .hbm, ⟨58, _⟩ => ⟨S1x128, .f32⟩
  | .hbm, ⟨59, _⟩ => ⟨S1x128, .f32⟩
  | .hbm, ⟨60, _⟩ => ⟨S50000x128, .f32⟩
  | .local _ .vmem, ⟨0, _⟩ => ⟨S5000x128, .f32⟩
  | .local _ .vmem, ⟨1, _⟩ => ⟨S5000x128, .f32⟩
  | .local _ .vmem, ⟨2, _⟩ => ⟨S128x128, .f32⟩
  | .local _ .vmem, ⟨3, _⟩ => ⟨S5000x1, .f32⟩
  | .local _ .vmem, ⟨4, _⟩ => ⟨S5000x1, .f32⟩
  | .local _ .vmem, ⟨5, _⟩ => ⟨S5000x128, .f32⟩
  | .local _ .vmem, ⟨6, _⟩ => ⟨S5000x128, .f32⟩
  | .local _ .vmem, ⟨7, _⟩ => ⟨S5000x128, .f32⟩
  | .local _ .vmem, ⟨8, _⟩ => ⟨S5000x128, .f32⟩
  | .local _ .vmem, ⟨9, _⟩ => ⟨S5000x128, .f32⟩
  | .local _ .vmem, ⟨10, _⟩ => ⟨S5000x128, .f32⟩
  | .local _ .vmem, ⟨11, _⟩ => ⟨S5000x1, .f32⟩
  | .local _ .vmem, ⟨12, _⟩ => ⟨S5000x1, .f32⟩
  | .local _ .vmem, ⟨13, _⟩ => ⟨S5000x128, .f32⟩
  | .local _ .vmem, ⟨14, _⟩ => ⟨S5000x128, .f32⟩
  | .local _ .vmem, ⟨15, _⟩ => ⟨S128x128, .f32⟩
  | .local _ .vmem, ⟨16, _⟩ => ⟨S1x128, .f32⟩
  | .local _ .vmem, ⟨17, _⟩ => ⟨S5000x128, .f32⟩
  | .local _ .vmem, ⟨18, _⟩ => ⟨S5000x128, .f32⟩
  | .local _ .vmem, ⟨19, _⟩ => ⟨S1x128, .f32⟩
  | .local _ .vmem, ⟨20, _⟩ => ⟨S1x128, .f32⟩
  | .local _ .vmem, ⟨21, _⟩ => ⟨S5000x128, .f32⟩
  | .local _ .vmem, ⟨22, _⟩ => ⟨S5000x128, .f32⟩
  | .local _ .vmem, ⟨23, _⟩ => ⟨S1x128, .f32⟩
  | .local _ .vmem, ⟨24, _⟩ => ⟨S1x128, .f32⟩
  | .local _ .vmem, ⟨25, _⟩ => ⟨S1x128, .f32⟩
  | .local _ .vmem, ⟨26, _⟩ => ⟨S1x128, .f32⟩
  | .local _ .vmem, ⟨27, _⟩ => ⟨S5000x128, .f32⟩
  | .local _ .vmem, ⟨28, _⟩ => ⟨S5000x128, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | _, _ => false

abbrev semScoped : Fin 0 → Bool
  | ⟨_, h⟩ => absurd h (Nat.not_lt_zero _)

abbrev dmaSemScoped : Fin 29 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | _ => false

abbrev sig : RefSig :=
  ofTc nBuf bufTy 0 29 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_cst : Ref sig .tc := ⟨.hbm, 11, rfl⟩
abbrev main_v4 : Ref sig .tc := ⟨.hbm, 12, rfl⟩
abbrev main_cst_0 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_cst_1 : Ref sig .tc := ⟨.hbm, 17, rfl⟩
abbrev main_v8 : Ref sig .tc := ⟨.hbm, 18, rfl⟩
abbrev main_v9 : Ref sig .tc := ⟨.hbm, 19, rfl⟩
abbrev main_cst_2 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_cst_3 : Ref sig .tc := ⟨.hbm, 24, rfl⟩
abbrev main_call0_v0 : Ref sig .tc := ⟨.hbm, 25, rfl⟩
abbrev main_call0_v1 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_c : Ref sig .tc := ⟨.hbm, 30, rfl⟩
abbrev main_v16 : Ref sig .tc := ⟨.hbm, 31, rfl⟩
abbrev main_v17 : Ref sig .tc := ⟨.hbm, 32, rfl⟩
abbrev main_c_4 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_cst_5 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_v27_0 : Ref sig .tc := ⟨.hbm, 44, rfl⟩
abbrev main_v27_1 : Ref sig .tc := ⟨.hbm, 45, rfl⟩
abbrev main_v27_2 : Ref sig .tc := ⟨.hbm, 46, rfl⟩
abbrev main_cst_6 : Ref sig .tc := ⟨.hbm, 47, rfl⟩
abbrev main_v28 : Ref sig .tc := ⟨.hbm, 48, rfl⟩
abbrev main_v29 : Ref sig .tc := ⟨.hbm, 49, rfl⟩
abbrev main_cst_7 : Ref sig .tc := ⟨.hbm, 50, rfl⟩
abbrev main_v30 : Ref sig .tc := ⟨.hbm, 51, rfl⟩
abbrev main_v31 : Ref sig .tc := ⟨.hbm, 52, rfl⟩
abbrev main_v32 : Ref sig .tc := ⟨.hbm, 53, rfl⟩
abbrev main_v33 : Ref sig .tc := ⟨.hbm, 54, rfl⟩
abbrev main_cst_8 : Ref sig .tc := ⟨.hbm, 55, rfl⟩
abbrev main_v34 : Ref sig .tc := ⟨.hbm, 56, rfl⟩
abbrev main_v35 : Ref sig .tc := ⟨.hbm, 57, rfl⟩
abbrev main_v36 : Ref sig .tc := ⟨.hbm, 58, rfl⟩
abbrev main_v37 : Ref sig .tc := ⟨.hbm, 59, rfl⟩
abbrev main_v38 : Ref sig .tc := ⟨.hbm, 60, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc1_stg0_0 : Ref sig .tc := ⟨.vmem, 7, rfl⟩
abbrev cc1_stg0_1 : Ref sig .tc := ⟨.vmem, 8, rfl⟩
abbrev cc1_stg1_0 : Ref sig .tc := ⟨.vmem, 9, rfl⟩
abbrev cc1_stg1_1 : Ref sig .tc := ⟨.vmem, 10, rfl⟩
abbrev cc1_stg2_0 : Ref sig .tc := ⟨.vmem, 11, rfl⟩
abbrev cc1_stg2_1 : Ref sig .tc := ⟨.vmem, 12, rfl⟩
abbrev cc1_stg3_0 : Ref sig .tc := ⟨.vmem, 13, rfl⟩
abbrev cc1_stg3_1 : Ref sig .tc := ⟨.vmem, 14, rfl⟩
abbrev cc1_stg4_0 : Ref sig .tc := ⟨.vmem, 15, rfl⟩
abbrev cc1_stg5_0 : Ref sig .tc := ⟨.vmem, 16, rfl⟩
abbrev cc1_stg6_0 : Ref sig .tc := ⟨.vmem, 17, rfl⟩
abbrev cc1_stg6_1 : Ref sig .tc := ⟨.vmem, 18, rfl⟩
abbrev cc1_stg7_0 : Ref sig .tc := ⟨.vmem, 19, rfl⟩
abbrev cc1_stg8_0 : Ref sig .tc := ⟨.vmem, 20, rfl⟩
abbrev cc2_stg0_0 : Ref sig .tc := ⟨.vmem, 21, rfl⟩
abbrev cc2_stg0_1 : Ref sig .tc := ⟨.vmem, 22, rfl⟩
abbrev cc2_stg1_0 : Ref sig .tc := ⟨.vmem, 23, rfl⟩
abbrev cc2_stg2_0 : Ref sig .tc := ⟨.vmem, 24, rfl⟩
abbrev cc2_stg3_0 : Ref sig .tc := ⟨.vmem, 25, rfl⟩
abbrev cc2_stg4_0 : Ref sig .tc := ⟨.vmem, 26, rfl⟩
abbrev cc2_stg5_0 : Ref sig .tc := ⟨.vmem, 27, rfl⟩
abbrev cc2_stg5_1 : Ref sig .tc := ⟨.vmem, 28, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc1_sem0_0 : DmaSem sig := 7
abbrev cc1_sem0_1 : DmaSem sig := 8
abbrev cc1_sem1_0 : DmaSem sig := 9
abbrev cc1_sem1_1 : DmaSem sig := 10
abbrev cc1_sem2_0 : DmaSem sig := 11
abbrev cc1_sem2_1 : DmaSem sig := 12
abbrev cc1_sem3_0 : DmaSem sig := 13
abbrev cc1_sem3_1 : DmaSem sig := 14
abbrev cc1_sem4_0 : DmaSem sig := 15
abbrev cc1_sem5_0 : DmaSem sig := 16
abbrev cc1_sem6_0 : DmaSem sig := 17
abbrev cc1_sem6_1 : DmaSem sig := 18
abbrev cc1_sem7_0 : DmaSem sig := 19
abbrev cc1_sem8_0 : DmaSem sig := 20
abbrev cc2_sem0_0 : DmaSem sig := 21
abbrev cc2_sem0_1 : DmaSem sig := 22
abbrev cc2_sem1_0 : DmaSem sig := 23
abbrev cc2_sem2_0 : DmaSem sig := 24
abbrev cc2_sem3_0 : DmaSem sig := 25
abbrev cc2_sem4_0 : DmaSem sig := 26
abbrev cc2_sem5_0 : DmaSem sig := 27
abbrev cc2_sem5_1 : DmaSem sig := 28

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S5000x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S5000x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_7 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_8 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S5000x1 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 2 → Memref sig .tc .vmem S5000x128 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev stage1_4 : Fin 1 → Memref sig .tc .vmem S128x128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S1x128 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 2 → Memref sig .tc .vmem S5000x128 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true]

abbrev stage1_7 : Fin 1 → Memref sig .tc .vmem S1x128 .f32 := fun | 0 => Memref.whole cc1_stg7_0 | ⟨_ + 1, h⟩ => absurd h (Nat.not_lt.2 (Nat.le_add_left _ _))
abbrev sem1_7 : Fin 1 → DmaSem sig := fun | 0 => cc1_sem7_0 | ⟨_ + 1, h⟩ => absurd h (Nat.not_lt.2 (Nat.le_add_left _ _))
abbrev reads1_7 : Fin grid1.rank → Bool := ![false]

abbrev stage1_8 : Fin 1 → Memref sig .tc .vmem S1x128 .f32 := fun | 0 => Memref.whole cc1_stg8_0 | ⟨_ + 1, h⟩ => absurd h (Nat.not_lt.2 (Nat.le_add_left _ _))
abbrev sem1_8 : Fin 1 → DmaSem sig := fun | 0 => cc1_sem8_0 | ⟨_ + 1, h⟩ => absurd h (Nat.not_lt.2 (Nat.le_add_left _ _))
abbrev reads1_8 : Fin grid1.rank → Bool := ![false]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S1x128 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S1x128 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S1x128 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S1x128 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 2 → Memref sig .tc .vmem S5000x128 .f32 := fun | 0 => Memref.whole cc2_stg5_0 | 1 => Memref.whole cc2_stg5_1 | ⟨_ + 2, h⟩ => absurd h (Nat.not_lt.2 (Nat.le_add_left _ _))
abbrev sem2_5 : Fin 2 → DmaSem sig := fun | 0 => cc2_sem5_0 | 1 => cc2_sem5_1 | ⟨_ + 2, h⟩ => absurd h (Nat.not_lt.2 (Nat.le_add_left _ _))
abbrev reads2_5 : Fin grid2.rank → Bool := ![true]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S800000 : S_.BroadcastsInDim S800000 (![] : Fin 0 → Fin S800000.rank)
  bcast_S_S50000 : S_.BroadcastsInDim S50000 (![] : Fin 0 → Fin S50000.rank)
  bcast_S800000_S800000x1_0 : S800000.BroadcastsInDim S800000x1 (![0] : Fin 1 → Fin S800000x1.rank)
  shapeCasts_S50000_S50000x1 : S50000.ShapeCasts S50000x1
  inb_S5000x128_S5000x128_0_0 : ∀ a, (![0, 0] : Fin 2 → Nat) a + S5000x128.size a ≤ S5000x128.size a
  h_S5000x128 : 0 < S5000x128.numel
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  transposes_S128x128_p1_0_S128x128 : S128x128.Transposes [1, 0] S128x128
  inb_S5000x1_S5000x1_0_0 : ∀ a, (![0, 0] : Fin 2 → Nat) a + S5000x1.size a ≤ S5000x1.size a
  h_S5000x1 : 0 < S5000x1.numel
  shapeCasts_S5000x1_S5000x1 : S5000x1.ShapeCasts S5000x1
  broadcasts_S5000x1_S5000x128 : S5000x1.Broadcasts S5000x128
  bcast_S_S50000x128 : S_.BroadcastsInDim S50000x128 (![] : Fin 0 → Fin S50000x128.rank)
  shapeCasts_S128_S1x128 : S128.ShapeCasts S1x128
  inb_S1x128_S1x128_0_0 : ∀ a, (![0, 0] : Fin 2 → Nat) a + S1x128.size a ≤ S1x128.size a
  h_S1x128 : 0 < S1x128.numel
  shapeCasts_S5000x128_S5000x128 : S5000x128.ShapeCasts S5000x128
  shapeCasts_S1x128_S1x128 : S1x128.ShapeCasts S1x128
  broadcasts_S1x128_S5000x128 : S1x128.Broadcasts S5000x128
  reduces_S5000x128_S128 : S5000x128.Reduces [0] S128
  bcast_S_S1x128 : S_.BroadcastsInDim S1x128 (![] : Fin 0 → Fin S1x128.rank)
  scatter_S50000_S800000x1_S800000_n_0_0_1_wf : ScatterDims.WF S50000 S800000x1 S800000 [] [0] [0] 1
  dot_S5000x128_S128x128_S5000x128_1_0_0_1_n_n_wf : DotDims.WF S5000x128 S128x128 S5000x128 [1] [0] [0] [1] [] []
  gather_S50000x128_S800000x1_S800000x128_1_0_n_n_0_1_1128_wf : GatherDims.WF S50000x128 S800000x1 S800000x128 [1] [0] [] [0] [] 1 ![1, 128]
  scatter_S50000x128_S800000x1_S800000x128_1_0_0_1_wf : ScatterDims.WF S50000x128 S800000x1 S800000x128 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S50000x128.size a
  hwx0_0 : ∀ i : grid0.Coords, EltTy.bits .f32 = 32 ∨ (Rect.block (s := S50000x128) S5000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x1.size a ≤ S50000x1.size a
  hwx0_2 : ∀ i : grid0.Coords, EltTy.bits .f32 = 32 ∨ (Rect.block (s := S50000x1) S5000x1.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S5000x128.size a ≤ S50000x128.size a
  hwx0_3 : ∀ i : grid0.Coords, EltTy.bits .f32 = 32 ∨ (Rect.block (s := S50000x128) S5000x128.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S50000x128.size a
  hwx1_0 : ∀ i : grid1.Coords, EltTy.bits .f32 = 32 ∨ (Rect.block (s := S50000x128) S5000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x128.size a ≤ S50000x128.size a
  hwx1_1 : ∀ i : grid1.Coords, EltTy.bits .f32 = 32 ∨ (Rect.block (s := S50000x128) S5000x128.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S5000x1.size a ≤ S50000x1.size a
  hwx1_2 : ∀ i : grid1.Coords, EltTy.bits .f32 = 32 ∨ (Rect.block (s := S50000x1) S5000x1.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S5000x128.size a ≤ S50000x128.size a
  hwx1_3 : ∀ i : grid1.Coords, EltTy.bits .f32 = 32 ∨ (Rect.block (s := S50000x128) S5000x128.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S128x128.size a ≤ S128x128.size a
  hwx1_4 : ∀ i : grid1.Coords, EltTy.bits .f32 = 32 ∨ (Rect.block (s := S128x128) S128x128.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S1x128.size a ≤ S1x128.size a
  hwx1_5 : ∀ i : grid1.Coords, EltTy.bits .f32 = 32 ∨ (Rect.block (s := S1x128) S1x128.size (cc1_transform_5 i) (hinb1_5 i)).WholeWords (EltTy.packing .f32)
  hstage1_6 : ∀ j, (stage1_6 j).IsWhole
  nbuf1_6 : grid1.bufCount reads1_6 false = 2
  hreads1_6 : ∀ i i' : grid1.Coords, (∀ a, reads1_6 a = true → i a = i' a) → cc1_transform_6 i = cc1_transform_6 i'
  hinb1_6 : ∀ (i : grid1.Coords) a, (cc1_transform_6 i a + 1) * S5000x128.size a ≤ S50000x128.size a
  hwx1_6 : ∀ i : grid1.Coords, EltTy.bits .f32 = 32 ∨ (Rect.block (s := S50000x128) S5000x128.size (cc1_transform_6 i) (hinb1_6 i)).WholeWords (EltTy.packing .f32)
  hstage1_7 : ∀ j, (stage1_7 j).IsWhole
  nbuf1_7 : grid1.bufCount reads1_7 true = 1
  hreads1_7 : ∀ i i' : grid1.Coords, (∀ a, reads1_7 a = true → i a = i' a) → cc1_transform_7 i = cc1_transform_7 i'
  hinb1_7 : ∀ (i : grid1.Coords) a, (cc1_transform_7 i a + 1) * S1x128.size a ≤ S1x128.size a
  hwx1_7 : ∀ i : grid1.Coords, EltTy.bits .f32 = 32 ∨ (Rect.block (s := S1x128) S1x128.size (cc1_transform_7 i) (hinb1_7 i)).WholeWords (EltTy.packing .f32)
  hstage1_8 : ∀ j, (stage1_8 j).IsWhole
  nbuf1_8 : grid1.bufCount reads1_8 true = 1
  hreads1_8 : ∀ i i' : grid1.Coords, (∀ a, reads1_8 a = true → i a = i' a) → cc1_transform_8 i = cc1_transform_8 i'
  hinb1_8 : ∀ (i : grid1.Coords) a, (cc1_transform_8 i a + 1) * S1x128.size a ≤ S1x128.size a
  hwx1_8 : ∀ i : grid1.Coords, EltTy.bits .f32 = 32 ∨ (Rect.block (s := S1x128) S1x128.size (cc1_transform_8 i) (hinb1_8 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x128.size a ≤ S50000x128.size a
  hwx2_0 : ∀ i : grid2.Coords, EltTy.bits .f32 = 32 ∨ (Rect.block (s := S50000x128) S5000x128.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S1x128.size a ≤ S1x128.size a
  hwx2_1 : ∀ i : grid2.Coords, EltTy.bits .f32 = 32 ∨ (Rect.block (s := S1x128) S1x128.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S1x128.size a ≤ S1x128.size a
  hwx2_2 : ∀ i : grid2.Coords, EltTy.bits .f32 = 32 ∨ (Rect.block (s := S1x128) S1x128.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S1x128.size a ≤ S1x128.size a
  hwx2_3 : ∀ i : grid2.Coords, EltTy.bits .f32 = 32 ∨ (Rect.block (s := S1x128) S1x128.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S1x128.size a ≤ S1x128.size a
  hwx2_4 : ∀ i : grid2.Coords, EltTy.bits .f32 = 32 ∨ (Rect.block (s := S1x128) S1x128.size (cc2_transform_4 i) (hinb2_4 i)).WholeWords (EltTy.packing .f32)
  hstage2_5 : ∀ j, (stage2_5 j).IsWhole
  nbuf2_5 : grid2.bufCount reads2_5 false = 2
  hreads2_5 : ∀ i i' : grid2.Coords, (∀ a, reads2_5 a = true → i a = i' a) → cc2_transform_5 i = cc2_transform_5 i'
  hinb2_5 : ∀ (i : grid2.Coords) a, (cc2_transform_5 i a + 1) * S5000x128.size a ≤ S50000x128.size a
  hwx2_5 : ∀ i : grid2.Coords, EltTy.bits .f32 = 32 ∨ (Rect.block (s := S50000x128) S5000x128.size (cc2_transform_5 i) (hinb2_5 i)).WholeWords (EltTy.packing .f32)

variable [Facts₀]

def scatter_S50000_S800000x1_S800000_n_0_0_1 : ScatterDims S50000 S800000x1 S800000 where
  updateWindowDims := []
  insertedWindowDims := [0]
  scatterDimsToOperandDims := [0]
  indexVectorDim := 1
  wf := scatter_S50000_S800000x1_S800000_n_0_0_1_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf
def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf

abbrev win0_0 : Pipeline.Window sig grid0 :=
  Pipeline.Window.ofSpec (Memref.whole main_arg0) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v14) S5000x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v15) S5000x128.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v25) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v15) S5000x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v14) S5000x1.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_arg0) S5000x128.size cc1_transform_3 reads1_3 false false 2 stage1_3 sem1_3
    hrank1 hreads1_3 hinb1_3 nbuf1_3 (Memref.isWhole_whole _) hwx1_3 hstage1_3

abbrev win1_4 : Pipeline.Window sig grid1 :=
  Pipeline.Window.ofSpec (Memref.whole main_arg3) S128x128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v26) S1x128.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v27_0) S5000x128.size cc1_transform_6 reads1_6 true false 2 stage1_6 sem1_6
    hrank1 hreads1_6 hinb1_6 nbuf1_6 (Memref.isWhole_whole _) hwx1_6 hstage1_6

abbrev win1_7 : Pipeline.Window sig grid1 :=
  Pipeline.Window.ofSpec (Memref.whole main_v27_1) S1x128.size cc1_transform_7 reads1_7 true true 1 stage1_7 sem1_7
    hrank1 hreads1_7 hinb1_7 nbuf1_7 (Memref.isWhole_whole _) hwx1_7 hstage1_7

abbrev win1_8 : Pipeline.Window sig grid1 :=
  Pipeline.Window.ofSpec (Memref.whole main_v27_2) S1x128.size cc1_transform_8 reads1_8 true true 1 stage1_8 sem1_8
    hrank1 hreads1_8 hinb1_8 nbuf1_8 (Memref.isWhole_whole _) hwx1_8 hstage1_8

abbrev win1 : Fin 9 → Pipeline.Window sig grid1 := fun | 0 => win1_0 | 1 => win1_1 | 2 => win1_2 | 3 => win1_3 | 4 => win1_4 | 5 => win1_5 | 6 => win1_6 | 7 => win1_7 | 8 => win1_8 | ⟨_ + 9, h⟩ => absurd h (Nat.not_lt.2 (Nat.le_add_left _ _))
abbrev spec1 : Fin 9 → Pipeline.WinSpec sig grid1.rank := fun w => (win1 w).toWinSpec

abbrev win2_0 : Pipeline.Window sig grid2 :=
  Pipeline.Window.ofSpec (Memref.whole main_v27_0) S5000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v29) S1x128.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v35) S1x128.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v36) S1x128.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v37) S1x128.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v38) S5000x128.size cc2_transform_5 reads2_5 true false 2 stage2_5 sem2_5
    hrank2 hreads2_5 hinb2_5 nbuf2_5 (Memref.isWhole_whole _) hwx2_5 hstage2_5

abbrev win2 : Fin 6 → Pipeline.Window sig grid2 := fun | 0 => win2_0 | 1 => win2_1 | 2 => win2_2 | 3 => win2_3 | 4 => win2_4 | 5 => win2_5 | ⟨_ + 6, h⟩ => absurd h (Nat.not_lt.2 (Nat.le_add_left _ _))
abbrev spec2 : Fin 6 → Pipeline.WinSpec sig grid2.rank := fun w => (win2 w).toWinSpec

class Facts : Prop extends Facts₀ where

variable [Facts]
-- ==== ReferenceIdeal.lean ====
abbrev S50000x128 : Shape := ⟨2, ![50000, 128]⟩
abbrev S128x128 : Shape := ⟨2, ![128, 128]⟩
abbrev S128 : Shape := ⟨1, ![128]⟩
abbrev S2x800000 : Shape := ⟨2, ![2, 800000]⟩
abbrev S50000 : Shape := ⟨1, ![50000]⟩
abbrev S1x800000 : Shape := ⟨2, ![1, 800000]⟩
abbrev S800000 : Shape := ⟨1, ![800000]⟩
abbrev S850000 : Shape := ⟨1, ![850000]⟩
abbrev S_ : Shape := ⟨0, ![]⟩
abbrev S850000x1 : Shape := ⟨2, ![850000, 1]⟩
abbrev S850000x128 : Shape := ⟨2, ![850000, 128]⟩
abbrev S1x128 : Shape := ⟨2, ![1, 128]⟩

abbrev nBuf : Space → Nat
  | .hbm => 118
  | .vmem => 0
  | .smem => 0
  | _ => 0

abbrev bufTy : (tb : Table) → Fin (tcTables nBuf tb) → BufTy
  | .hbm, ⟨0, _⟩ => ⟨S50000x128, .f32⟩
  | .hbm, ⟨1, _⟩ => ⟨S128x128, .f32⟩
  | .hbm, ⟨2, _⟩ => ⟨S128, .f32⟩
  | .hbm, ⟨3, _⟩ => ⟨S128x128, .f32⟩
  | .hbm, ⟨4, _⟩ => ⟨S128, .f32⟩
  | .hbm, ⟨5, _⟩ => ⟨S128, .f32⟩
  | .hbm, ⟨6, _⟩ => ⟨S2x800000, .i32⟩
  | .hbm, ⟨7, _⟩ => ⟨S50000, .i32⟩
  | .hbm, ⟨8, _⟩ => ⟨S1x800000, .i32⟩
  | .hbm, ⟨9, _⟩ => ⟨S800000, .i32⟩
  | .hbm, ⟨10, _⟩ => ⟨S850000, .i32⟩
  | .hbm, ⟨11, _⟩ => ⟨S1x800000, .i32⟩
  | .hbm, ⟨12, _⟩ => ⟨S800000, .i32⟩
  | .hbm, ⟨13, _⟩ => ⟨S850000, .i32⟩
  | .hbm, ⟨14, _⟩ => ⟨S_, .f32⟩
  | .hbm, ⟨15, _⟩ => ⟨S850000, .f32⟩
  | .hbm, ⟨16, _⟩ => ⟨S_, .f32⟩
  | .hbm, ⟨17, _⟩ => ⟨S50000, .f32⟩
  | .hbm, ⟨18, _⟩ => ⟨S850000x1, .i32⟩
  | .hbm, ⟨19, _⟩ => ⟨S50000, .f32⟩
  | .hbm, ⟨20, _⟩ => ⟨S_, .f32⟩
  | .hbm, ⟨21, _⟩ => ⟨S50000, .f32⟩
  | .hbm, ⟨22, _⟩ => ⟨S50000, .i1⟩
  | .hbm, ⟨23, _⟩ => ⟨S50000, .f32⟩
  | .hbm, ⟨24, _⟩ => ⟨S_, .f32⟩
  | .hbm, ⟨25, _⟩ => ⟨S_, .f32⟩
  | .hbm, ⟨26, _⟩ => ⟨S50000, .f32⟩
  | .hbm, ⟨27, _⟩ => ⟨S50000, .f32⟩
  | .hbm, ⟨28, _⟩ => ⟨S_, .i32⟩
  | .hbm, ⟨29, _⟩ => ⟨S850000, .i32⟩
  | .hbm, ⟨30, _⟩ => ⟨S850000, .i1⟩
  | .hbm, ⟨31, _⟩ => ⟨S_, .i32⟩
  | .hbm, ⟨32, _⟩ => ⟨S850000, .i32⟩
  | .hbm, ⟨33, _⟩ => ⟨S850000, .i32⟩
  | .hbm, ⟨34, _⟩ => ⟨S850000, .i32⟩
  | .hbm, ⟨35, _⟩ => ⟨S850000x1, .i32⟩
  | .hbm, ⟨36, _⟩ => ⟨S850000, .f32⟩
  | .hbm, ⟨37, _⟩ => ⟨S_, .i32⟩
  | .hbm, ⟨38, _⟩ => ⟨S850000, .i32⟩
  | .hbm, ⟨39, _⟩ => ⟨S850000, .i1⟩
  | .hbm, ⟨40, _⟩ => ⟨S_, .i32⟩
  | .hbm, ⟨41, _⟩ => ⟨S850000, .i32⟩
  | .hbm, ⟨42, _⟩ => ⟨S850000, .i32⟩
  | .hbm, ⟨43, _⟩ => ⟨S850000, .i32⟩
  | .hbm, ⟨44, _⟩ => ⟨S850000x1, .i32⟩
  | .hbm, ⟨45, _⟩ => ⟨S850000, .f32⟩
  | .hbm, ⟨46, _⟩ => ⟨S850000, .f32⟩
  | .hbm, ⟨47, _⟩ => ⟨S128x128, .f32⟩
  | .hbm, ⟨48, _⟩ => ⟨S50000x128, .f32⟩
  | .hbm, ⟨49, _⟩ => ⟨S_, .i32⟩
  | .hbm, ⟨50, _⟩ => ⟨S850000, .i32⟩
  | .hbm, ⟨51, _⟩ => ⟨S850000, .i1⟩
  | .hbm, ⟨52, _⟩ => ⟨S_, .i32⟩
  | .hbm, ⟨53, _⟩ => ⟨S850000, .i32⟩
  | .hbm, ⟨54, _⟩ => ⟨S850000, .i32⟩
  | .hbm, ⟨55, _⟩ => ⟨S850000, .i32⟩
  | .hbm, ⟨56, _⟩ => ⟨S850000x1, .i32⟩
  | .hbm, ⟨57, _⟩ => ⟨S850000x128, .f32⟩
  | .hbm, ⟨58, _⟩ => ⟨S850000x1, .f32⟩
  | .hbm, ⟨59, _⟩ => ⟨S850000x128, .f32⟩
  | .hbm, ⟨60, _⟩ => ⟨S850000x128, .f32⟩
  | .hbm, ⟨61, _⟩ => ⟨S_, .f32⟩
  | .hbm, ⟨62, _⟩ => ⟨S50000x128, .f32⟩
  | .hbm, ⟨63, _⟩ => ⟨S850000x1, .i32⟩
  | .hbm, ⟨64, _⟩ => ⟨S50000x128, .f32⟩
  | .hbm, ⟨65, _⟩ => ⟨S1x128, .f32⟩
  | .hbm, ⟨66, _⟩ => ⟨S50000x128, .f32⟩
  | .hbm, ⟨67, _⟩ => ⟨S50000x128, .f32⟩
  | .hbm, ⟨68, _⟩ => ⟨S128x128, .f32⟩
  | .hbm, ⟨69, _⟩ => ⟨S50000x128, .f32⟩
  | .hbm, ⟨70, _⟩ => ⟨S50000x128, .f32⟩
  | .hbm, ⟨71, _⟩ => ⟨S_, .f32⟩
  | .hbm, ⟨72, _⟩ => ⟨S128, .f32⟩
  | .hbm, ⟨73, _⟩ => ⟨S_, .f32⟩
  | .hbm, ⟨74, _⟩ => ⟨S128, .f32⟩
  | .hbm, ⟨75, _⟩ => ⟨S128, .f32⟩
  | .hbm, ⟨76, _⟩ => ⟨S_, .i32⟩
  | .hbm, ⟨77, _⟩ => ⟨S_, .f32⟩
  | .hbm, ⟨78, _⟩ => ⟨S128, .f32⟩
  | .hbm, ⟨79, _⟩ => ⟨S1x128, .f32⟩
  | .hbm, ⟨80, _⟩ => ⟨S_, .f32⟩
  | .hbm, ⟨81, _⟩ => ⟨S1x128, .f32⟩
  | .hbm, ⟨82, _⟩ => ⟨S1x128, .f32⟩
  | .hbm, ⟨83, _⟩ => ⟨S50000x128, .f32⟩
  | .hbm, ⟨84, _⟩ => ⟨S50000x128, .f32⟩
  | .hbm, ⟨85, _⟩ => ⟨S50000x128, .f32⟩
  | .hbm, ⟨86, _⟩ => ⟨S_, .f32⟩
  | .hbm, ⟨87, _⟩ => ⟨S_, .f32⟩
  | .hbm, ⟨88, _⟩ => ⟨S_, .f32⟩
  | .hbm, ⟨89, _⟩ => ⟨S_, .f32⟩
  | .hbm, ⟨90, _⟩ => ⟨S128, .f32⟩
  | .hbm, ⟨91, _⟩ => ⟨S128, .f32⟩
  | .hbm, ⟨92, _⟩ => ⟨S128, .f32⟩
  | .hbm, ⟨93, _⟩ => ⟨S_, .f32⟩
  | .hbm, ⟨94, _⟩ => ⟨S_, .i1⟩
  | .hbm, ⟨95, _⟩ => ⟨S_, .f32⟩
  | .hbm, ⟨96, _⟩ => ⟨S_, .f32⟩
  | .hbm, ⟨97, _⟩ => ⟨S128, .f32⟩
  | .hbm, ⟨98, _⟩ => ⟨S128, .f32⟩
  | .hbm, ⟨99, _⟩ => ⟨S1x128, .f32⟩
  | .hbm, ⟨100, _⟩ => ⟨S50000x128, .f32⟩
  | .hbm, ⟨101, _⟩ => ⟨S50000x128, .f32⟩
  | .hbm, ⟨102, _⟩ => ⟨S1x128, .f32⟩
  | .hbm, ⟨103, _⟩ => ⟨S50000x128, .f32⟩
  | .hbm, ⟨104, _⟩ => ⟨S50000x128, .f32⟩
  | .hbm, ⟨105, _⟩ => ⟨S_, .f32⟩
  | .hbm, ⟨106, _⟩ => ⟨S128, .f32⟩
  | .hbm, ⟨107, _⟩ => ⟨S128, .f32⟩
  | .hbm, ⟨108, _⟩ => ⟨S128, .f32⟩
  | .hbm, ⟨109, _⟩ => ⟨S1x128, .f32⟩
  | .hbm, ⟨110, _⟩ => ⟨S50000x128, .f32⟩
  | .hbm, ⟨111, _⟩ => ⟨S50000x128, .f32⟩
  | .hbm, ⟨112, _⟩ => ⟨S1x128, .f32⟩
  | .hbm, ⟨113, _⟩ => ⟨S50000x128, .f32⟩
  | .hbm, ⟨114, _⟩ => ⟨S50000x128, .f32⟩
  | .hbm, ⟨115, _⟩ => ⟨S_, .f32⟩
  | .hbm, ⟨116, _⟩ => ⟨S50000x128, .f32⟩
  | .hbm, ⟨117, _⟩ => ⟨S50000x128, .f32⟩
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst : Ref sig .tc := ⟨.hbm, 14, rfl⟩
abbrev main_v7 : Ref sig .tc := ⟨.hbm, 15, rfl⟩
abbrev main_cst_0 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_cst_1 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_cst_2 : Ref sig .tc := ⟨.hbm, 24, rfl⟩
abbrev main_call0_v0 : Ref sig .tc := ⟨.hbm, 25, rfl⟩
abbrev main_call0_v1 : Ref sig .tc := ⟨.hbm, 26, rfl⟩
abbrev main_v14 : Ref sig .tc := ⟨.hbm, 27, rfl⟩
abbrev main_c : Ref sig .tc := ⟨.hbm, 28, rfl⟩
abbrev main_v15 : Ref sig .tc := ⟨.hbm, 29, rfl⟩
abbrev main_v16 : Ref sig .tc := ⟨.hbm, 30, rfl⟩
abbrev main_c_3 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_c_4 : Ref sig .tc := ⟨.hbm, 37, rfl⟩
abbrev main_v22 : Ref sig .tc := ⟨.hbm, 38, rfl⟩
abbrev main_v23 : Ref sig .tc := ⟨.hbm, 39, rfl⟩
abbrev main_c_5 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_c_6 : Ref sig .tc := ⟨.hbm, 49, rfl⟩
abbrev main_v32 : Ref sig .tc := ⟨.hbm, 50, rfl⟩
abbrev main_v33 : Ref sig .tc := ⟨.hbm, 51, rfl⟩
abbrev main_c_7 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_cst_8 : Ref sig .tc := ⟨.hbm, 61, rfl⟩
abbrev main_v42 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_v49 : Ref sig .tc := ⟨.hbm, 69, rfl⟩
abbrev main_v50 : Ref sig .tc := ⟨.hbm, 70, rfl⟩
abbrev main_cst_9 : Ref sig .tc := ⟨.hbm, 71, rfl⟩
abbrev main_v51 : Ref sig .tc := ⟨.hbm, 72, rfl⟩
abbrev main_cst_10 : Ref sig .tc := ⟨.hbm, 73, rfl⟩
abbrev main_v52 : Ref sig .tc := ⟨.hbm, 74, rfl⟩
abbrev main_v53 : Ref sig .tc := ⟨.hbm, 75, rfl⟩
abbrev main_c_11 : Ref sig .tc := ⟨.hbm, 76, rfl⟩
abbrev main_call1_cst : Ref sig .tc := ⟨.hbm, 77, rfl⟩
abbrev main_call1_v0 : Ref sig .tc := ⟨.hbm, 78, rfl⟩
abbrev main_call1_v1 : Ref sig .tc := ⟨.hbm, 79, rfl⟩
abbrev main_call1_cst_0 : Ref sig .tc := ⟨.hbm, 80, rfl⟩
abbrev main_call1_v2 : Ref sig .tc := ⟨.hbm, 81, rfl⟩
abbrev main_call1_v3 : Ref sig .tc := ⟨.hbm, 82, rfl⟩
abbrev main_call1_v4 : Ref sig .tc := ⟨.hbm, 83, rfl⟩
abbrev main_call1_v5 : Ref sig .tc := ⟨.hbm, 84, rfl⟩
abbrev main_call1_v6 : Ref sig .tc := ⟨.hbm, 85, rfl⟩
abbrev main_call1_v7 : Ref sig .tc := ⟨.hbm, 86, rfl⟩
abbrev main_call1_cst_1 : Ref sig .tc := ⟨.hbm, 87, rfl⟩
abbrev main_call1_v8 : Ref sig .tc := ⟨.hbm, 88, rfl⟩
abbrev main_call1_cst_2 : Ref sig .tc := ⟨.hbm, 89, rfl⟩
abbrev main_call1_v9 : Ref sig .tc := ⟨.hbm, 90, rfl⟩
abbrev main_call1_v10 : Ref sig .tc := ⟨.hbm, 91, rfl⟩
abbrev main_call1_v11 : Ref sig .tc := ⟨.hbm, 92, rfl⟩
abbrev main_call1_cst_3 : Ref sig .tc := ⟨.hbm, 93, rfl⟩
abbrev main_call1_v12 : Ref sig .tc := ⟨.hbm, 94, rfl⟩
abbrev main_call1_cst_4 : Ref sig .tc := ⟨.hbm, 95, rfl⟩
abbrev main_call1_call0_v0 : Ref sig .tc := ⟨.hbm, 96, rfl⟩
abbrev main_call1_call0_v1 : Ref sig .tc := ⟨.hbm, 97, rfl⟩
abbrev main_v54 : Ref sig .tc := ⟨.hbm, 98, rfl⟩
abbrev main_v55 : Ref sig .tc := ⟨.hbm, 99, rfl⟩
abbrev main_v56 : Ref sig .tc := ⟨.hbm, 100, rfl⟩
abbrev main_v57 : Ref sig .tc := ⟨.hbm, 101, rfl⟩
abbrev main_v58 : Ref sig .tc := ⟨.hbm, 102, rfl⟩
abbrev main_v59 : Ref sig .tc := ⟨.hbm, 103, rfl⟩
abbrev main_v60 : Ref sig .tc := ⟨.hbm, 104, rfl⟩
abbrev main_cst_12 : Ref sig .tc := ⟨.hbm, 105, rfl⟩
abbrev main_v61 : Ref sig .tc := ⟨.hbm, 106, rfl⟩
abbrev main_v62 : Ref sig .tc := ⟨.hbm, 107, rfl⟩
abbrev main_v63 : Ref sig .tc := ⟨.hbm, 108, rfl⟩
abbrev main_v64 : Ref sig .tc := ⟨.hbm, 109, rfl⟩
abbrev main_v65 : Ref sig .tc := ⟨.hbm, 110, rfl⟩
abbrev main_v66 : Ref sig .tc := ⟨.hbm, 111, rfl⟩
abbrev main_v67 : Ref sig .tc := ⟨.hbm, 112, rfl⟩
abbrev main_v68 : Ref sig .tc := ⟨.hbm, 113, rfl⟩
abbrev main_v69 : Ref sig .tc := ⟨.hbm, 114, rfl⟩
abbrev main_call2_cst : Ref sig .tc := ⟨.hbm, 115, rfl⟩
abbrev main_call2_v0 : Ref sig .tc := ⟨.hbm, 116, rfl⟩
abbrev main_v70 : Ref sig .tc := ⟨.hbm, 117, rfl⟩

abbrev nD : Nat := 1
abbrev τ : Topo := Topo.v7x

variable {F : FTy → Type} [FloatOps F]

class Facts₀ : Prop where
  slices_S2x800000_S1x800000_0_0 : S2x800000.Slices ![0, 0] S1x800000
  shapeCasts_S1x800000_S800000 : S1x800000.ShapeCasts S800000
  concatenates_S800000_S50000_S850000_d0 : Shape.Concatenates [S800000, S50000] S850000 0
  slices_S2x800000_S1x800000_1_0 : S2x800000.Slices ![1, 0] S1x800000
  bcast_S_S850000 : S_.BroadcastsInDim S850000 (![] : Fin 0 → Fin S850000.rank)
  bcast_S_S50000 : S_.BroadcastsInDim S50000 (![] : Fin 0 → Fin S50000.rank)
  bcast_S850000_S850000x1_0 : S850000.BroadcastsInDim S850000x1 (![0] : Fin 1 → Fin S850000x1.rank)
  transposes_S128x128_S128x128_1_0 : S128x128.Transposes [1, 0] S128x128
  bcast_S850000x1_S850000x128_0_1 : S850000x1.BroadcastsInDim S850000x128 (![0, 1] : Fin 2 → Fin S850000x128.rank)
  bcast_S_S50000x128 : S_.BroadcastsInDim S50000x128 (![] : Fin 0 → Fin S50000x128.rank)
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  reducesTo_S50000x128_S128_d0 : S50000x128.ReducesTo [0] S128
  h_S_ : 0 < S_.numel
  bcast_S_S128 : S_.BroadcastsInDim S128 (![] : Fin 0 → Fin S128.rank)
  bcast_S_S1x128 : S_.BroadcastsInDim S1x128 (![] : Fin 0 → Fin S1x128.rank)
  scatter_S50000_S850000x1_S850000_n_0_0_1_wf : ScatterDims.WF S50000 S850000x1 S850000 [] [0] [0] 1
  gather_S50000_S850000x1_S850000_n_0_n_n_0_1_1_wf : GatherDims.WF S50000 S850000x1 S850000 [] [0] [] [0] [] 1 ![1]
  dot_S50000x128_S128x128_S50000x128_1_0_0_1_n_n_wf : DotDims.WF S50000x128 S128x128 S50000x128 [1] [0] [0] [1] [] []
  gather_S50000x128_S850000x1_S850000x128_1_0_n_n_0_1_1128_wf : GatherDims.WF S50000x128 S850000x1 S850000x128 [1] [0] [] [0] [] 1 ![1, 128]
  scatter_S50000x128_S850000x1_S850000x128_1_0_0_1_wf : ScatterDims.WF S50000x128 S850000x1 S850000x128 [1] [0] [0] 1

variable [Facts₀]

def scatter_S50000_S850000x1_S850000_n_0_0_1 : ScatterDims S50000 S850000x1 S850000 where
  updateWindowDims := []
  insertedWindowDims := [0]
  scatterDimsToOperandDims := [0]
  indexVectorDim := 1
  wf := scatter_S50000_S850000x1_S850000_n_0_0_1_wf
def gather_S50000_S850000x1_S850000_n_0_n_n_0_1_1 : GatherDims S50000 S850000x1 S850000 where
  offsetDims := []
  collapsedSliceDims := [0]
  operandBatchingDims := []
  startIndicesBatchingDims := []
  startIndexMap := [0]
  indexVectorDim := 1
  sliceSizes := ![1]
  wf := gather_S50000_S850000x1_S850000_n_0_n_n_0_1_1_wf
def dot_S50000x128_S128x128_S50000x128_1_0_0_1_n_n : DotDims S50000x128 S128x128 S50000x128 where
  lhsContracting := [1]
  rhsContracting := [0]
  lhsNonContracting := [0]
  rhsNonContracting := [1]
  lhsBatch := []
  rhsBatch := []
  wf := dot_S50000x128_S128x128_S50000x128_1_0_0_1_n_n_wf
def gather_S50000x128_S850000x1_S850000x128_1_0_n_n_0_1_1128 : GatherDims S50000x128 S850000x1 S850000x128 where
  offsetDims := [1]
  collapsedSliceDims := [0]
  operandBatchingDims := []
  startIndicesBatchingDims := []
  startIndexMap := [0]
  indexVectorDim := 1
  sliceSizes := ![1, 128]
  wf := gather_S50000x128_S850000x1_S850000x128_1_0_n_n_0_1_1128_wf
def scatter_S50000x128_S850000x1_S850000x128_1_0_0_1 : ScatterDims S50000x128 S850000x1 S850000x128 where
  updateWindowDims := [1]
  insertedWindowDims := [0]
  scatterDimsToOperandDims := [0]
  indexVectorDim := 1
  wf := scatter_S50000x128_S850000x1_S850000x128_1_0_0_1_wf

class Facts : Prop extends Facts₀ where

variable [Facts]
-- ==== Proof.KerRun.lean ====
/-
  The idealized kernel's run with its result named.

  The program is eight segments: three stretches of host operations, the first kernel, a stretch, the second
  kernel, a stretch, the third kernel. The buffer contents at each boundary are a fold from the launch memory:
  a host stretch applies its operations, a kernel replaces its arrays by what its write-backs leave. Every weakly
  fair execution terminates, nothing faulting, with every unscoped buffer at the last boundary's contents; so the
  result array holds the last fold's value at the result's buffer, and the arguments hold what they were launched with.
-/
import proofs.«163069_j30202210025887_2_alg».proof.Proof.Gen.KernelIdeal.Frame

set_option maxRecDepth 16384

noncomputable section

namespace Cert.KernelIdeal.RunValue

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of the program terminates, nothing faulting; the result array ends at the last
    boundary's contents and every argument array as launched. -/
theorem run_named : θ_run defs (onTc (τ := τ) (main (F := F))) ⟨m, fun _ => 0, ρ⟩ (fun r => ∀ c : Dev nD,
      r.2.mem ((c.tc : Thread nD τ).loc main_v38) = W8 m ρ c (Proc.devRef .tc main_v38)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W8 m ρ c b)
    (hfin := fun c s' => by
      iintro ⟨⟨Hh, -⟩, HSI⟩
      unfold StableHlo.held
      imodintro
      iapply (pointsTo_read_all (Pipeline.ucRefs τ sig) (fun b => (((c : Thread nD τ)).1, b)) (W8 m ρ c) s')
      isplitl [Hh] <;> iassumption)
    (hQ := fun s h c =>
      ⟨h c _ (mem_uc main_v38 (by decide)),
       (h c _ (mem_uc main_arg0 (by decide))).trans (W8_main_arg0 m ρ c),
       (h c _ (mem_uc main_arg1 (by decide))).trans (W8_main_arg1 m ρ c),
       (h c _ (mem_uc main_arg2 (by decide))).trans (W8_main_arg2 m ρ c),
       (h c _ (mem_uc main_arg3 (by decide))).trans (W8_main_arg3 m ρ c),
       (h c _ (mem_uc main_arg4 (by decide))).trans (W8_main_arg4 m ρ c),
       (h c _ (mem_uc main_arg5 (by decide))).trans (W8_main_arg5 m ρ c),
       (h c _ (mem_uc main_arg6 (by decide))).trans (W8_main_arg6 m ρ c)⟩)

end Cert.KernelIdeal.RunValue

end
-- ==== Proof.KerTerms.lean ====
/-
  The host stretches of the kernel's program as terms of its arguments.

  Before the first kernel: the edge list split into source and target words; the degrees (ones accumulated at the
  target words into zeros, plus one); the scales (the reciprocal square root of a positive degree, zero elsewhere),
  as a column. Before the second: the source words wrapped, the first kernel's rows taken at them and accumulated at
  the target words into zeros. Before the third: the column sums divided by the number of nodes, and "mean of
  squares minus square of mean" cut at zero.
-/
import proofs.«163069_j30202210025887_2_alg».proof.Proof.Gen.KernelIdeal
import Idealize.ShloMosaic.PureOps.Ideal

set_option maxRecDepth 16384

noncomputable section

namespace Cert.KernelIdeal.HostValue

open Cert.KernelIdeal Cert.KernelIdeal.Gen
open Idealize.ShloMosaic

/-- The source words and the target words, as flat arrays. -/
def srcW (ei : IVec S2x800000 32) : IVec S800000 32 :=
  shapeCast S800000 (extractStridedSlice S1x800000 ![0, 0] ei slices_S2x800000_S1x800000_0_0) shapeCasts_S1x800000_S800000
def dstW (ei : IVec S2x800000 32) : IVec S800000 32 :=
  shapeCast S800000 (extractStridedSlice S1x800000 ![1, 0] ei slices_S2x800000_S1x800000_1_0) shapeCasts_S1x800000_S800000

/-- The degrees: ones accumulated at the target words into zeros, plus one. -/
def degA (ei : IVec S2x800000 32) : FVec Ideal S50000 .f32 :=
  addf (Host.scatterAdd scatter_S50000_S800000x1_S800000_n_0_0_1
          (broadcastInDim S50000 ![] bcast_S_S50000 (constant S_ .f32 0x00000000#32))
          (broadcastInDim S800000x1 ![0] bcast_S800000_S800000x1_0 (dstW ei))
          (broadcastInDim S800000 ![] bcast_S_S800000 (constant S_ .f32 0x3F800000#32)))
       (broadcastInDim S50000 ![] bcast_S_S50000 (constant S_ .f32 0x3F800000#32))

/-- The scales: the reciprocal square root of a positive degree, zero elsewhere. -/
def dinvA (ei : IVec S2x800000 32) : FVec Ideal S50000 .f32 :=
  select (cmpf .ogt (degA ei) (broadcastInDim S50000 ![] bcast_S_S50000 (constant S_ .f32 0x00000000#32)))
    (Host.rsqrt (degA ei))
    (broadcastInDim S50000 ![] bcast_S_S50000 (constant S_ .f32 0x00000000#32))

/-- The scales as a column. -/
def dinv2A (ei : IVec S2x800000 32) : FVec Ideal S50000x1 .f32 :=
  shapeCast S50000x1 (dinvA ei) shapeCasts_S50000_S50000x1

/-- The source words with the number of nodes added to the negative ones. -/
def wrapW (s : IVec S800000 32) : IVec S800000 32 :=
  select (cmpi .slt s (broadcastInDim S800000 ![] bcast_S_S800000 (constantI S_ 32 0#32)))
    (addi s (broadcastInDim S800000 ![] bcast_S_S800000 (constantI S_ 32 50000#32))) s

/-- The rows hs taken at the wrapped source words and accumulated at the target words into zeros. -/
def aggA (dw sw : IVec S800000 32) (hs : FVec Ideal S50000x128 .f32) : FVec Ideal S50000x128 .f32 :=
  Host.scatterAdd scatter_S50000x128_S800000x1_S800000x128_1_0_0_1
    (broadcastInDim S50000x128 ![] bcast_S_S50000x128 (constant S_ .f32 0x00000000#32))
    (broadcastInDim S800000x1 ![0] bcast_S800000_S800000x1_0 dw)
    (Host.gather gather_S50000x128_S800000x1_S800000x128_1_0_n_n_0_1_1128 hs
      (broadcastInDim S800000x1 ![0] bcast_S800000_S800000x1_0 (wrapW sw)))

/-- The means: the column sums divided by the number of nodes. -/
def meanA (s : FVec Ideal S1x128 .f32) : FVec Ideal S1x128 .f32 :=
  Host.divf s (broadcastInDim S1x128 ![] bcast_S_S1x128 (constant S_ .f32 0x47435000#32))

/-- The variances: mean of squares minus square of mean, cut at zero. -/
def varA (s q : FVec Ideal S1x128 .f32) : FVec Ideal S1x128 .f32 :=
  maximumf (subf (Host.divf q (broadcastInDim S1x128 ![] bcast_S_S1x128 (constant S_ .f32 0x47435000#32)))
      (mulf (meanA s) (meanA s)))
    (broadcastInDim S1x128 ![] bcast_S_S1x128 (constant S_ .f32 0x00000000#32))

end Cert.KernelIdeal.HostValue

end
-- ==== Proof.KerHost0.lean ====
/-
  What the first kernel finds in its arrays.

  Before the first kernel the program splits the edge list into its source and target words, counts for every
  node the edges whose target word names it and adds one (the node's own loop), and takes the reciprocal square root
  where that degree is positive (zero elsewhere), as a column. The first kernel then reads x, W and that column.
  The three stretches of host operations are read one at a time, from any contents, and then composed.
-/
import proofs.«163069_j30202210025887_2_alg».proof.Proof.Gen.KernelIdeal.Frame
import proofs.«163069_j30202210025887_2_alg».proof.Proof.KerTerms
import Idealize.ShloMosaic.Lib.StableHlo.Run
import Idealize.ShloMosaic.PureOps.Ideal

set_option maxRecDepth 16384

noncomputable section

namespace Cert.KernelIdeal.HostValue

open Cert.KernelIdeal Cert.KernelIdeal.Gen
open Idealize.ShloMosaic Idealize.ShloMosaic.TcCoe Idealize.SL.Sem Idealize.ShloMosaic.StableHlo

section Stretches
variable (V : Valuation τ sig (Elt Ideal))

attribute [local irreducible] Host.scatterAdd Host.gather in
/-- The first stretch leaves the degrees … -/
theorem s0_deg : after (hostOps0 (F := Ideal)) V (Proc.devRef .tc main_v9) = degA (V (Proc.devRef .tc main_arg6)) := by
  after_results
  rfl

attribute [local irreducible] Host.scatterAdd Host.gather in
/-- … the test "degree positive" … -/
theorem s0_pos : (after (hostOps0 (F := Ideal)) V (Proc.devRef .tc main_v11) : IVec S50000 1)
    = cmpf .ogt (after (hostOps0 (F := Ideal)) V (Proc.devRef .tc main_v9) : FVec Ideal S50000 .f32)
        (broadcastInDim S50000 ![] bcast_S_S50000 (constant (F := Ideal) S_ .f32 0x00000000#32)) := by
  after_results_simp

attribute [local irreducible] Host.scatterAdd Host.gather in
/-- … the reciprocal square roots … -/
theorem s0_rsqrt : @Eq (FVec Ideal S50000 .f32) (after (hostOps0 (F := Ideal)) V (Proc.devRef .tc main_v12))
    (Host.rsqrt (after (hostOps0 (F := Ideal)) V (Proc.devRef .tc main_v9) : FVec Ideal S50000 .f32)) := by
  after_results_simp

attribute [local irreducible] Host.scatterAdd Host.gather in
/-- … a zero … -/
theorem s0_zero : (after (hostOps0 (F := Ideal)) V (Proc.devRef .tc main_cst_3) : FVec Ideal S_ .f32)
    = constant (F := Ideal) S_ .f32 0x00000000#32 := by
  after_results_simp

attribute [local irreducible] Host.scatterAdd Host.gather in
/-- … and the source and target words. -/
theorem s0_src : after (hostOps0 (F := Ideal)) V (Proc.devRef .tc main_v1) = srcW (V (Proc.devRef .tc main_arg6)) := by
  after_results
  rfl

attribute [local irreducible] Host.scatterAdd Host.gather in
theorem s0_dst : after (hostOps0 (F := Ideal)) V (Proc.devRef .tc main_v3) = dstW (V (Proc.devRef .tc main_arg6)) := by
  after_results
  rfl

/-- The second stretch selects the reciprocal square root where the degree is positive and the zero elsewhere. -/
theorem s1_sel : after (hostOps0_1 (F := Ideal)) V (Proc.devRef .tc main_v13)
    = select (V (Proc.devRef .tc main_v11)) (V (Proc.devRef .tc main_v12))
        (broadcastInDim S50000 ![] bcast_S_S50000 (V (Proc.devRef .tc main_cst_3))) := by
  after_results_simp
  rfl

/-- It writes neither word array. -/
theorem s1_keep (r : Ref sig .tc) (hr : r = main_v1 ∨ r = main_v3) :
    after (hostOps0_1 (F := Ideal)) V (Proc.devRef .tc r) = V (Proc.devRef .tc r) := by
  rcases hr with rfl | rfl <;> after_results_simp

/-- The third stretch makes the column. -/
theorem s2_col : after (hostOps0_2 (F := Ideal)) V (Proc.devRef .tc main_v14)
    = shapeCast S50000x1 (V (Proc.devRef .tc main_v13)) shapeCasts_S50000_S50000x1 := by
  after_results
  rfl

theorem s2_keep (r : Ref sig .tc) (hr : r = main_v1 ∨ r = main_v3) :
    after (hostOps0_2 (F := Ideal)) V (Proc.devRef .tc r) = V (Proc.devRef .tc r) := by
  rcases hr with rfl | rfl <;> after_results

end Stretches

variable (m : (ℓ : Loc nD τ sig) → Buf (Elt Ideal) ℓ) (ρ : Dev nD → PrngReg)

/-- When the first kernel is entered the column of scales is in place. -/
theorem W3_dinv (c : Dev nD) :
    W3 (F := Ideal) m ρ c (Proc.devRef .tc main_v14) = dinv2A (m ((c.tc : Thread nD τ).loc main_arg6)) := by
  show after hostOps0_2 (after hostOps0_1 (after hostOps0 (W0 m ρ c))) _ = _
  rw [s2_col, s1_sel, s0_pos, s0_rsqrt, s0_zero, s0_deg]
  rfl

/-- … and the source and target words. -/
theorem W3_src (c : Dev nD) :
    W3 (F := Ideal) m ρ c (Proc.devRef .tc main_v1) = srcW (m ((c.tc : Thread nD τ).loc main_arg6)) := by
  show after hostOps0_2 (after hostOps0_1 (after hostOps0 (W0 m ρ c))) _ = _
  rw [s2_keep _ _ (Or.inl rfl), s1_keep _ _ (Or.inl rfl), s0_src]

theorem W3_dst (c : Dev nD) :
    W3 (F := Ideal) m ρ c (Proc.devRef .tc main_v3) = dstW (m ((c.tc : Thread nD τ).loc main_arg6)) := by
  show after hostOps0_2 (after hostOps0_1 (after hostOps0 (W0 m ρ c))) _ = _
  rw [s2_keep _ _ (Or.inr rfl), s1_keep _ _ (Or.inr rfl), s0_dst]

attribute [local irreducible] Host.scatterAdd Host.gather in
/-- No host operation before the first kernel writes an argument. -/
theorem W3_arg (c : Dev nD) (r : Ref sig .tc) (hr : r = main_arg0 ∨ r = main_arg1 ∨ r = main_arg2 ∨ r = main_arg3 ∨ r = main_arg4 ∨ r = main_arg5) :
    W3 (F := Ideal) m ρ c (Proc.devRef .tc r) = m ((c.tc : Thread nD τ).loc r) := by
  rcases hr with rfl | rfl | rfl | rfl | rfl | rfl <;>
  · show StableHlo.after hostOps0_2 (StableHlo.after hostOps0_1 (StableHlo.after hostOps0 (W0 m ρ c))) _ = _
    after_results

end Cert.KernelIdeal.HostValue

end
-- ==== Proof.KerHost1.lean ====
/-
  What the second kernel finds in its arrays.

  Between the first and the second kernel the program wraps the negative source words, takes for every edge the
  first kernel's row at its source, accumulates those rows at the target words into zeros, and reshapes the bias
  into a row. The second kernel then reads the accumulated rows, the first kernel's rows, the column of scales,
  x, RW and the bias row.
-/
import proofs.«163069_j30202210025887_2_alg».proof.Proof.Gen.KernelIdeal.Frame
import proofs.«163069_j30202210025887_2_alg».proof.Proof.KerTerms
import Idealize.ShloMosaic.Lib.StableHlo.Run
import Idealize.ShloMosaic.PureOps.Ideal

set_option maxRecDepth 16384

noncomputable section

namespace Cert.KernelIdeal.HostValue

open Cert.KernelIdeal Cert.KernelIdeal.Gen
open Idealize.ShloMosaic Idealize.ShloMosaic.TcCoe Idealize.SL.Sem Idealize.ShloMosaic.StableHlo

variable (m : (ℓ : Loc nD τ sig) → Buf (Elt Ideal) ℓ) (ρ : Dev nD → PrngReg)

attribute [local irreducible] Host.scatterAdd Host.gather in
/-- When the second kernel is entered the accumulated rows are in place. -/
theorem W5_agg (c : Dev nD) :
    W5 (F := Ideal) m ρ c (Proc.devRef .tc main_v25)
      = aggA (W4 (F := Ideal) m ρ c (Proc.devRef .tc main_v3)) (W4 (F := Ideal) m ρ c (Proc.devRef .tc main_v1))
          (W4 (F := Ideal) m ρ c (Proc.devRef .tc main_v15)) := by
  show StableHlo.after hostOps1 (W4 (F := Ideal) m ρ c) _ = _
  after_results
  rfl

attribute [local irreducible] Host.scatterAdd Host.gather in
/-- … and the bias as a row. -/
theorem W5_bias (c : Dev nD) :
    W5 (F := Ideal) m ρ c (Proc.devRef .tc main_v26)
      = shapeCast S1x128 (W4 (F := Ideal) m ρ c (Proc.devRef .tc main_arg2)) shapeCasts_S128_S1x128 := by
  show StableHlo.after hostOps1 (W4 (F := Ideal) m ρ c) _ = _
  after_results
  rfl

attribute [local irreducible] Host.scatterAdd Host.gather in
/-- The stretch between the two kernels writes none of these. -/
theorem W5_keep (c : Dev nD) (r : Ref sig .tc)
    (hr : r = main_v15 ∨ r = main_v14 ∨ r = main_arg0 ∨ r = main_arg3 ∨ r = main_arg4 ∨ r = main_arg5) :
    W5 (F := Ideal) m ρ c (Proc.devRef .tc r) = W4 (F := Ideal) m ρ c (Proc.devRef .tc r) := by
  rcases hr with rfl | rfl | rfl | rfl | rfl | rfl <;>
  · show StableHlo.after hostOps1 (W4 (F := Ideal) m ρ c) _ = _
    after_results

/-- The first kernel writes only its output array: an array it only reads ends as it was entered … -/
theorem W4_in (c : Dev nD) (r : Ref sig .tc) (hr : r = main_arg0 ∨ r = main_v14) :
    W4 (F := Ideal) m ρ c (Proc.devRef .tc r) = W3 (F := Ideal) m ρ c (Proc.devRef .tc r) := by
  rcases hr with rfl | rfl
  · exact (W4_arr m ρ c 0).trans (((dat0 (V3 (F := Ideal) m ρ) c).arrAt_in 0 rfl _).trans (A_eq0 (V3 (F := Ideal) m ρ) c 0))
  · exact (W4_arr m ρ c 2).trans (((dat0 (V3 (F := Ideal) m ρ) c).arrAt_in 2 rfl _).trans (A_eq0 (V3 (F := Ideal) m ρ) c 2))

/-- … and so does every buffer that is not one of its arrays. -/
theorem W4_keep (c : Dev nD) (r : Ref sig .tc)
    (hr : r = main_v1 ∨ r = main_v3 ∨ r = main_arg2 ∨ r = main_arg3 ∨ r = main_arg4 ∨ r = main_arg5) :
    W4 (F := Ideal) m ρ c (Proc.devRef .tc r) = W3 (F := Ideal) m ρ c (Proc.devRef .tc r) := by
  rcases hr with rfl | rfl | rfl | rfl | rfl | rfl <;> exact W4_of_ne m ρ c _ (by decide)

end Cert.KernelIdeal.HostValue

end
-- ==== Proof.KerHost2.lean ====
/-
  What the third kernel finds in its arrays.

  Between the second and the third kernel the program divides the column sums and the column sums of squares by
  the number of nodes, takes "mean of squares minus square of mean" cut at zero as the variance, and reshapes the
  gains and the shifts into rows. The third kernel then reads the second kernel's matrix, the means, the variances,
  the gains and the shifts.
-/
import proofs.«163069_j30202210025887_2_alg».proof.Proof.Gen.KernelIdeal.Frame
import proofs.«163069_j30202210025887_2_alg».proof.Proof.KerTerms
import Idealize.ShloMosaic.Lib.StableHlo.Run
import Idealize.ShloMosaic.PureOps.Ideal

set_option maxRecDepth 16384

noncomputable section

namespace Cert.KernelIdeal.HostValue

open Cert.KernelIdeal Cert.KernelIdeal.Gen
open Idealize.ShloMosaic Idealize.ShloMosaic.TcCoe Idealize.SL.Sem Idealize.ShloMosaic.StableHlo

variable (m : (ℓ : Loc nD τ sig) → Buf (Elt Ideal) ℓ) (ρ : Dev nD → PrngReg)

theorem W7_mean (c : Dev nD) :
    W7 (F := Ideal) m ρ c (Proc.devRef .tc main_v29) = meanA (W6 (F := Ideal) m ρ c (Proc.devRef .tc main_v27_1)) := by
  show StableHlo.after hostOps2 (W6 (F := Ideal) m ρ c) _ = _
  after_results
  rfl

theorem W7_var (c : Dev nD) :
    W7 (F := Ideal) m ρ c (Proc.devRef .tc main_v35)
      = varA (W6 (F := Ideal) m ρ c (Proc.devRef .tc main_v27_1)) (W6 (F := Ideal) m ρ c (Proc.devRef .tc main_v27_2)) := by
  show StableHlo.after hostOps2 (W6 (F := Ideal) m ρ c) _ = _
  after_results
  rfl

theorem W7_gain (c : Dev nD) :
    W7 (F := Ideal) m ρ c (Proc.devRef .tc main_v36)
      = shapeCast S1x128 (W6 (F := Ideal) m ρ c (Proc.devRef .tc main_arg4)) shapeCasts_S128_S1x128 := by
  show StableHlo.after hostOps2 (W6 (F := Ideal) m ρ c) _ = _
  after_results
  rfl

theorem W7_shift (c : Dev nD) :
    W7 (F := Ideal) m ρ c (Proc.devRef .tc main_v37)
      = shapeCast S1x128 (W6 (F := Ideal) m ρ c (Proc.devRef .tc main_arg5)) shapeCasts_S128_S1x128 := by
  show StableHlo.after hostOps2 (W6 (F := Ideal) m ρ c) _ = _
  after_results
  rfl

theorem W7_keep (c : Dev nD) :
    W7 (F := Ideal) m ρ c (Proc.devRef .tc main_v27_0) = W6 (F := Ideal) m ρ c (Proc.devRef .tc main_v27_0) := by
  show StableHlo.after hostOps2 (W6 (F := Ideal) m ρ c) _ = _
  after_results

/-- The second kernel writes only its three output arrays. -/
theorem W6_keep (c : Dev nD) (r : Ref sig .tc) (hr : r = main_arg4 ∨ r = main_arg5) :
    W6 (F := Ideal) m ρ c (Proc.devRef .tc r) = W5 (F := Ideal) m ρ c (Proc.devRef .tc r) := by
  rcases hr with rfl | rfl <;> exact W6_of_ne m ρ c _ (by decide)

end Cert.KernelIdeal.HostValue

end
-- ==== Proof.LibDense.lean ====
/-
  Dense layers on the extended reals, entry by entry.

  A matrix product is read at an entry as the sum over the contracted axis of the products of the
  operands' entries; an affine layer adds a bias row to every row of a product; the rectifier takes
  the maximum with zero. The vector unit's matrix product into a zero accumulator and the host's
  general dot product with one contracted axis are both this sum at every entry, so a layer computed
  block of rows by block of rows and a layer computed on the whole array are one function.
-/
import Idealize.ShloMosaic.Lib.ValueIdx
import Idealize.ShloMosaic.Lib.ValueLayout
import Idealize.ShloMosaic.Lib.Pipeline.Value
import Idealize.ShloMosaic.PureOps.Ideal.Laws

noncomputable section

open scoped BigOperators

namespace Cert.Dense

open Idealize.ShloMosaic Idealize.ShloMosaic.ValueIdx

variable {M K N : ℕ}

/-- A matrix of extended reals with `a` rows and `b` columns. -/
abbrev Mat (a b : ℕ) : Type := (⟨2, ![a, b]⟩ : Shape).Idx → EReal
/-- A row of `a` extended reals. -/
abbrev Row (a : ℕ) : Type := (⟨1, ![a]⟩ : Shape).Idx → EReal

/-- The matrix product: entry (r, c) is the sum over k of A(r, k) · W(k, c). -/
def mm (A : Mat M K) (W : Mat K N) : Mat M N := fun i => ∑ k : Fin K, A (ix2 (i 0) k) * W (ix2 k (i 1))

/-- An affine layer: the product plus the bias of the entry's column. -/
def affine (A : Mat M K) (W : Mat K N) (b : Row N) : Mat M N := fun i => mm A W i + b (ix1 (i 1))

/-- The rectifier: the maximum with zero, entry by entry. -/
def relu (X : Mat M N) : Mat M N := fun i => max (X i) 0

/-- The sum over the one contracted axis of a plain M×K by K×N product is the sum over `Fin K`. -/
theorem plain_sum (a : Mat M K) (b : Mat K N) (j : (⟨2, ![M, N]⟩ : Shape).Idx) :
    ∑ k : (DotDims.plain M K N).contr.Idx, a ((DotDims.plain M K N).lhsIdx j k) * b ((DotDims.plain M K N).rhsIdx j k)
      = mm a b j := by
  unfold mm
  rw [← Equiv.sum_comp (contrEquiv1 (DotDims.plain M K N) K rfl rfl).symm]
  refine Finset.sum_congr rfl fun k _ => ?_
  have hk := contrEquiv1_symm_val (DotDims.plain M K N) K rfl rfl k
  have el : (DotDims.plain M K N).lhsIdx j ((contrEquiv1 (DotDims.plain M K N) K rfl rfl).symm k) = ix2 (j 0) k :=
    funext fun a => Fin.ext (by
      match a with
      | ⟨0, _⟩ => rfl
      | ⟨1, _⟩ => exact hk)
  have er : (DotDims.plain M K N).rhsIdx j ((contrEquiv1 (DotDims.plain M K N) K rfl rfl).symm k) = ix2 k (j 1) :=
    funext fun a => Fin.ext (by
      match a with
      | ⟨0, _⟩ => exact hk
      | ⟨1, _⟩ => rfl)
  exact congr (congrArg _ (congrArg a el)) (congrArg b er)

/-- The vector unit's plain matrix product into a zero accumulator is the product, entry by entry. -/
theorem matmul_plain_zero {φ₁ φ₂ : FTy} (prec : Option ContractPrecision) (a : FVec Ideal ⟨2, ![M, K]⟩ φ₁) (b : FVec Ideal ⟨2, ![K, N]⟩ φ₂) :
    matmul (DotDims.plain M K N) prec a b (constant (F := Ideal) ⟨2, ![M, N]⟩ .f32 0x00000000#32) = mm a b := by
  funext j
  simp only [matmul]
  rw [Ideal.matmul_constant_zero_apply]
  exact plain_sum a b j

/-- The host's plain general dot product is the product, entry by entry. -/
theorem dotGeneral_plain {φ₁ φ₂ : FTy} (a : FVec Ideal ⟨2, ![M, K]⟩ φ₁) (b : FVec Ideal ⟨2, ![K, N]⟩ φ₂) :
    Host.dotGeneral (F := Ideal) (DotDims.plain M K N) none a b = mm a b := by
  funext j
  simp only [Host.dotGeneral]
  rw [Ideal.dotGeneral_apply]
  exact plain_sum a b j

/-- A change of float format is the identity on the extended reals. -/
theorem truncf_id {s : Shape} {φ ψ : FTy} (a : FVec Ideal s φ) (h : ψ.bits < φ.bits) : (truncf ψ a h : FVec Ideal s ψ) = a := rfl

/-! ## A layer as the vector unit computes it on a block of rows -/

/-- An affine layer whose bias is stored as a one-row matrix. -/
def affine2 (A : Mat M K) (W : Mat K N) (b : Mat 1 N) : Mat M N := fun i => mm A W i + b (ix2 (0 : Fin 1) (i 1))

/-- The product into a zero accumulator plus the bias row broadcast over the rows. -/
theorem addf_matmul_broadcastTo {φ₁ φ₂ : FTy} (prec : Option ContractPrecision) (a : FVec Ideal ⟨2, ![M, K]⟩ φ₁)
    (w : FVec Ideal ⟨2, ![K, N]⟩ φ₂) (b : FVec Ideal ⟨2, ![1, N]⟩ .f32) (h : (⟨2, ![1, N]⟩ : Shape).Broadcasts ⟨2, ![M, N]⟩) :
    addf (matmul (DotDims.plain M K N) prec a w (constant (F := Ideal) ⟨2, ![M, N]⟩ .f32 0x00000000#32)) (broadcastTo ⟨2, ![M, N]⟩ b h)
      = affine2 a w b := by
  rw [matmul_plain_zero]
  funext i
  obtain ⟨p, q, rfl⟩ : ∃ (p : Fin M) (q : Fin N), i = ix2 p q := ⟨i 0, i 1, eq_ix2 i⟩
  show mm a w (ix2 p q) + broadcastTo ⟨2, ![M, N]⟩ b h (ix2 p q) = _
  rw [broadcastTo_1b_ab_apply]
  rfl

/-- The maximum with a splat of the zero word is the rectifier. -/
theorem maximumf_splat_zero (X : FVec Ideal ⟨2, ![M, N]⟩ .f32) :
    maximumf X (broadcast ⟨2, ![M, N]⟩ (Scalar.ofBits (F := Ideal) .f32 0x00000000#32)) = relu X := by
  funext i
  show max (X i) (Ideal.ofBits .f32 0x00000000#32) = max (X i) 0
  rw [Ideal.ofBits_zero_f32]

/-! ## A layer as the host computes it on the whole array -/

/-- The bias of an affine layer with its one-row form: the row read at its one row index. -/
theorem affine_eq_affine2 (A : Mat M K) (W : Mat K N) (b : Row N) (b2 : Mat 1 N)
    (hb : ∀ q : Fin N, b2 (ix2 (0 : Fin 1) q) = b (ix1 q)) : affine2 A W b2 = affine A W b := by
  funext i
  obtain ⟨p, q, rfl⟩ : ∃ (p : Fin M) (q : Fin N), i = ix2 p q := ⟨i 0, i 1, eq_ix2 i⟩
  show mm A W (ix2 p q) + b2 (ix2 (0 : Fin 1) q) = mm A W (ix2 p q) + b (ix1 q)
  rw [hb]

/-- The host's product plus the bias broadcast first to one row and then over the rows. -/
theorem addf_dotGeneral_broadcastInDim {φ₁ φ₂ : FTy} (a : FVec Ideal ⟨2, ![M, K]⟩ φ₁) (w : FVec Ideal ⟨2, ![K, N]⟩ φ₂)
    (b : FVec Ideal ⟨1, ![N]⟩ .f32) (h1 : (⟨1, ![N]⟩ : Shape).BroadcastsInDim ⟨2, ![1, N]⟩ ![1])
    (h2 : (⟨2, ![1, N]⟩ : Shape).BroadcastsInDim ⟨2, ![M, N]⟩ ![0, 1]) :
    addf (Host.dotGeneral (F := Ideal) (DotDims.plain M K N) none a w)
        (broadcastInDim ⟨2, ![M, N]⟩ ![0, 1] h2 (broadcastInDim ⟨2, ![1, N]⟩ ![1] h1 b))
      = affine a w b := by
  rw [dotGeneral_plain]
  funext i
  obtain ⟨p, q, rfl⟩ : ∃ (p : Fin M) (q : Fin N), i = ix2 p q := ⟨i 0, i 1, eq_ix2 i⟩
  show mm a w (ix2 p q) + broadcastInDim ⟨2, ![M, N]⟩ ![0, 1] h2 (broadcastInDim ⟨2, ![1, N]⟩ ![1] h1 b) (ix2 p q) = mm a w (ix2 p q) + b (ix1 q)
  rw [broadcastInDim_apply ![0, 1] h2 _ (ix2 p q) (ix2 (0 : Fin 1) q) (fun ax => by
      match ax with
      | ⟨0, _⟩ => rfl
      | ⟨1, _⟩ =>
        show q.val = if N = 1 then 0 else q.val
        split
        · have := q.isLt; omega
        · rfl),
    broadcastInDim_apply ![1] h1 b (ix2 (0 : Fin 1) q) (ix1 q) (fun ax => by
      match ax with
      | ⟨0, _⟩ =>
        show q.val = if N = 1 then 0 else q.val
        split
        · have := q.isLt; omega
        · rfl)]

/-- The maximum with the zero scalar broadcast to the whole shape is the rectifier. -/
theorem maximumf_broadcastInDim_zero (X : FVec Ideal ⟨2, ![M, N]⟩ .f32)
    (h : (⟨0, ![]⟩ : Shape).BroadcastsInDim ⟨2, ![M, N]⟩ ![]) :
    maximumf X (broadcastInDim ⟨2, ![M, N]⟩ ![] h (constant (F := Ideal) ⟨0, ![]⟩ .f32 0x00000000#32)) = relu X := by
  funext i
  show max (X i) (broadcastInDim ⟨2, ![M, N]⟩ ![] h (constant (F := Ideal) ⟨0, ![]⟩ .f32 0x00000000#32) i) = max (X i) 0
  rw [broadcastInDim_apply ![] h _ i ix0 (fun ax => ax.elim0)]
  show max (X i) (Ideal.ofBits .f32 0x00000000#32) = max (X i) 0
  rw [Ideal.ofBits_zero_f32]

/-! ## Rows of a layer -/

/-- A layer on a block of rows is the layer on the whole array at those rows: entry (p, q) of the block's result is
    entry (ρ p, q) of the whole result when row p of the block is row ρ p of the array. -/
theorem mm_rows {M' : ℕ} (A : Mat M' K) (blk : Mat M K) (W : Mat K N) (ρ : Fin M → Fin M')
    (h : ∀ p k, blk (ix2 p k) = A (ix2 (ρ p) k)) (p : Fin M) (q : Fin N) :
    mm blk W (ix2 p q) = mm A W (ix2 (ρ p) q) := by
  unfold mm
  exact Finset.sum_congr rfl fun k _ => by rw [show (ix2 p q : (⟨2, ![M, N]⟩ : Shape).Idx) 0 = p from rfl, h p k]; rfl

/-- So a rectified affine layer on a block of rows, with the whole weight matrix and bias row, is the layer on the
    whole array at those rows. -/
theorem relu_affine2_rows {M' : ℕ} (A : Mat M' K) (blk : Mat M K) (W : Mat K N) (b : Mat 1 N) (ρ : Fin M → Fin M')
    (h : ∀ p k, blk (ix2 p k) = A (ix2 (ρ p) k)) (p : Fin M) (q : Fin N) :
    relu (affine2 blk W b) (ix2 p q) = relu (affine2 A W b) (ix2 (ρ p) q) := by
  show max (mm blk W (ix2 p q) + b (ix2 (0 : Fin 1) q)) 0 = max (mm A W (ix2 (ρ p) q) + b (ix2 (0 : Fin 1) q)) 0
  rw [mm_rows A blk W ρ h p q]

/-- The same without the rectifier. -/
theorem affine2_rows {M' : ℕ} (A : Mat M' K) (blk : Mat M K) (W : Mat K N) (b : Mat 1 N) (ρ : Fin M → Fin M')
    (h : ∀ p k, blk (ix2 p k) = A (ix2 (ρ p) k)) (p : Fin M) (q : Fin N) :
    affine2 blk W b (ix2 p q) = affine2 A W b (ix2 (ρ p) q) := by
  show mm blk W (ix2 p q) + b (ix2 (0 : Fin 1) q) = mm A W (ix2 (ρ p) q) + b (ix2 (0 : Fin 1) q)
  rw [mm_rows A blk W ρ h p q]

end Cert.Dense

end
-- ==== Proof.LibIndexed.lean ====
/-
  Rows taken and rows accumulated by run-time indices, entry by entry.

  Taking rows of a matrix by an integer column of indices reads, at result entry (r, c), the matrix at row
  "index r, read as a signed integer and clamped into the matrix's rows" and column c; taking entries of a
  flat array is the same without the column. Accumulating rows into a matrix by an integer column of indices
  adds update entry (r, c) to entry (index r, c) of the matrix when index r, read as a signed integer and NOT
  clamped, is one of the matrix's rows, and drops it otherwise; so on the extended reals every entry of the
  result is the entry it had plus the sum of the update entries whose index names its row.
-/
import Idealize.ShloMosaic.Lib.ValueIdx
import Idealize.ShloMosaic.Lib.Pipeline.Value
import Idealize.ShloMosaic.PureOps.Ideal.Laws

noncomputable section

open scoped BigOperators

namespace Cert.Indexed

open Idealize.ShloMosaic Idealize.ShloMosaic.ValueIdx

variable {α : Type}

/-- A word read as a signed integer and clamped into the rows 0 … N − 1. -/
def clampRow (N : Nat) (hN : 0 < N) {w : Nat} (v : BitVec w) : Fin N := ⟨min v.toInt.toNat (N - 1), by omega⟩

/-- A word, read as a signed integer and not clamped, names the row i. -/
def Names {N w : Nat} (v : BitVec w) (i : Fin N) : Prop := v.toInt = (i.val : ℤ)

instance {N w : Nat} (v : BitVec w) (i : Fin N) : Decidable (Names v i) := by unfold Names; infer_instance

/-! ## Taking entries of a flat array -/

/-- The dimension numbers of x[idx] for a flat array of N entries and a column of M indices. -/
abbrev flatGather (N M : Nat) (wf : GatherDims.WF ⟨1, ![N]⟩ ⟨2, ![M, 1]⟩ ⟨1, ![M]⟩ [] [0] [] [0] [] 1 ![1]) :
    GatherDims ⟨1, ![N]⟩ ⟨2, ![M, 1]⟩ ⟨1, ![M]⟩ where
  offsetDims := []
  collapsedSliceDims := [0]
  operandBatchingDims := []
  startIndicesBatchingDims := []
  startIndexMap := [0]
  indexVectorDim := 1
  sliceSizes := ![1]
  wf := wf

/-- Entry r of the taken array is the array at index r, clamped. -/
theorem flatGather_apply {N M w : Nat} (hN : 0 < N)
    (wf : GatherDims.WF ⟨1, ![N]⟩ ⟨2, ![M, 1]⟩ ⟨1, ![M]⟩ [] [0] [] [0] [] 1 ![1])
    (x : (⟨1, ![N]⟩ : Shape).Idx → α) (idx : IVec ⟨2, ![M, 1]⟩ w) (y : (⟨1, ![M]⟩ : Shape).Idx) :
    Host.gather (flatGather N M wf) x idx y = x (ix1 (clampRow N hN (idx (ix2 (y 0) (0 : Fin 1))))) := by
  unfold Host.gather
  congr 1
  funext a
  obtain rfl : a = 0 := Subsingleton.elim _ _
  refine Fin.ext ?_
  show (flatGather N M wf).start y idx 0 + (flatGather N M wf).batchCoord y 0 + (flatGather N M wf).offCoord y 0 = _
  rw [GatherDims.batchCoord_eq_zero _ _ _ List.not_mem_nil,
    GatherDims.offCoord_eq_zero _ _ _ (fun h => ((GatherDims.mem_sKept _ _).mp h).1 (List.mem_singleton.mpr rfl))]
  simp only [Nat.add_zero]
  unfold GatherDims.start
  rw [dif_pos (show (0 : Fin 1) ∈ (flatGather N M wf).startIndexMap from List.mem_singleton.mpr rfl)]
  have hsi : (flatGather N M wf).siIdx y ⟨List.idxOf (0 : Fin 1) (flatGather N M wf).startIndexMap,
      List.idxOf_lt_length_iff.2 (List.mem_singleton.mpr rfl)⟩ = ix2 (y 0) (0 : Fin 1) := by
    funext b; refine Fin.ext ?_
    match b with
    | ⟨0, _⟩ => rfl
    | ⟨1, _⟩ => rfl
  rw [hsi]
  rfl

/-! ## Taking rows of a matrix -/

/-- The dimension numbers of x[idx] for a matrix of N rows of C and a column of M indices. -/
abbrev rowGather (N C M : Nat) (wf : GatherDims.WF ⟨2, ![N, C]⟩ ⟨2, ![M, 1]⟩ ⟨2, ![M, C]⟩ [1] [0] [] [0] [] 1 ![1, C]) :
    GatherDims ⟨2, ![N, C]⟩ ⟨2, ![M, 1]⟩ ⟨2, ![M, C]⟩ where
  offsetDims := [1]
  collapsedSliceDims := [0]
  operandBatchingDims := []
  startIndicesBatchingDims := []
  startIndexMap := [0]
  indexVectorDim := 1
  sliceSizes := ![1, C]
  wf := wf

/-- Entry (r, c) of the taken rows is the matrix at row "index r, clamped" and column c. -/
theorem rowGather_apply {N C M w : Nat} (hN : 0 < N)
    (wf : GatherDims.WF ⟨2, ![N, C]⟩ ⟨2, ![M, 1]⟩ ⟨2, ![M, C]⟩ [1] [0] [] [0] [] 1 ![1, C])
    (x : (⟨2, ![N, C]⟩ : Shape).Idx → α) (idx : IVec ⟨2, ![M, 1]⟩ w) (y : (⟨2, ![M, C]⟩ : Shape).Idx) :
    Host.gather (rowGather N C M wf) x idx y = x (ix2 (clampRow N hN (idx (ix2 (y 0) (0 : Fin 1)))) (y 1)) := by
  unfold Host.gather
  congr 1
  funext a
  refine Fin.ext ?_
  have key : ∀ a : Fin 2, (rowGather N C M wf).start y idx a + (rowGather N C M wf).batchCoord y a
      + (rowGather N C M wf).offCoord y a = ((ix2 (clampRow N hN (idx (ix2 (y 0) (0 : Fin 1)))) (y 1) :
        (⟨2, ![N, C]⟩ : Shape).Idx) a).val := by
    refine Fin.forall_fin_two.2 ⟨?_, ?_⟩
    · rw [GatherDims.batchCoord_eq_zero _ _ _ List.not_mem_nil,
        GatherDims.offCoord_eq_zero _ _ _ (fun h => ((GatherDims.mem_sKept _ _).mp h).1 (List.mem_singleton.mpr rfl))]
      simp only [Nat.add_zero]
      unfold GatherDims.start
      rw [dif_pos (show (0 : Fin 2) ∈ (rowGather N C M wf).startIndexMap from List.mem_singleton.mpr rfl)]
      have hsi : (rowGather N C M wf).siIdx y ⟨List.idxOf (0 : Fin 2) (rowGather N C M wf).startIndexMap,
          List.idxOf_lt_length_iff.2 (List.mem_singleton.mpr rfl)⟩ = ix2 (y 0) (0 : Fin 1) := by
        funext b; refine Fin.ext ?_
        match b with
        | ⟨0, _⟩ => rfl
        | ⟨1, _⟩ => rfl
      rw [hsi]
      rfl
    · rw [GatherDims.batchCoord_eq_zero _ _ _ List.not_mem_nil]
      unfold GatherDims.start
      rw [dif_neg (show (1 : Fin 2) ∉ ([0] : List (Fin 2)) from by decide)]
      simp only [Nat.add_zero, Nat.zero_add]
      unfold GatherDims.offCoord
      rw [dif_pos ((GatherDims.mem_sKept (rowGather N C M wf) 1).mpr ⟨(show (1 : Fin 2) ∉ ([0] : List (Fin 2)) from by decide), List.not_mem_nil⟩)]
      rfl
  exact key a

/-! ## Sums over the entries of a column and of a matrix, by coordinates -/

/-- A flat index set is its one coordinate's range. -/
def idxEquiv1 {n : Nat} : (⟨1, ![n]⟩ : Shape).Idx ≃ Fin n where
  toFun i := i 0
  invFun r := ix1 r
  left_inv i := (eq_ix1 i).symm
  right_inv _ := rfl

/-- A sum over a flat index set is the sum over its coordinate. -/
theorem sum_idx1 {A : Type*} [AddCommMonoid A] {n : Nat} (f : (⟨1, ![n]⟩ : Shape).Idx → A) :
    ∑ i, f i = ∑ r : Fin n, f (ix1 r) := by
  rw [← Equiv.sum_comp (idxEquiv1 (n := n)).symm f]; rfl

/-- The flat entries whose coordinate satisfies P, summed: the sum over the coordinates that satisfy P. -/
theorem sum_filter_idx1 {A : Type*} [AddCommMonoid A] {n : Nat} (P : Fin n → Prop) [DecidablePred P]
    [DecidablePred fun j : (⟨1, ![n]⟩ : Shape).Idx => P (j 0)] (f : (⟨1, ![n]⟩ : Shape).Idx → A) :
    ∑ j ∈ Finset.univ.filter (fun j : (⟨1, ![n]⟩ : Shape).Idx => P (j 0)), f j
      = ∑ r ∈ Finset.univ.filter P, f (ix1 r) := by
  rw [Finset.sum_filter, Finset.sum_filter, sum_idx1]
  exact Finset.sum_congr rfl fun r _ => by congr

/-- The entries of a matrix in column c whose row satisfies P, summed: the sum over the rows that satisfy P. -/
theorem sum_filter_idx2 {A : Type*} [AddCommMonoid A] {n C : Nat} (P : Fin n → Prop) [DecidablePred P] (c : Fin C)
    [DecidablePred fun j : (⟨2, ![n, C]⟩ : Shape).Idx => P (j 0) ∧ (j 1).val = c.val] (f : (⟨2, ![n, C]⟩ : Shape).Idx → A) :
    ∑ j ∈ Finset.univ.filter (fun j : (⟨2, ![n, C]⟩ : Shape).Idx => P (j 0) ∧ (j 1).val = c.val), f j
      = ∑ r ∈ Finset.univ.filter P, f (ix2 r c) := by
  rw [Finset.sum_filter, Finset.sum_filter, sum_idx2]
  refine Finset.sum_congr rfl fun r _ => ?_
  have e : ∀ b : Fin C, (P ((ix2 r b : (⟨2, ![n, C]⟩ : Shape).Idx) 0)
      ∧ ((ix2 r b : (⟨2, ![n, C]⟩ : Shape).Idx) 1).val = c.val) ↔ (P r ∧ b = c) :=
    fun b => ⟨fun h => ⟨h.1, Fin.ext h.2⟩, fun h => ⟨h.1, congrArg Fin.val h.2⟩⟩
  simp only [e]
  by_cases hP : P r
  · simp [hP]
  · simp [hP]

/-! ## Accumulating entries into a flat array -/

/-- The dimension numbers of x.at[idx].add(u) for a flat array of N entries and a column of M indices. -/
abbrev flatScatter (N M : Nat) (wf : ScatterDims.WF ⟨1, ![N]⟩ ⟨2, ![M, 1]⟩ ⟨1, ![M]⟩ [] [0] [0] 1) :
    ScatterDims ⟨1, ![N]⟩ ⟨2, ![M, 1]⟩ ⟨1, ![M]⟩ where
  updateWindowDims := []
  insertedWindowDims := [0]
  scatterDimsToOperandDims := [0]
  indexVectorDim := 1
  wf := wf

/-- Update entry r lands on entry i exactly when index r names i. -/
theorem flatScatter_lands {N M w : Nat} (wf : ScatterDims.WF ⟨1, ![N]⟩ ⟨2, ![M, 1]⟩ ⟨1, ![M]⟩ [] [0] [0] 1)
    (idx : IVec ⟨2, ![M, 1]⟩ w) (j : (⟨1, ![M]⟩ : Shape).Idx) (i : (⟨1, ![N]⟩ : Shape).Idx) :
    (flatScatter N M wf).resultIdx? j idx = some i ↔ Names (idx (ix2 (j 0) (0 : Fin 1))) (i 0) := by
  have hs : (flatScatter N M wf).start j idx 0 = (idx (ix2 (j 0) (0 : Fin 1))).toInt := by
    unfold ScatterDims.start
    rw [dif_pos (show (0 : Fin 1) ∈ ([0] : List (Fin 1)) from List.mem_singleton.mpr rfl)]
    have hsi : (flatScatter N M wf).siIdx j ⟨List.idxOf (0 : Fin 1) (flatScatter N M wf).scatterDimsToOperandDims,
        List.idxOf_lt_length_iff.2 (List.mem_singleton.mpr rfl)⟩ = ix2 (j 0) (0 : Fin 1) := by
      funext b; refine Fin.ext ?_
      match b with
      | ⟨0, _⟩ => rfl
      | ⟨1, _⟩ => rfl
    exact congrArg (fun k => (idx k).toInt) hsi
  have hw : (flatScatter N M wf).window j 0 = 0 := by
    unfold ScatterDims.window
    rw [dif_neg (by simp [ScatterDims.sKept, Shape.kept])]
  have hi : (i 0).val < N := (i 0).isLt
  have hsz : ((⟨1, ![N]⟩ : Shape).size 0 : ℤ) = (N : ℤ) := rfl
  unfold ScatterDims.resultIdx?
  split
  · rename_i h
    have h0 := h 0
    rw [hs, hw] at h0
    constructor
    · intro e
      have e0 : ((flatScatter N M wf).start j idx 0 + ((flatScatter N M wf).window j 0 : ℤ)).toNat = (i 0).val :=
        congrArg (fun f : (⟨1, ![N]⟩ : Shape).Idx => (f 0).val) (Option.some.inj e)
      rw [hs, hw] at e0
      unfold Names; omega
    · intro hn
      refine congrArg some (funext fun a => ?_)
      obtain rfl : a = 0 := Subsingleton.elim _ _
      refine Fin.ext ?_
      show ((flatScatter N M wf).start j idx 0 + ((flatScatter N M wf).window j 0 : ℤ)).toNat = (i 0).val
      rw [hs, hw]; unfold Names at hn; omega
  · rename_i h
    constructor
    · intro e; cases e
    · intro hn
      exfalso; apply h; intro a
      obtain rfl : a = 0 := Subsingleton.elim _ _
      rw [hs, hw, hsz]
      unfold Names at hn
      constructor <;> omega

/-- On the extended reals: entry i of the result is the entry it had plus the sum of the updates whose index names i. -/
theorem flatScatterAdd_apply {N M w : Nat} (wf : ScatterDims.WF ⟨1, ![N]⟩ ⟨2, ![M, 1]⟩ ⟨1, ![M]⟩ [] [0] [0] 1)
    (x : (⟨1, ![N]⟩ : Shape).Idx → EReal) (idx : IVec ⟨2, ![M, 1]⟩ w) (upd : (⟨1, ![M]⟩ : Shape).Idx → EReal)
    (i : (⟨1, ![N]⟩ : Shape).Idx) :
    Ideal.hostScatterAdd (flatScatter N M wf) x idx upd i
      = x i + ∑ r ∈ Finset.univ.filter (fun r : Fin M => Names (idx (ix2 r (0 : Fin 1))) (i 0)), upd (ix1 r) := by
  unfold Ideal.hostScatterAdd
  congr 1
  rw [Finset.filter_congr (fun j _ => flatScatter_lands wf idx j i)]
  exact sum_filter_idx1 (fun r : Fin M => Names (idx (ix2 r (0 : Fin 1))) (i 0)) upd

/-! ## Accumulating rows into a matrix -/

/-- The dimension numbers of x.at[idx].add(u) for a matrix of N rows of C and a column of M indices. -/
abbrev rowScatter (N C M : Nat) (wf : ScatterDims.WF ⟨2, ![N, C]⟩ ⟨2, ![M, 1]⟩ ⟨2, ![M, C]⟩ [1] [0] [0] 1) :
    ScatterDims ⟨2, ![N, C]⟩ ⟨2, ![M, 1]⟩ ⟨2, ![M, C]⟩ where
  updateWindowDims := [1]
  insertedWindowDims := [0]
  scatterDimsToOperandDims := [0]
  indexVectorDim := 1
  wf := wf

/-- Update entry (r, c) lands on entry (i, c') exactly when index r names i and c is c'. -/
theorem rowScatter_lands {N C M w : Nat} (wf : ScatterDims.WF ⟨2, ![N, C]⟩ ⟨2, ![M, 1]⟩ ⟨2, ![M, C]⟩ [1] [0] [0] 1)
    (idx : IVec ⟨2, ![M, 1]⟩ w) (j : (⟨2, ![M, C]⟩ : Shape).Idx) (i : (⟨2, ![N, C]⟩ : Shape).Idx) :
    (rowScatter N C M wf).resultIdx? j idx = some i
      ↔ Names (idx (ix2 (j 0) (0 : Fin 1))) (i 0) ∧ (j 1).val = (i 1).val := by
  have hs0 : (rowScatter N C M wf).start j idx 0 = (idx (ix2 (j 0) (0 : Fin 1))).toInt := by
    unfold ScatterDims.start
    rw [dif_pos (show (0 : Fin 2) ∈ ([0] : List (Fin 2)) from List.mem_singleton.mpr rfl)]
    have hsi : (rowScatter N C M wf).siIdx j ⟨List.idxOf (0 : Fin 2) (rowScatter N C M wf).scatterDimsToOperandDims,
        List.idxOf_lt_length_iff.2 (List.mem_singleton.mpr rfl)⟩ = ix2 (j 0) (0 : Fin 1) := by
      funext b; refine Fin.ext ?_
      match b with
      | ⟨0, _⟩ => rfl
      | ⟨1, _⟩ => rfl
    exact congrArg (fun k => (idx k).toInt) hsi
  have hs1 : (rowScatter N C M wf).start j idx 1 = 0 := by
    unfold ScatterDims.start
    rw [dif_neg (show (1 : Fin 2) ∉ ([0] : List (Fin 2)) from by decide)]
  have hw0 : (rowScatter N C M wf).window j 0 = 0 := by
    unfold ScatterDims.window
    rw [dif_neg (by simp [ScatterDims.sKept, Shape.kept])]
  have hw1 : (rowScatter N C M wf).window j 1 = (j 1).val := by
    unfold ScatterDims.window
    rw [dif_pos (by simp [ScatterDims.sKept, Shape.kept])]
    rfl
  have hi0 : (i 0).val < N := idx2_lt0 i
  have hi1 : (i 1).val < C := idx2_lt1 i
  have hj1 : (j 1).val < C := idx2_lt1 j
  have hsz0 : ((⟨2, ![N, C]⟩ : Shape).size 0 : ℤ) = (N : ℤ) := rfl
  have hsz1 : ((⟨2, ![N, C]⟩ : Shape).size 1 : ℤ) = (C : ℤ) := rfl
  unfold ScatterDims.resultIdx?
  split
  · rename_i h
    have h0 := h 0
    have h1 := h 1
    rw [hs0, hw0] at h0
    rw [hs1, hw1] at h1
    constructor
    · intro e
      have e0 : ((rowScatter N C M wf).start j idx 0 + ((rowScatter N C M wf).window j 0 : ℤ)).toNat = (i 0).val :=
        congrArg (fun f : (⟨2, ![N, C]⟩ : Shape).Idx => (f 0).val) (Option.some.inj e)
      have e1 : ((rowScatter N C M wf).start j idx 1 + ((rowScatter N C M wf).window j 1 : ℤ)).toNat = (i 1).val :=
        congrArg (fun f : (⟨2, ![N, C]⟩ : Shape).Idx => (f 1).val) (Option.some.inj e)
      rw [hs0, hw0] at e0
      rw [hs1, hw1] at e1
      unfold Names; constructor <;> omega
    · rintro ⟨hn, hc⟩
      refine congrArg some (funext fun a => Fin.ext ?_)
      have key : ∀ a : Fin 2, ((rowScatter N C M wf).start j idx a + ((rowScatter N C M wf).window j a : ℤ)).toNat
          = (i a).val := by
        refine Fin.forall_fin_two.2 ⟨?_, ?_⟩
        · rw [hs0, hw0]; unfold Names at hn; omega
        · rw [hs1, hw1]; omega
      exact key a
  · rename_i h
    constructor
    · intro e; cases e
    · rintro ⟨hn, hc⟩
      exfalso; apply h
      unfold Names at hn
      refine Fin.forall_fin_two.2 ⟨?_, ?_⟩
      · rw [hs0, hw0, hsz0]; constructor <;> omega
      · rw [hs1, hw1, hsz1]; constructor <;> omega

/-- On the extended reals: entry (i, c) of the result is the entry it had plus the sum over the update rows whose index
    names i of their entry in column c. -/
theorem rowScatterAdd_apply {N C M w : Nat} (wf : ScatterDims.WF ⟨2, ![N, C]⟩ ⟨2, ![M, 1]⟩ ⟨2, ![M, C]⟩ [1] [0] [0] 1)
    (x : (⟨2, ![N, C]⟩ : Shape).Idx → EReal) (idx : IVec ⟨2, ![M, 1]⟩ w) (upd : (⟨2, ![M, C]⟩ : Shape).Idx → EReal)
    (p : Fin N) (c : Fin C) :
    Ideal.hostScatterAdd (rowScatter N C M wf) x idx upd (ix2 p c)
      = x (ix2 p c) + ∑ r ∈ Finset.univ.filter (fun r : Fin M => Names (idx (ix2 r (0 : Fin 1))) p), upd (ix2 r c) := by
  unfold Ideal.hostScatterAdd
  congr 1
  rw [Finset.filter_congr (fun j _ => rowScatter_lands wf idx j (ix2 p c))]
  exact sum_filter_idx2 (fun r : Fin M => Names (idx (ix2 r (0 : Fin 1))) p) c upd

/-! ## The same readings at an entry named by its coordinates -/

/-- Entry r of the taken array, r a coordinate. -/
theorem flatGather_at {N M w : Nat} (hN : 0 < N)
    (wf : GatherDims.WF ⟨1, ![N]⟩ ⟨2, ![M, 1]⟩ ⟨1, ![M]⟩ [] [0] [] [0] [] 1 ![1])
    (x : (⟨1, ![N]⟩ : Shape).Idx → α) (idx : IVec ⟨2, ![M, 1]⟩ w) (r : Fin M) :
    Host.gather (flatGather N M wf) x idx (ix1 r) = x (ix1 (clampRow N hN (idx (ix2 r (0 : Fin 1))))) :=
  flatGather_apply hN wf x idx (ix1 r)

/-- Entry (r, c) of the taken rows, r and c coordinates. -/
theorem rowGather_at {N C M w : Nat} (hN : 0 < N)
    (wf : GatherDims.WF ⟨2, ![N, C]⟩ ⟨2, ![M, 1]⟩ ⟨2, ![M, C]⟩ [1] [0] [] [0] [] 1 ![1, C])
    (x : (⟨2, ![N, C]⟩ : Shape).Idx → α) (idx : IVec ⟨2, ![M, 1]⟩ w) (r : Fin M) (c : Fin C) :
    Host.gather (rowGather N C M wf) x idx (ix2 r c) = x (ix2 (clampRow N hN (idx (ix2 r (0 : Fin 1)))) c) :=
  rowGather_apply hN wf x idx (ix2 r c)

/-- Entry i of the accumulated flat array, i a coordinate. -/
theorem flatScatterAdd_at {N M w : Nat} (wf : ScatterDims.WF ⟨1, ![N]⟩ ⟨2, ![M, 1]⟩ ⟨1, ![M]⟩ [] [0] [0] 1)
    (x : (⟨1, ![N]⟩ : Shape).Idx → EReal) (idx : IVec ⟨2, ![M, 1]⟩ w) (upd : (⟨1, ![M]⟩ : Shape).Idx → EReal)
    (i : Fin N) :
    Ideal.hostScatterAdd (flatScatter N M wf) x idx upd (ix1 i)
      = x (ix1 i) + ∑ r ∈ Finset.univ.filter (fun r : Fin M => Names (idx (ix2 r (0 : Fin 1))) i), upd (ix1 r) :=
  flatScatterAdd_apply wf x idx upd (ix1 i)

end Cert.Indexed

end
-- ==== Proof.Spec.lean ====
/-
  The graph-convolution block as two families of formulas on the extended reals, entry by entry.

  A node v has degree "number of edges whose target word names v, plus one for its own loop"; its scale is
  the reciprocal square root of that degree. The features are projected (x · Wᵀ), every edge carries the projected
  row of its source node to its target node scaled by both ends' scales, every node also receives its own row
  scaled by its own scale squared, the bias and a second projection (x · RWᵀ) are added, and the result is
  normalized column by column with the batch mean and the batch variance, scaled, shifted and cut at zero.

  One family ("k…") scales by the source's scale before the rows travel and by the target's after they are
  summed, counts the loop as "+ 1" and adds the loop's row separately, and takes the variance as
  "mean of squares minus square of mean, cut at zero". The other ("r…") appends the N loops to the edge list,
  scales every travelling row by the product of both scales, and takes the variance as the mean of the squared
  deviations. On real inputs the two families are the same function (module SpecEq).
-/
import proofs.«163069_j30202210025887_2_alg».proof.Proof.LibDense
import proofs.«163069_j30202210025887_2_alg».proof.Proof.LibIndexed

noncomputable section

open scoped BigOperators

namespace Cert.GcnBlock

open Cert.Dense Cert.Indexed Idealize.ShloMosaic Idealize.ShloMosaic.ValueIdx

/-- The edge list: row 0 the source words, row 1 the target words. -/
abbrev Edges : Type := IVec ⟨2, ![2, 800000]⟩ 32

/-- Edge e's source word and target word. -/
def src (ei : Edges) (e : Fin 800000) : BitVec 32 := ei (ix2 (0 : Fin 2) e)
def dst (ei : Edges) (e : Fin 800000) : BitVec 32 := ei (ix2 (1 : Fin 2) e)

/-- A word as it is read before a row is taken: a negative word has the number of nodes added. -/
def wrap (v : BitVec 32) : BitVec 32 := Scalar.select (IntOp.cmpi .slt v 0#32) (IntOp.addi v 50000#32) v

/-- The row a word takes: wrapped, read signed, clamped into the nodes. -/
def rowOf (v : BitVec 32) : Fin 50000 := clampRow 50000 (by norm_num) (wrap v)

/-- The scale of a degree: its reciprocal square root where the degree is positive, zero elsewhere. -/
def dinvOf (d : EReal) : EReal := Scalar.select (Ideal.cmp .ogt d 0) (Ideal.rsqrt d) 0

/-- x · Wᵀ: entry (n, o) is the sum over k of x(n, k) · W(o, k). -/
def mmT (X : Mat 50000 128) (W : Mat 128 128) (n : Fin 50000) (o : Fin 128) : EReal :=
  ∑ k : Fin 128, X (ix2 n k) * W (ix2 o k)

/-- The number of nodes, as both programs' divisor denotes it. -/
def cN : EReal := ((50000 : ℝ) : EReal)

/-- The variance's guard, the same word in both programs. -/
def eps : EReal := Ideal.ofBits .f32 0x3727C5AC#32

/-! ## Scale first, sum, scale again -/

section K
variable (X : Mat 50000 128) (W : Mat 128 128) (b : Row 128) (RW : Mat 128 128) (γ β : Row 128) (ei : Edges)

def kdeg (v : Fin 50000) : EReal := (∑ _e ∈ Finset.univ.filter (fun e : Fin 800000 => Names (dst ei e) v), (1 : EReal)) + 1
def kdinv (v : Fin 50000) : EReal := dinvOf (kdeg ei v)
/-- The projected row of node n, scaled by n's scale. -/
def khs (n : Fin 50000) (o : Fin 128) : EReal := mmT X W n o * kdinv ei n
/-- What node v receives over the edges. -/
def kagg (v : Fin 50000) (o : Fin 128) : EReal :=
  ∑ e ∈ Finset.univ.filter (fun e : Fin 800000 => Names (dst ei e) v), khs X W ei (rowOf (src ei e)) o
def kpre (n : Fin 50000) (o : Fin 128) : EReal :=
  ((kdinv ei n * (kagg X W ei n o + khs X W ei n o)) + mmT X RW n o) + b (ix1 o)
def ksum (o : Fin 128) : EReal := ∑ n : Fin 50000, kpre X W b RW ei n o
def ksumsq (o : Fin 128) : EReal := ∑ n : Fin 50000, kpre X W b RW ei n o * kpre X W b RW ei n o
def kmean (o : Fin 128) : EReal := Ideal.div (ksum X W b RW ei o) cN
def kvar (o : Fin 128) : EReal :=
  max (Ideal.div (ksumsq X W b RW ei o) cN - kmean X W b RW ei o * kmean X W b RW ei o) 0
def kout (n : Fin 50000) (o : Fin 128) : EReal :=
  max (((γ (ix1 o) * (kpre X W b RW ei n o - kmean X W b RW ei o)) * Ideal.rsqrt (kvar X W b RW ei o + eps)) + β (ix1 o)) 0
end K

/-! ## Loops appended, both scales on the travelling row -/

section R
variable (X : Mat 50000 128) (W : Mat 128 128) (b : Row 128) (RW : Mat 128 128) (γ β : Row 128) (ei : Edges)

/-- The edge words followed by the node numbers 0 … N − 1. -/
def cat (a : Fin 800000 → BitVec 32) (j : Fin 850000) : BitVec 32 :=
  if h : j.val < 800000 then a ⟨j.val, h⟩ else BitVec.ofNat 32 (j.val - 800000)
def rsrc (j : Fin 850000) : BitVec 32 := cat (src ei) j
def rdst (j : Fin 850000) : BitVec 32 := cat (dst ei) j
def rdeg (v : Fin 50000) : EReal := ∑ _j ∈ Finset.univ.filter (fun j : Fin 850000 => Names (rdst ei j) v), (1 : EReal)
def rdinv (v : Fin 50000) : EReal := dinvOf (rdeg ei v)
def rnorm (j : Fin 850000) : EReal := rdinv ei (rowOf (rsrc ei j)) * rdinv ei (rowOf (rdst ei j))
def ragg (v : Fin 50000) (o : Fin 128) : EReal :=
  ∑ j ∈ Finset.univ.filter (fun j : Fin 850000 => Names (rdst ei j) v), mmT X W (rowOf (rsrc ei j)) o * rnorm ei j
def rpre (n : Fin 50000) (o : Fin 128) : EReal := (ragg X W ei n o + b (ix1 o)) + mmT X RW n o
def rmean (o : Fin 128) : EReal := Ideal.div (∑ n : Fin 50000, rpre X W b RW ei n o) cN
def rvar (o : Fin 128) : EReal :=
  Ideal.div (∑ n : Fin 50000, (rpre X W b RW ei n o - rmean X W b RW ei o) * (rpre X W b RW ei n o - rmean X W b RW ei o)) cN
def rout (n : Fin 50000) (o : Fin 128) : EReal :=
  max (((γ (ix1 o) * (rpre X W b RW ei n o - rmean X W b RW ei o)) * Ideal.rsqrt (rvar X W b RW ei o + eps)) + β (ix1 o)) 0
end R

end Cert.GcnBlock

end
-- ==== Proof.KerForms.lean ====
/-
  What each of the three kernels leaves in its output arrays, as formulas of the arrays it is given, entry by entry.

  The first takes x (N × 128), W (128 × 128) and a column of scales and leaves (x · Wᵀ)(n, o) · scale(n).
  The second takes the summed rows, the scaled rows, the scales, x, RW and a bias row and leaves
  scale(n) · (summed(n, o) + scaled(n, o)) + (x · RWᵀ)(n, o) + bias(o), together with that matrix's column sums and the
  column sums of its squares. The third takes a matrix, a row of means, a row of variances, a row of gains and a
  row of shifts and leaves max(gain(o) · (v(n, o) − mean(o)) · rsqrt(var(o) + ε) + shift(o), 0).
-/
import proofs.«163069_j30202210025887_2_alg».proof.Proof.Spec

noncomputable section

open scoped BigOperators

namespace Cert.GcnBlock

open Cert.Dense Cert.Indexed Idealize.ShloMosaic Idealize.ShloMosaic.ValueIdx

/-- The first kernel's entry (n, o). -/
def hsOf (x : Mat 50000 128) (w : Mat 128 128) (dv : Mat 50000 1) (n : Fin 50000) (o : Fin 128) : EReal :=
  (∑ k : Fin 128, x (ix2 n k) * w (ix2 o k)) * dv (ix2 n (0 : Fin 1))

/-- The second kernel's matrix entry (n, o). -/
def preOf (agg hs : Mat 50000 128) (dv : Mat 50000 1) (x : Mat 50000 128) (rw : Mat 128 128) (b2 : Mat 1 128)
    (n : Fin 50000) (o : Fin 128) : EReal :=
  ((dv (ix2 n (0 : Fin 1)) * (agg (ix2 n o) + hs (ix2 n o))) + ∑ k : Fin 128, x (ix2 n k) * rw (ix2 o k))
    + b2 (ix2 (0 : Fin 1) o)

/-- The third kernel's entry (n, o). -/
def outOf (v : Mat 50000 128) (mean var g be : Mat 1 128) (n : Fin 50000) (o : Fin 128) : EReal :=
  max (((g (ix2 (0 : Fin 1) o) * (v (ix2 n o) - mean (ix2 (0 : Fin 1) o)))
      * Ideal.rsqrt (var (ix2 (0 : Fin 1) o) + eps)) + be (ix2 (0 : Fin 1) o)) 0

end Cert.GcnBlock

end
-- ==== Proof.LibColumn.lean ====
/-
  A vector laid out as a column, and scalars broadcast, read at an entry.

  A vector of n entries becomes a 1×n matrix by a cast, and an n×1 matrix either by a cast (row-major positions agree: entry r of the vector sits at
  (r, 0)) or by a broadcast along the new axis; a one-entry vector becomes a scalar by a cast; a scalar broadcast to any
  shape is that scalar at every entry; a one-entry vector broadcast over n entries is its one entry everywhere.
-/
import Idealize.ShloMosaic.Lib.ValueIdx
import Idealize.ShloMosaic.Lib.Pipeline.Value

noncomputable section

namespace Cert.Layout

open Idealize.ShloMosaic Idealize.ShloMosaic.ValueIdx

variable {α : Type} {n : ℕ}

/-- The one index of a rank-0 shape is at row-major position 0. -/
theorem rowMajor_val_rank0 (d : Fin 0 → Nat) (i : (⟨0, d⟩ : Shape).Idx) : ((⟨0, d⟩ : Shape).rowMajor i).val = 0 :=
  Shape.rowMajorPi_zero d i

/-- A vector cast to a column, read at (r, q): the vector's entry r. -/
theorem cast_vec_col_apply (v : (⟨1, ![n]⟩ : Shape).Idx → α) (h : (⟨1, ![n]⟩ : Shape).ShapeCasts ⟨2, ![n, 1]⟩) (r : Fin n) (q : Fin 1) :
    shapeCast ⟨2, ![n, 1]⟩ v h (ix2 r q) = v (ix1 r) :=
  shapeCast_apply v h (ix2 r q) (ix1 r) (by
    rw [Shape.rowMajor_val_two, Shape.rowMajor_val_one]
    show r.val = r.val * 1 + q.val
    have := q.isLt
    omega)

/-- A vector cast to a one-row matrix, read at (0, q): the vector's entry q. -/
theorem cast_vec_row_apply (v : (⟨1, ![n]⟩ : Shape).Idx → α) (h : (⟨1, ![n]⟩ : Shape).ShapeCasts ⟨2, ![1, n]⟩) (q : Fin n) :
    shapeCast ⟨2, ![1, n]⟩ v h (ix2 (0 : Fin 1) q) = v (ix1 q) :=
  shapeCast_apply v h (ix2 (0 : Fin 1) q) (ix1 q) (by
    rw [Shape.rowMajor_val_two, Shape.rowMajor_val_one]
    show q.val = (0 : Fin 1).val * n + q.val
    simp)

/-- A one-entry vector cast to a scalar: its one entry. -/
theorem cast_one_scalar_apply (v : (⟨1, ![1]⟩ : Shape).Idx → α) (h : (⟨1, ![1]⟩ : Shape).ShapeCasts ⟨0, ![]⟩) (j : (⟨0, ![]⟩ : Shape).Idx) :
    shapeCast ⟨0, ![]⟩ v h j = v (ix1 (0 : Fin 1)) :=
  shapeCast_apply v h j (ix1 (0 : Fin 1)) (by
    rw [Shape.rowMajor_val_one, rowMajor_val_rank0]
    rfl)

/-- A scalar broadcast to a shape, read anywhere: the scalar. -/
theorem bcast_scalar_apply {s : Shape} (v : (⟨0, ![]⟩ : Shape).Idx → α) (h : (⟨0, ![]⟩ : Shape).BroadcastsInDim s ![]) (j : s.Idx) :
    broadcastInDim s ![] h v j = v ix0 :=
  broadcastInDim_apply ![] h v j ix0 (fun ax => ax.elim0)

/-- A one-entry vector broadcast over n entries, read at r: its one entry. -/
theorem bcast_one_vec_apply (v : (⟨1, ![1]⟩ : Shape).Idx → α) (h : (⟨1, ![1]⟩ : Shape).BroadcastsInDim ⟨1, ![n]⟩ ![0]) (r : Fin n) :
    broadcastInDim ⟨1, ![n]⟩ ![0] h v (ix1 r) = v (ix1 (0 : Fin 1)) :=
  broadcastInDim_apply ![0] h v (ix1 r) (ix1 (0 : Fin 1)) (fun ax => by
    match ax with
    | ⟨0, _⟩ =>
      show (0 : ℕ) = if (1 : ℕ) = 1 then 0 else r.val
      rfl)

/-- A vector broadcast to a column along a new second axis, read at (r, q): the vector's entry r. -/
theorem bcast_vec_col_apply (v : (⟨1, ![n]⟩ : Shape).Idx → α) (h : (⟨1, ![n]⟩ : Shape).BroadcastsInDim ⟨2, ![n, 1]⟩ ![0]) (r : Fin n) (q : Fin 1) :
    broadcastInDim ⟨2, ![n, 1]⟩ ![0] h v (ix2 r q) = v (ix1 r) :=
  broadcastInDim_apply ![0] h v (ix2 r q) (ix1 r) (fun ax => by
    match ax with
    | ⟨0, _⟩ =>
      show r.val = if n = 1 then 0 else r.val
      split
      · have := r.isLt; omega
      · rfl)

end Cert.Layout

end
-- ==== Proof.LibMatAssoc.lean ====
/-
  Matrices of real entries on the extended reals.

  A row of a matrix product depends on the left factor through that one row only. The product of three matrices
  whose entries are all real (neither infinity) is associative: on the extended reals that takes distributivity of
  the product over a finite sum, which fails at the infinities, so the sums are computed in the reals and carried
  back through the embedding, which commutes with finite sums and with products.
-/
import proofs.«163069_j30202210025887_2_alg».proof.Proof.LibDense

noncomputable section

open scoped BigOperators

namespace Cert.Gcn

open Cert.Dense Idealize.ShloMosaic Idealize.ShloMosaic.ValueIdx

variable {M K L N : ℕ}

/-- Every entry is a real number (neither infinity). -/
def Finite {s : Shape} (X : s.Idx → EReal) : Prop := ∀ i, ∃ r : ℝ, X i = (r : EReal)

/-- The embedding of the reals commutes with finite sums. -/
theorem coe_sum {ι : Type} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- Row `p` of `blk · W` is row `r` of `A · W` when row `p` of `blk` is row `r` of `A`. -/
theorem mm_row {M' : ℕ} (A : Mat M' K) (blk : Mat M K) (W : Mat K N) (p : Fin M) (r : Fin M')
    (h : ∀ k, blk (ix2 p k) = A (ix2 r k)) (q : Fin N) : mm blk W (ix2 p q) = mm A W (ix2 r q) := by
  show ∑ k : Fin K, blk (ix2 p k) * W (ix2 k q) = ∑ k : Fin K, A (ix2 r k) * W (ix2 k q)
  exact Finset.sum_congr rfl fun k _ => by rw [h k]

/-- Associativity of a triple product of real numbers summed over two finite axes. -/
theorem real_assoc (a : Fin K → ℝ) (x : Fin K → Fin L → ℝ) (w : Fin L → ℝ) :
    ∑ l : Fin L, (∑ k : Fin K, a k * x k l) * w l = ∑ k : Fin K, a k * ∑ l : Fin L, x k l * w l := by
  simp_rw [Finset.sum_mul, Finset.mul_sum]
  rw [Finset.sum_comm]
  exact Finset.sum_congr rfl fun k _ => Finset.sum_congr rfl fun l _ => by ring

/-- The product of three matrices of real entries is associative on the extended reals. -/
theorem mm_assoc (A : Mat M K) (X : Mat K L) (W : Mat L N) (hA : Finite A) (hX : Finite X) (hW : Finite W) :
    mm (mm A X) W = mm A (mm X W) := by
  funext i
  obtain ⟨p, q, rfl⟩ : ∃ (p : Fin M) (q : Fin N), i = ix2 p q := ⟨i 0, i 1, eq_ix2 i⟩
  choose a ha using hA
  choose x hx using hX
  choose w hw using hW
  have hl : mm (mm A X) W (ix2 p q)
      = ((∑ l : Fin L, (∑ k : Fin K, a (ix2 p k) * x (ix2 k l)) * w (ix2 l q) : ℝ) : EReal) := by
    show ∑ l : Fin L, (∑ k : Fin K, A (ix2 p k) * X (ix2 k l)) * W (ix2 l q) = _
    rw [coe_sum]
    refine Finset.sum_congr rfl fun l _ => ?_
    rw [EReal.coe_mul, coe_sum, hw]
    refine congrArg (· * (w (ix2 l q) : EReal)) (Finset.sum_congr rfl fun k _ => ?_)
    rw [EReal.coe_mul, ha, hx]
  have hr : mm A (mm X W) (ix2 p q)
      = ((∑ k : Fin K, a (ix2 p k) * ∑ l : Fin L, x (ix2 k l) * w (ix2 l q) : ℝ) : EReal) := by
    show ∑ k : Fin K, A (ix2 p k) * (∑ l : Fin L, X (ix2 k l) * W (ix2 l q)) = _
    rw [coe_sum]
    refine Finset.sum_congr rfl fun k _ => ?_
    rw [EReal.coe_mul, coe_sum, ha]
    refine congrArg ((a (ix2 p k) : EReal) * ·) (Finset.sum_congr rfl fun l _ => ?_)
    rw [EReal.coe_mul, hx, hw]
  rw [hl, hr]
  exact congrArg _ (real_assoc (fun k => a (ix2 p k)) (fun k l => x (ix2 k l)) (fun l => w (ix2 l q)))

end Cert.Gcn

end
-- ==== Proof.LibGraphConv.lean ====
/-
  A segment sum of gathered, scaled rows commutes with a matrix product on the right — on the extended reals, for
  real entries.

  Rows of a matrix H are taken by a column of run-time indices, scaled row by row by a column of weights a, and added
  into the rows another index column names: entry (v, k) of the result is the sum over the messages e landing on v of
  a(e) · H(ρ(e), k). Multiplying the result by W on the right gives, at (v, o), the sum over k of those sums times
  W(k, o); doing the product first, on H, and the segment sum after gives the sum over the messages landing on v of
  a(e) · (sum over k of H(ρ(e), k) · W(k, o)). The two are equal by distributivity of the product over a finite sum
  and exchanging the two sums: true of real numbers, false at the infinities, so every entry of a, H and W is taken
  real and the sums are computed in the reals.

  Beside it: which extended reals are real numbers and which operations keep them so, and the broadcasts of a column
  read at an entry.
-/
import proofs.«163069_j30202210025887_2_alg».proof.Proof.LibMatAssoc
import proofs.«163069_j30202210025887_2_alg».proof.Proof.LibIndexed

noncomputable section

open scoped BigOperators

namespace Cert.GraphConv

open Cert.Dense Cert.Gcn Cert.Indexed Idealize.ShloMosaic Idealize.ShloMosaic.ValueIdx

/-! ## Real numbers among the extended reals -/

/-- An extended real that is a real number (neither infinity). -/
def IsReal (x : EReal) : Prop := ∃ r : ℝ, x = (r : EReal)

theorem isReal_zero : IsReal 0 := ⟨0, EReal.coe_zero.symm⟩
theorem isReal_coe (r : ℝ) : IsReal (r : EReal) := ⟨r, rfl⟩

theorem IsReal.add {x y : EReal} (hx : IsReal x) (hy : IsReal y) : IsReal (x + y) := by
  obtain ⟨a, rfl⟩ := hx; obtain ⟨b, rfl⟩ := hy; exact ⟨a + b, (EReal.coe_add a b).symm⟩
theorem IsReal.sub {x y : EReal} (hx : IsReal x) (hy : IsReal y) : IsReal (x - y) := by
  obtain ⟨a, rfl⟩ := hx; obtain ⟨b, rfl⟩ := hy; exact ⟨a - b, (EReal.coe_sub a b).symm⟩
theorem IsReal.mul {x y : EReal} (hx : IsReal x) (hy : IsReal y) : IsReal (x * y) := by
  obtain ⟨a, rfl⟩ := hx; obtain ⟨b, rfl⟩ := hy; exact ⟨a * b, (EReal.coe_mul a b).symm⟩
theorem IsReal.neg {x : EReal} (hx : IsReal x) : IsReal (-x) := by
  obtain ⟨a, rfl⟩ := hx; exact ⟨-a, (EReal.coe_neg a).symm⟩
theorem IsReal.max {x y : EReal} (hx : IsReal x) (hy : IsReal y) : IsReal (max x y) := by
  rcases le_total x y with h | h
  · rw [max_eq_right h]; exact hy
  · rw [max_eq_left h]; exact hx
/-- A power of a real base to a real exponent is real (the real power function is total). -/
theorem IsReal.pow {x y : EReal} (hx : IsReal x) (hy : IsReal y) : IsReal (Ideal.pow x y) := by
  obtain ⟨a, rfl⟩ := hx; obtain ⟨b, rfl⟩ := hy; exact ⟨Real.rpow a b, rfl⟩
theorem IsReal.sum {ι : Type} (s : Finset ι) (f : ι → EReal) (h : ∀ i ∈ s, IsReal (f i)) : IsReal (∑ i ∈ s, f i) := by
  classical
  induction s using Finset.induction_on with
  | empty => rw [Finset.sum_empty]; exact isReal_zero
  | insert a s ha ih =>
    rw [Finset.sum_insert ha]
    exact (h a (Finset.mem_insert_self a s)).add (ih fun i hi => h i (Finset.mem_insert_of_mem hi))

/-- An f32 word whose exponent field is not all ones denotes a real number. -/
theorem isReal_ofBits_f32 (b : BitVec 32) (h : (b.extractLsb' 23 8).toNat ≠ 2 ^ 8 - 1) : IsReal (Ideal.ofBits .f32 b) := by
  show IsReal (Ideal.ieee 8 23 b)
  unfold Ideal.ieee
  dsimp only
  rw [if_neg h]
  split
  · exact ⟨_, rfl⟩
  · exact ⟨_, rfl⟩

/-! ## Arrays of real entries -/

section Arrays
variable {s t : Shape}

theorem finite_of_forall {X : s.Idx → EReal} (h : ∀ i, IsReal (X i)) : Finite X := h
theorem Finite.isReal {X : s.Idx → EReal} (h : Finite X) (i : s.Idx) : IsReal (X i) := h i

theorem finite_mulf {φ : FTy} {x y : FVec Ideal s φ} (hx : Finite x) (hy : Finite y) : Finite (mulf x y) :=
  fun i => IsReal.mul (hx i) (hy i)
theorem finite_addf {φ : FTy} {x y : FVec Ideal s φ} (hx : Finite x) (hy : Finite y) : Finite (addf x y) :=
  fun i => IsReal.add (hx i) (hy i)
theorem finite_subf {φ : FTy} {x y : FVec Ideal s φ} (hx : Finite x) (hy : Finite y) : Finite (subf x y) :=
  fun i => IsReal.sub (hx i) (hy i)
theorem finite_maximumf {φ : FTy} {x y : FVec Ideal s φ} (hx : Finite x) (hy : Finite y) : Finite (maximumf x y) :=
  fun i => IsReal.max (hx i) (hy i)
theorem finite_hostNegf {φ : FTy} {x : FVec Ideal s φ} (hx : Finite x) : Finite (Host.negf x) :=
  fun i => IsReal.neg (hx i)
theorem finite_hostPowf {φ : FTy} {x y : FVec Ideal s φ} (hx : Finite x) (hy : Finite y) : Finite (Host.powf x y) :=
  fun i => IsReal.pow (hx i) (hy i)
theorem finite_uitofp {φ : FTy} {w : ℕ} (x : IVec s w) : Finite (uitofp (F := Ideal) φ x) :=
  fun i => ⟨_, rfl⟩
theorem finite_constant_f32 (b : BitVec 32) (h : (b.extractLsb' 23 8).toNat ≠ 2 ^ 8 - 1) :
    Finite (constant (F := Ideal) s .f32 b) := fun _ => isReal_ofBits_f32 b h
theorem finite_broadcast (x : EReal) (hx : IsReal x) : Finite (broadcast s x) := fun _ => hx

/-- A layout operation, a broadcast or a gather reads its operand at some index: real entries stay real. -/
theorem finite_broadcastInDim {dims : Fin s.rank → Fin t.rank} (h : s.BroadcastsInDim t dims) {x : s.Idx → EReal}
    (hx : Finite x) : Finite (broadcastInDim t dims h x) := fun _ => hx _
theorem finite_broadcastTo (h : s.Broadcasts t) {x : s.Idx → EReal} (hx : Finite x) : Finite (broadcastTo t x h) :=
  fun _ => hx _
theorem finite_shapeCast (h : s.ShapeCasts t) {x : s.Idx → EReal} (hx : Finite x) : Finite (shapeCast t x h) :=
  fun _ => hx _
theorem finite_gather {si : Shape} {w : ℕ} (d : GatherDims s si t) {x : s.Idx → EReal} (idx : IVec si w)
    (hx : Finite x) : Finite (Host.gather d x idx) := fun _ => hx _
/-- A scatter-add adds finitely many of the updates to each entry. -/
theorem finite_scatterAdd {si su : Shape} {w : ℕ} (d : ScatterDims s si su) {x : s.Idx → EReal} (idx : IVec si w)
    {upd : su.Idx → EReal} (hx : Finite x) (hu : Finite upd) :
    Finite (Host.scatterAdd (F := Ideal) (φ := .f32) d x idx upd) := by
  intro i
  show IsReal (Ideal.hostScatterAdd d x idx upd i)
  unfold Ideal.hostScatterAdd
  exact IsReal.add (hx i) (IsReal.sum _ _ fun j _ => hu j)

end Arrays

/-- A matrix product of real entries has real entries. -/
theorem finite_mm {M K N : ℕ} {A : Mat M K} {W : Mat K N} (hA : Finite A) (hW : Finite W) : Finite (mm A W) :=
  fun i => IsReal.sum _ _ fun k _ => IsReal.mul (hA _) (hW _)
theorem finite_affine2 {M K N : ℕ} {A : Mat M K} {W : Mat K N} {b : Mat 1 N} (hA : Finite A) (hW : Finite W)
    (hb : Finite b) : Finite (affine2 A W b) := fun i => IsReal.add (finite_mm hA hW i) (hb _)
theorem finite_relu {M N : ℕ} {X : Mat M N} (hX : Finite X) : Finite (relu X) := fun i => IsReal.max (hX i) isReal_zero

/-! ## Broadcasts of a column, read at an entry -/

section Bcast
variable {α : Type}

/-- A scalar broadcast to any shape reads the scalar. -/
theorem bcast_scalar_apply {t : Shape} (h : (⟨0, ![]⟩ : Shape).BroadcastsInDim t (![] : Fin 0 → Fin t.rank))
    (x : (⟨0, ![]⟩ : Shape).Idx → α) (j : t.Idx) : broadcastInDim t ![] h x j = x ix0 :=
  broadcastInDim_apply ![] h x j ix0 (fun ax => ax.elim0)

/-- A flat array of M entries as an M×1 column. -/
theorem bcast_col_apply {M : ℕ} (h : (⟨1, ![M]⟩ : Shape).BroadcastsInDim ⟨2, ![M, 1]⟩ ![0])
    (x : (⟨1, ![M]⟩ : Shape).Idx → α) (e : Fin M) (z : Fin 1) :
    broadcastInDim ⟨2, ![M, 1]⟩ ![0] h x (ix2 e z) = x (ix1 e) :=
  broadcastInDim_apply ![0] h x (ix2 e z) (ix1 e) (fun ax => by
    match ax with
    | ⟨0, _⟩ =>
      show e.val = if M = 1 then 0 else e.val
      split
      · have := e.isLt; omega
      · rfl)

/-- An M×1 column repeated over C columns. -/
theorem bcast_cols_apply {M C : ℕ} (h : (⟨2, ![M, 1]⟩ : Shape).BroadcastsInDim ⟨2, ![M, C]⟩ ![0, 1])
    (x : (⟨2, ![M, 1]⟩ : Shape).Idx → α) (e : Fin M) (c : Fin C) :
    broadcastInDim ⟨2, ![M, C]⟩ ![0, 1] h x (ix2 e c) = x (ix2 e (0 : Fin 1)) :=
  broadcastInDim_apply ![0, 1] h x (ix2 e c) (ix2 e (0 : Fin 1)) (fun ax => by
    match ax with
    | ⟨0, _⟩ =>
      show e.val = if M = 1 then 0 else e.val
      split
      · have := e.isLt; omega
      · rfl
    | ⟨1, _⟩ => rfl)

/-- The vector unit's broadcast of an A×1 column over B columns. -/
theorem broadcastTo_col_apply {A B : ℕ} (x : (⟨2, ![A, 1]⟩ : Shape).Idx → α)
    (h : (⟨2, ![A, 1]⟩ : Shape).Broadcasts ⟨2, ![A, B]⟩) (p : Fin A) (q : Fin B) :
    broadcastTo ⟨2, ![A, B]⟩ x h (ix2 p q) = x (ix2 p (0 : Fin 1)) := by
  refine broadcastTo_apply x h (ix2 p q) (ix2 p (0 : Fin 1)) fun ax => ?_
  match ax with
  | ⟨0, _⟩ =>
    show p.val = if A = 1 then 0 else p.val
    split
    · have := p.isLt; omega
    · rfl
  | ⟨1, _⟩ => rfl

end Bcast

/-! ## The linear step -/

/-- In the reals: a weighted sum of rows times a column is the weighted sum of the rows' products with the column. -/
theorem real_lin {ι : Type} {K : ℕ} (L : Finset ι) (a : ι → ℝ) (h : ι → Fin K → ℝ) (w : Fin K → ℝ) :
    ∑ k : Fin K, (∑ e ∈ L, a e * h e k) * w k = ∑ e ∈ L, a e * ∑ k : Fin K, h e k * w k := by
  simp_rw [Finset.sum_mul, Finset.mul_sum]
  rw [Finset.sum_comm]
  exact Finset.sum_congr rfl fun e _ => Finset.sum_congr rfl fun k _ => by ring

/-- The same on the extended reals, every entry real: the zero the segment sum starts from and the zero bias the
    early product adds are absorbed. -/
theorem segment_lin {M N K O : ℕ} (L : Finset (Fin M)) (a : Fin M → EReal) (r : Fin M → Fin N) (H : Mat N K) (W : Mat K O)
    (o : Fin O) (ha : ∀ e, IsReal (a e)) (hH : Finite H) (hW : Finite W) :
    0 + ∑ e ∈ L, a e * (∑ k : Fin K, H (ix2 (r e) k) * W (ix2 k o) + 0)
      = ∑ k : Fin K, (0 + ∑ e ∈ L, a e * H (ix2 (r e) k)) * W (ix2 k o) := by
  choose a' ha' using ha
  choose h' hh' using hH
  choose w' hw' using hW
  have hl : 0 + ∑ e ∈ L, a e * (∑ k : Fin K, H (ix2 (r e) k) * W (ix2 k o) + 0)
      = ((∑ e ∈ L, a' e * ∑ k : Fin K, h' (ix2 (r e) k) * w' (ix2 k o) : ℝ) : EReal) := by
    rw [zero_add, coe_sum]
    refine Finset.sum_congr rfl fun e _ => ?_
    rw [add_zero, EReal.coe_mul, coe_sum, ha']
    refine congrArg ((a' e : EReal) * ·) (Finset.sum_congr rfl fun k _ => ?_)
    rw [EReal.coe_mul, hh', hw']
  have hr : ∑ k : Fin K, (0 + ∑ e ∈ L, a e * H (ix2 (r e) k)) * W (ix2 k o)
      = ((∑ k : Fin K, (∑ e ∈ L, a' e * h' (ix2 (r e) k)) * w' (ix2 k o) : ℝ) : EReal) := by
    rw [coe_sum]
    refine Finset.sum_congr rfl fun k _ => ?_
    rw [zero_add, EReal.coe_mul, coe_sum, hw']
    refine congrArg (· * (w' (ix2 k o) : EReal)) (Finset.sum_congr rfl fun e _ => ?_)
    rw [EReal.coe_mul, ha', hh']
  rw [hl, hr]
  exact congrArg _ (real_lin L a' (fun e k => h' (ix2 (r e) k)) (fun k => w' (ix2 k o))).symm

/-- THE LINEAR STEP, at the operations: gathering rows of H · W (a product with a zero bias row), scaling them and
    segment-summing is the segment sum of the scaled gathered rows of H, times W — for real weights and entries. -/
theorem scatter_gather_mm {N M K O w : ℕ} (hN : 0 < N)
    (wfSO : ScatterDims.WF ⟨2, ![N, O]⟩ ⟨2, ![M, 1]⟩ ⟨2, ![M, O]⟩ [1] [0] [0] 1)
    (wfSK : ScatterDims.WF ⟨2, ![N, K]⟩ ⟨2, ![M, 1]⟩ ⟨2, ![M, K]⟩ [1] [0] [0] 1)
    (wfGO : GatherDims.WF ⟨2, ![N, O]⟩ ⟨2, ![M, 1]⟩ ⟨2, ![M, O]⟩ [1] [0] [] [0] [] 1 ![1, O])
    (wfGK : GatherDims.WF ⟨2, ![N, K]⟩ ⟨2, ![M, 1]⟩ ⟨2, ![M, K]⟩ [1] [0] [] [0] [] 1 ![1, K])
    (hbO : (⟨2, ![M, 1]⟩ : Shape).BroadcastsInDim ⟨2, ![M, O]⟩ ![0, 1])
    (hbK : (⟨2, ![M, 1]⟩ : Shape).BroadcastsInDim ⟨2, ![M, K]⟩ ![0, 1])
    (zO : Mat N O) (zK : Mat N K) (hzO : ∀ i, zO i = 0) (hzK : ∀ i, zK i = 0)
    (colc rown : IVec ⟨2, ![M, 1]⟩ w) (a : (⟨2, ![M, 1]⟩ : Shape).Idx → EReal)
    (H : Mat N K) (W : Mat K O) (zb : Mat 1 O) (hzb : ∀ q, zb (ix2 (0 : Fin 1) q) = 0)
    (ha : Finite a) (hH : Finite H) (hW : Finite W) :
    Host.scatterAdd (F := Ideal) (φ := .f32) (rowScatter N O M wfSO) zO colc
        (mulf (F := Ideal) (φ := .f32) (broadcastInDim ⟨2, ![M, O]⟩ ![0, 1] hbO a)
          (Host.gather (rowGather N O M wfGO) (affine2 H W zb) rown))
      = mm (Host.scatterAdd (F := Ideal) (φ := .f32) (rowScatter N K M wfSK) zK colc
          (mulf (F := Ideal) (φ := .f32) (broadcastInDim ⟨2, ![M, K]⟩ ![0, 1] hbK a)
            (Host.gather (rowGather N K M wfGK) H rown))) W := by
  funext i
  obtain ⟨v, o, rfl⟩ : ∃ (v : Fin N) (o : Fin O), i = ix2 v o := ⟨i 0, i 1, eq_ix2 i⟩
  have hL : Host.scatterAdd (F := Ideal) (φ := .f32) (rowScatter N O M wfSO) zO colc
        (mulf (F := Ideal) (φ := .f32) (broadcastInDim ⟨2, ![M, O]⟩ ![0, 1] hbO a)
          (Host.gather (rowGather N O M wfGO) (affine2 H W zb) rown)) (ix2 v o)
      = 0 + ∑ e ∈ Finset.univ.filter (fun e : Fin M => Names (colc (ix2 e (0 : Fin 1))) v),
          a (ix2 e (0 : Fin 1)) * (∑ k : Fin K, H (ix2 (clampRow N hN (rown (ix2 e (0 : Fin 1)))) k) * W (ix2 k o) + 0) := by
    refine (rowScatterAdd_apply wfSO zO colc _ v o).trans ?_
    rw [hzO]
    refine congrArg (0 + ·) (Finset.sum_congr rfl fun e _ => ?_)
    show broadcastInDim ⟨2, ![M, O]⟩ ![0, 1] hbO a (ix2 e o) * Host.gather (rowGather N O M wfGO) (affine2 H W zb) rown (ix2 e o) = _
    rw [bcast_cols_apply, rowGather_at hN]
    show _ * (mm H W (ix2 (clampRow N hN (rown (ix2 e (0 : Fin 1)))) o) + zb (ix2 (0 : Fin 1) o)) = _
    rw [hzb]
    rfl
  have hR : ∀ k : Fin K, Host.scatterAdd (F := Ideal) (φ := .f32) (rowScatter N K M wfSK) zK colc
        (mulf (F := Ideal) (φ := .f32) (broadcastInDim ⟨2, ![M, K]⟩ ![0, 1] hbK a)
          (Host.gather (rowGather N K M wfGK) H rown)) (ix2 v k)
      = 0 + ∑ e ∈ Finset.univ.filter (fun e : Fin M => Names (colc (ix2 e (0 : Fin 1))) v),
          a (ix2 e (0 : Fin 1)) * H (ix2 (clampRow N hN (rown (ix2 e (0 : Fin 1)))) k) := by
    intro k
    refine (rowScatterAdd_apply wfSK zK colc _ v k).trans ?_
    rw [hzK]
    refine congrArg (0 + ·) (Finset.sum_congr rfl fun e _ => ?_)
    show broadcastInDim ⟨2, ![M, K]⟩ ![0, 1] hbK a (ix2 e k) * Host.gather (rowGather N K M wfGK) H rown (ix2 e k) = _
    rw [bcast_cols_apply, rowGather_at hN]
  have key : ∀ X : Mat N K, mm X W (ix2 v o) = ∑ k : Fin K, X (ix2 v k) * W (ix2 k o) := fun X => rfl
  rw [hL, key]
  refine (segment_lin _ (fun e => a (ix2 e (0 : Fin 1))) (fun e => clampRow N hN (rown (ix2 e (0 : Fin 1)))) H W o
    (fun e => ha _) hH hW).trans ?_
  exact Finset.sum_congr rfl fun k _ => congrArg (· * W (ix2 k o)) (hR k).symm

end Cert.GraphConv

end
-- ==== Proof.KerEntry.lean ====
/-
  The host stretches of the kernel's program, read entry by entry.

  The source and target words are the two rows of the edge list; the degree of node v is the number of edges whose
  target word names v, plus one; its scale is the reciprocal square root of a positive degree and zero elsewhere;
  the rows accumulated for node v are, column by column, the sum over the edges whose target word names v of the
  row taken at the edge's wrapped, clamped source word; the means divide the column sums by the number of nodes and
  the variances are the mean of squares minus the square of the mean, cut at zero.
-/
import proofs.«163069_j30202210025887_2_alg».proof.Proof.KerTerms
import proofs.«163069_j30202210025887_2_alg».proof.Proof.Spec
import proofs.«163069_j30202210025887_2_alg».proof.Proof.KerForms
import proofs.«163069_j30202210025887_2_alg».proof.Proof.LibColumn
import proofs.«163069_j30202210025887_2_alg».proof.Proof.LibGraphConv
import Idealize.ShloMosaic.Lib.ValueLayout

set_option maxRecDepth 16384

noncomputable section

namespace Cert.KernelIdeal.HostValue

open Cert.KernelIdeal Cert.KernelIdeal.Gen
open Idealize.ShloMosaic Idealize.ShloMosaic.ValueIdx
open Cert.GcnBlock Cert.Indexed Cert.Dense

open scoped BigOperators

/-! ## The literals -/

theorem one_word : Ideal.ofBits .f32 0x3F800000#32 = (1 : EReal) := by
  simp [Ideal.ofBits, Ideal.ieee, -EReal.coe_mul]; norm_num

theorem n_word : Ideal.ofBits .f32 0x47435000#32 = cN := by
  unfold cN
  simp [Ideal.ofBits, Ideal.ieee, -EReal.coe_mul]; norm_num

/-- A splat constant broadcast to any shape reads the word's value. -/
theorem bcast_const {t : Shape} (h : S_.BroadcastsInDim t (![] : Fin 0 → Fin t.rank)) (w : BitVec 32) (j : t.Idx) :
    broadcastInDim t ![] h (constant (F := Ideal) S_ .f32 w) j = Ideal.ofBits .f32 w :=
  Cert.Layout.bcast_scalar_apply _ h j

theorem bcast_constI {t : Shape} (h : S_.BroadcastsInDim t (![] : Fin 0 → Fin t.rank)) (w : BitVec 32) (j : t.Idx) :
    broadcastInDim t ![] h (constantI S_ 32 w) j = w :=
  Cert.Layout.bcast_scalar_apply _ h j

/-- The host's reciprocal square root, division and comparison at an entry (over any shape). -/
theorem host_rsqrt_apply {s : Shape} (x : FVec Ideal s .f32) (i : s.Idx) : Host.rsqrt x i = Ideal.rsqrt (x i) := rfl
theorem host_divf_apply {s : Shape} (a b : FVec Ideal s .f32) (i : s.Idx) : Host.divf a b i = Ideal.div (a i) (b i) := rfl
theorem cmpf_ideal_apply {s : Shape} (p : CmpFPredicate) (a b : FVec Ideal s .f32) (i : s.Idx) :
    cmpf p a b i = Ideal.cmp p (a i) (b i) := rfl

/-- Two sums over the edges whose word names v agree when the words and the terms agree edge by edge. -/
theorem sum_names_congr {M N : ℕ} (w w' : Fin M → BitVec 32) (f g : Fin M → EReal) (v : Fin N)
    (hw : ∀ e, w e = w' e) (hf : ∀ e, f e = g e) :
    ∑ e ∈ Finset.univ.filter (fun e => Names (w e) v), f e = ∑ e ∈ Finset.univ.filter (fun e => Names (w' e) v), g e := by
  obtain rfl : w = w' := funext hw
  exact Finset.sum_congr rfl fun e _ => hf e

/-! ## The edge words -/

theorem row_cast_apply (k : Fin 2) (off : Fin 2 → Nat) (hoff : off = ![k.val, 0]) (ei : IVec S2x800000 32)
    (hs : S2x800000.Slices off S1x800000) (hc : S1x800000.ShapeCasts S800000) (e : Fin 800000) :
    shapeCast S800000 (extractStridedSlice S1x800000 off ei hs) hc (ix1 e) = ei (ix2 k e) := by
  subst hoff
  rw [shapeCast_apply _ hc (ix1 e) (ix2 (0 : Fin 1) e) (by
    rw [Shape.rowMajor_val_two, Shape.rowMajor_val_one]
    show (0 : Fin 1).val * 800000 + e.val = e.val
    simp)]
  exact extractStridedSlice_apply _ ei hs (ix2 (0 : Fin 1) e) (ix2 k e) (fun a => by
    match a with
    | ⟨0, _⟩ => show k.val = k.val + 0; omega
    | ⟨1, _⟩ => show e.val = 0 + e.val; omega)

theorem srcW_apply (ei : IVec S2x800000 32) (e : Fin 800000) : srcW ei (ix1 e) = src ei e :=
  row_cast_apply 0 _ rfl ei _ _ e

theorem dstW_apply (ei : IVec S2x800000 32) (e : Fin 800000) : dstW ei (ix1 e) = dst ei e :=
  row_cast_apply 1 _ rfl ei _ _ e

theorem wrapW_apply (s : IVec S800000 32) (e : Fin 800000) : wrapW s (ix1 e) = wrap (s (ix1 e)) := by
  unfold wrapW wrap
  rw [select_apply]
  show Scalar.select (IntOp.cmpi .slt (s (ix1 e)) (broadcastInDim S800000 ![] bcast_S_S800000 (constantI S_ 32 0#32) (ix1 e)))
      (IntOp.addi (s (ix1 e)) (broadcastInDim S800000 ![] bcast_S_S800000 (constantI S_ 32 50000#32) (ix1 e))) (s (ix1 e)) = _
  rw [bcast_constI, bcast_constI]

/-! ## Degrees and scales -/

/-- On the extended reals the host's accumulation is the exact one, whatever the shapes. -/
theorem host_scatterAdd_eq {s si su : Shape} {w : ℕ} (d : ScatterDims s si su) (x : s.Idx → EReal) (idx : IVec si w)
    (u : su.Idx → EReal) : Host.scatterAdd (F := Ideal) (φ := .f32) d x idx u = Ideal.hostScatterAdd d x idx u := rfl

theorem flat_scatter_eq : scatter_S50000_S800000x1_S800000_n_0_0_1
    = flatScatter 50000 800000 scatter_S50000_S800000x1_S800000_n_0_0_1_wf := rfl
theorem row_scatter_eq : scatter_S50000x128_S800000x1_S800000x128_1_0_0_1
    = rowScatter 50000 128 800000 scatter_S50000x128_S800000x1_S800000x128_1_0_0_1_wf := rfl
theorem row_gather_eq : gather_S50000x128_S800000x1_S800000x128_1_0_n_n_0_1_1128
    = rowGather 50000 128 800000 gather_S50000x128_S800000x1_S800000x128_1_0_n_n_0_1_1128_wf := rfl

/-- The flat accumulation at entry v: what was there plus the updates whose word names v. -/
theorem deg_scatter (X : FVec Ideal S50000 .f32) (I : IVec S800000x1 32) (U : FVec Ideal S800000 .f32) (v : Fin 50000) :
    Host.scatterAdd scatter_S50000_S800000x1_S800000_n_0_0_1 X I U (ix1 v)
      = X (ix1 v) + ∑ r ∈ Finset.univ.filter (fun r : Fin 800000 => Names (I (ix2 r (0 : Fin 1))) v), U (ix1 r) := by
  rw [host_scatterAdd_eq, flat_scatter_eq]
  exact flatScatterAdd_at _ X I U v

theorem degA_apply (ei : IVec S2x800000 32) (v : Fin 50000) : degA ei (ix1 v) = kdeg ei v := by
  unfold degA kdeg
  rw [addf_apply, deg_scatter, bcast_const, bcast_const, one_word, Ideal.ofBits_zero_f32, zero_add]
  refine congrArg (· + (1 : EReal)) ?_
  refine sum_names_congr _ _ _ _ v (fun e => ?_) (fun e => ?_)
  · rw [Cert.Layout.bcast_vec_col_apply, dstW_apply]
  · rw [bcast_const, one_word]

theorem dinvA_apply (ei : IVec S2x800000 32) (v : Fin 50000) : dinvA ei (ix1 v) = kdinv ei v := by
  unfold dinvA kdinv dinvOf
  rw [select_apply, cmpf_ideal_apply, host_rsqrt_apply, bcast_const, Ideal.ofBits_zero_f32, degA_apply]

theorem dinv2A_apply (ei : IVec S2x800000 32) (n : Fin 50000) : dinv2A ei (ix2 n (0 : Fin 1)) = kdinv ei n := by
  unfold dinv2A
  rw [Cert.Layout.cast_vec_col_apply, dinvA_apply]

/-! ## The accumulated rows -/

theorem agg_scatter (X : FVec Ideal S50000x128 .f32) (I : IVec S800000x1 32) (U : FVec Ideal S800000x128 .f32)
    (v : Fin 50000) (o : Fin 128) :
    Host.scatterAdd scatter_S50000x128_S800000x1_S800000x128_1_0_0_1 X I U (ix2 v o)
      = X (ix2 v o) + ∑ r ∈ Finset.univ.filter (fun r : Fin 800000 => Names (I (ix2 r (0 : Fin 1))) v), U (ix2 r o) := by
  rw [host_scatterAdd_eq, row_scatter_eq]
  exact rowScatterAdd_apply _ X I U v o

theorem row_gather (X : FVec Ideal S50000x128 .f32) (I : IVec S800000x1 32) (r : Fin 800000) (o : Fin 128) :
    Host.gather gather_S50000x128_S800000x1_S800000x128_1_0_n_n_0_1_1128 X I (ix2 r o)
      = X (ix2 (clampRow 50000 (by norm_num) (I (ix2 r (0 : Fin 1)))) o) := by
  rw [row_gather_eq]
  exact rowGather_at (by norm_num) _ X I r o

theorem aggA_apply (dw sw : IVec S800000 32) (hs : FVec Ideal S50000x128 .f32) (v : Fin 50000) (o : Fin 128) :
    aggA dw sw hs (ix2 v o)
      = ∑ e ∈ Finset.univ.filter (fun e : Fin 800000 => Names (dw (ix1 e)) v), hs (ix2 (rowOf (sw (ix1 e))) o) := by
  unfold aggA
  rw [agg_scatter, bcast_const, Ideal.ofBits_zero_f32, zero_add]
  refine sum_names_congr _ _ _ _ v (fun e => ?_) (fun e => ?_)
  · rw [Cert.Layout.bcast_vec_col_apply]
  · rw [row_gather, Cert.Layout.bcast_vec_col_apply, wrapW_apply]
    rfl

/-! ## Means and variances -/

theorem meanA_apply (s : FVec Ideal S1x128 .f32) (o : Fin 128) :
    meanA s (ix2 (0 : Fin 1) o) = Ideal.div (s (ix2 (0 : Fin 1) o)) cN := by
  unfold meanA
  rw [host_divf_apply, bcast_const, n_word]

theorem varA_apply (s q : FVec Ideal S1x128 .f32) (o : Fin 128) :
    varA s q (ix2 (0 : Fin 1) o)
      = max (Ideal.div (q (ix2 (0 : Fin 1) o)) cN - Ideal.div (s (ix2 (0 : Fin 1) o)) cN * Ideal.div (s (ix2 (0 : Fin 1) o)) cN) 0 := by
  unfold varA
  rw [maximumf_apply, subf_apply, mulf_apply, host_divf_apply, bcast_const, bcast_const, n_word, Ideal.ofBits_zero_f32,
    meanA_apply]

/-- A row of 128 reshaped to 1 × 128, read at (0, o). -/
theorem row128_apply (b : FVec Ideal S128 .f32) (o : Fin 128) :
    shapeCast S1x128 b shapeCasts_S128_S1x128 (ix2 (0 : Fin 1) o) = b (ix1 o) :=
  Cert.Layout.cast_vec_row_apply b _ o

end Cert.KernelIdeal.HostValue

end
-- ==== Proof.KerPoint0.lean ====
/-
  What the first kernel leaves in its output array.

  The kernel runs at ten grid points. At point t it is given rows 5000 t … 5000 t + 4999 of x and of the column of scales,
  and the whole weight matrix W; it stores one block of 5000 × 128 values: the product of the block of x with the
  transpose of W, into a zero accumulator, times the scales' column repeated over the 128 columns. On the extended reals a
  change of float format is the identity and the product into zero is the sum over the contracted axis, so entry (p, o)
  of the block is (Σ_k x(5000 t + p, k) · W(o, k)) · scale(5000 t + p): the block is the restriction to its rows of one
  function of the three arrays. The ten blocks are written back to disjoint row ranges that together are all 50000 rows
  (row n belongs to point n / 5000), so the array ends holding that function at every entry.
-/
import proofs.«163069_j30202210025887_2_alg».proof.Proof.Gen.KernelIdeal.Frame
import proofs.«163069_j30202210025887_2_alg».proof.Proof.KerForms
import proofs.«163069_j30202210025887_2_alg».proof.Proof.LibGraphConv
import Idealize.ShloMosaic.Lib.Pipeline.Value

noncomputable section

open scoped BigOperators

namespace Cert.KernelIdeal.Point

open Cert.KernelIdeal Cert.KernelIdeal.Gen Idealize.ShloMosaic Idealize.ShloMosaic.TcCoe Idealize.SL.Sem
open Idealize.ShloMosaic.Pipeline (Dat)
open Idealize.ShloMosaic.ValueIdx Cert.Dense

/-- The first kernel's stored value at an entry of its block: the row of x against the row of W, times the row's scale. -/
theorem hs_pay (x : Vec Ideal S5000x128 .f32) (w : Vec Ideal S128x128 .f32) (d : Vec Ideal S5000x1 .f32)
    (r : Fin 5000) (o : Fin 128) :
    k0_pay1 (F := Ideal) x w d (ix2 r o) = (∑ k : Fin 128, x (ix2 r k) * w (ix2 o k)) * d (ix2 r (0 : Fin 1)) := by
  unfold k0_pay1
  dsimp only
  rw [mulf_apply]
  refine congr (congrArg _ ?_) ?_
  · refine (congrFun (matmul_plain_zero (M := 5000) (K := 128) (N := 128) (φ₁ := .bf16) (φ₂ := .bf16) none x
      (transpose S128x128 [1, 0] w transposes_S128x128_p1_0_S128x128)) (ix2 r o)).trans ?_
    unfold mm
    refine Finset.sum_congr rfl fun k _ => ?_
    show x (ix2 r k) * transpose S128x128 [1, 0] w transposes_S128x128_p1_0_S128x128 (ix2 k o) = _
    rw [transpose_ix2_apply]
  · rw [shapeCast_self]
    exact Cert.GraphConv.broadcastTo_col_apply d _ r o

/-- The literal zero offsets are the zero function. -/
theorem hz0 : (![0, 0] : Fin 2 → Nat) = fun _ => 0 := funext fun a => by fin_cases a <;> rfl

/-- The first kernel's stored value at an entry of its block, when the block's rows are the rows `ρ` of the arrays. -/
theorem hs_point (X : Mat 50000 128) (W : Mat 128 128) (D : Mat 50000 1)
    (x : Vec Ideal S5000x128 .f32) (w : Vec Ideal S128x128 .f32) (d : Vec Ideal S5000x1 .f32) (ρ : Fin 5000 → Fin 50000)
    (hx : ∀ p k, x (ix2 p k) = X (ix2 (ρ p) k)) (hw : ∀ a b, w (ix2 a b) = W (ix2 a b))
    (hd : ∀ p, d (ix2 p (0 : Fin 1)) = D (ix2 (ρ p) (0 : Fin 1))) (p : Fin 5000) (o : Fin 128) :
    k0_pay1 (F := Ideal) x w d (ix2 p o) = Cert.GcnBlock.hsOf X W D (ρ p) o := by
  rw [hs_pay, hd]
  unfold Cert.GcnBlock.hsOf
  refine congrArg (· * _) (Finset.sum_congr rfl fun k _ => ?_)
  rw [hx, hw]

variable (V : (c : Dev nD) → (b : Ref sig .tc) → Buf (Elt Ideal) ((c : Thread nD τ).loc b))

/-- The printed index maps of the first kernel's windows, decided over the ten points: the row blocks follow the point,
    the weight matrix is one block. -/
theorem idx0 : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0
    ∧ win0_3.index t (0 : Fin 2) = t.val ∧ win0_3.index t (1 : Fin 2) = 0 :=
  (by decide +kernel : ∀ t : Fin grid0.N, _)

/-- Row `p` of the block at point `t` is row `5000 t + p` of the array. -/
def rowAt0 (t : Fin cfg0.N) (p : Fin 5000) : Fin 50000 :=
  ⟨t.val * 5000 + p.val, by have h : t.val < grid0.N := t.isLt; rw [N_0] at h; have := p.isLt; omega⟩

/-- The block of x at point `t`, read at an entry, is x at the block's row in the array. -/
theorem blk0_0 (c : Dev nD) (t : Fin cfg0.N) (p : Fin 5000) (k : Fin 128) :
    (iblk0 V c 0 t : Vec Ideal S5000x128 .f32) (ix2 p k)
      = (V c (Pipeline.arrRef spec0 0) : S50000x128.Idx → EReal) (ix2 (rowAt0 t p) k) := by
  obtain ⟨e0, e1, -⟩ := idx0 t
  unfold iblk0
  rw [View.read_apply]
  show V c (Pipeline.arrRef spec0 0) (((cfg0.win 0).blk t).view.emb (ix2 p k)) = _
  refine congrArg (V c (Pipeline.arrRef spec0 0)) (funext fun a => Fin.ext ?_)
  match a with
  | ⟨0, _⟩ => show win0_0.index t (0 : Fin 2) * 5000 + 1 * p.val = t.val * 5000 + p.val; rw [e0]; omega
  | ⟨1, _⟩ => show win0_0.index t (1 : Fin 2) * 128 + 1 * k.val = k.val; rw [e1]; omega

/-- The weight matrix is one block: its block at any point is the matrix. -/
theorem blk0_1 (c : Dev nD) (t : Fin cfg0.N) (a b : Fin 128) :
    (iblk0 V c 1 t : Vec Ideal S128x128 .f32) (ix2 a b)
      = (V c (Pipeline.arrRef spec0 1) : S128x128.Idx → EReal) (ix2 a b) := by
  obtain ⟨-, -, e0, e1, -⟩ := idx0 t
  unfold iblk0
  rw [View.read_apply]
  show V c (Pipeline.arrRef spec0 1) (((cfg0.win 1).blk t).view.emb (ix2 a b)) = _
  refine congrArg (V c (Pipeline.arrRef spec0 1)) (funext fun ax => Fin.ext ?_)
  match ax with
  | ⟨0, _⟩ => show win0_1.index t (0 : Fin 2) * 128 + 1 * a.val = a.val; rw [e0]; omega
  | ⟨1, _⟩ => show win0_1.index t (1 : Fin 2) * 128 + 1 * b.val = b.val; rw [e1]; omega

/-- The block of the scales' column at point `t`, read at a row, is the column at the block's row in the array. -/
theorem blk0_2 (c : Dev nD) (t : Fin cfg0.N) (p : Fin 5000) :
    (iblk0 V c 2 t : Vec Ideal S5000x1 .f32) (ix2 p (0 : Fin 1))
      = (V c (Pipeline.arrRef spec0 2) : S50000x1.Idx → EReal) (ix2 (rowAt0 t p) (0 : Fin 1)) := by
  obtain ⟨-, -, -, -, e0, e1, -⟩ := idx0 t
  unfold iblk0
  rw [View.read_apply]
  show V c (Pipeline.arrRef spec0 2) (((cfg0.win 2).blk t).view.emb (ix2 p (0 : Fin 1))) = _
  refine congrArg (V c (Pipeline.arrRef spec0 2)) (funext fun ax => Fin.ext ?_)
  match ax with
  | ⟨0, _⟩ => show win0_2.index t (0 : Fin 2) * 5000 + 1 * p.val = t.val * 5000 + p.val; rw [e0]; omega
  | ⟨1, _⟩ => show win0_2.index t (1 : Fin 2) * 1 + 1 * 0 = 0; rw [e1]

/-- The first kernel's output array as one function of the arrays it is given. -/
def hsArr (c : Dev nD) : S50000x128.Idx → EReal := fun i =>
  Cert.GcnBlock.hsOf (V c (Pipeline.arrRef spec0 0)) (V c (Pipeline.arrRef spec0 1)) (V c (Pipeline.arrRef spec0 2)) (i 0) (i 1)

/-- What point `t` writes back is block `t` of that function. -/
theorem flushed3_eq (c : Dev nD) (t : Fin cfg0.N) :
    (dat0 V c).flushed 3 t = ((cfg0.win 3).blk t).view.read (Elt Ideal) (hsArr V c) := by
  show (cfg0.win 3).cut (grid0.coords t) ((dat0 V c).after 3 t) = _
  rw [after0_3]
  unfold out0_3
  rw [View.canon_unit_zero hz0]
  simp only [View.ld_unit_zero (S := S5000x128) hz0, View.ld_unit_zero (S := S128x128) hz0, View.ld_unit_zero (S := S5000x1) hz0]
  funext j
  obtain ⟨p, q, rfl⟩ : ∃ (p : Fin 5000) (q : Fin 128), j = ix2 p q := ⟨j 0, j 1, eq_ix2 j⟩
  show k0_pay1 (F := Ideal) (iblk0 V c 0 t) (iblk0 V c 1 t) (iblk0 V c 2 t) (ix2 p q)
      = hsArr V c (((cfg0.win 3).blk t).view.emb (ix2 p q))
  refine (hs_point (V c (Pipeline.arrRef spec0 0)) (V c (Pipeline.arrRef spec0 1)) (V c (Pipeline.arrRef spec0 2))
      (iblk0 V c 0 t) (iblk0 V c 1 t) (iblk0 V c 2 t) (rowAt0 t) (blk0_0 V c t) (blk0_1 V c t) (blk0_2 V c t) p q).trans ?_
  obtain ⟨-, -, -, -, -, -, e0, e1⟩ := idx0 t
  have hemb : ((cfg0.win 3).blk t).view.emb (ix2 p q) = (ix2 (rowAt0 t p) q : S50000x128.Idx) :=
    funext fun a => Fin.ext (by
      match a with
      | ⟨0, _⟩ => show win0_3.index t (0 : Fin 2) * 5000 + 1 * p.val = t.val * 5000 + p.val; rw [e0]; omega
      | ⟨1, _⟩ => show win0_3.index t (1 : Fin 2) * 128 + 1 * q.val = q.val; rw [e1]; omega)
  rw [hemb]
  rfl

/-- An index of the array is in point `t`'s block iff each coordinate is in the block's range on its axis. -/
theorem mem_blk3 (t : Fin cfg0.N) (i : S50000x128.Idx) :
    i ∈ ((cfg0.win 3).blk t).view.set ↔ ∀ a : Fin 2, win0_3.index t a * S5000x128.size a ≤ (i a).val
      ∧ (i a).val < win0_3.index t a * S5000x128.size a + S5000x128.size a := by
  show i ∈ ((View.whole main_v15).slice (win0_3.rect t)).set ↔ _
  rw [View.set_slice_whole, Rect.mem_set_unit]
  exact Iff.rfl

/-- The ten row blocks cover the array: row `n` is in the block of point `n / 5000`. -/
theorem cover3 (i : S50000x128.Idx) :
    ∃ t : Fin cfg0.N, (cfg0.win 3).flush t = true ∧ i ∈ ((cfg0.win 3).blk t).view.set := by
  have hi0 : (i 0).val < 50000 := (i 0).isLt
  have hi1 : (i 1).val < 128 := (i 1).isLt
  have hN : grid0.N = 10 := N_0
  obtain ⟨t, ht⟩ : ∃ t : Fin cfg0.N, t.val = (i 0).val / 5000 :=
    ⟨⟨(i 0).val / 5000, by show _ < grid0.N; rw [hN]; omega⟩, rfl⟩
  obtain ⟨-, -, -, -, -, -, e0, e1⟩ := idx0 t
  refine ⟨t, flush0_3 t, ?_⟩
  rw [mem_blk3]
  intro a
  match a with
  | ⟨0, _⟩ =>
    show win0_3.index t (0 : Fin 2) * 5000 ≤ (i 0).val ∧ (i 0).val < win0_3.index t (0 : Fin 2) * 5000 + 5000
    rw [e0, ht]; omega
  | ⟨1, _⟩ =>
    show win0_3.index t (1 : Fin 2) * 128 ≤ (i 1).val ∧ (i 1).val < win0_3.index t (1 : Fin 2) * 128 + 128
    rw [e1]; omega

/-- The first kernel's output array after its ten write-backs, entry by entry. -/
theorem arr3 (c : Dev nD) (n : Fin 50000) (o : Fin 128) :
    ((dat0 V c).arrAt 3 cfg0.N : S50000x128.Idx → EReal) (ix2 n o)
      = Cert.GcnBlock.hsOf (V c (Pipeline.arrRef spec0 0)) (V c (Pipeline.arrRef spec0 1)) (V c (Pipeline.arrRef spec0 2)) n o :=
  congrFun ((dat0 V c).arrAt_eq_of_cover 3 (hsArr V c) (fun t _ => flushed3_eq V c t) cover3) (ix2 n o)

end Cert.KernelIdeal.Point

end
-- ==== Proof.KerPoint2.lean ====
/-
  What the third kernel leaves in its output array.

  The kernel runs at ten grid points. At point t it is given rows 5000 t … 5000 t + 4999 of a matrix and four whole rows of
  128 values — means, variances, gains, shifts — and stores one block of 5000 × 128 values, computed entry by entry: each
  row is repeated over the 5000 rows of the block, the guard ε is added to the variances and the reciprocal square root
  taken, and entry (p, o) is max(gain(o) · (v(5000 t + p, o) − mean(o)) · rsqrt(var(o) + ε) + shift(o), 0). The guard stays
  the word the program prints; the zero word is the number zero. So the block is the restriction to its rows of one
  function of the five arrays. The ten blocks are written back to disjoint row ranges that together are all 50000 rows
  (row n belongs to point n / 5000), so the array ends holding that function at every entry.
-/
import proofs.«163069_j30202210025887_2_alg».proof.Proof.Gen.KernelIdeal.Frame
import proofs.«163069_j30202210025887_2_alg».proof.Proof.KerForms
import Idealize.ShloMosaic.Lib.Pipeline.Value
import Idealize.ShloMosaic.Lib.ValueLayout

noncomputable section

open scoped BigOperators

namespace Cert.KernelIdeal.Point

open Cert.KernelIdeal Cert.KernelIdeal.Gen Idealize.ShloMosaic Idealize.ShloMosaic.TcCoe Idealize.SL.Sem
open Idealize.ShloMosaic.Pipeline (Dat)
open Idealize.ShloMosaic.ValueIdx Cert.Dense

/-- The third kernel's stored value at an entry of its block. -/
theorem out_pay (v : Vec Ideal S5000x128 .f32) (mean var g be : Vec Ideal S1x128 .f32) (r : Fin 5000) (o : Fin 128) :
    k2_pay1 (F := Ideal) var g v mean be (ix2 r o)
      = max (((g (ix2 (0 : Fin 1) o) * (v (ix2 r o) - mean (ix2 (0 : Fin 1) o)))
          * Ideal.rsqrt (var (ix2 (0 : Fin 1) o) + Cert.GcnBlock.eps)) + be (ix2 (0 : Fin 1) o)) 0 := by
  unfold k2_pay1
  try dsimp only
  simp only [shapeCast_self]
  show max ((broadcastTo S5000x128 g broadcasts_S1x128_S5000x128 (ix2 r o)
        * (v (ix2 r o) - broadcastTo S5000x128 mean broadcasts_S1x128_S5000x128 (ix2 r o)))
      * broadcastTo S5000x128 (rsqrt (addf var (broadcast S1x128 (FloatOps.ofBits (F := Ideal) .f32 0x3727C5AC#32))))
          broadcasts_S1x128_S5000x128 (ix2 r o)
      + broadcastTo S5000x128 be broadcasts_S1x128_S5000x128 (ix2 r o)) (Ideal.ofBits .f32 0x00000000#32) = _
  rw [broadcastTo_1b_ab_apply, broadcastTo_1b_ab_apply, broadcastTo_1b_ab_apply, broadcastTo_1b_ab_apply,
    Ideal.ofBits_zero_f32]
  rfl

/-- The literal zero offsets are the zero function. -/
theorem hz2 : (![0, 0] : Fin 2 → Nat) = fun _ => 0 := funext fun a => by fin_cases a <;> rfl

/-- The third kernel's stored value at an entry of its block, when the block's rows are the rows `ρ` of the matrix and
    the four rows are the arrays' rows. -/
theorem out_point (A : Mat 50000 128) (Mn Vr G B : Mat 1 128)
    (v : Vec Ideal S5000x128 .f32) (mean var g be : Vec Ideal S1x128 .f32) (ρ : Fin 5000 → Fin 50000)
    (hv : ∀ p o, v (ix2 p o) = A (ix2 (ρ p) o))
    (hm : ∀ o, mean (ix2 (0 : Fin 1) o) = Mn (ix2 (0 : Fin 1) o))
    (hvr : ∀ o, var (ix2 (0 : Fin 1) o) = Vr (ix2 (0 : Fin 1) o))
    (hg : ∀ o, g (ix2 (0 : Fin 1) o) = G (ix2 (0 : Fin 1) o))
    (hb : ∀ o, be (ix2 (0 : Fin 1) o) = B (ix2 (0 : Fin 1) o)) (p : Fin 5000) (o : Fin 128) :
    k2_pay1 (F := Ideal) var g v mean be (ix2 p o) = Cert.GcnBlock.outOf A Mn Vr G B (ρ p) o := by
  rw [out_pay, hv, hm, hvr, hg, hb]
  rfl

variable (V : (c : Dev nD) → (b : Ref sig .tc) → Buf (Elt Ideal) ((c : Thread nD τ).loc b))

/-- The printed index maps of the third kernel's windows, decided over the ten points: the matrix's and the output's row
    blocks follow the point, each of the four rows is one block. -/
theorem idx2 : ∀ t : Fin cfg2.N, win2_0.index t (0 : Fin 2) = t.val ∧ win2_0.index t (1 : Fin 2) = 0
    ∧ win2_1.index t (0 : Fin 2) = 0 ∧ win2_1.index t (1 : Fin 2) = 0
    ∧ win2_2.index t (0 : Fin 2) = 0 ∧ win2_2.index t (1 : Fin 2) = 0
    ∧ win2_3.index t (0 : Fin 2) = 0 ∧ win2_3.index t (1 : Fin 2) = 0
    ∧ win2_4.index t (0 : Fin 2) = 0 ∧ win2_4.index t (1 : Fin 2) = 0
    ∧ win2_5.index t (0 : Fin 2) = t.val ∧ win2_5.index t (1 : Fin 2) = 0 :=
  (by decide +kernel : ∀ t : Fin grid2.N, _)

/-- Row `p` of the block at point `t` is row `5000 t + p` of the array. -/
def rowAt2 (t : Fin cfg2.N) (p : Fin 5000) : Fin 50000 :=
  ⟨t.val * 5000 + p.val, by have h : t.val < grid2.N := t.isLt; rw [N_2] at h; have := p.isLt; omega⟩

/-- The block of the matrix at point `t`, read at an entry, is the matrix at the block's row in the array. -/
theorem blk2_0 (c : Dev nD) (t : Fin cfg2.N) (p : Fin 5000) (o : Fin 128) :
    (iblk2 V c 0 t : Vec Ideal S5000x128 .f32) (ix2 p o)
      = (V c (Pipeline.arrRef spec2 0) : S50000x128.Idx → EReal) (ix2 (rowAt2 t p) o) := by
  obtain ⟨e0, e1, -⟩ := idx2 t
  unfold iblk2
  rw [View.read_apply]
  show V c (Pipeline.arrRef spec2 0) (((cfg2.win 0).blk t).view.emb (ix2 p o)) = _
  refine congrArg (V c (Pipeline.arrRef spec2 0)) (funext fun a => Fin.ext ?_)
  match a with
  | ⟨0, _⟩ => show win2_0.index t (0 : Fin 2) * 5000 + 1 * p.val = t.val * 5000 + p.val; rw [e0]; omega
  | ⟨1, _⟩ => show win2_0.index t (1 : Fin 2) * 128 + 1 * o.val = o.val; rw [e1]; omega

/-- The row of means is one block: its block at any point is the row. -/
theorem blk2_1 (c : Dev nD) (t : Fin cfg2.N) (o : Fin 128) :
    (iblk2 V c 1 t : Vec Ideal S1x128 .f32) (ix2 (0 : Fin 1) o)
      = (V c (Pipeline.arrRef spec2 1) : S1x128.Idx → EReal) (ix2 (0 : Fin 1) o) := by
  obtain ⟨-, -, e0, e1, -⟩ := idx2 t
  unfold iblk2
  rw [View.read_apply]
  show V c (Pipeline.arrRef spec2 1) (((cfg2.win 1).blk t).view.emb (ix2 (0 : Fin 1) o)) = _
  refine congrArg (V c (Pipeline.arrRef spec2 1)) (funext fun ax => Fin.ext ?_)
  match ax with
  | ⟨0, _⟩ => show win2_1.index t (0 : Fin 2) * 1 + 1 * 0 = 0; rw [e0]
  | ⟨1, _⟩ => show win2_1.index t (1 : Fin 2) * 128 + 1 * o.val = o.val; rw [e1]; omega

/-- The row of variances is one block: its block at any point is the row. -/
theorem blk2_2 (c : Dev nD) (t : Fin cfg2.N) (o : Fin 128) :
    (iblk2 V c 2 t : Vec Ideal S1x128 .f32) (ix2 (0 : Fin 1) o)
      = (V c (Pipeline.arrRef spec2 2) : S1x128.Idx → EReal) (ix2 (0 : Fin 1) o) := by
  obtain ⟨-, -, -, -, e0, e1, -⟩ := idx2 t
  unfold iblk2
  rw [View.read_apply]
  show V c (Pipeline.arrRef spec2 2) (((cfg2.win 2).blk t).view.emb (ix2 (0 : Fin 1) o)) = _
  refine congrArg (V c (Pipeline.arrRef spec2 2)) (funext fun ax => Fin.ext ?_)
  match ax with
  | ⟨0, _⟩ => show win2_2.index t (0 : Fin 2) * 1 + 1 * 0 = 0; rw [e0]
  | ⟨1, _⟩ => show win2_2.index t (1 : Fin 2) * 128 + 1 * o.val = o.val; rw [e1]; omega

/-- The row of gains is one block: its block at any point is the row. -/
theorem blk2_3 (c : Dev nD) (t : Fin cfg2.N) (o : Fin 128) :
    (iblk2 V c 3 t : Vec Ideal S1x128 .f32) (ix2 (0 : Fin 1) o)
      = (V c (Pipeline.arrRef spec2 3) : S1x128.Idx → EReal) (ix2 (0 : Fin 1) o) := by
  obtain ⟨-, -, -, -, -, -, e0, e1, -⟩ := idx2 t
  unfold iblk2
  rw [View.read_apply]
  show V c (Pipeline.arrRef spec2 3) (((cfg2.win 3).blk t).view.emb (ix2 (0 : Fin 1) o)) = _
  refine congrArg (V c (Pipeline.arrRef spec2 3)) (funext fun ax => Fin.ext ?_)
  match ax with
  | ⟨0, _⟩ => show win2_3.index t (0 : Fin 2) * 1 + 1 * 0 = 0; rw [e0]
  | ⟨1, _⟩ => show win2_3.index t (1 : Fin 2) * 128 + 1 * o.val = o.val; rw [e1]; omega

/-- The row of shifts is one block: its block at any point is the row. -/
theorem blk2_4 (c : Dev nD) (t : Fin cfg2.N) (o : Fin 128) :
    (iblk2 V c 4 t : Vec Ideal S1x128 .f32) (ix2 (0 : Fin 1) o)
      = (V c (Pipeline.arrRef spec2 4) : S1x128.Idx → EReal) (ix2 (0 : Fin 1) o) := by
  obtain ⟨-, -, -, -, -, -, -, -, e0, e1, -⟩ := idx2 t
  unfold iblk2
  rw [View.read_apply]
  show V c (Pipeline.arrRef spec2 4) (((cfg2.win 4).blk t).view.emb (ix2 (0 : Fin 1) o)) = _
  refine congrArg (V c (Pipeline.arrRef spec2 4)) (funext fun ax => Fin.ext ?_)
  match ax with
  | ⟨0, _⟩ => show win2_4.index t (0 : Fin 2) * 1 + 1 * 0 = 0; rw [e0]
  | ⟨1, _⟩ => show win2_4.index t (1 : Fin 2) * 128 + 1 * o.val = o.val; rw [e1]; omega

/-- The third kernel's output array as one function of the arrays it is given. -/
def outArr (c : Dev nD) : S50000x128.Idx → EReal := fun i =>
  Cert.GcnBlock.outOf (V c (Pipeline.arrRef spec2 0)) (V c (Pipeline.arrRef spec2 1)) (V c (Pipeline.arrRef spec2 2))
    (V c (Pipeline.arrRef spec2 3)) (V c (Pipeline.arrRef spec2 4)) (i 0) (i 1)

/-- What point `t` writes back is block `t` of that function. -/
theorem flushed5_eq (c : Dev nD) (t : Fin cfg2.N) :
    (dat2 V c).flushed 5 t = ((cfg2.win 5).blk t).view.read (Elt Ideal) (outArr V c) := by
  show (cfg2.win 5).cut (grid2.coords t) ((dat2 V c).after 5 t) = _
  rw [after2_5]
  unfold out2_5
  rw [View.canon_unit_zero hz2]
  simp only [View.ld_unit_zero (S := S5000x128) hz2, View.ld_unit_zero (S := S1x128) hz2]
  funext j
  obtain ⟨p, q, rfl⟩ : ∃ (p : Fin 5000) (q : Fin 128), j = ix2 p q := ⟨j 0, j 1, eq_ix2 j⟩
  show k2_pay1 (F := Ideal) (iblk2 V c 2 t) (iblk2 V c 3 t) (iblk2 V c 0 t) (iblk2 V c 1 t) (iblk2 V c 4 t) (ix2 p q)
      = outArr V c (((cfg2.win 5).blk t).view.emb (ix2 p q))
  refine (out_point (V c (Pipeline.arrRef spec2 0)) (V c (Pipeline.arrRef spec2 1)) (V c (Pipeline.arrRef spec2 2))
      (V c (Pipeline.arrRef spec2 3)) (V c (Pipeline.arrRef spec2 4))
      (iblk2 V c 0 t) (iblk2 V c 1 t) (iblk2 V c 2 t) (iblk2 V c 3 t) (iblk2 V c 4 t) (rowAt2 t)
      (blk2_0 V c t) (blk2_1 V c t) (blk2_2 V c t) (blk2_3 V c t) (blk2_4 V c t) p q).trans ?_
  obtain ⟨-, -, -, -, -, -, -, -, -, -, e0, e1⟩ := idx2 t
  have hemb : ((cfg2.win 5).blk t).view.emb (ix2 p q) = (ix2 (rowAt2 t p) q : S50000x128.Idx) :=
    funext fun a => Fin.ext (by
      match a with
      | ⟨0, _⟩ => show win2_5.index t (0 : Fin 2) * 5000 + 1 * p.val = t.val * 5000 + p.val; rw [e0]; omega
      | ⟨1, _⟩ => show win2_5.index t (1 : Fin 2) * 128 + 1 * q.val = q.val; rw [e1]; omega)
  rw [hemb]
  rfl

/-- An index of the array is in point `t`'s block iff each coordinate is in the block's range on its axis. -/
theorem mem_blk5 (t : Fin cfg2.N) (i : S50000x128.Idx) :
    i ∈ ((cfg2.win 5).blk t).view.set ↔ ∀ a : Fin 2, win2_5.index t a * S5000x128.size a ≤ (i a).val
      ∧ (i a).val < win2_5.index t a * S5000x128.size a + S5000x128.size a := by
  show i ∈ ((View.whole main_v38).slice (win2_5.rect t)).set ↔ _
  rw [View.set_slice_whole, Rect.mem_set_unit]
  exact Iff.rfl

/-- The ten row blocks cover the array: row `n` is in the block of point `n / 5000`. -/
theorem cover5 (i : S50000x128.Idx) :
    ∃ t : Fin cfg2.N, (cfg2.win 5).flush t = true ∧ i ∈ ((cfg2.win 5).blk t).view.set := by
  have hi0 : (i 0).val < 50000 := (i 0).isLt
  have hi1 : (i 1).val < 128 := (i 1).isLt
  have hN : grid2.N = 10 := N_2
  obtain ⟨t, ht⟩ : ∃ t : Fin cfg2.N, t.val = (i 0).val / 5000 :=
    ⟨⟨(i 0).val / 5000, by show _ < grid2.N; rw [hN]; omega⟩, rfl⟩
  obtain ⟨-, -, -, -, -, -, -, -, -, -, e0, e1⟩ := idx2 t
  refine ⟨t, flush2_5 t, ?_⟩
  rw [mem_blk5]
  intro a
  match a with
  | ⟨0, _⟩ =>
    show win2_5.index t (0 : Fin 2) * 5000 ≤ (i 0).val ∧ (i 0).val < win2_5.index t (0 : Fin 2) * 5000 + 5000
    rw [e0, ht]; omega
  | ⟨1, _⟩ =>
    show win2_5.index t (1 : Fin 2) * 128 ≤ (i 1).val ∧ (i 1).val < win2_5.index t (1 : Fin 2) * 128 + 128
    rw [e1]; omega

/-- The third kernel's output array after its ten write-backs, entry by entry. -/
theorem arr5 (c : Dev nD) (n : Fin 50000) (o : Fin 128) :
    ((dat2 V c).arrAt 5 cfg2.N : S50000x128.Idx → EReal) (ix2 n o)
      = Cert.GcnBlock.outOf (V c (Pipeline.arrRef spec2 0)) (V c (Pipeline.arrRef spec2 1)) (V c (Pipeline.arrRef spec2 2))
          (V c (Pipeline.arrRef spec2 3)) (V c (Pipeline.arrRef spec2 4)) n o :=
  congrFun ((dat2 V c).arrAt_eq_of_cover 5 (outArr V c) (fun t _ => flushed5_eq V c t) cover5) (ix2 n o)

end Cert.KernelIdeal.Point

end
-- ==== Proof.KerStatsPoint.lean ====
/-
  One grid point of the second kernel (the matrix with its two column statistics), on the extended reals.

  The kernel walks ten blocks of 5000 rows. At each point it is given a block of summed rows, a block of scaled
  rows, a block of scales (one per row), a block of x, the whole square matrix RW and the bias row, and it stores

      block(r, o) = scale(r) · (summed(r, o) + scaled(r, o)) + Σ_k x(r, k) · RW(o, k) + bias(o),

  then adds the block's column sums into one row of accumulators and the column sums of the block's squares into
  another; the first point zeroes both accumulators first.

  This module reads that off the three staging buffers: what each of the two control cases leaves in each buffer is
  a payload of the blocks given (the covering stores read back), each payload is read at an entry (the product with
  the transposed matrix into zero is the sum over k; the column and row broadcasts read their one column or row; a
  change of float format is the identity on the extended reals; the reduction over the rows is the sum over the
  5000 rows), and row r of a block at point t is row t · 5000 + r of its array. Together: the row formula of the
  blocks at point t, at (r, o), is the entry (t · 5000 + r, o) of the matrix.
-/
import proofs.«163069_j30202210025887_2_alg».proof.Proof.Gen.KernelIdeal.Frame
import proofs.«163069_j30202210025887_2_alg».proof.Proof.KerForms
import proofs.«163069_j30202210025887_2_alg».proof.Proof.LibDense
import proofs.«163069_j30202210025887_2_alg».proof.Proof.LibGraphConv
import Idealize.ShloMosaic.Lib.Pipeline.Value
import Idealize.ShloMosaic.Lib.Tactic

noncomputable section

open scoped BigOperators
open Idealize.ShloMosaic Idealize.ShloMosaic.TcCoe Idealize.SL.Sem
open Idealize.ShloMosaic.Pipeline (Dat)

namespace Cert.KernelIdeal.Stats

open Cert.KernelIdeal Cert.KernelIdeal.Gen Idealize.ShloMosaic.ValueIdx

section Pieces
variable {F : FTy → Type} [FloatOps F]

theorem hz : (![0, 0] : Fin 2 → Nat) = fun _ => 0 := funext fun a => by fin_cases a <;> rfl

/-! ## What each control case leaves in each output's staging buffer, as a payload of the blocks it was given -/

/-- First point, the matrix block: the row formula of the six input blocks. -/
theorem out_A_6 (c : Dev nD) (i : grid1.Coords) (arg1 : Memref sig .tc .vmem S5000x128 .f32) (harg1 : arg1.IsWhole) (arg2 : Memref sig .tc .vmem S5000x128 .f32) (harg2 : arg2.IsWhole) (arg3 : Memref sig .tc .vmem S5000x1 .f32) (harg3 : arg3.IsWhole) (arg4 : Memref sig .tc .vmem S5000x128 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S5000x128 .f32) (harg7 : arg7.IsWhole) (arg8 : Memref sig .tc .vmem S1x128 .f32) (harg8 : arg8.IsWhole) (arg9 : Memref sig .tc .vmem S1x128 .f32) (harg9 : arg9.IsWhole) (hc0 : cond1_0 i) (x0 : Vec F S5000x128 .f32) (x1 : Vec F S5000x128 .f32) (x2 : Vec F S5000x1 .f32) (x3 : Vec F S5000x128 .f32) (x4 : Vec F S128x128 .f32) (x5 : Vec F S1x128 .f32) :
    out1_A_6 c i arg1 harg1 arg2 harg2 arg3 harg3 arg4 harg4 arg5 harg5 arg6 harg6 arg7 harg7 arg8 harg8 arg9 harg9 hc0 x0 x1 x2 x3 x4 x5 = k1_pay4 x3 x4 x2 x0 x1 x5 := by
  unfold out1_A_6
  rw [View.read_writes_eq_canon _ _ _ (cover1_A_6 c i arg1 harg1 arg2 harg2 arg3 harg3 arg4 harg4 arg5 harg5 arg6 harg6 arg7 harg7 arg8 harg8 arg9 harg9 hc0 x0 x1 x2 x3 x4 x5)]
  unfold kernelRun1_A
  dsimp only
  rw [View.canon_unit_zero hz]
  simp only [View.readAt_eq_ld, harg1.read_unread, harg2.read_unread, harg3.read_unread, harg4.read_unread, harg5.read_unread, harg6.read_unread, View.ld_unit_zero (S := S5000x128) hz, View.ld_unit_zero (S := S128x128) hz, View.ld_unit_zero (S := S5000x1) hz, View.ld_unit_zero (S := S1x128) hz]

/-- First point, the sum accumulator: the zero row plus the block's column sums. -/
theorem out_A_7 (c : Dev nD) (i : grid1.Coords) (arg1 : Memref sig .tc .vmem S5000x128 .f32) (harg1 : arg1.IsWhole) (arg2 : Memref sig .tc .vmem S5000x128 .f32) (harg2 : arg2.IsWhole) (arg3 : Memref sig .tc .vmem S5000x1 .f32) (harg3 : arg3.IsWhole) (arg4 : Memref sig .tc .vmem S5000x128 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S5000x128 .f32) (harg7 : arg7.IsWhole) (arg8 : Memref sig .tc .vmem S1x128 .f32) (harg8 : arg8.IsWhole) (arg9 : Memref sig .tc .vmem S1x128 .f32) (harg9 : arg9.IsWhole) (hc0 : cond1_0 i) (x0 : Vec F S5000x128 .f32) (x1 : Vec F S5000x128 .f32) (x2 : Vec F S5000x1 .f32) (x3 : Vec F S5000x128 .f32) (x4 : Vec F S128x128 .f32) (x5 : Vec F S1x128 .f32) :
    out1_A_7 c i arg1 harg1 arg2 harg2 arg3 harg3 arg4 harg4 arg5 harg5 arg6 harg6 arg7 harg7 arg8 harg8 arg9 harg9 hc0 x0 x1 x2 x3 x4 x5 = k1_pay5 x3 x4 x2 x0 x1 x5 (k1_pay2 (F := F)) := by
  unfold out1_A_7
  rw [View.read_writes_eq_canon _ _ _ (cover1_A_7 c i arg1 harg1 arg2 harg2 arg3 harg3 arg4 harg4 arg5 harg5 arg6 harg6 arg7 harg7 arg8 harg8 arg9 harg9 hc0 x0 x1 x2 x3 x4 x5)]
  unfold kernelRun1_A
  dsimp only
  sl_unfold_words
  rw [View.canon_cons_unit_zero (S := S1x128) hz, View.readCov_unit_zero (S := S1x128) _ hz]
  simp only [View.readAt_eq_ld, harg1.read_unread, harg2.read_unread, harg3.read_unread, harg4.read_unread, harg5.read_unread, harg6.read_unread, View.ld_unit_zero (S := S5000x128) hz, View.ld_unit_zero (S := S128x128) hz, View.ld_unit_zero (S := S5000x1) hz, View.ld_unit_zero (S := S1x128) hz]

/-- First point, the sum-of-squares accumulator: the zero row plus the block's column sums of squares. -/
theorem out_A_8 (c : Dev nD) (i : grid1.Coords) (arg1 : Memref sig .tc .vmem S5000x128 .f32) (harg1 : arg1.IsWhole) (arg2 : Memref sig .tc .vmem S5000x128 .f32) (harg2 : arg2.IsWhole) (arg3 : Memref sig .tc .vmem S5000x1 .f32) (harg3 : arg3.IsWhole) (arg4 : Memref sig .tc .vmem S5000x128 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S5000x128 .f32) (harg7 : arg7.IsWhole) (arg8 : Memref sig .tc .vmem S1x128 .f32) (harg8 : arg8.IsWhole) (arg9 : Memref sig .tc .vmem S1x128 .f32) (harg9 : arg9.IsWhole) (hc0 : cond1_0 i) (x0 : Vec F S5000x128 .f32) (x1 : Vec F S5000x128 .f32) (x2 : Vec F S5000x1 .f32) (x3 : Vec F S5000x128 .f32) (x4 : Vec F S128x128 .f32) (x5 : Vec F S1x128 .f32) :
    out1_A_8 c i arg1 harg1 arg2 harg2 arg3 harg3 arg4 harg4 arg5 harg5 arg6 harg6 arg7 harg7 arg8 harg8 arg9 harg9 hc0 x0 x1 x2 x3 x4 x5 = k1_pay1 (k1_pay4 x3 x4 x2 x0 x1 x5) (k1_pay6 (k1_pay3 (F := F))) := by
  unfold out1_A_8
  rw [View.read_writes_eq_canon _ _ _ (cover1_A_8 c i arg1 harg1 arg2 harg2 arg3 harg3 arg4 harg4 arg5 harg5 arg6 harg6 arg7 harg7 arg8 harg8 arg9 harg9 hc0 x0 x1 x2 x3 x4 x5)]
  unfold kernelRun1_A
  dsimp only
  sl_unfold_words
  rw [View.canon_cons_unit_zero (S := S1x128) hz, View.readCov_unit_zero (S := S1x128) _ hz]
  simp only [View.readAt_eq_ld, harg1.read_unread, harg2.read_unread, harg3.read_unread, harg4.read_unread, harg5.read_unread, harg6.read_unread, View.ld_unit_zero (S := S5000x128) hz, View.ld_unit_zero (S := S128x128) hz, View.ld_unit_zero (S := S5000x1) hz, View.ld_unit_zero (S := S1x128) hz]

/-- A later point, the matrix block: the same row formula. -/
theorem out_B_6 (c : Dev nD) (i : grid1.Coords) (arg1 : Memref sig .tc .vmem S5000x128 .f32) (harg1 : arg1.IsWhole) (arg2 : Memref sig .tc .vmem S5000x128 .f32) (harg2 : arg2.IsWhole) (arg3 : Memref sig .tc .vmem S5000x1 .f32) (harg3 : arg3.IsWhole) (arg4 : Memref sig .tc .vmem S5000x128 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S5000x128 .f32) (harg7 : arg7.IsWhole) (arg8 : Memref sig .tc .vmem S1x128 .f32) (harg8 : arg8.IsWhole) (arg9 : Memref sig .tc .vmem S1x128 .f32) (harg9 : arg9.IsWhole) (hc0 : ¬cond1_0 i) (x0 : Vec F S5000x128 .f32) (x1 : Vec F S5000x128 .f32) (x2 : Vec F S5000x1 .f32) (x3 : Vec F S5000x128 .f32) (x4 : Vec F S128x128 .f32) (x5 : Vec F S1x128 .f32) (xo7 xo8 : Vec F S1x128 .f32) :
    out1_B_6 c i arg1 harg1 arg2 harg2 arg3 harg3 arg4 harg4 arg5 harg5 arg6 harg6 arg7 harg7 arg8 harg8 arg9 harg9 hc0 x0 x1 x2 x3 x4 x5 xo7 xo8 = k1_pay4 x3 x4 x2 x0 x1 x5 := by
  unfold out1_B_6
  rw [View.read_writes_eq_canon _ _ _ (cover1_B_6 c i arg1 harg1 arg2 harg2 arg3 harg3 arg4 harg4 arg5 harg5 arg6 harg6 arg7 harg7 arg8 harg8 arg9 harg9 hc0 x0 x1 x2 x3 x4 x5 xo7 xo8)]
  unfold kernelRun1_B
  dsimp only
  rw [View.canon_unit_zero hz]
  simp only [View.readAt_eq_ld, harg1.read_unread, harg2.read_unread, harg3.read_unread, harg4.read_unread, harg5.read_unread, harg6.read_unread, View.ld_unit_zero (S := S5000x128) hz, View.ld_unit_zero (S := S128x128) hz, View.ld_unit_zero (S := S5000x1) hz, View.ld_unit_zero (S := S1x128) hz]

/-- A later point, the sum accumulator: what it held plus the block's column sums. -/
theorem out_B_7 (c : Dev nD) (i : grid1.Coords) (arg1 : Memref sig .tc .vmem S5000x128 .f32) (harg1 : arg1.IsWhole) (arg2 : Memref sig .tc .vmem S5000x128 .f32) (harg2 : arg2.IsWhole) (arg3 : Memref sig .tc .vmem S5000x1 .f32) (harg3 : arg3.IsWhole) (arg4 : Memref sig .tc .vmem S5000x128 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S5000x128 .f32) (harg7 : arg7.IsWhole) (arg8 : Memref sig .tc .vmem S1x128 .f32) (harg8 : arg8.IsWhole) (arg9 : Memref sig .tc .vmem S1x128 .f32) (harg9 : arg9.IsWhole) (hc0 : ¬cond1_0 i) (x0 : Vec F S5000x128 .f32) (x1 : Vec F S5000x128 .f32) (x2 : Vec F S5000x1 .f32) (x3 : Vec F S5000x128 .f32) (x4 : Vec F S128x128 .f32) (x5 : Vec F S1x128 .f32) (xo7 xo8 : Vec F S1x128 .f32) :
    out1_B_7 c i arg1 harg1 arg2 harg2 arg3 harg3 arg4 harg4 arg5 harg5 arg6 harg6 arg7 harg7 arg8 harg8 arg9 harg9 hc0 x0 x1 x2 x3 x4 x5 xo7 xo8 = k1_pay5 x3 x4 x2 x0 x1 x5 xo7 := by
  unfold out1_B_7
  rw [View.read_writes_eq_canon _ _ _ (cover1_B_7 c i arg1 harg1 arg2 harg2 arg3 harg3 arg4 harg4 arg5 harg5 arg6 harg6 arg7 harg7 arg8 harg8 arg9 harg9 hc0 x0 x1 x2 x3 x4 x5 xo7 xo8)]
  unfold kernelRun1_B
  dsimp only
  try sl_unfold_words
  rw [View.canon_unit_zero hz]
  simp only [View.readAt_eq_ld, harg1.read_unread, harg2.read_unread, harg3.read_unread, harg4.read_unread, harg5.read_unread, harg6.read_unread, View.ld_unit_zero (S := S5000x128) hz, View.ld_unit_zero (S := S128x128) hz, View.ld_unit_zero (S := S5000x1) hz, View.ld_unit_zero (S := S1x128) hz, harg8.read_unread, harg9.read_unread]

/-- A later point, the sum-of-squares accumulator: what it held plus the block's column sums of squares. -/
theorem out_B_8 (c : Dev nD) (i : grid1.Coords) (arg1 : Memref sig .tc .vmem S5000x128 .f32) (harg1 : arg1.IsWhole) (arg2 : Memref sig .tc .vmem S5000x128 .f32) (harg2 : arg2.IsWhole) (arg3 : Memref sig .tc .vmem S5000x1 .f32) (harg3 : arg3.IsWhole) (arg4 : Memref sig .tc .vmem S5000x128 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S5000x128 .f32) (harg7 : arg7.IsWhole) (arg8 : Memref sig .tc .vmem S1x128 .f32) (harg8 : arg8.IsWhole) (arg9 : Memref sig .tc .vmem S1x128 .f32) (harg9 : arg9.IsWhole) (hc0 : ¬cond1_0 i) (x0 : Vec F S5000x128 .f32) (x1 : Vec F S5000x128 .f32) (x2 : Vec F S5000x1 .f32) (x3 : Vec F S5000x128 .f32) (x4 : Vec F S128x128 .f32) (x5 : Vec F S1x128 .f32) (xo7 xo8 : Vec F S1x128 .f32) :
    out1_B_8 c i arg1 harg1 arg2 harg2 arg3 harg3 arg4 harg4 arg5 harg5 arg6 harg6 arg7 harg7 arg8 harg8 arg9 harg9 hc0 x0 x1 x2 x3 x4 x5 xo7 xo8 = k1_pay1 (k1_pay4 x3 x4 x2 x0 x1 x5) (k1_pay6 xo8) := by
  unfold out1_B_8
  rw [View.read_writes_eq_canon _ _ _ (cover1_B_8 c i arg1 harg1 arg2 harg2 arg3 harg3 arg4 harg4 arg5 harg5 arg6 harg6 arg7 harg7 arg8 harg8 arg9 harg9 hc0 x0 x1 x2 x3 x4 x5 xo7 xo8)]
  unfold kernelRun1_B
  dsimp only
  try sl_unfold_words
  rw [View.canon_unit_zero hz]
  simp only [View.readAt_eq_ld, harg1.read_unread, harg2.read_unread, harg3.read_unread, harg4.read_unread, harg5.read_unread, harg6.read_unread, View.ld_unit_zero (S := S5000x128) hz, View.ld_unit_zero (S := S128x128) hz, View.ld_unit_zero (S := S5000x1) hz, View.ld_unit_zero (S := S1x128) hz, harg8.read_unread, harg9.read_unread]

end Pieces

/-! ## The payloads on the extended reals, entry by entry -/

section Payloads

/-- The index over column `o` whose row coordinate is `r`. -/
theorem lift_row (h : S5000x128.Reduces [0] S128) (o : Fin 128) (r : Fin 5000) :
    h.lift (ix1 o) r = ix2 r o := by
  funext c
  apply Fin.ext
  match c with
  | ⟨0, _⟩ => rfl
  | ⟨1, _⟩ => rfl

/-- A row of accumulators plus the sums of a block's columns, at column `o`: the accumulator there plus the sum of
    the block's entries in that column. -/
theorem acc_add_colsum (src : FVec Ideal S5000x128 .f32) (acc : FVec Ideal S1x128 .f32) (o : Fin 128)
    (hred : S5000x128.Reduces [0] S128) (hφ : FKind.Formats .f32)
    (hacc : (0x00000000#32 : BitVec (FTy.bits .f32)) = FKind.add.neutral .f32 hφ) (h2 : S128.ShapeCasts S1x128) :
    addf acc (shapeCast S1x128 (multiReduction (F := Ideal) .add [0] S128 src 0x00000000#32 hred hφ hacc) h2) (ix2 (0 : Fin 1) o)
      = acc (ix2 (0 : Fin 1) o) + ∑ r : Fin 5000, src (ix2 r o) := by
  show acc (ix2 (0 : Fin 1) o)
      + shapeCast S1x128 (multiReduction (F := Ideal) .add [0] S128 src 0x00000000#32 hred hφ hacc) h2 (ix2 (0 : Fin 1) o) = _
  rw [shapeCast_a_1a_apply, Ideal.multiReduction_add_single]
  refine congrArg (acc (ix2 (0 : Fin 1) o) + ·) ?_
  exact Finset.sum_congr rfl fun r _ => congrArg src (lift_row hred o r)

/-- The same when the accumulator row first passes through a cast to its own shape. -/
theorem cast_acc_add_colsum (src : FVec Ideal S5000x128 .f32) (acc : FVec Ideal S1x128 .f32) (o : Fin 128)
    (hred : S5000x128.Reduces [0] S128) (hφ : FKind.Formats .f32)
    (hacc : (0x00000000#32 : BitVec (FTy.bits .f32)) = FKind.add.neutral .f32 hφ)
    (h1 : S1x128.ShapeCasts S1x128) (h2 : S128.ShapeCasts S1x128) :
    addf (shapeCast S1x128 acc h1) (shapeCast S1x128 (multiReduction (F := Ideal) .add [0] S128 src 0x00000000#32 hred hφ hacc) h2) (ix2 (0 : Fin 1) o)
      = acc (ix2 (0 : Fin 1) o) + ∑ r : Fin 5000, src (ix2 r o) := by
  rw [shapeCast_self]
  exact acc_add_colsum src acc o hred hφ hacc h2

/-- The product of a block of rows with the transposed square matrix, into zero, at (r, o): the sum over k of
    a(r, k) · b(o, k). -/
theorem mm_transposed_apply (a : FVec Ideal S5000x128 .bf16) (b : FVec Ideal S128x128 .bf16)
    (ht : S128x128.Transposes [1, 0] S128x128) (r : Fin 5000) (o : Fin 128) :
    matmul dot_S5000x128_S128x128_S5000x128_1_0_0_1_n_n none a (transpose S128x128 [1, 0] b ht)
        (constant (F := Ideal) S5000x128 .f32 0x00000000#32) (ix2 r o)
      = ∑ k : Fin 128, a (ix2 r k) * b (ix2 o k) := by
  show matmul (DotDims.plain 5000 128 128) none a (transpose S128x128 [1, 0] b ht)
        (constant (F := Ideal) S5000x128 .f32 0x00000000#32) (ix2 r o) = _
  rw [Cert.Dense.matmul_plain_zero]
  show ∑ k : Fin 128, a (ix2 r k) * transpose S128x128 [1, 0] b ht (ix2 k o) = _
  exact Finset.sum_congr rfl fun k _ => congrArg (a (ix2 r k) * ·) (transpose_ix2_apply b ht k o)

/-- The row formula at (r, o). -/
theorem pay4_apply (v3 : Vec Ideal S5000x128 .f32) (v5 : Vec Ideal S128x128 .f32) (v9 : Vec Ideal S5000x1 .f32)
    (v11 v13 : Vec Ideal S5000x128 .f32) (v19 : Vec Ideal S1x128 .f32) (r : Fin 5000) (o : Fin 128) :
    k1_pay4 (F := Ideal) v3 v5 v9 v11 v13 v19 (ix2 r o)
      = ((v9 (ix2 r (0 : Fin 1)) * (v11 (ix2 r o) + v13 (ix2 r o))) + ∑ k : Fin 128, v3 (ix2 r k) * v5 (ix2 o k))
          + v19 (ix2 (0 : Fin 1) o) := by
  unfold k1_pay4
  show (broadcastTo S5000x128 (shapeCast S5000x1 v9 _) _ (ix2 r o)
          * (shapeCast S5000x128 v11 _ (ix2 r o) + shapeCast S5000x128 v13 _ (ix2 r o))
        + matmul dot_S5000x128_S128x128_S5000x128_1_0_0_1_n_n none (truncf .bf16 v3 _) (transpose S128x128 [1, 0] (truncf .bf16 v5 _) _)
            (constant (F := Ideal) S5000x128 .f32 0x00000000#32) (ix2 r o))
      + broadcastTo S5000x128 (shapeCast S1x128 v19 _) _ (ix2 r o) = _
  rw [mm_transposed_apply, shapeCast_self, shapeCast_self, shapeCast_self, shapeCast_self,
    Cert.GraphConv.broadcastTo_col_apply, broadcastTo_1b_ab_apply]
  rfl

/-- The sum accumulator's update at column `o`. -/
theorem pay5_apply (v3 : Vec Ideal S5000x128 .f32) (v5 : Vec Ideal S128x128 .f32) (v9 : Vec Ideal S5000x1 .f32)
    (v11 v13 : Vec Ideal S5000x128 .f32) (v19 v24 : Vec Ideal S1x128 .f32) (o : Fin 128) :
    k1_pay5 (F := Ideal) v3 v5 v9 v11 v13 v19 v24 (ix2 (0 : Fin 1) o)
      = v24 (ix2 (0 : Fin 1) o) + ∑ r : Fin 5000, k1_pay4 (F := Ideal) v3 v5 v9 v11 v13 v19 (ix2 r o) := by
  unfold k1_pay5
  exact cast_acc_add_colsum (k1_pay4 (F := Ideal) v3 v5 v9 v11 v13 v19) v24 o _ _ _ _ _

/-- The sum-of-squares accumulator's update at column `o`. -/
theorem pay1_apply (v22 : FVec Ideal S5000x128 .f32) (v31 : FVec Ideal S1x128 .f32) (o : Fin 128) :
    k1_pay1 (F := Ideal) v22 v31 (ix2 (0 : Fin 1) o)
      = v31 (ix2 (0 : Fin 1) o) + ∑ r : Fin 5000, v22 (ix2 r o) * v22 (ix2 r o) := by
  unfold k1_pay1
  exact acc_add_colsum (mulf v22 v22) v31 o _ _ _ _

/-- The rows the first point stores before accumulating are zero. -/
theorem pay2_apply (j : S1x128.Idx) : k1_pay2 (F := Ideal) j = 0 := Ideal.ofBits_zero_f32
theorem pay3_apply (j : S1x128.Idx) : k1_pay3 (F := Ideal) j = 0 := Ideal.ofBits_zero_f32
theorem pay6_eq (v : Vec Ideal S1x128 .f32) : k1_pay6 (F := Ideal) v = v := by
  unfold k1_pay6
  exact shapeCast_self v _

end Payloads

/-! ## The blocks of the six input arrays at a grid point, and the accumulators point by point -/

section Blocks

open Cert.Dense Cert.GcnBlock

variable (V : (c : Dev nD) → (b : Ref sig .tc) → Buf (Elt Ideal) ((c : Thread nD τ).loc b)) (c : Dev nD)

theorem hN : cfg1.N = 10 := N_1

/-- The printed index maps over the grid: the four row-block windows and the matrix output move with the point
    along the rows; the square matrix, the bias row and the two accumulators stay at block (0, 0). -/
theorem idx_facts : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = t.val ∧ win1_2.index t (1 : Fin 2) = 0
    ∧ win1_3.index t (0 : Fin 2) = t.val ∧ win1_3.index t (1 : Fin 2) = 0
    ∧ win1_4.index t (0 : Fin 2) = 0 ∧ win1_4.index t (1 : Fin 2) = 0
    ∧ win1_5.index t (0 : Fin 2) = 0 ∧ win1_5.index t (1 : Fin 2) = 0
    ∧ win1_6.index t (0 : Fin 2) = t.val ∧ win1_6.index t (1 : Fin 2) = 0
    ∧ win1_7.index t (0 : Fin 2) = 0 ∧ win1_7.index t (1 : Fin 2) = 0
    ∧ win1_8.index t (0 : Fin 2) = 0 ∧ win1_8.index t (1 : Fin 2) = 0 :=
  (by decide +kernel : ∀ t : Fin grid1.N, _)

/-! Row r of the block at point t is row t · 5000 + r of the array. -/

theorem blk0_apply (t : Fin cfg1.N) (r : Fin 5000) (o : Fin 128) (n : Fin 50000) (hn : n.val = t.val * 5000 + r.val) :
    (iblk1 V c 0 t : Vec Ideal S5000x128 .f32) (ix2 r o) = (V c (Pipeline.arrRef spec1 0) : Cert.Dense.Mat 50000 128) (ix2 n o) := by
  have e0 : win1_0.index t (0 : Fin 2) = t.val := (idx_facts t).1
  have e1 : win1_0.index t (1 : Fin 2) = 0 := (idx_facts t).2.1
  unfold iblk1
  rw [View.read_apply]
  show (V c (Pipeline.arrRef spec1 0) : Cert.Dense.Mat 50000 128) _ = _
  refine congrArg _ (funext fun a => Fin.ext ?_)
  match a with
  | ⟨0, _⟩ => show win1_0.index t (0 : Fin 2) * 5000 + 1 * r.val = n.val; omega
  | ⟨1, _⟩ => show win1_0.index t (1 : Fin 2) * 128 + 1 * o.val = o.val; omega

theorem blk1_apply (t : Fin cfg1.N) (r : Fin 5000) (o : Fin 128) (n : Fin 50000) (hn : n.val = t.val * 5000 + r.val) :
    (iblk1 V c 1 t : Vec Ideal S5000x128 .f32) (ix2 r o) = (V c (Pipeline.arrRef spec1 1) : Cert.Dense.Mat 50000 128) (ix2 n o) := by
  have e0 : win1_1.index t (0 : Fin 2) = t.val := (idx_facts t).2.2.1
  have e1 : win1_1.index t (1 : Fin 2) = 0 := (idx_facts t).2.2.2.1
  unfold iblk1
  rw [View.read_apply]
  show (V c (Pipeline.arrRef spec1 1) : Cert.Dense.Mat 50000 128) _ = _
  refine congrArg _ (funext fun a => Fin.ext ?_)
  match a with
  | ⟨0, _⟩ => show win1_1.index t (0 : Fin 2) * 5000 + 1 * r.val = n.val; omega
  | ⟨1, _⟩ => show win1_1.index t (1 : Fin 2) * 128 + 1 * o.val = o.val; omega

theorem blk2_apply (t : Fin cfg1.N) (r : Fin 5000) (o : Fin 1) (n : Fin 50000) (hn : n.val = t.val * 5000 + r.val) :
    (iblk1 V c 2 t : Vec Ideal S5000x1 .f32) (ix2 r o) = (V c (Pipeline.arrRef spec1 2) : Cert.Dense.Mat 50000 1) (ix2 n o) := by
  have e0 : win1_2.index t (0 : Fin 2) = t.val := (idx_facts t).2.2.2.2.1
  have e1 : win1_2.index t (1 : Fin 2) = 0 := (idx_facts t).2.2.2.2.2.1
  unfold iblk1
  rw [View.read_apply]
  show (V c (Pipeline.arrRef spec1 2) : Cert.Dense.Mat 50000 1) _ = _
  refine congrArg _ (funext fun a => Fin.ext ?_)
  match a with
  | ⟨0, _⟩ => show win1_2.index t (0 : Fin 2) * 5000 + 1 * r.val = n.val; omega
  | ⟨1, _⟩ => show win1_2.index t (1 : Fin 2) * 1 + 1 * o.val = o.val; omega

theorem blk3_apply (t : Fin cfg1.N) (r : Fin 5000) (o : Fin 128) (n : Fin 50000) (hn : n.val = t.val * 5000 + r.val) :
    (iblk1 V c 3 t : Vec Ideal S5000x128 .f32) (ix2 r o) = (V c (Pipeline.arrRef spec1 3) : Cert.Dense.Mat 50000 128) (ix2 n o) := by
  have e0 : win1_3.index t (0 : Fin 2) = t.val := (idx_facts t).2.2.2.2.2.2.1
  have e1 : win1_3.index t (1 : Fin 2) = 0 := (idx_facts t).2.2.2.2.2.2.2.1
  unfold iblk1
  rw [View.read_apply]
  show (V c (Pipeline.arrRef spec1 3) : Cert.Dense.Mat 50000 128) _ = _
  refine congrArg _ (funext fun a => Fin.ext ?_)
  match a with
  | ⟨0, _⟩ => show win1_3.index t (0 : Fin 2) * 5000 + 1 * r.val = n.val; omega
  | ⟨1, _⟩ => show win1_3.index t (1 : Fin 2) * 128 + 1 * o.val = o.val; omega

/-- The square matrix's block at any point is the whole matrix. -/
theorem blk4_apply (t : Fin cfg1.N) (o k : Fin 128) :
    (iblk1 V c 4 t : Vec Ideal S128x128 .f32) (ix2 o k) = (V c (Pipeline.arrRef spec1 4) : Cert.Dense.Mat 128 128) (ix2 o k) := by
  have e0 : win1_4.index t (0 : Fin 2) = 0 := (idx_facts t).2.2.2.2.2.2.2.2.1
  have e1 : win1_4.index t (1 : Fin 2) = 0 := (idx_facts t).2.2.2.2.2.2.2.2.2.1
  unfold iblk1
  rw [View.read_apply]
  show (V c (Pipeline.arrRef spec1 4) : Cert.Dense.Mat 128 128) _ = _
  refine congrArg _ (funext fun a => Fin.ext ?_)
  match a with
  | ⟨0, _⟩ => show win1_4.index t (0 : Fin 2) * 128 + 1 * o.val = o.val; omega
  | ⟨1, _⟩ => show win1_4.index t (1 : Fin 2) * 128 + 1 * k.val = k.val; omega

/-- The bias row's block at any point is the whole row. -/
theorem blk5_apply (t : Fin cfg1.N) (o : Fin 128) :
    (iblk1 V c 5 t : Vec Ideal S1x128 .f32) (ix2 (0 : Fin 1) o) = (V c (Pipeline.arrRef spec1 5) : Cert.Dense.Mat 1 128) (ix2 (0 : Fin 1) o) := by
  have e0 : win1_5.index t (0 : Fin 2) = 0 := (idx_facts t).2.2.2.2.2.2.2.2.2.2.1
  have e1 : win1_5.index t (1 : Fin 2) = 0 := (idx_facts t).2.2.2.2.2.2.2.2.2.2.2.1
  unfold iblk1
  rw [View.read_apply]
  show (V c (Pipeline.arrRef spec1 5) : Cert.Dense.Mat 1 128) _ = _
  refine congrArg _ (funext fun a => Fin.ext ?_)
  match a with
  | ⟨0, _⟩ => show win1_5.index t (0 : Fin 2) * 1 + 1 * (0 : Fin 1).val = (0 : Fin 1).val; omega
  | ⟨1, _⟩ => show win1_5.index t (1 : Fin 2) * 128 + 1 * o.val = o.val; omega

/-- The matrix entry (n, o) as a formula of the six arrays the region finds. -/
abbrev P (n : Fin 50000) (o : Fin 128) : EReal :=
  preOf (V c (Pipeline.arrRef spec1 0)) (V c (Pipeline.arrRef spec1 1)) (V c (Pipeline.arrRef spec1 2))
    (V c (Pipeline.arrRef spec1 3)) (V c (Pipeline.arrRef spec1 4)) (V c (Pipeline.arrRef spec1 5)) n o

/-- Row r of block n. -/
def row (n : ℕ) (h : n < cfg1.N) (r : Fin 5000) : Fin 50000 :=
  ⟨n * 5000 + r.val, by have := hN; have := r.isLt; omega⟩

/-- The row formula of the blocks at point t, at (r, o), is the matrix entry at row t · 5000 + r. -/
theorem blk_row (t : Fin cfg1.N) (r : Fin 5000) (o : Fin 128) :
    k1_pay4 (F := Ideal) (iblk1 V c 3 t) (iblk1 V c 4 t) (iblk1 V c 2 t) (iblk1 V c 0 t) (iblk1 V c 1 t) (iblk1 V c 5 t) (ix2 r o) = P V c (row t.val t.isLt r) o := by
  refine (pay4_apply (iblk1 V c 3 t) (iblk1 V c 4 t) (iblk1 V c 2 t) (iblk1 V c 0 t) (iblk1 V c 1 t) (iblk1 V c 5 t) r o).trans ?_
  unfold P preOf
  exact congrArg₂ (· + ·) (congrArg₂ (· + ·)
      (congrArg₂ (· * ·) (blk2_apply V c t r (0 : Fin 1) (row t.val t.isLt r) rfl)
        (congrArg₂ (· + ·) (blk0_apply V c t r o (row t.val t.isLt r) rfl) (blk1_apply V c t r o (row t.val t.isLt r) rfl)))
      (Finset.sum_congr rfl fun k _ => congrArg₂ (· * ·) (blk3_apply V c t r k (row t.val t.isLt r) rfl) (blk4_apply V c t o k)))
    (blk5_apply V c t o)

end Blocks

end Cert.KernelIdeal.Stats

end
-- ==== Proof.LibBlockSum.lean ====
/-
  Regrouping a sum over `Fin (a * b)` as `a` blocks of `b` consecutive terms.
-/
import Idealize.ShloMosaic.PureOps.Ideal

namespace Cert.LibBlockSum

/-- The position `k * b + j` of the `j`-th entry of block `k` lies below `a * b`. -/
theorem block_lt {a b : Nat} (k : Fin a) (j : Fin b) : k.val * b + j.val < a * b := by
  have hk : k.val + 1 ≤ a := k.isLt
  have hj : j.val < b := j.isLt
  calc k.val * b + j.val < k.val * b + b := by omega
    _ = (k.val + 1) * b := by ring
    _ ≤ a * b := Nat.mul_le_mul_right b hk

/-- A sum over `Fin (a * b)` is the sum over the `a` blocks of the sums of the `b` consecutive
terms of each block: `∑ n, f n = ∑ k, ∑ j, f (k * b + j)`. -/
theorem sum_blocks {M : Type*} [AddCommMonoid M] (a b : Nat) (f : Fin (a * b) → M) :
    ∑ n : Fin (a * b), f n
      = ∑ k : Fin a, ∑ j : Fin b, f ⟨k.val * b + j.val, block_lt k j⟩ := by
  -- the bijection (k, j) ↦ j + b * k of Mathlib, then the sum over a product as a double sum
  rw [← (finProdFinEquiv : Fin a × Fin b ≃ Fin (a * b)).sum_comp f, Fintype.sum_prod_type]
  refine Finset.sum_congr rfl (fun k _ => Finset.sum_congr rfl (fun j _ => ?_))
  congr 1
  apply Fin.ext
  simp [finProdFinEquiv, Nat.mul_comm, Nat.add_comm]

/-- The same regrouping when the length is given as a number `N` known to equal `a * b`. -/
theorem sum_blocks_of_eq {M : Type*} [AddCommMonoid M] {N : Nat} (a b : Nat) (h : a * b = N)
    (f : Fin N → M) :
    ∑ n : Fin N, f n
      = ∑ k : Fin a, ∑ j : Fin b, f ⟨k.val * b + j.val, h ▸ block_lt k j⟩ := by
  subst h
  exact sum_blocks a b f

/-- The instance used for 16384 nodes read as 4 blocks of 4096: a sum of extended reals over
`Fin 16384` is the sum over the 4 blocks of the sums of the 4096 terms of each block. -/
theorem sum_16384_blocks (g : Fin 16384 → EReal) :
    ∑ n : Fin 16384, g n
      = ∑ k : Fin 4, ∑ j : Fin 4096, g ⟨k.val * 4096 + j.val, by omega⟩ := by
  exact sum_blocks_of_eq (N := 16384) 4 4096 (by norm_num) g

end Cert.LibBlockSum
-- ==== Proof.KerStats.lean ====
/-
  The three arrays the second kernel leaves: the matrix and its two column statistics, on the extended reals.

  With P(n, o) = scale(n) · (summed(n, o) + scaled(n, o)) + Σ_k x(n, k) · RW(o, k) + bias(o) over the six arrays the
  kernel is given:

      the matrix output at (n, o)        is  P(n, o),
      the first accumulator at (0, o)    is  Σ_n P(n, o),
      the second accumulator at (0, o)   is  Σ_n P(n, o) · P(n, o),

  the sums over all 50000 rows. After point t the matrix buffer holds block t of P and each accumulator holds its sum
  over the rows of blocks 0 … t: the first point starts from zero (0 + x = x), every later point adds its block's sums
  to what the point before left — an induction on the point. Each block of the matrix is written back where its rows
  sit, and the blocks cover the array; the accumulators are written back once, after the last point, and their block
  is the whole one-row array. Ten block sums of 5000 consecutive rows are the sum over the 50000 rows; addition of
  extended reals is commutative and associative, so no finiteness is asked anywhere.
-/
import proofs.«163069_j30202210025887_2_alg».proof.Proof.KerStatsPoint
import proofs.«163069_j30202210025887_2_alg».proof.Proof.LibBlockSum

noncomputable section

open scoped BigOperators
open Idealize.ShloMosaic Idealize.ShloMosaic.TcCoe Idealize.SL.Sem
open Idealize.ShloMosaic.Pipeline (Dat)

namespace Cert.KernelIdeal.Stats

open Cert.KernelIdeal Cert.KernelIdeal.Gen Idealize.ShloMosaic.ValueIdx

section Points

open Cert.Dense Cert.GcnBlock

variable (V : (c : Dev nD) → (b : Ref sig .tc) → Buf (Elt Ideal) ((c : Thread nD τ).loc b)) (c : Dev nD)

/-- The three staging buffers after the first point: the block's rows, and the two accumulators started from zero. -/
theorem outs_A (t : Fin cfg1.N) (h0 : t.val % 10 = 0) :
    outsAt1 V c t.val t.isLt
      = (k1_pay4 (F := Ideal) (iblk1 V c 3 t) (iblk1 V c 4 t) (iblk1 V c 2 t) (iblk1 V c 0 t) (iblk1 V c 1 t) (iblk1 V c 5 t),
         k1_pay5 (F := Ideal) (iblk1 V c 3 t) (iblk1 V c 4 t) (iblk1 V c 2 t) (iblk1 V c 0 t) (iblk1 V c 1 t) (iblk1 V c 5 t) (k1_pay2 (F := Ideal)),
         k1_pay1 (F := Ideal) (k1_pay4 (F := Ideal) (iblk1 V c 3 t) (iblk1 V c 4 t) (iblk1 V c 2 t) (iblk1 V c 0 t) (iblk1 V c 1 t) (iblk1 V c 5 t)) (k1_pay6 (k1_pay3 (F := Ideal)))) :=
  (outsAt1_A V c t h0).trans (congrArg₂ Prod.mk
    (out_A_6 (F := Ideal) c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) ((hcond1_0 t).mpr h0) (iblk1 V c 0 t) (iblk1 V c 1 t) (iblk1 V c 2 t) (iblk1 V c 3 t) (iblk1 V c 4 t) (iblk1 V c 5 t))
    (congrArg₂ Prod.mk
      (out_A_7 (F := Ideal) c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) ((hcond1_0 t).mpr h0) (iblk1 V c 0 t) (iblk1 V c 1 t) (iblk1 V c 2 t) (iblk1 V c 3 t) (iblk1 V c 4 t) (iblk1 V c 5 t))
      (out_A_8 (F := Ideal) c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) ((hcond1_0 t).mpr h0) (iblk1 V c 0 t) (iblk1 V c 1 t) (iblk1 V c 2 t) (iblk1 V c 3 t) (iblk1 V c 4 t) (iblk1 V c 5 t))))

/-- The three staging buffers after a later point: the block's rows, and the two accumulators continued from what
    the point before left. -/
theorem outs_B (t : Fin cfg1.N) (h0 : ¬t.val % 10 = 0) :
    outsAt1 V c t.val t.isLt
      = (k1_pay4 (F := Ideal) (iblk1 V c 3 t) (iblk1 V c 4 t) (iblk1 V c 2 t) (iblk1 V c 0 t) (iblk1 V c 1 t) (iblk1 V c 5 t),
         k1_pay5 (F := Ideal) (iblk1 V c 3 t) (iblk1 V c 4 t) (iblk1 V c 2 t) (iblk1 V c 0 t) (iblk1 V c 1 t) (iblk1 V c 5 t) (outsAt1 V c (t.val - 1) (Nat.lt_of_le_of_lt (Nat.sub_le _ _) t.isLt)).2.1,
         k1_pay1 (F := Ideal) (k1_pay4 (F := Ideal) (iblk1 V c 3 t) (iblk1 V c 4 t) (iblk1 V c 2 t) (iblk1 V c 0 t) (iblk1 V c 1 t) (iblk1 V c 5 t)) (k1_pay6 (outsAt1 V c (t.val - 1) (Nat.lt_of_le_of_lt (Nat.sub_le _ _) t.isLt)).2.2)) :=
  (outsAt1_B V c t h0).trans (congrArg₂ Prod.mk
    (out_B_6 (F := Ideal) c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) (fun h => h0 ((hcond1_0 t).mp h)) (iblk1 V c 0 t) (iblk1 V c 1 t) (iblk1 V c 2 t) (iblk1 V c 3 t) (iblk1 V c 4 t) (iblk1 V c 5 t) (outsAt1 V c (t.val - 1) (Nat.lt_of_le_of_lt (Nat.sub_le _ _) t.isLt)).2.1 (outsAt1 V c (t.val - 1) (Nat.lt_of_le_of_lt (Nat.sub_le _ _) t.isLt)).2.2)
    (congrArg₂ Prod.mk
      (out_B_7 (F := Ideal) c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) (fun h => h0 ((hcond1_0 t).mp h)) (iblk1 V c 0 t) (iblk1 V c 1 t) (iblk1 V c 2 t) (iblk1 V c 3 t) (iblk1 V c 4 t) (iblk1 V c 5 t) (outsAt1 V c (t.val - 1) (Nat.lt_of_le_of_lt (Nat.sub_le _ _) t.isLt)).2.1 (outsAt1 V c (t.val - 1) (Nat.lt_of_le_of_lt (Nat.sub_le _ _) t.isLt)).2.2)
      (out_B_8 (F := Ideal) c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) (fun h => h0 ((hcond1_0 t).mp h)) (iblk1 V c 0 t) (iblk1 V c 1 t) (iblk1 V c 2 t) (iblk1 V c 3 t) (iblk1 V c 4 t) (iblk1 V c 5 t) (outsAt1 V c (t.val - 1) (Nat.lt_of_le_of_lt (Nat.sub_le _ _) t.isLt)).2.1 (outsAt1 V c (t.val - 1) (Nat.lt_of_le_of_lt (Nat.sub_le _ _) t.isLt)).2.2)))

/-- The sum over the rows of block s of the matrix's column o (zero past the grid). -/
def Q (s : ℕ) (o : Fin 128) : EReal := if hs : s < cfg1.N then ∑ r : Fin 5000, P V c (row s hs r) o else 0
/-- The sum over the rows of block s of the squares of the matrix's column o (zero past the grid). -/
def Q2 (s : ℕ) (o : Fin 128) : EReal :=
  if hs : s < cfg1.N then ∑ r : Fin 5000, P V c (row s hs r) o * P V c (row s hs r) o else 0

/-- After point n the matrix buffer holds block n of the matrix, and the accumulators hold the column sums, and the
    column sums of squares, over the rows of blocks 0 … n: by induction on the point. -/
theorem outs_eq : ∀ (n : ℕ) (h : n < cfg1.N),
    (∀ (r : Fin 5000) (o : Fin 128), (outsAt1 V c n h).1 (ix2 r o) = P V c (row n h r) o)
    ∧ (∀ o : Fin 128, (outsAt1 V c n h).2.1 (ix2 (0 : Fin 1) o) = ∑ s ∈ Finset.range (n + 1), Q V c s o)
    ∧ (∀ o : Fin 128, (outsAt1 V c n h).2.2 (ix2 (0 : Fin 1) o) = ∑ s ∈ Finset.range (n + 1), Q2 V c s o)
  | 0, h => by
    have e := outs_A V c ⟨0, h⟩ rfl
    refine ⟨fun r o => ?_, fun o => ?_, fun o => ?_⟩
    · exact (congrFun (congrArg Prod.fst e) (ix2 r o)).trans (blk_row V c ⟨0, h⟩ r o)
    · refine (congrFun (congrArg (fun p => p.2.1) e) (ix2 (0 : Fin 1) o)).trans ?_
      refine (pay5_apply (iblk1 V c 3 ⟨0, h⟩) (iblk1 V c 4 ⟨0, h⟩) (iblk1 V c 2 ⟨0, h⟩) (iblk1 V c 0 ⟨0, h⟩) (iblk1 V c 1 ⟨0, h⟩) (iblk1 V c 5 ⟨0, h⟩) (k1_pay2 (F := Ideal)) o).trans ?_
      rw [pay2_apply, zero_add, Finset.sum_range_one]
      unfold Q
      rw [dif_pos h]
      exact Finset.sum_congr rfl fun r _ => blk_row V c ⟨0, h⟩ r o
    · refine (congrFun (congrArg (fun p => p.2.2) e) (ix2 (0 : Fin 1) o)).trans ?_
      refine (pay1_apply (k1_pay4 (F := Ideal) (iblk1 V c 3 ⟨0, h⟩) (iblk1 V c 4 ⟨0, h⟩) (iblk1 V c 2 ⟨0, h⟩) (iblk1 V c 0 ⟨0, h⟩) (iblk1 V c 1 ⟨0, h⟩) (iblk1 V c 5 ⟨0, h⟩)) (k1_pay6 (k1_pay3 (F := Ideal))) o).trans ?_
      rw [pay6_eq, pay3_apply, zero_add, Finset.sum_range_one]
      unfold Q2
      rw [dif_pos h]
      exact Finset.sum_congr rfl fun r _ => congrArg₂ (· * ·) (blk_row V c ⟨0, h⟩ r o) (blk_row V c ⟨0, h⟩ r o)
  | n + 1, h => by
    have hB : ¬(⟨n + 1, h⟩ : Fin cfg1.N).val % 10 = 0 := by have := hN; dsimp only; omega
    have e := outs_B V c ⟨n + 1, h⟩ hB
    obtain ⟨-, ih7, ih8⟩ := outs_eq n (Nat.lt_of_succ_lt h)
    refine ⟨fun r o => ?_, fun o => ?_, fun o => ?_⟩
    · exact (congrFun (congrArg Prod.fst e) (ix2 r o)).trans (blk_row V c ⟨n + 1, h⟩ r o)
    · refine (congrFun (congrArg (fun p => p.2.1) e) (ix2 (0 : Fin 1) o)).trans ?_
      refine (pay5_apply (iblk1 V c 3 ⟨n + 1, h⟩) (iblk1 V c 4 ⟨n + 1, h⟩) (iblk1 V c 2 ⟨n + 1, h⟩) (iblk1 V c 0 ⟨n + 1, h⟩) (iblk1 V c 1 ⟨n + 1, h⟩) (iblk1 V c 5 ⟨n + 1, h⟩) (outsAt1 V c n (Nat.lt_of_succ_lt h)).2.1 o).trans ?_
      rw [Finset.sum_range_succ _ (n + 1)]
      refine congrArg₂ (· + ·) (ih7 o) ?_
      unfold Q
      rw [dif_pos h]
      exact Finset.sum_congr rfl fun r _ => blk_row V c ⟨n + 1, h⟩ r o
    · refine (congrFun (congrArg (fun p => p.2.2) e) (ix2 (0 : Fin 1) o)).trans ?_
      refine (pay1_apply (k1_pay4 (F := Ideal) (iblk1 V c 3 ⟨n + 1, h⟩) (iblk1 V c 4 ⟨n + 1, h⟩) (iblk1 V c 2 ⟨n + 1, h⟩) (iblk1 V c 0 ⟨n + 1, h⟩) (iblk1 V c 1 ⟨n + 1, h⟩) (iblk1 V c 5 ⟨n + 1, h⟩)) (k1_pay6 (outsAt1 V c n (Nat.lt_of_succ_lt h)).2.2) o).trans ?_
      rw [pay6_eq, Finset.sum_range_succ _ (n + 1)]
      refine congrArg₂ (· + ·) (ih8 o) ?_
      unfold Q2
      rw [dif_pos h]
      exact Finset.sum_congr rfl fun r _ => congrArg₂ (· * ·) (blk_row V c ⟨n + 1, h⟩ r o) (blk_row V c ⟨n + 1, h⟩ r o)

end Points

/-! ## From the blocks written back to the three arrays after the run -/

section Arrays

open Cert.Dense Cert.GcnBlock

variable (V : (c : Dev nD) → (b : Ref sig .tc) → Buf (Elt Ideal) ((c : Thread nD τ).loc b)) (c : Dev nD)

/-- Ten block sums of 5000 consecutive rows each are the sum over all 50000 rows. -/
theorem sum_blocks_rows (f : Fin 50000 → EReal) (q : ℕ → EReal)
    (hq : ∀ (s : ℕ) (hs : s < cfg1.N), q s = ∑ r : Fin 5000, f (row s hs r)) :
    ∑ s ∈ Finset.range 10, q s = ∑ n : Fin 50000, f n := by
  rw [Cert.LibBlockSum.sum_blocks_of_eq (N := 50000) 10 5000 (by norm_num) f, ← Fin.sum_univ_eq_sum_range]
  refine Finset.sum_congr rfl fun k _ => ?_
  rw [hq k.val (by have := hN; have := k.isLt; omega)]
  rfl

/-- The whole matrix as one function of the six arrays. -/
def G6 : Cert.Dense.Mat 50000 128 := fun i => P V c (i 0) (i 1)

/-- What point t writes back of the matrix is block t of that function. -/
theorem flushed6 (t : Fin cfg1.N) :
    (dat1 V c).flushed 6 t = ((cfg1.win 6).blk t).view.read (Elt Ideal) (G6 V c) := by
  have e0 : win1_6.index t (0 : Fin 2) = t.val := (idx_facts t).2.2.2.2.2.2.2.2.2.2.2.2.1
  have e1 : win1_6.index t (1 : Fin 2) = 0 := (idx_facts t).2.2.2.2.2.2.2.2.2.2.2.2.2.1
  show (cfg1.win 6).cut (grid1.coords t) ((dat1 V c).after 6 t) = _
  rw [after1_6]
  refine funext fun (j : S5000x128.Idx) => ?_
  obtain ⟨r, o, rfl⟩ : ∃ (r : Fin 5000) (o : Fin 128), j = ix2 r o := ⟨j 0, j 1, eq_ix2 j⟩
  rw [View.read_apply]
  show (outsAt1 V c t.val t.isLt).1 (ix2 r o) = G6 V c _
  refine ((outs_eq V c t.val t.isLt).1 r o).trans ?_
  unfold G6
  refine congrArg₂ (P V c) (Fin.ext ?_) (Fin.ext ?_)
  · show t.val * 5000 + r.val = win1_6.index t (0 : Fin 2) * 5000 + 1 * r.val; omega
  · show o.val = win1_6.index t (1 : Fin 2) * 128 + 1 * o.val; omega

/-- An index of the matrix is in point t's block iff each coordinate is in the block's range on its axis. -/
theorem mem_blk6 (t : Fin cfg1.N) (i : S50000x128.Idx) :
    i ∈ ((cfg1.win 6).blk t).view.set ↔ ∀ a : Fin 2, win1_6.index t a * S5000x128.size a ≤ (i a).val ∧ (i a).val < win1_6.index t a * S5000x128.size a + S5000x128.size a := by
  show i ∈ ((View.whole main_v27_0).slice (win1_6.rect t)).set ↔ _
  rw [View.set_slice_whole, Rect.mem_set_unit]
  exact Iff.rfl

/-- Every row lies in the block of the point numbered by its quotient by 5000, so the matrix ends at that function. -/
theorem final6 : (dat1 V c).arrAt 6 cfg1.N = G6 V c :=
  (dat1 V c).arrAt_eq_of_cover 6 (G6 V c) (fun t _ => flushed6 V c t) fun i => by
    have hN := hN
    have hi0 : ((i : S50000x128.Idx) 0).val < 50000 := (i 0).isLt
    have hi1 : ((i : S50000x128.Idx) 1).val < 128 := (i 1).isLt
    obtain ⟨t, ht⟩ : ∃ t : Fin cfg1.N, t.val = ((i : S50000x128.Idx) 0).val / 5000 :=
      ⟨⟨((i : S50000x128.Idx) 0).val / 5000, by omega⟩, rfl⟩
    have e0 : win1_6.index t (0 : Fin 2) = t.val := (idx_facts t).2.2.2.2.2.2.2.2.2.2.2.2.1
    have e1 : win1_6.index t (1 : Fin 2) = 0 := (idx_facts t).2.2.2.2.2.2.2.2.2.2.2.2.2.1
    refine ⟨t, flush1_6 t, ?_⟩
    rw [mem_blk6]
    intro a
    match a with
    | ⟨0, _⟩ =>
      show win1_6.index t (0 : Fin 2) * 5000 ≤ (i 0).val ∧ (i 0).val < win1_6.index t (0 : Fin 2) * 5000 + 5000
      omega
    | ⟨1, _⟩ =>
      show win1_6.index t (1 : Fin 2) * 128 ≤ (i 1).val ∧ (i 1).val < win1_6.index t (1 : Fin 2) * 128 + 128
      omega

/-- The sum accumulator's staging buffer after the last point. -/
def G7 : Cert.Dense.Mat 1 128 := (outsAt1 V c t1_9.val t1_9.isLt).2.1

/-- The one write-back of window 7, at the last point, writes that buffer: the block is the whole one-row array. -/
theorem flushed7 (t : Fin cfg1.N) (hf : (cfg1.win 7).flush t = true) :
    (dat1 V c).flushed 7 t = ((cfg1.win 7).blk t).view.read (Elt Ideal) (G7 V c) := by
  have hN := hN
  have h9 : t.val = 9 := by have := (flush1_7 t).mp hf; have := t.isLt; omega
  obtain rfl : t = t1_9 := Fin.ext h9
  have e0 : win1_7.index t1_9 (0 : Fin 2) = 0 := (idx_facts t1_9).2.2.2.2.2.2.2.2.2.2.2.2.2.2.1
  have e1 : win1_7.index t1_9 (1 : Fin 2) = 0 := (idx_facts t1_9).2.2.2.2.2.2.2.2.2.2.2.2.2.2.2.1
  show (cfg1.win 7).cut (grid1.coords t1_9) ((dat1 V c).after 7 t1_9) = _
  rw [after1_7]
  refine funext fun (j : S1x128.Idx) => ?_
  rw [View.read_apply]
  show G7 V c j = G7 V c _
  refine congrArg (G7 V c) (funext fun a => Fin.ext ?_)
  match a with
  | ⟨0, _⟩ => show (j 0).val = win1_7.index t1_9 (0 : Fin 2) * 1 + 1 * (j 0).val; omega
  | ⟨1, _⟩ => show (j 1).val = win1_7.index t1_9 (1 : Fin 2) * 128 + 1 * (j 1).val; omega

/-- An index of the one-row array is in the last point's block of window 7 iff each coordinate is in the block's range. -/
theorem mem_blk7 (t : Fin cfg1.N) (i : S1x128.Idx) :
    i ∈ ((cfg1.win 7).blk t).view.set ↔ ∀ a : Fin 2, win1_7.index t a * S1x128.size a ≤ (i a).val ∧ (i a).val < win1_7.index t a * S1x128.size a + S1x128.size a := by
  show i ∈ ((View.whole main_v27_1).slice (win1_7.rect t)).set ↔ _
  rw [View.set_slice_whole, Rect.mem_set_unit]
  exact Iff.rfl

/-- So the array of window 7 ends holding the accumulator after the last point. -/
theorem final7 : (dat1 V c).arrAt 7 cfg1.N = G7 V c :=
  (dat1 V c).arrAt_eq_of_cover 7 (G7 V c) (flushed7 V c) fun i =>
    ⟨t1_9, (flush1_7 t1_9).mpr rfl, by
      have e0 : win1_7.index t1_9 (0 : Fin 2) = 0 := (idx_facts t1_9).2.2.2.2.2.2.2.2.2.2.2.2.2.2.1
      have e1 : win1_7.index t1_9 (1 : Fin 2) = 0 := (idx_facts t1_9).2.2.2.2.2.2.2.2.2.2.2.2.2.2.2.1
      have h0 : ((i : S1x128.Idx) 0).val < 1 := (i 0).isLt
      have h1 : ((i : S1x128.Idx) 1).val < 128 := (i 1).isLt
      rw [mem_blk7]
      intro a
      match a with
      | ⟨0, _⟩ => show win1_7.index t1_9 (0 : Fin 2) * 1 ≤ (i 0).val ∧ (i 0).val < win1_7.index t1_9 (0 : Fin 2) * 1 + 1; omega
      | ⟨1, _⟩ => show win1_7.index t1_9 (1 : Fin 2) * 128 ≤ (i 1).val ∧ (i 1).val < win1_7.index t1_9 (1 : Fin 2) * 128 + 128; omega⟩

/-- The sum-of-squares accumulator's staging buffer after the last point. -/
def G8 : Cert.Dense.Mat 1 128 := (outsAt1 V c t1_9.val t1_9.isLt).2.2

/-- The one write-back of window 8, at the last point, writes that buffer: the block is the whole one-row array. -/
theorem flushed8 (t : Fin cfg1.N) (hf : (cfg1.win 8).flush t = true) :
    (dat1 V c).flushed 8 t = ((cfg1.win 8).blk t).view.read (Elt Ideal) (G8 V c) := by
  have hN := hN
  have h9 : t.val = 9 := by have := (flush1_8 t).mp hf; have := t.isLt; omega
  obtain rfl : t = t1_9 := Fin.ext h9
  have e0 : win1_8.index t1_9 (0 : Fin 2) = 0 := (idx_facts t1_9).2.2.2.2.2.2.2.2.2.2.2.2.2.2.2.2.1
  have e1 : win1_8.index t1_9 (1 : Fin 2) = 0 := (idx_facts t1_9).2.2.2.2.2.2.2.2.2.2.2.2.2.2.2.2.2
  show (cfg1.win 8).cut (grid1.coords t1_9) ((dat1 V c).after 8 t1_9) = _
  rw [after1_8]
  refine funext fun (j : S1x128.Idx) => ?_
  rw [View.read_apply]
  show G8 V c j = G8 V c _
  refine congrArg (G8 V c) (funext fun a => Fin.ext ?_)
  match a with
  | ⟨0, _⟩ => show (j 0).val = win1_8.index t1_9 (0 : Fin 2) * 1 + 1 * (j 0).val; omega
  | ⟨1, _⟩ => show (j 1).val = win1_8.index t1_9 (1 : Fin 2) * 128 + 1 * (j 1).val; omega

/-- An index of the one-row array is in the last point's block of window 8 iff each coordinate is in the block's range. -/
theorem mem_blk8 (t : Fin cfg1.N) (i : S1x128.Idx) :
    i ∈ ((cfg1.win 8).blk t).view.set ↔ ∀ a : Fin 2, win1_8.index t a * S1x128.size a ≤ (i a).val ∧ (i a).val < win1_8.index t a * S1x128.size a + S1x128.size a := by
  show i ∈ ((View.whole main_v27_2).slice (win1_8.rect t)).set ↔ _
  rw [View.set_slice_whole, Rect.mem_set_unit]
  exact Iff.rfl

/-- So the array of window 8 ends holding the accumulator after the last point. -/
theorem final8 : (dat1 V c).arrAt 8 cfg1.N = G8 V c :=
  (dat1 V c).arrAt_eq_of_cover 8 (G8 V c) (flushed8 V c) fun i =>
    ⟨t1_9, (flush1_8 t1_9).mpr rfl, by
      have e0 : win1_8.index t1_9 (0 : Fin 2) = 0 := (idx_facts t1_9).2.2.2.2.2.2.2.2.2.2.2.2.2.2.2.2.1
      have e1 : win1_8.index t1_9 (1 : Fin 2) = 0 := (idx_facts t1_9).2.2.2.2.2.2.2.2.2.2.2.2.2.2.2.2.2
      have h0 : ((i : S1x128.Idx) 0).val < 1 := (i 0).isLt
      have h1 : ((i : S1x128.Idx) 1).val < 128 := (i 1).isLt
      rw [mem_blk8]
      intro a
      match a with
      | ⟨0, _⟩ => show win1_8.index t1_9 (0 : Fin 2) * 1 ≤ (i 0).val ∧ (i 0).val < win1_8.index t1_9 (0 : Fin 2) * 1 + 1; omega
      | ⟨1, _⟩ => show win1_8.index t1_9 (1 : Fin 2) * 128 ≤ (i 1).val ∧ (i 1).val < win1_8.index t1_9 (1 : Fin 2) * 128 + 128; omega⟩

/-! ## The three arrays after the run -/

/-- The matrix output ends, entry by entry, at the row formula of the six arrays the region finds. -/
theorem arr6 (n : Fin 50000) (o : Fin 128) :
    ((dat1 V c).arrAt 6 cfg1.N : S50000x128.Idx → EReal) (ix2 n o) = P V c n o :=
  congrFun (final6 V c) (ix2 n o)

/-- The sum accumulator ends at the column sums of that matrix over all its rows. -/
theorem arr7 (o : Fin 128) :
    ((dat1 V c).arrAt 7 cfg1.N : S1x128.Idx → EReal) (ix2 (0 : Fin 1) o) = ∑ n : Fin 50000, P V c n o :=
  (congrFun (final7 V c) (ix2 (0 : Fin 1) o)).trans
    (((outs_eq V c t1_9.val t1_9.isLt).2.1 o).trans
      (sum_blocks_rows (fun n => P V c n o) (fun s => Q V c s o) fun s hs => by unfold Q; rw [dif_pos hs]))

/-- The sum-of-squares accumulator ends at the column sums of the squares of that matrix's entries. -/
theorem arr8 (o : Fin 128) :
    ((dat1 V c).arrAt 8 cfg1.N : S1x128.Idx → EReal) (ix2 (0 : Fin 1) o) = ∑ n : Fin 50000, P V c n o * P V c n o :=
  (congrFun (final8 V c) (ix2 (0 : Fin 1) o)).trans
    (((outs_eq V c t1_9.val t1_9.isLt).2.2 o).trans
      (sum_blocks_rows (fun n => P V c n o * P V c n o) (fun s => Q2 V c s o) fun s hs => by unfold Q2; rw [dif_pos hs]))

end Arrays

end Cert.KernelIdeal.Stats

end
-- ==== Proof.KerValue.lean ====
/-
  The kernel's program computes the "k" family of formulas.

  The three kernels' outputs are chained through the host stretches between them: the first kernel's rows are the
  projected rows scaled by the source's scale; accumulated at the target words, added to the node's own scaled row,
  scaled again, with the second projection and the bias, they are the pre-normalization matrix, whose column sums
  and column sums of squares the second kernel also leaves; the third kernel normalizes with their mean and variance.
-/
import proofs.«163069_j30202210025887_2_alg».proof.Proof.KerHost0
import proofs.«163069_j30202210025887_2_alg».proof.Proof.KerHost1
import proofs.«163069_j30202210025887_2_alg».proof.Proof.KerHost2
import proofs.«163069_j30202210025887_2_alg».proof.Proof.KerEntry
import proofs.«163069_j30202210025887_2_alg».proof.Proof.KerPoint0
import proofs.«163069_j30202210025887_2_alg».proof.Proof.KerPoint2
import proofs.«163069_j30202210025887_2_alg».proof.Proof.KerStats

set_option maxRecDepth 16384

noncomputable section

namespace Cert.KernelIdeal.HostValue

open Cert.KernelIdeal Cert.KernelIdeal.Gen
open Idealize.ShloMosaic Idealize.ShloMosaic.TcCoe Idealize.SL.Sem Idealize.ShloMosaic.ValueIdx
open Cert.GcnBlock Cert.Indexed Cert.Dense

open scoped BigOperators

variable (m : (ℓ : Loc nD τ sig) → Buf (Elt Ideal) ℓ) (ρ : Dev nD → PrngReg) (c : Dev nD)

/-! ## The first kernel -/

theorem V3_0 : V3 (F := Ideal) m ρ c (Pipeline.arrRef spec0 0) = m ((c.tc : Thread nD τ).loc main_arg0) :=
  W3_arg m ρ c main_arg0 (Or.inl rfl)
theorem V3_1 : V3 (F := Ideal) m ρ c (Pipeline.arrRef spec0 1) = m ((c.tc : Thread nD τ).loc main_arg1) :=
  W3_arg m ρ c main_arg1 (Or.inr (Or.inl rfl))
theorem V3_2 : V3 (F := Ideal) m ρ c (Pipeline.arrRef spec0 2) = dinv2A (m ((c.tc : Thread nD τ).loc main_arg6)) :=
  W3_dinv m ρ c

/-- The first kernel's rows: the projected rows scaled by the node's scale. -/
theorem hs_apply (n : Fin 50000) (o : Fin 128) :
    (W4 (F := Ideal) m ρ c (Proc.devRef .tc main_v15) : S50000x128.Idx → EReal) (ix2 n o)
      = khs (m ((c.tc : Thread nD τ).loc main_arg0)) (m ((c.tc : Thread nD τ).loc main_arg1))
          (m ((c.tc : Thread nD τ).loc main_arg6)) n o := by
  have h := Cert.KernelIdeal.Point.arr3 (V3 (F := Ideal) m ρ) c n o
  rw [V3_0, V3_1, V3_2] at h
  have e : W4 (F := Ideal) m ρ c (Proc.devRef .tc main_v15) = (dat0 (V3 (F := Ideal) m ρ) c).arrAt 3 cfg0.N := W4_arr m ρ c 3
  rw [e]
  refine h.trans ?_
  unfold hsOf khs mmT
  rw [dinv2A_apply]

/-! ## The second kernel -/

theorem V5_0 : V5 (F := Ideal) m ρ c (Pipeline.arrRef spec1 0)
    = aggA (dstW (m ((c.tc : Thread nD τ).loc main_arg6))) (srcW (m ((c.tc : Thread nD τ).loc main_arg6)))
        (W4 (F := Ideal) m ρ c (Proc.devRef .tc main_v15)) := by
  refine (W5_agg m ρ c).trans ?_
  rw [W4_keep m ρ c main_v3 (Or.inr (Or.inl rfl)), W4_keep m ρ c main_v1 (Or.inl rfl), W3_dst, W3_src]
theorem V5_1 : V5 (F := Ideal) m ρ c (Pipeline.arrRef spec1 1) = W4 (F := Ideal) m ρ c (Proc.devRef .tc main_v15) :=
  W5_keep m ρ c main_v15 (Or.inl rfl)
theorem V5_2 : V5 (F := Ideal) m ρ c (Pipeline.arrRef spec1 2) = dinv2A (m ((c.tc : Thread nD τ).loc main_arg6)) :=
  (W5_keep m ρ c main_v14 (Or.inr (Or.inl rfl))).trans ((W4_in m ρ c main_v14 (Or.inr (rfl))).trans (W3_dinv m ρ c))
theorem V5_3 : V5 (F := Ideal) m ρ c (Pipeline.arrRef spec1 3) = m ((c.tc : Thread nD τ).loc main_arg0) :=
  (W5_keep m ρ c main_arg0 (Or.inr (Or.inr (Or.inl rfl)))).trans ((W4_in m ρ c main_arg0 (Or.inl rfl)).trans (W3_arg m ρ c main_arg0 (Or.inl rfl)))
theorem V5_4 : V5 (F := Ideal) m ρ c (Pipeline.arrRef spec1 4) = m ((c.tc : Thread nD τ).loc main_arg3) :=
  (W5_keep m ρ c main_arg3 (Or.inr (Or.inr (Or.inr (Or.inl rfl))))).trans ((W4_keep m ρ c main_arg3 (Or.inr (Or.inr (Or.inr (Or.inl rfl))))).trans (W3_arg m ρ c main_arg3 (Or.inr (Or.inr (Or.inr (Or.inl rfl))))))
theorem V5_5 : V5 (F := Ideal) m ρ c (Pipeline.arrRef spec1 5)
    = shapeCast S1x128 (m ((c.tc : Thread nD τ).loc main_arg2)) shapeCasts_S128_S1x128 := by
  refine (W5_bias m ρ c).trans ?_
  rw [W4_keep m ρ c main_arg2 (Or.inr (Or.inr (Or.inl rfl))), W3_arg m ρ c main_arg2 (Or.inr (Or.inr (Or.inl rfl)))]

/-- The second kernel's row formula of its six operands is the pre-normalization entry. -/
theorem pre_apply (n : Fin 50000) (o : Fin 128) :
    preOf (V5 (F := Ideal) m ρ c (Pipeline.arrRef spec1 0)) (V5 (F := Ideal) m ρ c (Pipeline.arrRef spec1 1))
        (V5 (F := Ideal) m ρ c (Pipeline.arrRef spec1 2)) (V5 (F := Ideal) m ρ c (Pipeline.arrRef spec1 3))
        (V5 (F := Ideal) m ρ c (Pipeline.arrRef spec1 4)) (V5 (F := Ideal) m ρ c (Pipeline.arrRef spec1 5)) n o
      = kpre (m ((c.tc : Thread nD τ).loc main_arg0)) (m ((c.tc : Thread nD τ).loc main_arg1))
          (m ((c.tc : Thread nD τ).loc main_arg2)) (m ((c.tc : Thread nD τ).loc main_arg3))
          (m ((c.tc : Thread nD τ).loc main_arg6)) n o := by
  rw [V5_0, V5_1, V5_2, V5_3, V5_4, V5_5]
  have hagg : aggA (dstW (m ((c.tc : Thread nD τ).loc main_arg6))) (srcW (m ((c.tc : Thread nD τ).loc main_arg6)))
      (W4 (F := Ideal) m ρ c (Proc.devRef .tc main_v15)) (ix2 n o)
      = kagg (m ((c.tc : Thread nD τ).loc main_arg0)) (m ((c.tc : Thread nD τ).loc main_arg1))
          (m ((c.tc : Thread nD τ).loc main_arg6)) n o := by
    rw [aggA_apply]
    unfold kagg
    exact sum_names_congr _ _ _ _ n (fun e => dstW_apply _ e) (fun e => by rw [srcW_apply]; exact hs_apply m ρ c _ o)
  unfold preOf kpre mmT
  rw [hagg, hs_apply, dinv2A_apply, row128_apply]

theorem pre6_apply (n : Fin 50000) (o : Fin 128) :
    (W6 (F := Ideal) m ρ c (Proc.devRef .tc main_v27_0) : S50000x128.Idx → EReal) (ix2 n o)
      = kpre (m ((c.tc : Thread nD τ).loc main_arg0)) (m ((c.tc : Thread nD τ).loc main_arg1))
          (m ((c.tc : Thread nD τ).loc main_arg2)) (m ((c.tc : Thread nD τ).loc main_arg3))
          (m ((c.tc : Thread nD τ).loc main_arg6)) n o := by
  have e : W6 (F := Ideal) m ρ c (Proc.devRef .tc main_v27_0) = (dat1 (V5 (F := Ideal) m ρ) c).arrAt 6 cfg1.N := W6_arr m ρ c 6
  rw [e]
  exact (Cert.KernelIdeal.Stats.arr6 (V5 (F := Ideal) m ρ) c n o).trans (pre_apply m ρ c n o)

theorem sum_apply (o : Fin 128) :
    (W6 (F := Ideal) m ρ c (Proc.devRef .tc main_v27_1) : S1x128.Idx → EReal) (ix2 (0 : Fin 1) o)
      = ksum (m ((c.tc : Thread nD τ).loc main_arg0)) (m ((c.tc : Thread nD τ).loc main_arg1))
          (m ((c.tc : Thread nD τ).loc main_arg2)) (m ((c.tc : Thread nD τ).loc main_arg3))
          (m ((c.tc : Thread nD τ).loc main_arg6)) o := by
  have e : W6 (F := Ideal) m ρ c (Proc.devRef .tc main_v27_1) = (dat1 (V5 (F := Ideal) m ρ) c).arrAt 7 cfg1.N := W6_arr m ρ c 7
  rw [e]
  refine (Cert.KernelIdeal.Stats.arr7 (V5 (F := Ideal) m ρ) c o).trans ?_
  show (∑ n : Fin 50000, Cert.KernelIdeal.Stats.P (V5 (F := Ideal) m ρ) c n o : EReal) = _
  unfold ksum
  exact Finset.sum_congr rfl fun n _ => pre_apply m ρ c n o

theorem sumsq_apply (o : Fin 128) :
    (W6 (F := Ideal) m ρ c (Proc.devRef .tc main_v27_2) : S1x128.Idx → EReal) (ix2 (0 : Fin 1) o)
      = ksumsq (m ((c.tc : Thread nD τ).loc main_arg0)) (m ((c.tc : Thread nD τ).loc main_arg1))
          (m ((c.tc : Thread nD τ).loc main_arg2)) (m ((c.tc : Thread nD τ).loc main_arg3))
          (m ((c.tc : Thread nD τ).loc main_arg6)) o := by
  have e : W6 (F := Ideal) m ρ c (Proc.devRef .tc main_v27_2) = (dat1 (V5 (F := Ideal) m ρ) c).arrAt 8 cfg1.N := W6_arr m ρ c 8
  rw [e]
  refine (Cert.KernelIdeal.Stats.arr8 (V5 (F := Ideal) m ρ) c o).trans ?_
  show (∑ n : Fin 50000, Cert.KernelIdeal.Stats.P (V5 (F := Ideal) m ρ) c n o
      * Cert.KernelIdeal.Stats.P (V5 (F := Ideal) m ρ) c n o : EReal) = _
  unfold ksumsq
  exact Finset.sum_congr rfl fun n _ => congrArg₂ (· * ·) (pre_apply m ρ c n o) (pre_apply m ρ c n o)

/-! ## The third kernel -/

theorem V7_0 : V7 (F := Ideal) m ρ c (Pipeline.arrRef spec2 0) = W6 (F := Ideal) m ρ c (Proc.devRef .tc main_v27_0) :=
  W7_keep m ρ c
theorem V7_1 : V7 (F := Ideal) m ρ c (Pipeline.arrRef spec2 1) = meanA (W6 (F := Ideal) m ρ c (Proc.devRef .tc main_v27_1)) :=
  W7_mean m ρ c
theorem V7_2 : V7 (F := Ideal) m ρ c (Pipeline.arrRef spec2 2)
    = varA (W6 (F := Ideal) m ρ c (Proc.devRef .tc main_v27_1)) (W6 (F := Ideal) m ρ c (Proc.devRef .tc main_v27_2)) :=
  W7_var m ρ c
theorem V7_3 : V7 (F := Ideal) m ρ c (Pipeline.arrRef spec2 3)
    = shapeCast S1x128 (m ((c.tc : Thread nD τ).loc main_arg4)) shapeCasts_S128_S1x128 := by
  refine (W7_gain m ρ c).trans ?_
  rw [W6_keep m ρ c main_arg4 (Or.inl rfl), W5_keep m ρ c main_arg4 (Or.inr (Or.inr (Or.inr (Or.inr (Or.inl rfl))))), W4_keep m ρ c main_arg4 (Or.inr (Or.inr (Or.inr (Or.inr (Or.inl rfl))))),
    W3_arg m ρ c main_arg4 (Or.inr (Or.inr (Or.inr (Or.inr (Or.inl rfl)))))]
theorem V7_4 : V7 (F := Ideal) m ρ c (Pipeline.arrRef spec2 4)
    = shapeCast S1x128 (m ((c.tc : Thread nD τ).loc main_arg5)) shapeCasts_S128_S1x128 := by
  refine (W7_shift m ρ c).trans ?_
  rw [W6_keep m ρ c main_arg5 (Or.inr (rfl)), W5_keep m ρ c main_arg5 (Or.inr (Or.inr (Or.inr (Or.inr (Or.inr (rfl)))))), W4_keep m ρ c main_arg5 (Or.inr (Or.inr (Or.inr (Or.inr (Or.inr (rfl)))))),
    W3_arg m ρ c main_arg5 (Or.inr (Or.inr (Or.inr (Or.inr (Or.inr (rfl))))))]

/-- The program's result, entry by entry, is the "k" family's. -/
theorem kernel_value (n : Fin 50000) (o : Fin 128) :
    (W8 (F := Ideal) m ρ c (Proc.devRef .tc main_v38) : S50000x128.Idx → EReal) (ix2 n o)
      = kout (m ((c.tc : Thread nD τ).loc main_arg0)) (m ((c.tc : Thread nD τ).loc main_arg1))
          (m ((c.tc : Thread nD τ).loc main_arg2)) (m ((c.tc : Thread nD τ).loc main_arg3))
          (m ((c.tc : Thread nD τ).loc main_arg4)) (m ((c.tc : Thread nD τ).loc main_arg5))
          (m ((c.tc : Thread nD τ).loc main_arg6)) n o := by
  have e : W8 (F := Ideal) m ρ c (Proc.devRef .tc main_v38) = (dat2 (V7 (F := Ideal) m ρ) c).arrAt 5 cfg2.N := W8_arr m ρ c 5
  rw [e]
  refine (Cert.KernelIdeal.Point.arr5 (V7 (F := Ideal) m ρ) c n o).trans ?_
  rw [V7_0, V7_1, V7_2, V7_3, V7_4]
  unfold outOf kout kvar kmean
  rw [pre6_apply, meanA_apply, varA_apply, sum_apply, sumsq_apply, row128_apply, row128_apply]

end Cert.KernelIdeal.HostValue

end
-- ==== Proof.LibFinite.lean ====
/-
  "Every entry is finite", decoded.

  A precondition states it of an array as the conjunction over the array of the test |x| < +∞, the bound being the
  f32 word of +∞. An extended real whose absolute value is below +∞ is neither infinity, so it is a real; and a
  conjunction over an array that holds is every one of its terms.
-/
import proofs.«163069_j30202210025887_2_alg».proof.Proof.LibMatAssoc
import Idealize.ShloMosaic.Lib.ReduceAll
import Idealize.ShloMosaic.Lib.Affine

noncomputable section

namespace Cert.Gcn

open Idealize.ShloMosaic Idealize.ShloMosaic.ValueIdx

/-- An extended real with |x| < +∞ (the test the precondition makes, against the f32 word of +∞) is a real. -/
theorem real_of_abs_lt_inf (x : EReal) (h : Ideal.cmp .olt (max x (-x)) (Ideal.ofBits .f32 0x7F800000#32) = 1#1) :
    ∃ r : ℝ, x = (r : EReal) := by
  have htop : Ideal.ofBits .f32 0x7F800000#32 = ⊤ := by simp [Ideal.ofBits, Ideal.ieee]
  rw [htop] at h
  unfold Ideal.cmp at h
  have hlt : max x (-x) < ⊤ := by
    by_contra hn
    simp [hn] at h
  rw [max_lt_iff] at hlt
  induction x using EReal.rec with
  | bot => simp at hlt
  | coe r => exact ⟨r, rfl⟩
  | top => simp at hlt

instance : Subsingleton (⟨0, ![]⟩ : Shape).Idx := ⟨fun a b => funext fun d => d.elim0⟩

/-- One input's conjunct: the test holds at every index, so every entry is real. -/
theorem finite_of_all {s : Shape} {axes : List (Fin s.rank)} (x : FVec Ideal s .f32)
    (hb : (⟨0, ![]⟩ : Shape).BroadcastsInDim s (![] : Fin 0 → Fin s.rank)) (hr : s.ReducesTo axes ⟨0, ![]⟩)
    (hu : 0 < (⟨0, ![]⟩ : Shape).numel)
    (e : Host.reduce IntOp.andi (cmpf .olt (Host.absf x) (broadcastInDim s ![] hb (constant (F := Ideal) ⟨0, ![]⟩ .f32 0x7F800000#32)))
          (constantI ⟨0, ![]⟩ 1 1#1) hr hu ix0 = 1#1) : Finite x := by
  intro i
  have hi := Host.reduce_andi_all _ _ hr hu ix0 e i
  have hi' : Ideal.cmp .olt (max (x i) (-(x i)))
      (broadcastInDim s ![] hb (constant (F := Ideal) ⟨0, ![]⟩ .f32 0x7F800000#32) i) = 1#1 := hi
  rw [broadcastInDim_apply ![] hb _ i ix0 (fun ax => ax.elim0)] at hi'
  exact real_of_abs_lt_inf (x i) hi'

end Cert.Gcn

end
-- ==== Proof.KerPre.lean ====
/-
  The precondition, opened: every float input holds real numbers.

  The precondition is the conjunction, over the six float inputs, of "every entry's absolute value is below
  +infinity". Each conjunct says that every entry of its input is a real number.
-/
import proofs.«163069_j30202210025887_2_alg».proof.Proof.LibFinite
import proofs.«163069_j30202210025887_2_alg».proof.Pre_finite_inputs
import proofs.«163069_j30202210025887_2_alg».proof.Proof.Gen.Pre_finite_inputs

set_option maxRecDepth 16384

noncomputable section

namespace Cert.GcnBlock

open Cert.Gcn Idealize.ShloMosaic Idealize.ShloMosaic.ValueIdx Cert.Pre_finite_inputs Cert.Pre_finite_inputs.Gen

/-- Under the precondition the six float inputs hold real numbers. -/
theorem finite_of_pre (x : FVec Ideal S50000x128 .f32) (W : FVec Ideal S128x128 .f32) (b : FVec Ideal S128 .f32)
    (RW : FVec Ideal S128x128 .f32) (γ β : FVec Ideal S128 .f32) (ei : IVec S2x800000 32)
    (h : Cert.Pre_finite_inputs.fn (F := Ideal) x W b RW γ β ei = fun _ => 1#1) :
    Finite x ∧ Finite W ∧ Finite b ∧ Finite RW ∧ Finite γ ∧ Finite β := by
  have h0 := congrFun h ix0
  dsimp only [Cert.Pre_finite_inputs.fn, Cert.Pre_finite_inputs.fn_part1, andi] at h0
  obtain ⟨h5, e5⟩ := IntOp.andi_eq_one.1 h0
  obtain ⟨h4, e4⟩ := IntOp.andi_eq_one.1 h5
  obtain ⟨h3, e3⟩ := IntOp.andi_eq_one.1 h4
  obtain ⟨h2, e2⟩ := IntOp.andi_eq_one.1 h3
  obtain ⟨e0, e1⟩ := IntOp.andi_eq_one.1 h2
  exact ⟨finite_of_all x _ _ _ e0, finite_of_all W _ _ _ e1, finite_of_all b _ _ _ e2, finite_of_all RW _ _ _ e3,
    finite_of_all γ _ _ _ e4, finite_of_all β _ _ _ e5⟩

end Cert.GcnBlock

end
-- ==== Proof.RefOps.lean ====
/-
  The reference program as one list of host operations. Its @main is a straight line: the three outlined
  functions (a select against a broadcast scalar; the column variance, which itself selects against a
  broadcast scalar; the cut at zero) are listed in line at their call sites over the buffers each call names.
  Every weakly fair execution of @main terminates with every buffer at the fold of that list over the launch
  contents.
-/
import proofs.«163069_j30202210025887_2_alg».proof.Proof.Gen.ReferenceIdeal
import Idealize.ShloMosaic.Lib.StableHlo.Run

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-- @main's operations in order, the calls unfolded: the select of the scales is three operations into the
    first call's buffers, the variance twenty into the second's and three more into its own select's, the cut
    at zero three into the third's. -/
abbrev ops : List (HloOp τ sig (Elt F)) :=
  [ nullary main_v0 (iotaInDim S50000 32 0),
    unary main_arg6 main_v1 ((extractStridedSlice S1x800000 ![0, 0] · slices_S2x800000_S1x800000_0_0) : (⟨S2x800000, .i32⟩ : BufTy).Contents (Elt F) → (⟨S1x800000, .i32⟩ : BufTy).Contents (Elt F)),
    reshape main_v1 main_v2 rfl shapeCasts_S1x800000_S800000,
    binary main_v2 main_v0 main_v3 ((fun a b => concatenate S850000 0 [⟨S800000, a⟩, ⟨S50000, b⟩] concatenates_S800000_S50000_S850000_d0) : (⟨S800000, .i32⟩ : BufTy).Contents (Elt F) → (⟨S50000, .i32⟩ : BufTy).Contents (Elt F) → (⟨S850000, .i32⟩ : BufTy).Contents (Elt F)),
    unary main_arg6 main_v4 ((extractStridedSlice S1x800000 ![1, 0] · slices_S2x800000_S1x800000_1_0) : (⟨S2x800000, .i32⟩ : BufTy).Contents (Elt F) → (⟨S1x800000, .i32⟩ : BufTy).Contents (Elt F)),
    reshape main_v4 main_v5 rfl shapeCasts_S1x800000_S800000,
    binary main_v5 main_v0 main_v6 ((fun a b => concatenate S850000 0 [⟨S800000, a⟩, ⟨S50000, b⟩] concatenates_S800000_S50000_S850000_d0) : (⟨S800000, .i32⟩ : BufTy).Contents (Elt F) → (⟨S50000, .i32⟩ : BufTy).Contents (Elt F) → (⟨S850000, .i32⟩ : BufTy).Contents (Elt F)),
    nullary main_cst (constant S_ .f32 0x3F800000#32),
    unary main_cst main_v7 (broadcastInDim S850000 ![] bcast_S_S850000 : (⟨S_, .f32⟩ : BufTy).Contents (Elt F) → (⟨S850000, .f32⟩ : BufTy).Contents (Elt F)),
    nullary main_cst_0 (constant S_ .f32 0x00000000#32),
    unary main_cst_0 main_v8 (broadcastInDim S50000 ![] bcast_S_S50000 : (⟨S_, .f32⟩ : BufTy).Contents (Elt F) → (⟨S50000, .f32⟩ : BufTy).Contents (Elt F)),
    unary main_v6 main_v9 (broadcastInDim S850000x1 ![0] bcast_S850000_S850000x1_0 : (⟨S850000, .i32⟩ : BufTy).Contents (Elt F) → (⟨S850000x1, .i32⟩ : BufTy).Contents (Elt F)),
    ternary main_v8 main_v9 main_v7 main_v10 ((fun x i u => Host.scatterAdd scatter_S50000_S850000x1_S850000_n_0_0_1 x i u) : (⟨S50000, .f32⟩ : BufTy).Contents (Elt F) → (⟨S850000x1, .i32⟩ : BufTy).Contents (Elt F) → (⟨S850000, .f32⟩ : BufTy).Contents (Elt F) → (⟨S50000, .f32⟩ : BufTy).Contents (Elt F)),
    nullary main_cst_1 (constant S_ .f32 0x00000000#32),
    unary main_cst_1 main_v11 (broadcastInDim S50000 ![] bcast_S_S50000 : (⟨S_, .f32⟩ : BufTy).Contents (Elt F) → (⟨S50000, .f32⟩ : BufTy).Contents (Elt F)),
    binary main_v10 main_v11 main_v12 (cmpf .ogt : (⟨S50000, .f32⟩ : BufTy).Contents (Elt F) → (⟨S50000, .f32⟩ : BufTy).Contents (Elt F) → (⟨S50000, .i1⟩ : BufTy).Contents (Elt F)),
    unary main_v10 main_v13 (Host.rsqrt : (⟨S50000, .f32⟩ : BufTy).Contents (Elt F) → (⟨S50000, .f32⟩ : BufTy).Contents (Elt F)),
    nullary main_cst_2 (constant S_ .f32 0x00000000#32),
    TRef.unary (.of main_cst_2 : TRef sig ⟨S_, .f32⟩) main_call0.v0 id,
    TRef.unary main_call0.v0 main_call0.v1 (broadcastInDim S50000 ![] bcast_S_S50000),
    TRef.ternary (.of main_v12 : TRef sig ⟨S50000, .i1⟩) (.of main_v13 : TRef sig ⟨S50000, .f32⟩) main_call0.v1 main_call0.v2 select,
    nullary main_c (constantI S_ 32 0#32),
    unary main_c main_v15 (broadcastInDim S850000 ![] bcast_S_S850000 : (⟨S_, .i32⟩ : BufTy).Contents (Elt F) → (⟨S850000, .i32⟩ : BufTy).Contents (Elt F)),
    binary main_v3 main_v15 main_v16 (cmpi .slt : (⟨S850000, .i32⟩ : BufTy).Contents (Elt F) → (⟨S850000, .i32⟩ : BufTy).Contents (Elt F) → (⟨S850000, .i1⟩ : BufTy).Contents (Elt F)),
    nullary main_c_3 (constantI S_ 32 50000#32),
    unary main_c_3 main_v17 (broadcastInDim S850000 ![] bcast_S_S850000 : (⟨S_, .i32⟩ : BufTy).Contents (Elt F) → (⟨S850000, .i32⟩ : BufTy).Contents (Elt F)),
    binary main_v3 main_v17 main_v18 (addi : (⟨S850000, .i32⟩ : BufTy).Contents (Elt F) → (⟨S850000, .i32⟩ : BufTy).Contents (Elt F) → (⟨S850000, .i32⟩ : BufTy).Contents (Elt F)),
    ternary main_v16 main_v18 main_v3 main_v19 (select : (⟨S850000, .i1⟩ : BufTy).Contents (Elt F) → (⟨S850000, .i32⟩ : BufTy).Contents (Elt F) → (⟨S850000, .i32⟩ : BufTy).Contents (Elt F) → (⟨S850000, .i32⟩ : BufTy).Contents (Elt F)),
    unary main_v19 main_v20 (broadcastInDim S850000x1 ![0] bcast_S850000_S850000x1_0 : (⟨S850000, .i32⟩ : BufTy).Contents (Elt F) → (⟨S850000x1, .i32⟩ : BufTy).Contents (Elt F)),
    binary main_v14 main_v20 main_v21 ((fun x i => Host.gather gather_S50000_S850000x1_S850000_n_0_n_n_0_1_1 x i) : (⟨S50000, .f32⟩ : BufTy).Contents (Elt F) → (⟨S850000x1, .i32⟩ : BufTy).Contents (Elt F) → (⟨S850000, .f32⟩ : BufTy).Contents (Elt F)),
    nullary main_c_4 (constantI S_ 32 0#32),
    unary main_c_4 main_v22 (broadcastInDim S850000 ![] bcast_S_S850000 : (⟨S_, .i32⟩ : BufTy).Contents (Elt F) → (⟨S850000, .i32⟩ : BufTy).Contents (Elt F)),
    binary main_v6 main_v22 main_v23 (cmpi .slt : (⟨S850000, .i32⟩ : BufTy).Contents (Elt F) → (⟨S850000, .i32⟩ : BufTy).Contents (Elt F) → (⟨S850000, .i1⟩ : BufTy).Contents (Elt F)),
    nullary main_c_5 (constantI S_ 32 50000#32),
    unary main_c_5 main_v24 (broadcastInDim S850000 ![] bcast_S_S850000 : (⟨S_, .i32⟩ : BufTy).Contents (Elt F) → (⟨S850000, .i32⟩ : BufTy).Contents (Elt F)),
    binary main_v6 main_v24 main_v25 (addi : (⟨S850000, .i32⟩ : BufTy).Contents (Elt F) → (⟨S850000, .i32⟩ : BufTy).Contents (Elt F) → (⟨S850000, .i32⟩ : BufTy).Contents (Elt F)),
    ternary main_v23 main_v25 main_v6 main_v26 (select : (⟨S850000, .i1⟩ : BufTy).Contents (Elt F) → (⟨S850000, .i32⟩ : BufTy).Contents (Elt F) → (⟨S850000, .i32⟩ : BufTy).Contents (Elt F) → (⟨S850000, .i32⟩ : BufTy).Contents (Elt F)),
    unary main_v26 main_v27 (broadcastInDim S850000x1 ![0] bcast_S850000_S850000x1_0 : (⟨S850000, .i32⟩ : BufTy).Contents (Elt F) → (⟨S850000x1, .i32⟩ : BufTy).Contents (Elt F)),
    binary main_v14 main_v27 main_v28 ((fun x i => Host.gather gather_S50000_S850000x1_S850000_n_0_n_n_0_1_1 x i) : (⟨S50000, .f32⟩ : BufTy).Contents (Elt F) → (⟨S850000x1, .i32⟩ : BufTy).Contents (Elt F) → (⟨S850000, .f32⟩ : BufTy).Contents (Elt F)),
    binary main_v21 main_v28 main_v29 (mulf : (⟨S850000, .f32⟩ : BufTy).Contents (Elt F) → (⟨S850000, .f32⟩ : BufTy).Contents (Elt F) → (⟨S850000, .f32⟩ : BufTy).Contents (Elt F)),
    unary main_arg1 main_v30 ((transpose S128x128 [1, 0] · transposes_S128x128_S128x128_1_0) : (⟨S128x128, .f32⟩ : BufTy).Contents (Elt F) → (⟨S128x128, .f32⟩ : BufTy).Contents (Elt F)),
    binary main_arg0 main_v30 main_v31 ((fun l r => Host.dotGeneral dot_S50000x128_S128x128_S50000x128_1_0_0_1_n_n none l r) : (⟨S50000x128, .f32⟩ : BufTy).Contents (Elt F) → (⟨S128x128, .f32⟩ : BufTy).Contents (Elt F) → (⟨S50000x128, .f32⟩ : BufTy).Contents (Elt F)),
    nullary main_c_6 (constantI S_ 32 0#32),
    unary main_c_6 main_v32 (broadcastInDim S850000 ![] bcast_S_S850000 : (⟨S_, .i32⟩ : BufTy).Contents (Elt F) → (⟨S850000, .i32⟩ : BufTy).Contents (Elt F)),
    binary main_v3 main_v32 main_v33 (cmpi .slt : (⟨S850000, .i32⟩ : BufTy).Contents (Elt F) → (⟨S850000, .i32⟩ : BufTy).Contents (Elt F) → (⟨S850000, .i1⟩ : BufTy).Contents (Elt F)),
    nullary main_c_7 (constantI S_ 32 50000#32),
    unary main_c_7 main_v34 (broadcastInDim S850000 ![] bcast_S_S850000 : (⟨S_, .i32⟩ : BufTy).Contents (Elt F) → (⟨S850000, .i32⟩ : BufTy).Contents (Elt F)),
    binary main_v3 main_v34 main_v35 (addi : (⟨S850000, .i32⟩ : BufTy).Contents (Elt F) → (⟨S850000, .i32⟩ : BufTy).Contents (Elt F) → (⟨S850000, .i32⟩ : BufTy).Contents (Elt F)),
    ternary main_v33 main_v35 main_v3 main_v36 (select : (⟨S850000, .i1⟩ : BufTy).Contents (Elt F) → (⟨S850000, .i32⟩ : BufTy).Contents (Elt F) → (⟨S850000, .i32⟩ : BufTy).Contents (Elt F) → (⟨S850000, .i32⟩ : BufTy).Contents (Elt F)),
    unary main_v36 main_v37 (broadcastInDim S850000x1 ![0] bcast_S850000_S850000x1_0 : (⟨S850000, .i32⟩ : BufTy).Contents (Elt F) → (⟨S850000x1, .i32⟩ : BufTy).Contents (Elt F)),
    binary main_v31 main_v37 main_v38 ((fun x i => Host.gather gather_S50000x128_S850000x1_S850000x128_1_0_n_n_0_1_1128 x i) : (⟨S50000x128, .f32⟩ : BufTy).Contents (Elt F) → (⟨S850000x1, .i32⟩ : BufTy).Contents (Elt F) → (⟨S850000x128, .f32⟩ : BufTy).Contents (Elt F)),
    unary main_v29 main_v39 (broadcastInDim S850000x1 ![0] bcast_S850000_S850000x1_0 : (⟨S850000, .f32⟩ : BufTy).Contents (Elt F) → (⟨S850000x1, .f32⟩ : BufTy).Contents (Elt F)),
    unary main_v39 main_v40 (broadcastInDim S850000x128 ![0, 1] bcast_S850000x1_S850000x128_0_1 : (⟨S850000x1, .f32⟩ : BufTy).Contents (Elt F) → (⟨S850000x128, .f32⟩ : BufTy).Contents (Elt F)),
    binary main_v38 main_v40 main_v41 (mulf : (⟨S850000x128, .f32⟩ : BufTy).Contents (Elt F) → (⟨S850000x128, .f32⟩ : BufTy).Contents (Elt F) → (⟨S850000x128, .f32⟩ : BufTy).Contents (Elt F)),
    nullary main_cst_8 (constant S_ .f32 0x00000000#32),
    unary main_cst_8 main_v42 (broadcastInDim S50000x128 ![] bcast_S_S50000x128 : (⟨S_, .f32⟩ : BufTy).Contents (Elt F) → (⟨S50000x128, .f32⟩ : BufTy).Contents (Elt F)),
    unary main_v6 main_v43 (broadcastInDim S850000x1 ![0] bcast_S850000_S850000x1_0 : (⟨S850000, .i32⟩ : BufTy).Contents (Elt F) → (⟨S850000x1, .i32⟩ : BufTy).Contents (Elt F)),
    ternary main_v42 main_v43 main_v41 main_v44 ((fun x i u => Host.scatterAdd scatter_S50000x128_S850000x1_S850000x128_1_0_0_1 x i u) : (⟨S50000x128, .f32⟩ : BufTy).Contents (Elt F) → (⟨S850000x1, .i32⟩ : BufTy).Contents (Elt F) → (⟨S850000x128, .f32⟩ : BufTy).Contents (Elt F) → (⟨S50000x128, .f32⟩ : BufTy).Contents (Elt F)),
    unary main_arg2 main_v45 (broadcastInDim S1x128 ![1] bcast_S128_S1x128_1 : (⟨S128, .f32⟩ : BufTy).Contents (Elt F) → (⟨S1x128, .f32⟩ : BufTy).Contents (Elt F)),
    unary main_v45 main_v46 (broadcastInDim S50000x128 ![0, 1] bcast_S1x128_S50000x128_0_1 : (⟨S1x128, .f32⟩ : BufTy).Contents (Elt F) → (⟨S50000x128, .f32⟩ : BufTy).Contents (Elt F)),
    binary main_v44 main_v46 main_v47 (addf : (⟨S50000x128, .f32⟩ : BufTy).Contents (Elt F) → (⟨S50000x128, .f32⟩ : BufTy).Contents (Elt F) → (⟨S50000x128, .f32⟩ : BufTy).Contents (Elt F)),
    unary main_arg3 main_v48 ((transpose S128x128 [1, 0] · transposes_S128x128_S128x128_1_0) : (⟨S128x128, .f32⟩ : BufTy).Contents (Elt F) → (⟨S128x128, .f32⟩ : BufTy).Contents (Elt F)),
    binary main_arg0 main_v48 main_v49 ((fun l r => Host.dotGeneral dot_S50000x128_S128x128_S50000x128_1_0_0_1_n_n none l r) : (⟨S50000x128, .f32⟩ : BufTy).Contents (Elt F) → (⟨S128x128, .f32⟩ : BufTy).Contents (Elt F) → (⟨S50000x128, .f32⟩ : BufTy).Contents (Elt F)),
    binary main_v47 main_v49 main_v50 (addf : (⟨S50000x128, .f32⟩ : BufTy).Contents (Elt F) → (⟨S50000x128, .f32⟩ : BufTy).Contents (Elt F) → (⟨S50000x128, .f32⟩ : BufTy).Contents (Elt F)),
    nullary main_cst_9 (constant S_ .f32 0x00000000#32),
    binary main_v50 main_cst_9 main_v51 ((fun x v => Host.reduceAdd x v reducesTo_S50000x128_S128_d0 h_S_) : (⟨S50000x128, .f32⟩ : BufTy).Contents (Elt F) → (⟨S_, .f32⟩ : BufTy).Contents (Elt F) → (⟨S128, .f32⟩ : BufTy).Contents (Elt F)),
    nullary main_cst_10 (constant S_ .f32 0x47435000#32),
    unary main_cst_10 main_v52 (broadcastInDim S128 ![] bcast_S_S128 : (⟨S_, .f32⟩ : BufTy).Contents (Elt F) → (⟨S128, .f32⟩ : BufTy).Contents (Elt F)),
    binary main_v51 main_v52 main_v53 (Host.divf : (⟨S128, .f32⟩ : BufTy).Contents (Elt F) → (⟨S128, .f32⟩ : BufTy).Contents (Elt F) → (⟨S128, .f32⟩ : BufTy).Contents (Elt F)),
    nullary main_c_11 (constantI S_ 32 0#32),
    TRef.nullary main_call1.cst (constant S_ .f32 0x00000000#32),
    TRef.binary (.of main_v50 : TRef sig ⟨S50000x128, .f32⟩) main_call1.cst main_call1.v0 (fun x v => Host.reduceAdd x v reducesTo_S50000x128_S128_d0 h_S_),
    TRef.unary main_call1.v0 main_call1.v1 (broadcastInDim S1x128 ![1] bcast_S128_S1x128_1),
    TRef.nullary main_call1.cst_0 (constant S_ .f32 0x47435000#32),
    TRef.unary main_call1.cst_0 main_call1.v2 (broadcastInDim S1x128 ![] bcast_S_S1x128),
    TRef.binary main_call1.v1 main_call1.v2 main_call1.v3 Host.divf,
    TRef.unary main_call1.v3 main_call1.v4 (broadcastInDim S50000x128 ![0, 1] bcast_S1x128_S50000x128_0_1),
    TRef.binary (.of main_v50 : TRef sig ⟨S50000x128, .f32⟩) main_call1.v4 main_call1.v5 subf,
    TRef.binary main_call1.v5 main_call1.v5 main_call1.v6 mulf,
    TRef.unary (.of main_c_11 : TRef sig ⟨S_, .i32⟩) main_call1.v7 (sitofp .f32),
    TRef.nullary main_call1.cst_1 (constant S_ .f32 0x47435000#32),
    TRef.binary main_call1.cst_1 main_call1.v7 main_call1.v8 subf,
    TRef.nullary main_call1.cst_2 (constant S_ .f32 0x00000000#32),
    TRef.binary main_call1.v6 main_call1.cst_2 main_call1.v9 (fun x v => Host.reduceAdd x v reducesTo_S50000x128_S128_d0 h_S_),
    TRef.unary main_call1.v8 main_call1.v10 (broadcastInDim S128 ![] bcast_S_S128),
    TRef.binary main_call1.v9 main_call1.v10 main_call1.v11 Host.divf,
    TRef.nullary main_call1.cst_3 (constant S_ .f32 0x00000000#32),
    TRef.binary main_call1.v8 main_call1.cst_3 main_call1.v12 (cmpf .ogt),
    TRef.nullary main_call1.cst_4 (constant S_ .f32 0x7FC00000#32),
    TRef.unary main_call1.cst_4 main_call1.call0.v0 id,
    TRef.unary main_call1.call0.v0 main_call1.call0.v1 (broadcastInDim S128 ![] bcast_S_S128),
    TRef.ternary main_call1.v12 main_call1.v11 main_call1.call0.v1 main_call1.call0.v2 (fun p a b => select (broadcastInDim S128 ![] bcast_S_S128 p) a b),
    unary main_v53 main_v55 (broadcastInDim S1x128 ![1] bcast_S128_S1x128_1 : (⟨S128, .f32⟩ : BufTy).Contents (Elt F) → (⟨S1x128, .f32⟩ : BufTy).Contents (Elt F)),
    unary main_v55 main_v56 (broadcastInDim S50000x128 ![0, 1] bcast_S1x128_S50000x128_0_1 : (⟨S1x128, .f32⟩ : BufTy).Contents (Elt F) → (⟨S50000x128, .f32⟩ : BufTy).Contents (Elt F)),
    binary main_v50 main_v56 main_v57 (subf : (⟨S50000x128, .f32⟩ : BufTy).Contents (Elt F) → (⟨S50000x128, .f32⟩ : BufTy).Contents (Elt F) → (⟨S50000x128, .f32⟩ : BufTy).Contents (Elt F)),
    unary main_arg4 main_v58 (broadcastInDim S1x128 ![1] bcast_S128_S1x128_1 : (⟨S128, .f32⟩ : BufTy).Contents (Elt F) → (⟨S1x128, .f32⟩ : BufTy).Contents (Elt F)),
    unary main_v58 main_v59 (broadcastInDim S50000x128 ![0, 1] bcast_S1x128_S50000x128_0_1 : (⟨S1x128, .f32⟩ : BufTy).Contents (Elt F) → (⟨S50000x128, .f32⟩ : BufTy).Contents (Elt F)),
    binary main_v59 main_v57 main_v60 (mulf : (⟨S50000x128, .f32⟩ : BufTy).Contents (Elt F) → (⟨S50000x128, .f32⟩ : BufTy).Contents (Elt F) → (⟨S50000x128, .f32⟩ : BufTy).Contents (Elt F)),
    nullary main_cst_12 (constant S_ .f32 0x3727C5AC#32),
    unary main_cst_12 main_v61 (broadcastInDim S128 ![] bcast_S_S128 : (⟨S_, .f32⟩ : BufTy).Contents (Elt F) → (⟨S128, .f32⟩ : BufTy).Contents (Elt F)),
    binary main_v54 main_v61 main_v62 (addf : (⟨S128, .f32⟩ : BufTy).Contents (Elt F) → (⟨S128, .f32⟩ : BufTy).Contents (Elt F) → (⟨S128, .f32⟩ : BufTy).Contents (Elt F)),
    unary main_v62 main_v63 (Host.rsqrt : (⟨S128, .f32⟩ : BufTy).Contents (Elt F) → (⟨S128, .f32⟩ : BufTy).Contents (Elt F)),
    unary main_v63 main_v64 (broadcastInDim S1x128 ![1] bcast_S128_S1x128_1 : (⟨S128, .f32⟩ : BufTy).Contents (Elt F) → (⟨S1x128, .f32⟩ : BufTy).Contents (Elt F)),
    unary main_v64 main_v65 (broadcastInDim S50000x128 ![0, 1] bcast_S1x128_S50000x128_0_1 : (⟨S1x128, .f32⟩ : BufTy).Contents (Elt F) → (⟨S50000x128, .f32⟩ : BufTy).Contents (Elt F)),
    binary main_v60 main_v65 main_v66 (mulf : (⟨S50000x128, .f32⟩ : BufTy).Contents (Elt F) → (⟨S50000x128, .f32⟩ : BufTy).Contents (Elt F) → (⟨S50000x128, .f32⟩ : BufTy).Contents (Elt F)),
    unary main_arg5 main_v67 (broadcastInDim S1x128 ![1] bcast_S128_S1x128_1 : (⟨S128, .f32⟩ : BufTy).Contents (Elt F) → (⟨S1x128, .f32⟩ : BufTy).Contents (Elt F)),
    unary main_v67 main_v68 (broadcastInDim S50000x128 ![0, 1] bcast_S1x128_S50000x128_0_1 : (⟨S1x128, .f32⟩ : BufTy).Contents (Elt F) → (⟨S50000x128, .f32⟩ : BufTy).Contents (Elt F)),
    binary main_v66 main_v68 main_v69 (addf : (⟨S50000x128, .f32⟩ : BufTy).Contents (Elt F) → (⟨S50000x128, .f32⟩ : BufTy).Contents (Elt F) → (⟨S50000x128, .f32⟩ : BufTy).Contents (Elt F)),
    TRef.nullary main_call2.cst (constant S_ .f32 0x00000000#32),
    TRef.unary main_call2.cst main_call2.v0 (broadcastInDim S50000x128 ![] bcast_S_S50000x128),
    TRef.binary (.of main_v69 : TRef sig ⟨S50000x128, .f32⟩) main_call2.v0 main_call2.v1 maximumf ]

set_option maxRecDepth 8192 in
set_option maxHeartbeats 4000000 in
/-- @main is that straight line: the two windows, the functions' definitions unfolded at their calls and the
    records at their fields; both sides are one chain of steps once sequencing is reassociated. -/
theorem main_eq (c : Dev nD) : main (F := F) c = seq ops := by
  simp only [main, main_part0, main_part1, fn_where.body, fn_where_0.body, fn_var.body, fn_relu.body, seq, bind_assoc, pure_bind]

theorem scopedRefs_eq : (Finset.univ.filter fun b : Ref sig .tc => b.isScoped) = ∅ := by decide
theorem scopedSems_eq : (Finset.univ.filter fun sm : SemLoc sig => sm.isScoped .tc) = ∅ := by decide

set_option maxRecDepth 8192 in
theorem ops_sub : (ops : List (HloOp τ sig (Elt F))).Forall fun op => op.bufs ⊆ tcRefs τ sig :=
  ⟨nullary_bufs_sub .., unary_bufs_sub .., reshape_bufs_sub .., binary_bufs_sub .., unary_bufs_sub .., reshape_bufs_sub .., binary_bufs_sub .., nullary_bufs_sub .., unary_bufs_sub .., nullary_bufs_sub .., unary_bufs_sub .., unary_bufs_sub .., ternary_bufs_sub .., nullary_bufs_sub .., unary_bufs_sub .., binary_bufs_sub .., unary_bufs_sub .., nullary_bufs_sub .., unary_bufs_sub .., unary_bufs_sub .., ternary_bufs_sub .., nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., binary_bufs_sub .., nullary_bufs_sub .., unary_bufs_sub .., binary_bufs_sub .., ternary_bufs_sub .., unary_bufs_sub .., binary_bufs_sub .., binary_bufs_sub .., unary_bufs_sub .., binary_bufs_sub .., nullary_bufs_sub .., unary_bufs_sub .., binary_bufs_sub .., nullary_bufs_sub .., unary_bufs_sub .., binary_bufs_sub .., ternary_bufs_sub .., unary_bufs_sub .., binary_bufs_sub .., unary_bufs_sub .., unary_bufs_sub .., binary_bufs_sub .., nullary_bufs_sub .., unary_bufs_sub .., unary_bufs_sub .., ternary_bufs_sub .., unary_bufs_sub .., unary_bufs_sub .., binary_bufs_sub .., unary_bufs_sub .., binary_bufs_sub .., binary_bufs_sub .., nullary_bufs_sub .., binary_bufs_sub .., nullary_bufs_sub .., unary_bufs_sub .., binary_bufs_sub .., nullary_bufs_sub .., nullary_bufs_sub .., binary_bufs_sub .., unary_bufs_sub .., nullary_bufs_sub .., unary_bufs_sub .., binary_bufs_sub .., unary_bufs_sub .., binary_bufs_sub .., binary_bufs_sub .., unary_bufs_sub .., nullary_bufs_sub .., binary_bufs_sub .., nullary_bufs_sub .., binary_bufs_sub .., unary_bufs_sub .., binary_bufs_sub .., nullary_bufs_sub .., binary_bufs_sub .., nullary_bufs_sub .., unary_bufs_sub .., unary_bufs_sub .., ternary_bufs_sub .., unary_bufs_sub .., unary_bufs_sub .., binary_bufs_sub .., unary_bufs_sub .., unary_bufs_sub .., binary_bufs_sub .., nullary_bufs_sub .., unary_bufs_sub .., binary_bufs_sub .., unary_bufs_sub .., unary_bufs_sub .., unary_bufs_sub .., binary_bufs_sub .., unary_bufs_sub .., unary_bufs_sub .., binary_bufs_sub .., nullary_bufs_sub .., unary_bufs_sub .., binary_bufs_sub ..⟩

set_option maxRecDepth 8192 in
/-- Every weakly fair execution of @main terminates, and every buffer ends at the fold of the operations over
    the launch contents. -/
theorem run_all (m : (ℓ : Loc nD τ sig) → Buf (Elt F) ℓ) (ρ : Dev nD → PrngReg) :
    θ_run defs (onTc (τ := τ) (main (F := F))) ⟨m, fun _ => 0, ρ⟩ fun r =>
      ∀ (c : Dev nD) (b : Ref sig .tc), r.2.mem ((c.tc : Thread nD τ).loc b) = after ops (launchContents m c) (b : DevRef τ sig) :=
  run_seq scopedRefs_eq scopedSems_eq defs main (fun _ => ops) main_eq (fun _ => ops_sub) m ρ

end Cert.ReferenceIdeal.RefRun

end
-- ==== Proof.RefTerm.lean ====
/-
  The value the reference program leaves in its result buffer, as a function of its seven arguments on the
  extended reals, built in stages that follow the mathematics and use the program's own operations: the source
  and target words with the node numbers appended, a word wrapped before a row is taken, the degrees, the
  scales, the per-edge factor, the projected rows, the rows that travel, what each node receives, the bias and
  the second projection, the column mean, the column variance, and the normalized value cut at zero.
-/
import proofs.«163069_j30202210025887_2_alg».proof.Proof.Gen.ReferenceIdeal
import Idealize.ShloMosaic.PureOps.Ideal

noncomputable section

namespace Cert.ReferenceIdeal.RefRun

open Cert.ReferenceIdeal Cert.ReferenceIdeal.Gen Idealize.ShloMosaic

/-! ## Constants and layouts -/

/-- The zero scalar, the one scalar, the number of nodes as a float scalar, the variance's guard. -/
def zeroS : FVec Ideal S_ .f32 := constant (F := Ideal) S_ .f32 0x00000000#32
def oneS : FVec Ideal S_ .f32 := constant (F := Ideal) S_ .f32 0x3F800000#32
def countS : FVec Ideal S_ .f32 := constant (F := Ideal) S_ .f32 0x47435000#32
def epsS : FVec Ideal S_ .f32 := constant (F := Ideal) S_ .f32 0x3727C5AC#32
/-- The word a variance is filled with when there is nothing to average. -/
def nanS : FVec Ideal S_ .f32 := constant (F := Ideal) S_ .f32 0x7FC00000#32

/-- A flat array of words as a column of indices. -/
def asCol (w : IVec S850000 32) : IVec S850000x1 32 := broadcastInDim S850000x1 ![0] bcast_S850000_S850000x1_0 w

/-- A row of 128 repeated over the nodes. -/
def overNodes (v : FVec Ideal S128 .f32) : FVec Ideal S50000x128 .f32 :=
  broadcastInDim S50000x128 ![0, 1] bcast_S1x128_S50000x128_0_1 (broadcastInDim S1x128 ![1] bcast_S128_S1x128_1 v)

/-! ## The edge words -/

/-- Row 0 (the sources) and row 1 (the targets) of the edge array, flat. -/
def edgeSrc (ei : IVec S2x800000 32) : IVec S800000 32 :=
  shapeCast S800000 (extractStridedSlice S1x800000 ![0, 0] ei slices_S2x800000_S1x800000_0_0) shapeCasts_S1x800000_S800000
def edgeDst (ei : IVec S2x800000 32) : IVec S800000 32 :=
  shapeCast S800000 (extractStridedSlice S1x800000 ![1, 0] ei slices_S2x800000_S1x800000_1_0) shapeCasts_S1x800000_S800000

/-- The source words and the target words, each followed by the node numbers 0 … N − 1 (every node's own loop). -/
def srcWords (ei : IVec S2x800000 32) : IVec S850000 32 :=
  concatenate S850000 0 [⟨S800000, edgeSrc ei⟩, ⟨S50000, iotaInDim S50000 32 0⟩] concatenates_S800000_S50000_S850000_d0
def dstWords (ei : IVec S2x800000 32) : IVec S850000 32 :=
  concatenate S850000 0 [⟨S800000, edgeDst ei⟩, ⟨S50000, iotaInDim S50000 32 0⟩] concatenates_S800000_S50000_S850000_d0

/-- Words as they are read before a row is taken: a negative word has the number of nodes added. -/
def wrapWords (w : IVec S850000 32) : IVec S850000 32 :=
  select (cmpi .slt w (broadcastInDim S850000 ![] bcast_S_S850000 (constantI S_ 32 0#32)))
    (addi w (broadcastInDim S850000 ![] bcast_S_S850000 (constantI S_ 32 50000#32))) w

/-! ## Degrees, scales, the per-edge factor -/

/-- A node's degree: one for every appended word that names it, accumulated into zeros. -/
def degrees (ei : IVec S2x800000 32) : FVec Ideal S50000 .f32 :=
  Host.scatterAdd (F := Ideal) scatter_S50000_S850000x1_S850000_n_0_0_1 (broadcastInDim S50000 ![] bcast_S_S50000 zeroS)
    (asCol (dstWords ei)) (broadcastInDim S850000 ![] bcast_S_S850000 oneS)

/-- A node's scale: the reciprocal square root of its degree where that is positive, zero elsewhere. -/
def scales (ei : IVec S2x800000 32) : FVec Ideal S50000 .f32 :=
  select (cmpf .ogt (degrees ei) (broadcastInDim S50000 ![] bcast_S_S50000 zeroS)) (Host.rsqrt (degrees ei))
    (broadcastInDim S50000 ![] bcast_S_S50000 zeroS)

/-- An edge's factor: the scale of its source times the scale of its target. -/
def edgeFactor (ei : IVec S2x800000 32) : FVec Ideal S850000 .f32 :=
  mulf (Host.gather gather_S50000_S850000x1_S850000_n_0_n_n_0_1_1 (scales ei) (asCol (wrapWords (srcWords ei))))
    (Host.gather gather_S50000_S850000x1_S850000_n_0_n_n_0_1_1 (scales ei) (asCol (wrapWords (dstWords ei))))

/-! ## Projection, travel, accumulation -/

/-- x · Wᵀ. -/
def project (x : FVec Ideal S50000x128 .f32) (W : FVec Ideal S128x128 .f32) : FVec Ideal S50000x128 .f32 :=
  Host.dotGeneral (F := Ideal) dot_S50000x128_S128x128_S50000x128_1_0_0_1_n_n none x
    (transpose S128x128 [1, 0] W transposes_S128x128_S128x128_1_0)

/-- The rows that travel: every edge takes the projected row of its source, scaled by the edge's factor. -/
def travelling (x : FVec Ideal S50000x128 .f32) (W : FVec Ideal S128x128 .f32) (ei : IVec S2x800000 32) :
    FVec Ideal S850000x128 .f32 :=
  mulf (Host.gather gather_S50000x128_S850000x1_S850000x128_1_0_n_n_0_1_1128 (project x W) (asCol (wrapWords (srcWords ei))))
    (broadcastInDim S850000x128 ![0, 1] bcast_S850000x1_S850000x128_0_1
      (broadcastInDim S850000x1 ![0] bcast_S850000_S850000x1_0 (edgeFactor ei)))

/-- What each node receives: the travelling rows whose target word names it, accumulated into zeros. -/
def received (x : FVec Ideal S50000x128 .f32) (W : FVec Ideal S128x128 .f32) (ei : IVec S2x800000 32) :
    FVec Ideal S50000x128 .f32 :=
  Host.scatterAdd (F := Ideal) scatter_S50000x128_S850000x1_S850000x128_1_0_0_1
    (broadcastInDim S50000x128 ![] bcast_S_S50000x128 zeroS) (asCol (dstWords ei)) (travelling x W ei)

/-- Plus the bias row, plus the second projection x · RWᵀ. -/
def preNorm (x : FVec Ideal S50000x128 .f32) (W : FVec Ideal S128x128 .f32) (b : FVec Ideal S128 .f32)
    (RW : FVec Ideal S128x128 .f32) (ei : IVec S2x800000 32) : FVec Ideal S50000x128 .f32 :=
  addf (addf (received x W ei) (overNodes b)) (project x RW)

/-! ## Column statistics -/

/-- The sum of a matrix's columns over the nodes, from zero. -/
def colSum (X : FVec Ideal S50000x128 .f32) : FVec Ideal S128 .f32 :=
  Host.reduceAdd (F := Ideal) X zeroS reducesTo_S50000x128_S128_d0 h_S_

/-- The column means. -/
def colMean (X : FVec Ideal S50000x128 .f32) : FVec Ideal S128 .f32 :=
  Host.divf (colSum X) (broadcastInDim S128 ![] bcast_S_S128 countS)

/-- The column means as the variance computes them: kept as one row and divided there. -/
def colMeanRow (X : FVec Ideal S50000x128 .f32) : FVec Ideal S1x128 .f32 :=
  Host.divf (broadcastInDim S1x128 ![1] bcast_S128_S1x128_1 (colSum X)) (broadcastInDim S1x128 ![] bcast_S_S1x128 countS)

/-- The deviations from the column means. -/
def deviations (X : FVec Ideal S50000x128 .f32) : FVec Ideal S50000x128 .f32 :=
  subf X (broadcastInDim S50000x128 ![0, 1] bcast_S1x128_S50000x128_0_1 (colMeanRow X))

/-- The number of nodes less the zero degrees of freedom taken away. -/
def countLess : FVec Ideal S_ .f32 := subf countS (sitofp (F := Ideal) .f32 (constantI S_ 32 0#32))

/-- The column variances: the mean of the squared deviations where there is something to average, the fill word
    otherwise. -/
def colVar (X : FVec Ideal S50000x128 .f32) : FVec Ideal S128 .f32 :=
  select (broadcastInDim S128 ![] bcast_S_S128 (cmpf .ogt countLess zeroS))
    (Host.divf (colSum (mulf (deviations X) (deviations X))) (broadcastInDim S128 ![] bcast_S_S128 countLess))
    (broadcastInDim S128 ![] bcast_S_S128 nanS)

/-! ## Normalized, scaled, shifted, cut at zero -/

/-- gain · (X − mean) · rsqrt(variance + guard) + shift. -/
def normalized (X : FVec Ideal S50000x128 .f32) (γ β : FVec Ideal S128 .f32) : FVec Ideal S50000x128 .f32 :=
  addf
    (mulf (mulf (overNodes γ) (subf X (overNodes (colMean X))))
      (overNodes (Host.rsqrt (addf (colVar X) (broadcastInDim S128 ![] bcast_S_S128 epsS)))))
    (overNodes β)

/-- The maximum with zero, entry by entry. -/
def cutAtZero (X : FVec Ideal S50000x128 .f32) : FVec Ideal S50000x128 .f32 :=
  maximumf X (broadcastInDim S50000x128 ![] bcast_S_S50000x128 zeroS)

/-- The reference's result as a function of its arguments. -/
def result (x : FVec Ideal S50000x128 .f32) (W : FVec Ideal S128x128 .f32) (b : FVec Ideal S128 .f32)
    (RW : FVec Ideal S128x128 .f32) (γ β : FVec Ideal S128 .f32) (ei : IVec S2x800000 32) : FVec Ideal S50000x128 .f32 :=
  cutAtZero (normalized (preNorm x W b RW ei) γ β)

end Cert.ReferenceIdeal.RefRun

end
-- ==== Proof.RefRun.lean ====
/-
  The reference program's run: every weakly fair execution of @main terminates with the result buffer at the
  staged value of the arguments and the arguments unchanged. The operation list is cut into one stretch per stage;
  from any contents, a stretch leaves its stage's buffer at the stage's function of the buffers it reads (each
  operation's own buffer takes its function's value, every other buffer keeps what it held) and keeps the buffers
  later stretches read; the stretches in order give the staged value.
-/
import proofs.«163069_j30202210025887_2_alg».proof.Proof.RefOps
import proofs.«163069_j30202210025887_2_alg».proof.Proof.RefTerm

noncomputable section

namespace Cert.ReferenceIdeal.RefRun

open Cert.ReferenceIdeal Cert.ReferenceIdeal.Gen Idealize.ShloMosaic Idealize.ShloMosaic.TcCoe Idealize.SL.Sem Idealize.ShloMosaic.StableHlo

/-! ## The stages as functions of the stage before -/

/-- The degrees from the target words. -/
def degreesOf (dst : IVec S850000 32) : FVec Ideal S50000 .f32 :=
  Host.scatterAdd (F := Ideal) scatter_S50000_S850000x1_S850000_n_0_0_1 (broadcastInDim S50000 ![] bcast_S_S50000 zeroS)
    (asCol dst) (broadcastInDim S850000 ![] bcast_S_S850000 oneS)

/-- The scales from the degrees. -/
def scalesOf (deg : FVec Ideal S50000 .f32) : FVec Ideal S50000 .f32 :=
  select (cmpf .ogt deg (broadcastInDim S50000 ![] bcast_S_S50000 zeroS)) (Host.rsqrt deg)
    (broadcastInDim S50000 ![] bcast_S_S50000 zeroS)

/-- The per-edge factor from the scales and the two word arrays. -/
def edgeFactorOf (sc : FVec Ideal S50000 .f32) (src dst : IVec S850000 32) : FVec Ideal S850000 .f32 :=
  mulf (Host.gather gather_S50000_S850000x1_S850000_n_0_n_n_0_1_1 sc (asCol (wrapWords src)))
    (Host.gather gather_S50000_S850000x1_S850000_n_0_n_n_0_1_1 sc (asCol (wrapWords dst)))

/-- The travelling rows from the projected rows, the source words and the per-edge factor. -/
def travellingOf (pr : FVec Ideal S50000x128 .f32) (src : IVec S850000 32) (fac : FVec Ideal S850000 .f32) :
    FVec Ideal S850000x128 .f32 :=
  mulf (Host.gather gather_S50000x128_S850000x1_S850000x128_1_0_n_n_0_1_1128 pr (asCol (wrapWords src)))
    (broadcastInDim S850000x128 ![0, 1] bcast_S850000x1_S850000x128_0_1
      (broadcastInDim S850000x1 ![0] bcast_S850000_S850000x1_0 fac))

/-- What the nodes receive, plus the bias, plus the second projection. -/
def preNormOf (dst : IVec S850000 32) (tr : FVec Ideal S850000x128 .f32) (b : FVec Ideal S128 .f32)
    (x : FVec Ideal S50000x128 .f32) (RW : FVec Ideal S128x128 .f32) : FVec Ideal S50000x128 .f32 :=
  addf (addf (Host.scatterAdd (F := Ideal) scatter_S50000x128_S850000x1_S850000x128_1_0_0_1
      (broadcastInDim S50000x128 ![] bcast_S_S50000x128 zeroS) (asCol dst) tr) (overNodes b)) (project x RW)

/-- The normalized value from the matrix, its column means and its column variances. -/
def normalizedOf (X : FVec Ideal S50000x128 .f32) (mean var γ β : FVec Ideal S128 .f32) : FVec Ideal S50000x128 .f32 :=
  addf
    (mulf (mulf (overNodes γ) (subf X (overNodes mean)))
      (overNodes (Host.rsqrt (addf var (broadcastInDim S128 ![] bcast_S_S128 epsS)))))
    (overNodes β)

theorem degrees_eq (ei : IVec S2x800000 32) : degrees ei = degreesOf (dstWords ei) := rfl
theorem scales_eq (ei : IVec S2x800000 32) : scales ei = scalesOf (degrees ei) := rfl
theorem edgeFactor_eq (ei : IVec S2x800000 32) : edgeFactor ei = edgeFactorOf (scales ei) (srcWords ei) (dstWords ei) := rfl
theorem travelling_eq (x : FVec Ideal S50000x128 .f32) (W : FVec Ideal S128x128 .f32) (ei : IVec S2x800000 32) :
    travelling x W ei = travellingOf (project x W) (srcWords ei) (edgeFactor ei) := rfl
theorem preNorm_eq (x : FVec Ideal S50000x128 .f32) (W : FVec Ideal S128x128 .f32) (b : FVec Ideal S128 .f32)
    (RW : FVec Ideal S128x128 .f32) (ei : IVec S2x800000 32) :
    preNorm x W b RW ei = preNormOf (dstWords ei) (travelling x W ei) b x RW := rfl
theorem normalized_eq (X : FVec Ideal S50000x128 .f32) (γ β : FVec Ideal S128 .f32) :
    normalized X γ β = normalizedOf X (colMean X) (colVar X) γ β := rfl

/-! ## The operation list cut into stretches, one per stage -/

variable {F : FTy → Type} [FloatOps F]

/-- A list run after another is the two folds in turn. -/
theorem after_append (l₁ l₂ : List (HloOp τ sig (Elt Ideal))) (V : Valuation τ sig (Elt Ideal)) :
    after (l₁ ++ l₂) V = after l₂ (after l₁ V) := by
  induction l₁ generalizing V with
  | nil => rfl
  | cons op l ih => simp only [List.cons_append, after_cons, ih]

/-- Operations 1 … 7: the two word arrays. -/
def opsA : List (HloOp τ sig (Elt F)) :=
  [ nullary main_v0 (iotaInDim S50000 32 0),
    unary main_arg6 main_v1 ((extractStridedSlice S1x800000 ![0, 0] · slices_S2x800000_S1x800000_0_0) : (⟨S2x800000, .i32⟩ : BufTy).Contents (Elt F) → (⟨S1x800000, .i32⟩ : BufTy).Contents (Elt F)),
    reshape main_v1 main_v2 rfl shapeCasts_S1x800000_S800000,
    binary main_v2 main_v0 main_v3 ((fun a b => concatenate S850000 0 [⟨S800000, a⟩, ⟨S50000, b⟩] concatenates_S800000_S50000_S850000_d0) : (⟨S800000, .i32⟩ : BufTy).Contents (Elt F) → (⟨S50000, .i32⟩ : BufTy).Contents (Elt F) → (⟨S850000, .i32⟩ : BufTy).Contents (Elt F)),
    unary main_arg6 main_v4 ((extractStridedSlice S1x800000 ![1, 0] · slices_S2x800000_S1x800000_1_0) : (⟨S2x800000, .i32⟩ : BufTy).Contents (Elt F) → (⟨S1x800000, .i32⟩ : BufTy).Contents (Elt F)),
    reshape main_v4 main_v5 rfl shapeCasts_S1x800000_S800000,
    binary main_v5 main_v0 main_v6 ((fun a b => concatenate S850000 0 [⟨S800000, a⟩, ⟨S50000, b⟩] concatenates_S800000_S50000_S850000_d0) : (⟨S800000, .i32⟩ : BufTy).Contents (Elt F) → (⟨S50000, .i32⟩ : BufTy).Contents (Elt F) → (⟨S850000, .i32⟩ : BufTy).Contents (Elt F)) ]

/-- Operations 8 … 13: the degrees. -/
def opsB : List (HloOp τ sig (Elt F)) :=
  [ nullary main_cst (constant S_ .f32 0x3F800000#32),
    unary main_cst main_v7 (broadcastInDim S850000 ![] bcast_S_S850000 : (⟨S_, .f32⟩ : BufTy).Contents (Elt F) → (⟨S850000, .f32⟩ : BufTy).Contents (Elt F)),
    nullary main_cst_0 (constant S_ .f32 0x00000000#32),
    unary main_cst_0 main_v8 (broadcastInDim S50000 ![] bcast_S_S50000 : (⟨S_, .f32⟩ : BufTy).Contents (Elt F) → (⟨S50000, .f32⟩ : BufTy).Contents (Elt F)),
    unary main_v6 main_v9 (broadcastInDim S850000x1 ![0] bcast_S850000_S850000x1_0 : (⟨S850000, .i32⟩ : BufTy).Contents (Elt F) → (⟨S850000x1, .i32⟩ : BufTy).Contents (Elt F)),
    ternary main_v8 main_v9 main_v7 main_v10 ((fun x i u => Host.scatterAdd scatter_S50000_S850000x1_S850000_n_0_0_1 x i u) : (⟨S50000, .f32⟩ : BufTy).Contents (Elt F) → (⟨S850000x1, .i32⟩ : BufTy).Contents (Elt F) → (⟨S850000, .f32⟩ : BufTy).Contents (Elt F) → (⟨S50000, .f32⟩ : BufTy).Contents (Elt F)) ]

/-- Operations 14 … 21: the scales. -/
def opsC : List (HloOp τ sig (Elt F)) :=
  [ nullary main_cst_1 (constant S_ .f32 0x00000000#32),
    unary main_cst_1 main_v11 (broadcastInDim S50000 ![] bcast_S_S50000 : (⟨S_, .f32⟩ : BufTy).Contents (Elt F) → (⟨S50000, .f32⟩ : BufTy).Contents (Elt F)),
    binary main_v10 main_v11 main_v12 (cmpf .ogt : (⟨S50000, .f32⟩ : BufTy).Contents (Elt F) → (⟨S50000, .f32⟩ : BufTy).Contents (Elt F) → (⟨S50000, .i1⟩ : BufTy).Contents (Elt F)),
    unary main_v10 main_v13 (Host.rsqrt : (⟨S50000, .f32⟩ : BufTy).Contents (Elt F) → (⟨S50000, .f32⟩ : BufTy).Contents (Elt F)),
    nullary main_cst_2 (constant S_ .f32 0x00000000#32),
    TRef.unary (.of main_cst_2 : TRef sig ⟨S_, .f32⟩) main_call0.v0 id,
    TRef.unary main_call0.v0 main_call0.v1 (broadcastInDim S50000 ![] bcast_S_S50000),
    TRef.ternary (.of main_v12 : TRef sig ⟨S50000, .i1⟩) (.of main_v13 : TRef sig ⟨S50000, .f32⟩) main_call0.v1 main_call0.v2 select ]

/-- Operations 22 … 40: the per-edge factor. -/
def opsD : List (HloOp τ sig (Elt F)) :=
  [ nullary main_c (constantI S_ 32 0#32),
    unary main_c main_v15 (broadcastInDim S850000 ![] bcast_S_S850000 : (⟨S_, .i32⟩ : BufTy).Contents (Elt F) → (⟨S850000, .i32⟩ : BufTy).Contents (Elt F)),
    binary main_v3 main_v15 main_v16 (cmpi .slt : (⟨S850000, .i32⟩ : BufTy).Contents (Elt F) → (⟨S850000, .i32⟩ : BufTy).Contents (Elt F) → (⟨S850000, .i1⟩ : BufTy).Contents (Elt F)),
    nullary main_c_3 (constantI S_ 32 50000#32),
    unary main_c_3 main_v17 (broadcastInDim S850000 ![] bcast_S_S850000 : (⟨S_, .i32⟩ : BufTy).Contents (Elt F) → (⟨S850000, .i32⟩ : BufTy).Contents (Elt F)),
    binary main_v3 main_v17 main_v18 (addi : (⟨S850000, .i32⟩ : BufTy).Contents (Elt F) → (⟨S850000, .i32⟩ : BufTy).Contents (Elt F) → (⟨S850000, .i32⟩ : BufTy).Contents (Elt F)),
    ternary main_v16 main_v18 main_v3 main_v19 (select : (⟨S850000, .i1⟩ : BufTy).Contents (Elt F) → (⟨S850000, .i32⟩ : BufTy).Contents (Elt F) → (⟨S850000, .i32⟩ : BufTy).Contents (Elt F) → (⟨S850000, .i32⟩ : BufTy).Contents (Elt F)),
    unary main_v19 main_v20 (broadcastInDim S850000x1 ![0] bcast_S850000_S850000x1_0 : (⟨S850000, .i32⟩ : BufTy).Contents (Elt F) → (⟨S850000x1, .i32⟩ : BufTy).Contents (Elt F)),
    binary main_v14 main_v20 main_v21 ((fun x i => Host.gather gather_S50000_S850000x1_S850000_n_0_n_n_0_1_1 x i) : (⟨S50000, .f32⟩ : BufTy).Contents (Elt F) → (⟨S850000x1, .i32⟩ : BufTy).Contents (Elt F) → (⟨S850000, .f32⟩ : BufTy).Contents (Elt F)),
    nullary main_c_4 (constantI S_ 32 0#32),
    unary main_c_4 main_v22 (broadcastInDim S850000 ![] bcast_S_S850000 : (⟨S_, .i32⟩ : BufTy).Contents (Elt F) → (⟨S850000, .i32⟩ : BufTy).Contents (Elt F)),
    binary main_v6 main_v22 main_v23 (cmpi .slt : (⟨S850000, .i32⟩ : BufTy).Contents (Elt F) → (⟨S850000, .i32⟩ : BufTy).Contents (Elt F) → (⟨S850000, .i1⟩ : BufTy).Contents (Elt F)),
    nullary main_c_5 (constantI S_ 32 50000#32),
    unary main_c_5 main_v24 (broadcastInDim S850000 ![] bcast_S_S850000 : (⟨S_, .i32⟩ : BufTy).Contents (Elt F) → (⟨S850000, .i32⟩ : BufTy).Contents (Elt F)),
    binary main_v6 main_v24 main_v25 (addi : (⟨S850000, .i32⟩ : BufTy).Contents (Elt F) → (⟨S850000, .i32⟩ : BufTy).Contents (Elt F) → (⟨S850000, .i32⟩ : BufTy).Contents (Elt F)),
    ternary main_v23 main_v25 main_v6 main_v26 (select : (⟨S850000, .i1⟩ : BufTy).Contents (Elt F) → (⟨S850000, .i32⟩ : BufTy).Contents (Elt F) → (⟨S850000, .i32⟩ : BufTy).Contents (Elt F) → (⟨S850000, .i32⟩ : BufTy).Contents (Elt F)),
    unary main_v26 main_v27 (broadcastInDim S850000x1 ![0] bcast_S850000_S850000x1_0 : (⟨S850000, .i32⟩ : BufTy).Contents (Elt F) → (⟨S850000x1, .i32⟩ : BufTy).Contents (Elt F)),
    binary main_v14 main_v27 main_v28 ((fun x i => Host.gather gather_S50000_S850000x1_S850000_n_0_n_n_0_1_1 x i) : (⟨S50000, .f32⟩ : BufTy).Contents (Elt F) → (⟨S850000x1, .i32⟩ : BufTy).Contents (Elt F) → (⟨S850000, .f32⟩ : BufTy).Contents (Elt F)),
    binary main_v21 main_v28 main_v29 (mulf : (⟨S850000, .f32⟩ : BufTy).Contents (Elt F) → (⟨S850000, .f32⟩ : BufTy).Contents (Elt F) → (⟨S850000, .f32⟩ : BufTy).Contents (Elt F)) ]

/-- Operations 41 … 42: the projected rows. -/
def opsE : List (HloOp τ sig (Elt F)) :=
  [ unary main_arg1 main_v30 ((transpose S128x128 [1, 0] · transposes_S128x128_S128x128_1_0) : (⟨S128x128, .f32⟩ : BufTy).Contents (Elt F) → (⟨S128x128, .f32⟩ : BufTy).Contents (Elt F)),
    binary main_arg0 main_v30 main_v31 ((fun l r => Host.dotGeneral dot_S50000x128_S128x128_S50000x128_1_0_0_1_n_n none l r) : (⟨S50000x128, .f32⟩ : BufTy).Contents (Elt F) → (⟨S128x128, .f32⟩ : BufTy).Contents (Elt F) → (⟨S50000x128, .f32⟩ : BufTy).Contents (Elt F)) ]

/-- Operations 43 … 54: the travelling rows. -/
def opsF : List (HloOp τ sig (Elt F)) :=
  [ nullary main_c_6 (constantI S_ 32 0#32),
    unary main_c_6 main_v32 (broadcastInDim S850000 ![] bcast_S_S850000 : (⟨S_, .i32⟩ : BufTy).Contents (Elt F) → (⟨S850000, .i32⟩ : BufTy).Contents (Elt F)),
    binary main_v3 main_v32 main_v33 (cmpi .slt : (⟨S850000, .i32⟩ : BufTy).Contents (Elt F) → (⟨S850000, .i32⟩ : BufTy).Contents (Elt F) → (⟨S850000, .i1⟩ : BufTy).Contents (Elt F)),
    nullary main_c_7 (constantI S_ 32 50000#32),
    unary main_c_7 main_v34 (broadcastInDim S850000 ![] bcast_S_S850000 : (⟨S_, .i32⟩ : BufTy).Contents (Elt F) → (⟨S850000, .i32⟩ : BufTy).Contents (Elt F)),
    binary main_v3 main_v34 main_v35 (addi : (⟨S850000, .i32⟩ : BufTy).Contents (Elt F) → (⟨S850000, .i32⟩ : BufTy).Contents (Elt F) → (⟨S850000, .i32⟩ : BufTy).Contents (Elt F)),
    ternary main_v33 main_v35 main_v3 main_v36 (select : (⟨S850000, .i1⟩ : BufTy).Contents (Elt F) → (⟨S850000, .i32⟩ : BufTy).Contents (Elt F) → (⟨S850000, .i32⟩ : BufTy).Contents (Elt F) → (⟨S850000, .i32⟩ : BufTy).Contents (Elt F)),
    unary main_v36 main_v37 (broadcastInDim S850000x1 ![0] bcast_S850000_S850000x1_0 : (⟨S850000, .i32⟩ : BufTy).Contents (Elt F) → (⟨S850000x1, .i32⟩ : BufTy).Contents (Elt F)),
    binary main_v31 main_v37 main_v38 ((fun x i => Host.gather gather_S50000x128_S850000x1_S850000x128_1_0_n_n_0_1_1128 x i) : (⟨S50000x128, .f32⟩ : BufTy).Contents (Elt F) → (⟨S850000x1, .i32⟩ : BufTy).Contents (Elt F) → (⟨S850000x128, .f32⟩ : BufTy).Contents (Elt F)),
    unary main_v29 main_v39 (broadcastInDim S850000x1 ![0] bcast_S850000_S850000x1_0 : (⟨S850000, .f32⟩ : BufTy).Contents (Elt F) → (⟨S850000x1, .f32⟩ : BufTy).Contents (Elt F)),
    unary main_v39 main_v40 (broadcastInDim S850000x128 ![0, 1] bcast_S850000x1_S850000x128_0_1 : (⟨S850000x1, .f32⟩ : BufTy).Contents (Elt F) → (⟨S850000x128, .f32⟩ : BufTy).Contents (Elt F)),
    binary main_v38 main_v40 main_v41 (mulf : (⟨S850000x128, .f32⟩ : BufTy).Contents (Elt F) → (⟨S850000x128, .f32⟩ : BufTy).Contents (Elt F) → (⟨S850000x128, .f32⟩ : BufTy).Contents (Elt F)) ]

/-- Operations 55 … 64: what the nodes receive, the bias, the second projection. -/
def opsG : List (HloOp τ sig (Elt F)) :=
  [ nullary main_cst_8 (constant S_ .f32 0x00000000#32),
    unary main_cst_8 main_v42 (broadcastInDim S50000x128 ![] bcast_S_S50000x128 : (⟨S_, .f32⟩ : BufTy).Contents (Elt F) → (⟨S50000x128, .f32⟩ : BufTy).Contents (Elt F)),
    unary main_v6 main_v43 (broadcastInDim S850000x1 ![0] bcast_S850000_S850000x1_0 : (⟨S850000, .i32⟩ : BufTy).Contents (Elt F) → (⟨S850000x1, .i32⟩ : BufTy).Contents (Elt F)),
    ternary main_v42 main_v43 main_v41 main_v44 ((fun x i u => Host.scatterAdd scatter_S50000x128_S850000x1_S850000x128_1_0_0_1 x i u) : (⟨S50000x128, .f32⟩ : BufTy).Contents (Elt F) → (⟨S850000x1, .i32⟩ : BufTy).Contents (Elt F) → (⟨S850000x128, .f32⟩ : BufTy).Contents (Elt F) → (⟨S50000x128, .f32⟩ : BufTy).Contents (Elt F)),
    unary main_arg2 main_v45 (broadcastInDim S1x128 ![1] bcast_S128_S1x128_1 : (⟨S128, .f32⟩ : BufTy).Contents (Elt F) → (⟨S1x128, .f32⟩ : BufTy).Contents (Elt F)),
    unary main_v45 main_v46 (broadcastInDim S50000x128 ![0, 1] bcast_S1x128_S50000x128_0_1 : (⟨S1x128, .f32⟩ : BufTy).Contents (Elt F) → (⟨S50000x128, .f32⟩ : BufTy).Contents (Elt F)),
    binary main_v44 main_v46 main_v47 (addf : (⟨S50000x128, .f32⟩ : BufTy).Contents (Elt F) → (⟨S50000x128, .f32⟩ : BufTy).Contents (Elt F) → (⟨S50000x128, .f32⟩ : BufTy).Contents (Elt F)),
    unary main_arg3 main_v48 ((transpose S128x128 [1, 0] · transposes_S128x128_S128x128_1_0) : (⟨S128x128, .f32⟩ : BufTy).Contents (Elt F) → (⟨S128x128, .f32⟩ : BufTy).Contents (Elt F)),
    binary main_arg0 main_v48 main_v49 ((fun l r => Host.dotGeneral dot_S50000x128_S128x128_S50000x128_1_0_0_1_n_n none l r) : (⟨S50000x128, .f32⟩ : BufTy).Contents (Elt F) → (⟨S128x128, .f32⟩ : BufTy).Contents (Elt F) → (⟨S50000x128, .f32⟩ : BufTy).Contents (Elt F)),
    binary main_v47 main_v49 main_v50 (addf : (⟨S50000x128, .f32⟩ : BufTy).Contents (Elt F) → (⟨S50000x128, .f32⟩ : BufTy).Contents (Elt F) → (⟨S50000x128, .f32⟩ : BufTy).Contents (Elt F)) ]

/-- Operations 65 … 69: the column means. -/
def opsH : List (HloOp τ sig (Elt F)) :=
  [ nullary main_cst_9 (constant S_ .f32 0x00000000#32),
    binary main_v50 main_cst_9 main_v51 ((fun x v => Host.reduceAdd x v reducesTo_S50000x128_S128_d0 h_S_) : (⟨S50000x128, .f32⟩ : BufTy).Contents (Elt F) → (⟨S_, .f32⟩ : BufTy).Contents (Elt F) → (⟨S128, .f32⟩ : BufTy).Contents (Elt F)),
    nullary main_cst_10 (constant S_ .f32 0x47435000#32),
    unary main_cst_10 main_v52 (broadcastInDim S128 ![] bcast_S_S128 : (⟨S_, .f32⟩ : BufTy).Contents (Elt F) → (⟨S128, .f32⟩ : BufTy).Contents (Elt F)),
    binary main_v51 main_v52 main_v53 (Host.divf : (⟨S128, .f32⟩ : BufTy).Contents (Elt F) → (⟨S128, .f32⟩ : BufTy).Contents (Elt F) → (⟨S128, .f32⟩ : BufTy).Contents (Elt F)) ]

/-- Operations 70 … 92: the column variances. -/
def opsI : List (HloOp τ sig (Elt F)) :=
  [ nullary main_c_11 (constantI S_ 32 0#32),
    TRef.nullary main_call1.cst (constant S_ .f32 0x00000000#32),
    TRef.binary (.of main_v50 : TRef sig ⟨S50000x128, .f32⟩) main_call1.cst main_call1.v0 (fun x v => Host.reduceAdd x v reducesTo_S50000x128_S128_d0 h_S_),
    TRef.unary main_call1.v0 main_call1.v1 (broadcastInDim S1x128 ![1] bcast_S128_S1x128_1),
    TRef.nullary main_call1.cst_0 (constant S_ .f32 0x47435000#32),
    TRef.unary main_call1.cst_0 main_call1.v2 (broadcastInDim S1x128 ![] bcast_S_S1x128),
    TRef.binary main_call1.v1 main_call1.v2 main_call1.v3 Host.divf,
    TRef.unary main_call1.v3 main_call1.v4 (broadcastInDim S50000x128 ![0, 1] bcast_S1x128_S50000x128_0_1),
    TRef.binary (.of main_v50 : TRef sig ⟨S50000x128, .f32⟩) main_call1.v4 main_call1.v5 subf,
    TRef.binary main_call1.v5 main_call1.v5 main_call1.v6 mulf,
    TRef.unary (.of main_c_11 : TRef sig ⟨S_, .i32⟩) main_call1.v7 (sitofp .f32),
    TRef.nullary main_call1.cst_1 (constant S_ .f32 0x47435000#32),
    TRef.binary main_call1.cst_1 main_call1.v7 main_call1.v8 subf,
    TRef.nullary main_call1.cst_2 (constant S_ .f32 0x00000000#32),
    TRef.binary main_call1.v6 main_call1.cst_2 main_call1.v9 (fun x v => Host.reduceAdd x v reducesTo_S50000x128_S128_d0 h_S_),
    TRef.unary main_call1.v8 main_call1.v10 (broadcastInDim S128 ![] bcast_S_S128),
    TRef.binary main_call1.v9 main_call1.v10 main_call1.v11 Host.divf,
    TRef.nullary main_call1.cst_3 (constant S_ .f32 0x00000000#32),
    TRef.binary main_call1.v8 main_call1.cst_3 main_call1.v12 (cmpf .ogt),
    TRef.nullary main_call1.cst_4 (constant S_ .f32 0x7FC00000#32),
    TRef.unary main_call1.cst_4 main_call1.call0.v0 id,
    TRef.unary main_call1.call0.v0 main_call1.call0.v1 (broadcastInDim S128 ![] bcast_S_S128),
    TRef.ternary main_call1.v12 main_call1.v11 main_call1.call0.v1 main_call1.call0.v2 (fun p a b => select (broadcastInDim S128 ![] bcast_S_S128 p) a b) ]

/-- Operations 93 … 108: normalized, scaled, shifted. -/
def opsJ : List (HloOp τ sig (Elt F)) :=
  [ unary main_v53 main_v55 (broadcastInDim S1x128 ![1] bcast_S128_S1x128_1 : (⟨S128, .f32⟩ : BufTy).Contents (Elt F) → (⟨S1x128, .f32⟩ : BufTy).Contents (Elt F)),
    unary main_v55 main_v56 (broadcastInDim S50000x128 ![0, 1] bcast_S1x128_S50000x128_0_1 : (⟨S1x128, .f32⟩ : BufTy).Contents (Elt F) → (⟨S50000x128, .f32⟩ : BufTy).Contents (Elt F)),
    binary main_v50 main_v56 main_v57 (subf : (⟨S50000x128, .f32⟩ : BufTy).Contents (Elt F) → (⟨S50000x128, .f32⟩ : BufTy).Contents (Elt F) → (⟨S50000x128, .f32⟩ : BufTy).Contents (Elt F)),
    unary main_arg4 main_v58 (broadcastInDim S1x128 ![1] bcast_S128_S1x128_1 : (⟨S128, .f32⟩ : BufTy).Contents (Elt F) → (⟨S1x128, .f32⟩ : BufTy).Contents (Elt F)),
    unary main_v58 main_v59 (broadcastInDim S50000x128 ![0, 1] bcast_S1x128_S50000x128_0_1 : (⟨S1x128, .f32⟩ : BufTy).Contents (Elt F) → (⟨S50000x128, .f32⟩ : BufTy).Contents (Elt F)),
    binary main_v59 main_v57 main_v60 (mulf : (⟨S50000x128, .f32⟩ : BufTy).Contents (Elt F) → (⟨S50000x128, .f32⟩ : BufTy).Contents (Elt F) → (⟨S50000x128, .f32⟩ : BufTy).Contents (Elt F)),
    nullary main_cst_12 (constant S_ .f32 0x3727C5AC#32),
    unary main_cst_12 main_v61 (broadcastInDim S128 ![] bcast_S_S128 : (⟨S_, .f32⟩ : BufTy).Contents (Elt F) → (⟨S128, .f32⟩ : BufTy).Contents (Elt F)),
    binary main_v54 main_v61 main_v62 (addf : (⟨S128, .f32⟩ : BufTy).Contents (Elt F) → (⟨S128, .f32⟩ : BufTy).Contents (Elt F) → (⟨S128, .f32⟩ : BufTy).Contents (Elt F)),
    unary main_v62 main_v63 (Host.rsqrt : (⟨S128, .f32⟩ : BufTy).Contents (Elt F) → (⟨S128, .f32⟩ : BufTy).Contents (Elt F)),
    unary main_v63 main_v64 (broadcastInDim S1x128 ![1] bcast_S128_S1x128_1 : (⟨S128, .f32⟩ : BufTy).Contents (Elt F) → (⟨S1x128, .f32⟩ : BufTy).Contents (Elt F)),
    unary main_v64 main_v65 (broadcastInDim S50000x128 ![0, 1] bcast_S1x128_S50000x128_0_1 : (⟨S1x128, .f32⟩ : BufTy).Contents (Elt F) → (⟨S50000x128, .f32⟩ : BufTy).Contents (Elt F)),
    binary main_v60 main_v65 main_v66 (mulf : (⟨S50000x128, .f32⟩ : BufTy).Contents (Elt F) → (⟨S50000x128, .f32⟩ : BufTy).Contents (Elt F) → (⟨S50000x128, .f32⟩ : BufTy).Contents (Elt F)),
    unary main_arg5 main_v67 (broadcastInDim S1x128 ![1] bcast_S128_S1x128_1 : (⟨S128, .f32⟩ : BufTy).Contents (Elt F) → (⟨S1x128, .f32⟩ : BufTy).Contents (Elt F)),
    unary main_v67 main_v68 (broadcastInDim S50000x128 ![0, 1] bcast_S1x128_S50000x128_0_1 : (⟨S1x128, .f32⟩ : BufTy).Contents (Elt F) → (⟨S50000x128, .f32⟩ : BufTy).Contents (Elt F)),
    binary main_v66 main_v68 main_v69 (addf : (⟨S50000x128, .f32⟩ : BufTy).Contents (Elt F) → (⟨S50000x128, .f32⟩ : BufTy).Contents (Elt F) → (⟨S50000x128, .f32⟩ : BufTy).Contents (Elt F)) ]

/-- Operations 109 … 111: the cut at zero. -/
def opsK : List (HloOp τ sig (Elt F)) :=
  [ TRef.nullary main_call2.cst (constant S_ .f32 0x00000000#32),
    TRef.unary main_call2.cst main_call2.v0 (broadcastInDim S50000x128 ![] bcast_S_S50000x128),
    TRef.binary (.of main_v69 : TRef sig ⟨S50000x128, .f32⟩) main_call2.v0 main_call2.v1 maximumf ]

set_option maxRecDepth 16384 in
set_option maxHeartbeats 4000000 in
/-- The list is its stretches in order. -/
theorem ops_cut : (ops (F := Ideal)) = (opsA (F := Ideal)) ++ ((opsB (F := Ideal)) ++ ((opsC (F := Ideal)) ++ ((opsD (F := Ideal)) ++ ((opsE (F := Ideal)) ++ ((opsF (F := Ideal)) ++ ((opsG (F := Ideal)) ++ ((opsH (F := Ideal)) ++ ((opsI (F := Ideal)) ++ ((opsJ (F := Ideal)) ++ ((opsK (F := Ideal)))))))))))) := rfl

/-! ### Stretch A: the two word arrays -/

attribute [local irreducible] Host.scatterAdd Host.gather Host.reduceAdd concatenate transpose broadcastInDim shapeCast extractStridedSlice iotaInDim in
set_option maxRecDepth 16384 in
set_option maxHeartbeats 4000000 in
theorem valA_main_v3 (V : Valuation τ sig (Elt Ideal)) :
    after (opsA (F := Ideal)) V (main_v3 : DevRef τ sig) = srcWords (V (main_arg6 : DevRef τ sig)) := by
  unfold opsA
  after_results_simp
  first | rfl | fail "closing rfl failed: A main_v3"

attribute [local irreducible] Host.scatterAdd Host.gather Host.reduceAdd concatenate transpose broadcastInDim shapeCast extractStridedSlice iotaInDim in
set_option maxRecDepth 16384 in
set_option maxHeartbeats 4000000 in
theorem valA_main_v6 (V : Valuation τ sig (Elt Ideal)) :
    after (opsA (F := Ideal)) V (main_v6 : DevRef τ sig) = dstWords (V (main_arg6 : DevRef τ sig)) := by
  unfold opsA
  after_results_simp
  first | rfl | fail "closing rfl failed: A main_v6"

set_option maxRecDepth 16384 in
theorem keepA_main_arg0 (V : Valuation τ sig (Elt Ideal)) : after (opsA (F := Ideal)) V (main_arg0 : DevRef τ sig) = V (main_arg0 : DevRef τ sig) := by
  unfold opsA
  after_results_simp

set_option maxRecDepth 16384 in
theorem keepA_main_arg1 (V : Valuation τ sig (Elt Ideal)) : after (opsA (F := Ideal)) V (main_arg1 : DevRef τ sig) = V (main_arg1 : DevRef τ sig) := by
  unfold opsA
  after_results_simp

set_option maxRecDepth 16384 in
theorem keepA_main_arg2 (V : Valuation τ sig (Elt Ideal)) : after (opsA (F := Ideal)) V (main_arg2 : DevRef τ sig) = V (main_arg2 : DevRef τ sig) := by
  unfold opsA
  after_results_simp

set_option maxRecDepth 16384 in
theorem keepA_main_arg3 (V : Valuation τ sig (Elt Ideal)) : after (opsA (F := Ideal)) V (main_arg3 : DevRef τ sig) = V (main_arg3 : DevRef τ sig) := by
  unfold opsA
  after_results_simp

set_option maxRecDepth 16384 in
theorem keepA_main_arg4 (V : Valuation τ sig (Elt Ideal)) : after (opsA (F := Ideal)) V (main_arg4 : DevRef τ sig) = V (main_arg4 : DevRef τ sig) := by
  unfold opsA
  after_results_simp

set_option maxRecDepth 16384 in
theorem keepA_main_arg5 (V : Valuation τ sig (Elt Ideal)) : after (opsA (F := Ideal)) V (main_arg5 : DevRef τ sig) = V (main_arg5 : DevRef τ sig) := by
  unfold opsA
  after_results_simp

/-! ### Stretch B: the degrees -/

attribute [local irreducible] Host.scatterAdd Host.gather Host.reduceAdd concatenate transpose broadcastInDim shapeCast extractStridedSlice iotaInDim in
set_option maxRecDepth 16384 in
set_option maxHeartbeats 4000000 in
theorem valB_main_v10 (V : Valuation τ sig (Elt Ideal)) :
    after (opsB (F := Ideal)) V (main_v10 : DevRef τ sig) = degreesOf (V (main_v6 : DevRef τ sig)) := by
  unfold opsB
  after_results_simp
  first | rfl | fail "closing rfl failed: B main_v10"

set_option maxRecDepth 16384 in
theorem keepB_main_v3 (V : Valuation τ sig (Elt Ideal)) : after (opsB (F := Ideal)) V (main_v3 : DevRef τ sig) = V (main_v3 : DevRef τ sig) := by
  unfold opsB
  after_results_simp

set_option maxRecDepth 16384 in
theorem keepB_main_v6 (V : Valuation τ sig (Elt Ideal)) : after (opsB (F := Ideal)) V (main_v6 : DevRef τ sig) = V (main_v6 : DevRef τ sig) := by
  unfold opsB
  after_results_simp

set_option maxRecDepth 16384 in
theorem keepB_main_arg0 (V : Valuation τ sig (Elt Ideal)) : after (opsB (F := Ideal)) V (main_arg0 : DevRef τ sig) = V (main_arg0 : DevRef τ sig) := by
  unfold opsB
  after_results_simp

set_option maxRecDepth 16384 in
theorem keepB_main_arg1 (V : Valuation τ sig (Elt Ideal)) : after (opsB (F := Ideal)) V (main_arg1 : DevRef τ sig) = V (main_arg1 : DevRef τ sig) := by
  unfold opsB
  after_results_simp

set_option maxRecDepth 16384 in
theorem keepB_main_arg2 (V : Valuation τ sig (Elt Ideal)) : after (opsB (F := Ideal)) V (main_arg2 : DevRef τ sig) = V (main_arg2 : DevRef τ sig) := by
  unfold opsB
  after_results_simp

set_option maxRecDepth 16384 in
theorem keepB_main_arg3 (V : Valuation τ sig (Elt Ideal)) : after (opsB (F := Ideal)) V (main_arg3 : DevRef τ sig) = V (main_arg3 : DevRef τ sig) := by
  unfold opsB
  after_results_simp

set_option maxRecDepth 16384 in
theorem keepB_main_arg4 (V : Valuation τ sig (Elt Ideal)) : after (opsB (F := Ideal)) V (main_arg4 : DevRef τ sig) = V (main_arg4 : DevRef τ sig) := by
  unfold opsB
  after_results_simp

set_option maxRecDepth 16384 in
theorem keepB_main_arg5 (V : Valuation τ sig (Elt Ideal)) : after (opsB (F := Ideal)) V (main_arg5 : DevRef τ sig) = V (main_arg5 : DevRef τ sig) := by
  unfold opsB
  after_results_simp

/-! ### Stretch C: the scales -/

attribute [local irreducible] Host.scatterAdd Host.gather Host.reduceAdd concatenate transpose broadcastInDim shapeCast extractStridedSlice iotaInDim in
set_option maxRecDepth 16384 in
set_option maxHeartbeats 4000000 in
theorem valC_main_v14 (V : Valuation τ sig (Elt Ideal)) :
    after (opsC (F := Ideal)) V (main_v14 : DevRef τ sig) = scalesOf (V (main_v10 : DevRef τ sig)) := by
  unfold opsC
  after_results_simp
  first | rfl | fail "closing rfl failed: C main_v14"

set_option maxRecDepth 16384 in
theorem keepC_main_v3 (V : Valuation τ sig (Elt Ideal)) : after (opsC (F := Ideal)) V (main_v3 : DevRef τ sig) = V (main_v3 : DevRef τ sig) := by
  unfold opsC
  after_results_simp

set_option maxRecDepth 16384 in
theorem keepC_main_v6 (V : Valuation τ sig (Elt Ideal)) : after (opsC (F := Ideal)) V (main_v6 : DevRef τ sig) = V (main_v6 : DevRef τ sig) := by
  unfold opsC
  after_results_simp

set_option maxRecDepth 16384 in
theorem keepC_main_arg0 (V : Valuation τ sig (Elt Ideal)) : after (opsC (F := Ideal)) V (main_arg0 : DevRef τ sig) = V (main_arg0 : DevRef τ sig) := by
  unfold opsC
  after_results_simp

set_option maxRecDepth 16384 in
theorem keepC_main_arg1 (V : Valuation τ sig (Elt Ideal)) : after (opsC (F := Ideal)) V (main_arg1 : DevRef τ sig) = V (main_arg1 : DevRef τ sig) := by
  unfold opsC
  after_results_simp

set_option maxRecDepth 16384 in
theorem keepC_main_arg2 (V : Valuation τ sig (Elt Ideal)) : after (opsC (F := Ideal)) V (main_arg2 : DevRef τ sig) = V (main_arg2 : DevRef τ sig) := by
  unfold opsC
  after_results_simp

set_option maxRecDepth 16384 in
theorem keepC_main_arg3 (V : Valuation τ sig (Elt Ideal)) : after (opsC (F := Ideal)) V (main_arg3 : DevRef τ sig) = V (main_arg3 : DevRef τ sig) := by
  unfold opsC
  after_results_simp

set_option maxRecDepth 16384 in
theorem keepC_main_arg4 (V : Valuation τ sig (Elt Ideal)) : after (opsC (F := Ideal)) V (main_arg4 : DevRef τ sig) = V (main_arg4 : DevRef τ sig) := by
  unfold opsC
  after_results_simp

set_option maxRecDepth 16384 in
theorem keepC_main_arg5 (V : Valuation τ sig (Elt Ideal)) : after (opsC (F := Ideal)) V (main_arg5 : DevRef τ sig) = V (main_arg5 : DevRef τ sig) := by
  unfold opsC
  after_results_simp

/-! ### Stretch D: the per-edge factor -/

attribute [local irreducible] Host.scatterAdd Host.gather Host.reduceAdd concatenate transpose broadcastInDim shapeCast extractStridedSlice iotaInDim in
set_option maxRecDepth 16384 in
set_option maxHeartbeats 4000000 in
theorem valD_main_v29 (V : Valuation τ sig (Elt Ideal)) :
    after (opsD (F := Ideal)) V (main_v29 : DevRef τ sig) = edgeFactorOf (V (main_v14 : DevRef τ sig)) (V (main_v3 : DevRef τ sig)) (V (main_v6 : DevRef τ sig)) := by
  unfold opsD
  after_results_simp
  first | rfl | fail "closing rfl failed: D main_v29"

set_option maxRecDepth 16384 in
theorem keepD_main_v3 (V : Valuation τ sig (Elt Ideal)) : after (opsD (F := Ideal)) V (main_v3 : DevRef τ sig) = V (main_v3 : DevRef τ sig) := by
  unfold opsD
  after_results_simp

set_option maxRecDepth 16384 in
theorem keepD_main_v6 (V : Valuation τ sig (Elt Ideal)) : after (opsD (F := Ideal)) V (main_v6 : DevRef τ sig) = V (main_v6 : DevRef τ sig) := by
  unfold opsD
  after_results_simp

set_option maxRecDepth 16384 in
theorem keepD_main_arg0 (V : Valuation τ sig (Elt Ideal)) : after (opsD (F := Ideal)) V (main_arg0 : DevRef τ sig) = V (main_arg0 : DevRef τ sig) := by
  unfold opsD
  after_results_simp

set_option maxRecDepth 16384 in
theorem keepD_main_arg1 (V : Valuation τ sig (Elt Ideal)) : after (opsD (F := Ideal)) V (main_arg1 : DevRef τ sig) = V (main_arg1 : DevRef τ sig) := by
  unfold opsD
  after_results_simp

set_option maxRecDepth 16384 in
theorem keepD_main_arg2 (V : Valuation τ sig (Elt Ideal)) : after (opsD (F := Ideal)) V (main_arg2 : DevRef τ sig) = V (main_arg2 : DevRef τ sig) := by
  unfold opsD
  after_results_simp

set_option maxRecDepth 16384 in
theorem keepD_main_arg3 (V : Valuation τ sig (Elt Ideal)) : after (opsD (F := Ideal)) V (main_arg3 : DevRef τ sig) = V (main_arg3 : DevRef τ sig) := by
  unfold opsD
  after_results_simp

set_option maxRecDepth 16384 in
theorem keepD_main_arg4 (V : Valuation τ sig (Elt Ideal)) : after (opsD (F := Ideal)) V (main_arg4 : DevRef τ sig) = V (main_arg4 : DevRef τ sig) := by
  unfold opsD
  after_results_simp

set_option maxRecDepth 16384 in
theorem keepD_main_arg5 (V : Valuation τ sig (Elt Ideal)) : after (opsD (F := Ideal)) V (main_arg5 : DevRef τ sig) = V (main_arg5 : DevRef τ sig) := by
  unfold opsD
  after_results_simp

/-! ### Stretch E: the projected rows -/

attribute [local irreducible] Host.scatterAdd Host.gather Host.reduceAdd concatenate transpose broadcastInDim shapeCast extractStridedSlice iotaInDim in
set_option maxRecDepth 16384 in
set_option maxHeartbeats 4000000 in
theorem valE_main_v31 (V : Valuation τ sig (Elt Ideal)) :
    after (opsE (F := Ideal)) V (main_v31 : DevRef τ sig) = project (V (main_arg0 : DevRef τ sig)) (V (main_arg1 : DevRef τ sig)) := by
  unfold opsE
  after_results_simp
  first | rfl | fail "closing rfl failed: E main_v31"

set_option maxRecDepth 16384 in
theorem keepE_main_v3 (V : Valuation τ sig (Elt Ideal)) : after (opsE (F := Ideal)) V (main_v3 : DevRef τ sig) = V (main_v3 : DevRef τ sig) := by
  unfold opsE
  after_results_simp

set_option maxRecDepth 16384 in
theorem keepE_main_v6 (V : Valuation τ sig (Elt Ideal)) : after (opsE (F := Ideal)) V (main_v6 : DevRef τ sig) = V (main_v6 : DevRef τ sig) := by
  unfold opsE
  after_results_simp

set_option maxRecDepth 16384 in
theorem keepE_main_v29 (V : Valuation τ sig (Elt Ideal)) : after (opsE (F := Ideal)) V (main_v29 : DevRef τ sig) = V (main_v29 : DevRef τ sig) := by
  unfold opsE
  after_results_simp

set_option maxRecDepth 16384 in
theorem keepE_main_arg0 (V : Valuation τ sig (Elt Ideal)) : after (opsE (F := Ideal)) V (main_arg0 : DevRef τ sig) = V (main_arg0 : DevRef τ sig) := by
  unfold opsE
  after_results_simp

set_option maxRecDepth 16384 in
theorem keepE_main_arg2 (V : Valuation τ sig (Elt Ideal)) : after (opsE (F := Ideal)) V (main_arg2 : DevRef τ sig) = V (main_arg2 : DevRef τ sig) := by
  unfold opsE
  after_results_simp

set_option maxRecDepth 16384 in
theorem keepE_main_arg3 (V : Valuation τ sig (Elt Ideal)) : after (opsE (F := Ideal)) V (main_arg3 : DevRef τ sig) = V (main_arg3 : DevRef τ sig) := by
  unfold opsE
  after_results_simp

set_option maxRecDepth 16384 in
theorem keepE_main_arg4 (V : Valuation τ sig (Elt Ideal)) : after (opsE (F := Ideal)) V (main_arg4 : DevRef τ sig) = V (main_arg4 : DevRef τ sig) := by
  unfold opsE
  after_results_simp

set_option maxRecDepth 16384 in
theorem keepE_main_arg5 (V : Valuation τ sig (Elt Ideal)) : after (opsE (F := Ideal)) V (main_arg5 : DevRef τ sig) = V (main_arg5 : DevRef τ sig) := by
  unfold opsE
  after_results_simp

/-! ### Stretch F: the travelling rows -/

attribute [local irreducible] Host.scatterAdd Host.gather Host.reduceAdd concatenate transpose broadcastInDim shapeCast extractStridedSlice iotaInDim in
set_option maxRecDepth 16384 in
set_option maxHeartbeats 4000000 in
theorem valF_main_v41 (V : Valuation τ sig (Elt Ideal)) :
    after (opsF (F := Ideal)) V (main_v41 : DevRef τ sig) = travellingOf (V (main_v31 : DevRef τ sig)) (V (main_v3 : DevRef τ sig)) (V (main_v29 : DevRef τ sig)) := by
  unfold opsF
  after_results_simp
  first | rfl | fail "closing rfl failed: F main_v41"

set_option maxRecDepth 16384 in
theorem keepF_main_v6 (V : Valuation τ sig (Elt Ideal)) : after (opsF (F := Ideal)) V (main_v6 : DevRef τ sig) = V (main_v6 : DevRef τ sig) := by
  unfold opsF
  after_results_simp

set_option maxRecDepth 16384 in
theorem keepF_main_arg0 (V : Valuation τ sig (Elt Ideal)) : after (opsF (F := Ideal)) V (main_arg0 : DevRef τ sig) = V (main_arg0 : DevRef τ sig) := by
  unfold opsF
  after_results_simp

set_option maxRecDepth 16384 in
theorem keepF_main_arg2 (V : Valuation τ sig (Elt Ideal)) : after (opsF (F := Ideal)) V (main_arg2 : DevRef τ sig) = V (main_arg2 : DevRef τ sig) := by
  unfold opsF
  after_results_simp

set_option maxRecDepth 16384 in
theorem keepF_main_arg3 (V : Valuation τ sig (Elt Ideal)) : after (opsF (F := Ideal)) V (main_arg3 : DevRef τ sig) = V (main_arg3 : DevRef τ sig) := by
  unfold opsF
  after_results_simp

set_option maxRecDepth 16384 in
theorem keepF_main_arg4 (V : Valuation τ sig (Elt Ideal)) : after (opsF (F := Ideal)) V (main_arg4 : DevRef τ sig) = V (main_arg4 : DevRef τ sig) := by
  unfold opsF
  after_results_simp

set_option maxRecDepth 16384 in
theorem keepF_main_arg5 (V : Valuation τ sig (Elt Ideal)) : after (opsF (F := Ideal)) V (main_arg5 : DevRef τ sig) = V (main_arg5 : DevRef τ sig) := by
  unfold opsF
  after_results_simp

/-! ### Stretch G: what the nodes receive, the bias, the second projection -/

attribute [local irreducible] Host.scatterAdd Host.gather Host.reduceAdd concatenate transpose broadcastInDim shapeCast extractStridedSlice iotaInDim in
set_option maxRecDepth 16384 in
set_option maxHeartbeats 4000000 in
theorem valG_main_v50 (V : Valuation τ sig (Elt Ideal)) :
    after (opsG (F := Ideal)) V (main_v50 : DevRef τ sig) = preNormOf (V (main_v6 : DevRef τ sig)) (V (main_v41 : DevRef τ sig)) (V (main_arg2 : DevRef τ sig)) (V (main_arg0 : DevRef τ sig)) (V (main_arg3 : DevRef τ sig)) := by
  unfold opsG
  after_results_simp
  first | rfl | fail "closing rfl failed: G main_v50"

set_option maxRecDepth 16384 in
theorem keepG_main_arg4 (V : Valuation τ sig (Elt Ideal)) : after (opsG (F := Ideal)) V (main_arg4 : DevRef τ sig) = V (main_arg4 : DevRef τ sig) := by
  unfold opsG
  after_results_simp

set_option maxRecDepth 16384 in
theorem keepG_main_arg5 (V : Valuation τ sig (Elt Ideal)) : after (opsG (F := Ideal)) V (main_arg5 : DevRef τ sig) = V (main_arg5 : DevRef τ sig) := by
  unfold opsG
  after_results_simp

/-! ### Stretch H: the column means -/

attribute [local irreducible] Host.scatterAdd Host.gather Host.reduceAdd concatenate transpose broadcastInDim shapeCast extractStridedSlice iotaInDim in
set_option maxRecDepth 16384 in
set_option maxHeartbeats 4000000 in
theorem valH_main_v53 (V : Valuation τ sig (Elt Ideal)) :
    after (opsH (F := Ideal)) V (main_v53 : DevRef τ sig) = colMean (V (main_v50 : DevRef τ sig)) := by
  unfold opsH
  after_results_simp
  first | rfl | fail "closing rfl failed: H main_v53"

set_option maxRecDepth 16384 in
theorem keepH_main_v50 (V : Valuation τ sig (Elt Ideal)) : after (opsH (F := Ideal)) V (main_v50 : DevRef τ sig) = V (main_v50 : DevRef τ sig) := by
  unfold opsH
  after_results_simp

set_option maxRecDepth 16384 in
theorem keepH_main_arg4 (V : Valuation τ sig (Elt Ideal)) : after (opsH (F := Ideal)) V (main_arg4 : DevRef τ sig) = V (main_arg4 : DevRef τ sig) := by
  unfold opsH
  after_results_simp

set_option maxRecDepth 16384 in
theorem keepH_main_arg5 (V : Valuation τ sig (Elt Ideal)) : after (opsH (F := Ideal)) V (main_arg5 : DevRef τ sig) = V (main_arg5 : DevRef τ sig) := by
  unfold opsH
  after_results_simp

/-! ### Stretch I: the column variances -/

attribute [local irreducible] Host.scatterAdd Host.gather Host.reduceAdd concatenate transpose broadcastInDim shapeCast extractStridedSlice iotaInDim in
set_option maxRecDepth 16384 in
set_option maxHeartbeats 4000000 in
theorem valI_main_v54 (V : Valuation τ sig (Elt Ideal)) :
    after (opsI (F := Ideal)) V (main_v54 : DevRef τ sig) = colVar (V (main_v50 : DevRef τ sig)) := by
  unfold opsI
  after_results_simp
  first | rfl | fail "closing rfl failed: I main_v54"

set_option maxRecDepth 16384 in
theorem keepI_main_v50 (V : Valuation τ sig (Elt Ideal)) : after (opsI (F := Ideal)) V (main_v50 : DevRef τ sig) = V (main_v50 : DevRef τ sig) := by
  unfold opsI
  after_results_simp

set_option maxRecDepth 16384 in
theorem keepI_main_v53 (V : Valuation τ sig (Elt Ideal)) : after (opsI (F := Ideal)) V (main_v53 : DevRef τ sig) = V (main_v53 : DevRef τ sig) := by
  unfold opsI
  after_results_simp

set_option maxRecDepth 16384 in
theorem keepI_main_arg4 (V : Valuation τ sig (Elt Ideal)) : after (opsI (F := Ideal)) V (main_arg4 : DevRef τ sig) = V (main_arg4 : DevRef τ sig) := by
  unfold opsI
  after_results_simp

set_option maxRecDepth 16384 in
theorem keepI_main_arg5 (V : Valuation τ sig (Elt Ideal)) : after (opsI (F := Ideal)) V (main_arg5 : DevRef τ sig) = V (main_arg5 : DevRef τ sig) := by
  unfold opsI
  after_results_simp

/-! ### Stretch J: normalized, scaled, shifted -/

attribute [local irreducible] Host.scatterAdd Host.gather Host.reduceAdd concatenate transpose broadcastInDim shapeCast extractStridedSlice iotaInDim in
set_option maxRecDepth 16384 in
set_option maxHeartbeats 4000000 in
theorem valJ_main_v69 (V : Valuation τ sig (Elt Ideal)) :
    after (opsJ (F := Ideal)) V (main_v69 : DevRef τ sig) = normalizedOf (V (main_v50 : DevRef τ sig)) (V (main_v53 : DevRef τ sig)) (V (main_v54 : DevRef τ sig)) (V (main_arg4 : DevRef τ sig)) (V (main_arg5 : DevRef τ sig)) := by
  unfold opsJ
  after_results_simp
  first | rfl | fail "closing rfl failed: J main_v69"

/-! ### Stretch K: the cut at zero -/

attribute [local irreducible] Host.scatterAdd Host.gather Host.reduceAdd concatenate transpose broadcastInDim shapeCast extractStridedSlice iotaInDim in
set_option maxRecDepth 16384 in
set_option maxHeartbeats 4000000 in
theorem valK_main_v70 (V : Valuation τ sig (Elt Ideal)) :
    after (opsK (F := Ideal)) V (main_v70 : DevRef τ sig) = cutAtZero (V (main_v69 : DevRef τ sig)) := by
  unfold opsK
  after_results_simp
  first | rfl | fail "closing rfl failed: K main_v70"

/-! ## The fold at the result buffer -/

set_option maxRecDepth 16384 in
set_option maxHeartbeats 4000000 in
/-- The fold of the whole list at the result buffer is the staged value of the argument buffers: stretch by stretch,
    each stage read from the stage before. -/
theorem out_eq (V : Valuation τ sig (Elt Ideal)) :
    after (ops (F := Ideal)) V (main_v70 : DevRef τ sig)
      = result (V (main_arg0 : DevRef τ sig)) (V (main_arg1 : DevRef τ sig)) (V (main_arg2 : DevRef τ sig))
          (V (main_arg3 : DevRef τ sig)) (V (main_arg4 : DevRef τ sig)) (V (main_arg5 : DevRef τ sig))
          (V (main_arg6 : DevRef τ sig)) := by
  rw [ops_cut]
  simp only [after_append]
  repeat (first
    | rw [valK_main_v70]
    | rw [valJ_main_v69]
    | rw [valI_main_v54]
    | rw [keepI_main_v50]
    | rw [keepI_main_v53]
    | rw [keepI_main_arg4]
    | rw [keepI_main_arg5]
    | rw [valH_main_v53]
    | rw [keepH_main_v50]
    | rw [keepH_main_arg4]
    | rw [keepH_main_arg5]
    | rw [valG_main_v50]
    | rw [keepG_main_arg4]
    | rw [keepG_main_arg5]
    | rw [valF_main_v41]
    | rw [keepF_main_v6]
    | rw [keepF_main_arg0]
    | rw [keepF_main_arg2]
    | rw [keepF_main_arg3]
    | rw [keepF_main_arg4]
    | rw [keepF_main_arg5]
    | rw [valE_main_v31]
    | rw [keepE_main_v3]
    | rw [keepE_main_v6]
    | rw [keepE_main_v29]
    | rw [keepE_main_arg0]
    | rw [keepE_main_arg2]
    | rw [keepE_main_arg3]
    | rw [keepE_main_arg4]
    | rw [keepE_main_arg5]
    | rw [valD_main_v29]
    | rw [keepD_main_v3]
    | rw [keepD_main_v6]
    | rw [keepD_main_arg0]
    | rw [keepD_main_arg1]
    | rw [keepD_main_arg2]
    | rw [keepD_main_arg3]
    | rw [keepD_main_arg4]
    | rw [keepD_main_arg5]
    | rw [valC_main_v14]
    | rw [keepC_main_v3]
    | rw [keepC_main_v6]
    | rw [keepC_main_arg0]
    | rw [keepC_main_arg1]
    | rw [keepC_main_arg2]
    | rw [keepC_main_arg3]
    | rw [keepC_main_arg4]
    | rw [keepC_main_arg5]
    | rw [valB_main_v10]
    | rw [keepB_main_v3]
    | rw [keepB_main_v6]
    | rw [keepB_main_arg0]
    | rw [keepB_main_arg1]
    | rw [keepB_main_arg2]
    | rw [keepB_main_arg3]
    | rw [keepB_main_arg4]
    | rw [keepB_main_arg5]
    | rw [valA_main_v3]
    | rw [valA_main_v6]
    | rw [keepA_main_arg0]
    | rw [keepA_main_arg1]
    | rw [keepA_main_arg2]
    | rw [keepA_main_arg3]
    | rw [keepA_main_arg4]
    | rw [keepA_main_arg5])
  simp only [result, normalized_eq, preNorm_eq, travelling_eq, edgeFactor_eq, scales_eq, degrees_eq]

set_option maxRecDepth 16384 in
set_option maxHeartbeats 40000000 in
/-- No operation writes argument 0. -/
theorem arg0_eq (V : Valuation τ sig (Elt Ideal)) :
    after (ops (F := Ideal)) V (main_arg0 : DevRef τ sig) = V (main_arg0 : DevRef τ sig) := by
  after_results_simp

set_option maxRecDepth 16384 in
set_option maxHeartbeats 40000000 in
/-- No operation writes argument 1. -/
theorem arg1_eq (V : Valuation τ sig (Elt Ideal)) :
    after (ops (F := Ideal)) V (main_arg1 : DevRef τ sig) = V (main_arg1 : DevRef τ sig) := by
  after_results_simp

set_option maxRecDepth 16384 in
set_option maxHeartbeats 40000000 in
/-- No operation writes argument 2. -/
theorem arg2_eq (V : Valuation τ sig (Elt Ideal)) :
    after (ops (F := Ideal)) V (main_arg2 : DevRef τ sig) = V (main_arg2 : DevRef τ sig) := by
  after_results_simp

set_option maxRecDepth 16384 in
set_option maxHeartbeats 40000000 in
/-- No operation writes argument 3. -/
theorem arg3_eq (V : Valuation τ sig (Elt Ideal)) :
    after (ops (F := Ideal)) V (main_arg3 : DevRef τ sig) = V (main_arg3 : DevRef τ sig) := by
  after_results_simp

set_option maxRecDepth 16384 in
set_option maxHeartbeats 40000000 in
/-- No operation writes argument 4. -/
theorem arg4_eq (V : Valuation τ sig (Elt Ideal)) :
    after (ops (F := Ideal)) V (main_arg4 : DevRef τ sig) = V (main_arg4 : DevRef τ sig) := by
  after_results_simp

set_option maxRecDepth 16384 in
set_option maxHeartbeats 40000000 in
/-- No operation writes argument 5. -/
theorem arg5_eq (V : Valuation τ sig (Elt Ideal)) :
    after (ops (F := Ideal)) V (main_arg5 : DevRef τ sig) = V (main_arg5 : DevRef τ sig) := by
  after_results_simp

set_option maxRecDepth 16384 in
set_option maxHeartbeats 40000000 in
/-- No operation writes argument 6. -/
theorem arg6_eq (V : Valuation τ sig (Elt Ideal)) :
    after (ops (F := Ideal)) V (main_arg6 : DevRef τ sig) = V (main_arg6 : DevRef τ sig) := by
  after_results_simp

/-- Every weakly fair execution of @main terminates with the result at the staged value of the arguments and the
    arguments unchanged. -/
theorem run (m : (ℓ : Loc nD τ sig) → Buf (Elt Ideal) ℓ) (ρ : Dev nD → PrngReg) :
    θ_run (defs (F := Ideal)) (onTc (τ := τ) (main (F := Ideal))) ⟨m, fun _ => 0, ρ⟩ fun r => ∀ c : Dev nD,
      r.2.mem ((c.tc : Thread nD τ).loc main_v70)
        = result (m ((c.tc : Thread nD τ).loc main_arg0)) (m ((c.tc : Thread nD τ).loc main_arg1))
            (m ((c.tc : Thread nD τ).loc main_arg2)) (m ((c.tc : Thread nD τ).loc main_arg3))
            (m ((c.tc : Thread nD τ).loc main_arg4)) (m ((c.tc : Thread nD τ).loc main_arg5))
            (m ((c.tc : Thread nD τ).loc main_arg6))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6) :=
  (θ_run defs _ _).mono (fun _ h c => ⟨(h c main_v70).trans (out_eq (launchContents m c)),
      (h c main_arg0).trans (arg0_eq (launchContents m c)),
      (h c main_arg1).trans (arg1_eq (launchContents m c)),
      (h c main_arg2).trans (arg2_eq (launchContents m c)),
      (h c main_arg3).trans (arg3_eq (launchContents m c)),
      (h c main_arg4).trans (arg4_eq (launchContents m c)),
      (h c main_arg5).trans (arg5_eq (launchContents m c)),
      (h c main_arg6).trans (arg6_eq (launchContents m c))⟩)
    (run_all m ρ)

end Cert.ReferenceIdeal.RefRun

end
-- ==== Proof.RefValue.lean ====
/-
  The reference's result, read at an entry, is the family of formulas with the loops appended.

  Stage by stage: the two rows of the edge array, flat; each followed by the node numbers; a word wrapped
  before a row is taken; the degrees as a count over the extended list; the scales; the per-edge factor as the
  product of both ends' scales; the projection as a sum over the contracted axis; the travelling rows; what each
  node receives as a sum over the entries of the extended list whose target word names it; the bias and the second
  projection; the column sums, means and variances (the divisor's word denotes the number of nodes, and that
  number less zero is positive, so the variance is the quotient and not the fill word); the normalized value cut
  at zero.
-/
import proofs.«163069_j30202210025887_2_alg».proof.Proof.RefTerm
import proofs.«163069_j30202210025887_2_alg».proof.Proof.Spec
import proofs.«163069_j30202210025887_2_alg».proof.Proof.LibColumn
import proofs.«163069_j30202210025887_2_alg».proof.Proof.LibGraphConv
import Idealize.ShloMosaic.Lib.IdealHost
import Idealize.ShloMosaic.PureOps.Ideal.Laws

noncomputable section

open scoped BigOperators

namespace Cert.ReferenceIdeal.RefValue

open Cert.ReferenceIdeal Cert.ReferenceIdeal.Gen Cert.ReferenceIdeal.RefRun Cert.GcnBlock Cert.Dense Cert.Indexed
open Idealize.ShloMosaic Idealize.ShloMosaic.ValueIdx

/-! ## The scalar constants -/

theorem zeroS_apply (j : S_.Idx) : zeroS j = 0 := Ideal.ofBits_zero_f32
theorem oneS_apply (j : S_.Idx) : oneS j = 1 := Ideal.ofBits_one_f32
theorem epsS_apply (j : S_.Idx) : epsS j = eps := rfl

/-- The word 0x47435000 denotes 50000. -/
theorem ofBits_count : Ideal.ofBits .f32 0x47435000#32 = cN := by
  unfold cN
  simp [Ideal.ofBits, Ideal.ieee, -EReal.coe_mul]; norm_num

theorem countS_apply (j : S_.Idx) : countS j = cN := ofBits_count

/-- A scalar broadcast to a shape reads the scalar. -/
theorem bcast0 {α : Type} {t : Shape} (h : S_.BroadcastsInDim t ![]) (x : S_.Idx → α) (j : t.Idx) :
    broadcastInDim t ![] h x j = x ix0 :=
  broadcastInDim_scalar_apply h x j

/-! ## The edge words -/

theorem edgeSrc_apply (ei : Edges) (e : Fin 800000) : edgeSrc ei (ix1 e) = src ei e := by
  unfold edgeSrc
  refine (shapeCast_apply _ shapeCasts_S1x800000_S800000 (ix1 e) (ix2 (0 : Fin 1) e) ?_).trans ?_
  · rw [Shape.rowMajor_val_two, Shape.rowMajor_val_one]
    show (0 : Fin 1).val * 800000 + e.val = e.val
    simp
  · refine extractStridedSlice_apply ![0, 0] ei slices_S2x800000_S1x800000_0_0 (ix2 (0 : Fin 1) e) (ix2 (0 : Fin 2) e) fun a => ?_
    match a with
    | ⟨0, _⟩ => rfl
    | ⟨1, _⟩ => exact (Nat.zero_add _).symm

theorem edgeDst_apply (ei : Edges) (e : Fin 800000) : edgeDst ei (ix1 e) = dst ei e := by
  unfold edgeDst
  refine (shapeCast_apply _ shapeCasts_S1x800000_S800000 (ix1 e) (ix2 (0 : Fin 1) e) ?_).trans ?_
  · rw [Shape.rowMajor_val_two, Shape.rowMajor_val_one]
    show (0 : Fin 1).val * 800000 + e.val = e.val
    simp
  · refine extractStridedSlice_apply ![1, 0] ei slices_S2x800000_S1x800000_1_0 (ix2 (0 : Fin 1) e) (ix2 (1 : Fin 2) e) fun a => ?_
    match a with
    | ⟨0, _⟩ => rfl
    | ⟨1, _⟩ => exact (Nat.zero_add _).symm

/-- A flat array of 800000 words followed by the node numbers, read at j: the extended list. -/
theorem cat_apply (a : IVec S800000 32) (j : Fin 850000) :
    concatenate S850000 0 [⟨S800000, a⟩, ⟨S50000, iotaInDim S50000 32 0⟩] concatenates_S800000_S50000_S850000_d0 (ix1 j)
      = cat (fun e => a (ix1 e)) j := by
  unfold cat
  by_cases h : j.val < 800000
  · rw [dif_pos h]
    refine concatenate_pair_apply_left (0 : Fin 1) a _ concatenates_S800000_S50000_S850000_d0 (ix1 j) rfl (ix1 ⟨j.val, h⟩) fun b => ?_
    match b with
    | ⟨0, _⟩ => rfl
  · rw [dif_neg h]
    have hj := j.isLt
    refine (concatenate_pair_apply_right (0 : Fin 1) a (iotaInDim S50000 32 0) concatenates_S800000_S50000_S850000_d0 (ix1 j) rfl rfl
      (ix1 ⟨j.val - 800000, by omega⟩) (fun b hb => absurd (Subsingleton.elim _ _) hb) ?_).trans ?_
    · show j.val - 800000 + 800000 = j.val
      omega
    · rfl

theorem srcWords_apply (ei : Edges) (j : Fin 850000) : srcWords ei (ix1 j) = rsrc ei j := by
  unfold srcWords rsrc
  rw [cat_apply]
  exact congrArg (fun f => cat f j) (funext fun e => edgeSrc_apply ei e)

theorem dstWords_apply (ei : Edges) (j : Fin 850000) : dstWords ei (ix1 j) = rdst ei j := by
  unfold dstWords rdst
  rw [cat_apply]
  exact congrArg (fun f => cat f j) (funext fun e => edgeDst_apply ei e)

theorem wrapWords_apply (w : IVec S850000 32) (i : S850000.Idx) : wrapWords w i = wrap (w i) := by
  unfold wrapWords wrap
  show Scalar.select (IntOp.cmpi .slt (w i) (broadcastInDim S850000 ![] bcast_S_S850000 (constantI S_ 32 0#32) i))
      (IntOp.addi (w i) (broadcastInDim S850000 ![] bcast_S_S850000 (constantI S_ 32 50000#32) i)) (w i) = _
  rw [bcast0, bcast0]
  rfl

theorem asCol_apply (w : IVec S850000 32) (j : Fin 850000) (z : Fin 1) : asCol w (ix2 j z) = w (ix1 j) := by
  unfold asCol
  exact Cert.Layout.bcast_vec_col_apply w bcast_S850000_S850000x1_0 j z

end Cert.ReferenceIdeal.RefValue

namespace Cert.ReferenceIdeal.RefValue

open Cert.ReferenceIdeal Cert.ReferenceIdeal.Gen Cert.ReferenceIdeal.RefRun Cert.GcnBlock Cert.Dense Cert.Indexed
open Idealize.ShloMosaic Idealize.ShloMosaic.ValueIdx

/-! ## The program's gathers and accumulations, over any operands -/

theorem gather_flat (s : FVec Ideal S50000 .f32) (c : IVec S850000x1 32) (j : Fin 850000) :
    Host.gather gather_S50000_S850000x1_S850000_n_0_n_n_0_1_1 s c (ix1 j)
      = s (ix1 (clampRow 50000 (by norm_num) (c (ix2 j (0 : Fin 1))))) :=
  flatGather_at (by norm_num) gather_S50000_S850000x1_S850000_n_0_n_n_0_1_1_wf s c j

theorem gather_rows (P : FVec Ideal S50000x128 .f32) (c : IVec S850000x1 32) (j : Fin 850000) (o : Fin 128) :
    Host.gather gather_S50000x128_S850000x1_S850000x128_1_0_n_n_0_1_1128 P c (ix2 j o)
      = P (ix2 (clampRow 50000 (by norm_num) (c (ix2 j (0 : Fin 1)))) o) :=
  rowGather_at (by norm_num) gather_S50000x128_S850000x1_S850000x128_1_0_n_n_0_1_1128_wf P c j o

theorem scatter_flat (z : FVec Ideal S50000 .f32) (c : IVec S850000x1 32) (u : FVec Ideal S850000 .f32) (v : Fin 50000) :
    Host.scatterAdd (F := Ideal) scatter_S50000_S850000x1_S850000_n_0_0_1 z c u (ix1 v)
      = z (ix1 v) + ∑ r ∈ Finset.univ.filter (fun r : Fin 850000 => Names (c (ix2 r (0 : Fin 1))) v), u (ix1 r) :=
  flatScatterAdd_at scatter_S50000_S850000x1_S850000_n_0_0_1_wf z c u v

theorem scatter_rows (Z : FVec Ideal S50000x128 .f32) (c : IVec S850000x1 32) (U : FVec Ideal S850000x128 .f32)
    (v : Fin 50000) (o : Fin 128) :
    Host.scatterAdd (F := Ideal) scatter_S50000x128_S850000x1_S850000x128_1_0_0_1 Z c U (ix2 v o)
      = Z (ix2 v o) + ∑ r ∈ Finset.univ.filter (fun r : Fin 850000 => Names (c (ix2 r (0 : Fin 1))) v), U (ix2 r o) :=
  rowScatterAdd_apply scatter_S50000x128_S850000x1_S850000x128_1_0_0_1_wf Z c U v o

end Cert.ReferenceIdeal.RefValue

namespace Cert.ReferenceIdeal.RefValue

open Cert.ReferenceIdeal Cert.ReferenceIdeal.Gen Cert.ReferenceIdeal.RefRun Cert.GcnBlock Cert.Dense Cert.Indexed
open Idealize.ShloMosaic Idealize.ShloMosaic.ValueIdx

/-! ## Pointwise operations at an entry, over any operands -/

section Pointwise
variable {s : Shape}
theorem mulf_at (a b : FVec Ideal s .f32) (i : s.Idx) : mulf a b i = a i * b i := rfl
theorem addf_at (a b : FVec Ideal s .f32) (i : s.Idx) : addf a b i = a i + b i := rfl
theorem subf_at (a b : FVec Ideal s .f32) (i : s.Idx) : subf a b i = a i - b i := rfl
theorem maximumf_at (a b : FVec Ideal s .f32) (i : s.Idx) : maximumf a b i = max (a i) (b i) := rfl
theorem hostRsqrt_at (a : FVec Ideal s .f32) (i : s.Idx) : Host.rsqrt a i = Ideal.rsqrt (a i) := rfl
theorem cmpf_at (p : CmpFPredicate) (a b : FVec Ideal s .f32) (i : s.Idx) : cmpf p a b i = Ideal.cmp p (a i) (b i) := rfl
end Pointwise

/-- The scale of a degree array at a node: the select of the reciprocal square root against zero. -/
theorem scales_of (D : FVec Ideal S50000 .f32) (v : Fin 50000) :
    select (cmpf .ogt D (broadcastInDim S50000 ![] bcast_S_S50000 zeroS)) (Host.rsqrt D)
        (broadcastInDim S50000 ![] bcast_S_S50000 zeroS) (ix1 v) = dinvOf (D (ix1 v)) := by
  rw [select_apply, cmpf_at, hostRsqrt_at, bcast0, zeroS_apply]
  rfl

/-- The row a column of wrapped words takes at j. -/
theorem row_asCol_wrap (w : IVec S850000 32) (j : Fin 850000) :
    clampRow 50000 (by norm_num) (asCol (wrapWords w) (ix2 j (0 : Fin 1))) = rowOf (w (ix1 j)) := by
  rw [asCol_apply, wrapWords_apply]
  rfl

/-- An array taken at the rows of a column of wrapped words. -/
theorem gather_flat_wrap (s : FVec Ideal S50000 .f32) (w : IVec S850000 32) (j : Fin 850000) :
    Host.gather gather_S50000_S850000x1_S850000_n_0_n_n_0_1_1 s (asCol (wrapWords w)) (ix1 j) = s (ix1 (rowOf (w (ix1 j)))) := by
  rw [gather_flat, row_asCol_wrap]

theorem gather_rows_wrap (P : FVec Ideal S50000x128 .f32) (w : IVec S850000 32) (j : Fin 850000) (o : Fin 128) :
    Host.gather gather_S50000x128_S850000x1_S850000x128_1_0_n_n_0_1_1128 P (asCol (wrapWords w)) (ix2 j o)
      = P (ix2 (rowOf (w (ix1 j))) o) := by
  rw [gather_rows, row_asCol_wrap]

/-- The per-edge factor of an array of scales and two arrays of words. -/
theorem factor_of (s : FVec Ideal S50000 .f32) (a c : IVec S850000 32) (j : Fin 850000) :
    mulf (Host.gather gather_S50000_S850000x1_S850000_n_0_n_n_0_1_1 s (asCol (wrapWords a)))
        (Host.gather gather_S50000_S850000x1_S850000_n_0_n_n_0_1_1 s (asCol (wrapWords c))) (ix1 j)
      = s (ix1 (rowOf (a (ix1 j)))) * s (ix1 (rowOf (c (ix1 j)))) := by
  rw [mulf_at, gather_flat_wrap, gather_flat_wrap]

/-- The travelling rows of a projected matrix, an array of words and an array of factors. -/
theorem travelling_of (P : FVec Ideal S50000x128 .f32) (a : IVec S850000 32) (f : FVec Ideal S850000 .f32)
    (j : Fin 850000) (o : Fin 128) :
    mulf (Host.gather gather_S50000x128_S850000x1_S850000x128_1_0_n_n_0_1_1128 P (asCol (wrapWords a)))
        (broadcastInDim S850000x128 ![0, 1] bcast_S850000x1_S850000x128_0_1
          (broadcastInDim S850000x1 ![0] bcast_S850000_S850000x1_0 f)) (ix2 j o)
      = P (ix2 (rowOf (a (ix1 j))) o) * f (ix1 j) := by
  rw [mulf_at, gather_rows_wrap, Cert.GraphConv.bcast_cols_apply, Cert.GraphConv.bcast_col_apply]

/-- An accumulation into zeros by a column of words. -/
theorem scatter_flat_zero (w : IVec S850000 32) (u : FVec Ideal S850000 .f32) (v : Fin 50000) :
    Host.scatterAdd (F := Ideal) scatter_S50000_S850000x1_S850000_n_0_0_1 (broadcastInDim S50000 ![] bcast_S_S50000 zeroS)
        (asCol w) u (ix1 v)
      = ∑ r ∈ Finset.univ.filter (fun r : Fin 850000 => Names (w (ix1 r)) v), u (ix1 r) := by
  rw [scatter_flat, bcast0, zeroS_apply, zero_add]
  exact Finset.sum_congr (Finset.filter_congr fun r _ => by rw [asCol_apply]) fun _ _ => rfl

theorem scatter_rows_zero (w : IVec S850000 32) (U : FVec Ideal S850000x128 .f32) (v : Fin 50000) (o : Fin 128) :
    Host.scatterAdd (F := Ideal) scatter_S50000x128_S850000x1_S850000x128_1_0_0_1
        (broadcastInDim S50000x128 ![] bcast_S_S50000x128 zeroS) (asCol w) U (ix2 v o)
      = ∑ r ∈ Finset.univ.filter (fun r : Fin 850000 => Names (w (ix1 r)) v), U (ix2 r o) := by
  rw [scatter_rows, bcast0, zeroS_apply, zero_add]
  exact Finset.sum_congr (Finset.filter_congr fun r _ => by rw [asCol_apply]) fun _ _ => rfl

/-- The host's product with the transposed second factor, at an entry. -/
theorem project_of (x : FVec Ideal S50000x128 .f32) (W : FVec Ideal S128x128 .f32) (n : Fin 50000) (o : Fin 128) :
    Host.dotGeneral (F := Ideal) dot_S50000x128_S128x128_S50000x128_1_0_0_1_n_n none x
        (transpose S128x128 [1, 0] W transposes_S128x128_S128x128_1_0) (ix2 n o) = mmT x W n o := by
  refine (congrFun (dotGeneral_plain (M := 50000) (K := 128) (N := 128) x
    (transpose S128x128 [1, 0] W transposes_S128x128_S128x128_1_0)) (ix2 n o)).trans ?_
  unfold mmT
  show ∑ k : Fin 128, x (ix2 n k) * transpose S128x128 [1, 0] W transposes_S128x128_S128x128_1_0 (ix2 k o) = _
  refine Finset.sum_congr rfl fun k _ => congrArg (x (ix2 n k) * ·) ?_
  refine transpose_apply [1, 0] W transposes_S128x128_S128x128_1_0 (ix2 k o) (ix2 o k) fun b => ?_
  match b with
  | ⟨0, _⟩ => rfl
  | ⟨1, _⟩ => rfl

theorem overNodes_apply (v : Row 128) (n : Fin 50000) (o : Fin 128) : overNodes v (ix2 n o) = v (ix1 o) := by
  unfold overNodes
  rw [broadcastInDim_apply ![0, 1] bcast_S1x128_S50000x128_0_1 _ (ix2 n o) (ix2 (0 : Fin 1) o) (fun ax => by
      match ax with
      | ⟨0, _⟩ => rfl
      | ⟨1, _⟩ => rfl),
    broadcastInDim_apply ![1] bcast_S128_S1x128_1 v (ix2 (0 : Fin 1) o) (ix1 o) (fun ax => by
      match ax with
      | ⟨0, _⟩ => rfl)]

end Cert.ReferenceIdeal.RefValue

namespace Cert.ReferenceIdeal.RefValue

open Cert.ReferenceIdeal Cert.ReferenceIdeal.Gen Cert.ReferenceIdeal.RefRun Cert.GcnBlock Cert.Dense Cert.Indexed
open Idealize.ShloMosaic Idealize.ShloMosaic.ValueIdx

/-! ## The stages up to the matrix that is normalized -/

theorem degrees_apply (ei : Edges) (v : Fin 50000) : degrees ei (ix1 v) = rdeg ei v := by
  unfold degrees rdeg
  refine (scatter_flat_zero (dstWords ei) _ v).trans ?_
  refine Finset.sum_congr (Finset.filter_congr fun r _ => by rw [dstWords_apply]) fun r _ => ?_
  rw [bcast0, oneS_apply]

theorem scales_apply (ei : Edges) (v : Fin 50000) : scales ei (ix1 v) = rdinv ei v := by
  unfold scales rdinv
  exact (scales_of (degrees ei) v).trans (congrArg dinvOf (degrees_apply ei v))

theorem edgeFactor_apply (ei : Edges) (j : Fin 850000) : edgeFactor ei (ix1 j) = rnorm ei j := by
  unfold edgeFactor rnorm
  refine (factor_of (scales ei) (srcWords ei) (dstWords ei) j).trans ?_
  refine congr (congrArg HMul.hMul ?_) ?_
  · rw [srcWords_apply, scales_apply]
  · rw [dstWords_apply, scales_apply]

theorem project_apply (x : FVec Ideal S50000x128 .f32) (W : FVec Ideal S128x128 .f32) (n : Fin 50000) (o : Fin 128) :
    project x W (ix2 n o) = mmT x W n o := by
  unfold project
  exact project_of x W n o

theorem travelling_apply (x : Mat 50000 128) (W : Mat 128 128) (ei : Edges) (j : Fin 850000) (o : Fin 128) :
    travelling x W ei (ix2 j o) = mmT x W (rowOf (rsrc ei j)) o * rnorm ei j := by
  unfold travelling
  refine (travelling_of (project x W) (srcWords ei) (edgeFactor ei) j o).trans ?_
  rw [srcWords_apply, project_apply, edgeFactor_apply]

theorem received_apply (x : Mat 50000 128) (W : Mat 128 128) (ei : Edges) (v : Fin 50000) (o : Fin 128) :
    received x W ei (ix2 v o) = ragg x W ei v o := by
  unfold received ragg
  refine (scatter_rows_zero (dstWords ei) (travelling x W ei) v o).trans ?_
  exact Finset.sum_congr (Finset.filter_congr fun r _ => by rw [dstWords_apply]) fun r _ => travelling_apply x W ei r o

theorem preNorm_apply (x : Mat 50000 128) (W : Mat 128 128) (b : Row 128) (RW : Mat 128 128) (ei : Edges)
    (n : Fin 50000) (o : Fin 128) : preNorm x W b RW ei (ix2 n o) = rpre x W b RW ei n o := by
  unfold preNorm rpre
  rw [addf_at, addf_at, received_apply, overNodes_apply, project_apply]

end Cert.ReferenceIdeal.RefValue

namespace Cert.ReferenceIdeal.RefValue

open Cert.ReferenceIdeal Cert.ReferenceIdeal.Gen Cert.ReferenceIdeal.RefRun Cert.GcnBlock Cert.Dense Cert.Indexed
open Idealize.ShloMosaic Idealize.ShloMosaic.ValueIdx

/-! ## Column statistics, of any matrix -/

theorem colSum_apply (X : Mat 50000 128) (o : Fin 128) : colSum X (ix1 o) = ∑ n : Fin 50000, X (ix2 n o) := by
  unfold colSum
  have hred : S50000x128.Reduces [0] S128 := by decide
  refine (hostReduceAdd_apply X zeroS reducesTo_S50000x128_S128_d0 h_S_ (ix1 o)).trans ?_
  refine (Ideal.hostReduceAdd_single reducesTo_S50000x128_S128_d0 hred X _ (ix1 o)).trans ?_
  rw [zeroS_apply, zero_add]
  show ∑ k : Fin 50000, X (hred.lift (ix1 o) k) = _
  refine Finset.sum_congr rfl fun k _ => congrArg X (funext fun a => ?_)
  match a with
  | ⟨0, _⟩ => exact Fin.ext rfl
  | ⟨1, _⟩ => exact Fin.ext rfl

theorem colMean_apply (X : Mat 50000 128) (o : Fin 128) :
    colMean X (ix1 o) = Ideal.div (∑ n : Fin 50000, X (ix2 n o)) cN := by
  unfold colMean
  rw [hostDivf_apply, bcast0, countS_apply, colSum_apply]

theorem colMeanRow_apply (X : Mat 50000 128) (z : Fin 1) (o : Fin 128) :
    colMeanRow X (ix2 z o) = Ideal.div (∑ n : Fin 50000, X (ix2 n o)) cN := by
  unfold colMeanRow
  rw [hostDivf_apply, bcast0, countS_apply,
    broadcastInDim_apply ![1] bcast_S128_S1x128_1 (colSum X) (ix2 z o) (ix1 o) (fun ax => by
      match ax with
      | ⟨0, _⟩ => rfl), colSum_apply]

theorem deviations_apply (X : Mat 50000 128) (n : Fin 50000) (o : Fin 128) :
    deviations X (ix2 n o) = X (ix2 n o) - Ideal.div (∑ m : Fin 50000, X (ix2 m o)) cN := by
  unfold deviations
  rw [subf_at, broadcastInDim_apply ![0, 1] bcast_S1x128_S50000x128_0_1 _ (ix2 n o) (ix2 (0 : Fin 1) o) (fun ax => by
      match ax with
      | ⟨0, _⟩ => rfl
      | ⟨1, _⟩ => rfl), colMeanRow_apply]

theorem cN_pos : (0 : EReal) < cN := by
  unfold cN
  exact_mod_cast (by norm_num : (0 : ℝ) < 50000)

theorem countLess_apply (j : S_.Idx) : countLess j = cN := by
  unfold countLess
  rw [subf_at, countS_apply]
  show cN - (((0#32 : BitVec 32).toInt : ℝ) : EReal) = cN
  simp

/-- There is something to average: the number of nodes less zero is positive. -/
theorem count_guard : cmpf .ogt countLess zeroS ix0 = 1#1 := by
  rw [cmpf_at, countLess_apply, zeroS_apply]
  unfold Ideal.cmp
  simp [cN_pos]

theorem colVar_apply (X : Mat 50000 128) (o : Fin 128) :
    colVar X (ix1 o)
      = Ideal.div (∑ n : Fin 50000, (X (ix2 n o) - Ideal.div (∑ m : Fin 50000, X (ix2 m o)) cN)
          * (X (ix2 n o) - Ideal.div (∑ m : Fin 50000, X (ix2 m o)) cN)) cN := by
  unfold colVar
  rw [select_apply, bcast0, count_guard, hostDivf_apply, bcast0, countLess_apply, colSum_apply]
  unfold Scalar.select
  rw [if_pos (show (1#1 : BitVec 1) = 1 from rfl)]
  refine congrArg (fun s => Ideal.div s cN) (Finset.sum_congr rfl fun n _ => ?_)
  rw [mulf_at, deviations_apply]

/-! ## Normalized, scaled, shifted, cut at zero -/

theorem normalized_apply (X : Mat 50000 128) (γ β : Row 128) (n : Fin 50000) (o : Fin 128) :
    normalized X γ β (ix2 n o)
      = ((γ (ix1 o) * (X (ix2 n o) - colMean X (ix1 o))) * Ideal.rsqrt (colVar X (ix1 o) + eps)) + β (ix1 o) := by
  unfold normalized
  rw [addf_at, mulf_at, mulf_at, subf_at]
  simp only [overNodes_apply]
  rw [hostRsqrt_at, addf_at, bcast0, epsS_apply]

theorem cutAtZero_apply (X : Mat 50000 128) (i : S50000x128.Idx) : cutAtZero X i = max (X i) 0 := by
  unfold cutAtZero
  rw [maximumf_at, bcast0, zeroS_apply]

/-- The reference's result, entry by entry, is the family with the loops appended. -/
theorem result_apply (x : Mat 50000 128) (W : Mat 128 128) (b : Row 128) (RW : Mat 128 128) (γ β : Row 128) (ei : Edges)
    (n : Fin 50000) (o : Fin 128) :
    result x W b RW γ β ei (ix2 n o) = rout x W b RW γ β ei n o := by
  unfold result
  rw [cutAtZero_apply, normalized_apply, colMean_apply, colVar_apply]
  unfold rout rvar rmean
  simp only [preNorm_apply]

end Cert.ReferenceIdeal.RefValue

end
-- ==== Proof.SpecEq.lean ====
/-
  The two families of formulas of the graph-convolution block are one function on real inputs.

  Degrees: the appended loops are the words 0 … N − 1, each naming exactly its own node, so counting over the
  extended list is counting over the edges plus one. Scales: a degree is a natural number ≥ 1, hence its
  reciprocal square root is a real number. Messages: an edge whose target word names v has target row v, so the
  product of both ends' scales is (source's scale) · (v's scale), and v's scale comes out of the sum over the
  edges by distributivity — true of real numbers. Moments: with μ the mean of N real numbers, the mean of the
  squared deviations is the mean of the squares minus μ², and it is not negative, so cutting at zero changes
  nothing.
-/
import proofs.«163069_j30202210025887_2_alg».proof.Proof.Spec
import proofs.«163069_j30202210025887_2_alg».proof.Proof.LibMatAssoc
import proofs.«163069_j30202210025887_2_alg».proof.Proof.LibGraphConv

noncomputable section

open scoped BigOperators

namespace Cert.GcnBlock

open Cert.Dense Cert.Indexed Cert.Gcn Cert.GraphConv Idealize.ShloMosaic Idealize.ShloMosaic.ValueIdx

/-! ## Splitting a sum over the first N numbers -/

/-- A sum over the first N numbers splits at a into the first a and the remaining b. -/
theorem sum_split {M : Type*} [AddCommMonoid M] {a b N : ℕ} (h : a + b = N) (f : Fin N → M) :
    ∑ j : Fin N, f j = (∑ e : Fin a, f ⟨e.val, by omega⟩) + ∑ u : Fin b, f ⟨a + u.val, by omega⟩ := by
  subst h
  rw [Fin.sum_univ_add]
  rfl

/-! ## Words -/

/-- A word made of a number below 50000 reads, signed, as that number. -/
theorem toInt_ofNat_small (n : ℕ) (h : n < 50000) : (BitVec.ofNat 32 n).toInt = (n : ℤ) := by
  have h1 : (BitVec.ofNat 32 n).toNat = n := by
    rw [BitVec.toNat_ofNat]; exact Nat.mod_eq_of_lt (by omega)
  rw [BitVec.toInt_eq_toNat_of_lt (by rw [h1]; omega), h1]

/-- The word made of node u's number names v exactly when u is v. -/
theorem names_ofNat (u v : Fin 50000) : Names (BitVec.ofNat 32 u.val) v ↔ u = v := by
  unfold Names
  rw [toInt_ofNat_small u.val u.isLt, Fin.ext_iff]
  omega

/-- A word that is not negative is left alone before a row is taken. -/
theorem wrap_of_nonneg (w : BitVec 32) (h : 0 ≤ w.toInt) : wrap w = w := by
  have hs : w.slt 0#32 = false := by
    rw [BitVec.slt_eq_decide, BitVec.toInt_zero]
    exact decide_eq_false (by omega)
  unfold wrap IntOp.cmpi
  simp only [hs]
  unfold Scalar.select
  exact if_neg (by decide)

/-- A word that names v takes row v. -/
theorem rowOf_of_names (w : BitVec 32) (v : Fin 50000) (h : Names w v) : rowOf w = v := by
  unfold Names at h
  unfold rowOf
  rw [wrap_of_nonneg w (by omega)]
  unfold clampRow
  refine Fin.ext ?_
  show min w.toInt.toNat (50000 - 1) = v.val
  have := v.isLt
  omega

theorem rowOf_ofNat (v : Fin 50000) : rowOf (BitVec.ofNat 32 v.val) = v :=
  rowOf_of_names _ v ((names_ofNat v v).mpr rfl)

/-! ## The extended list, entry by entry -/

theorem cat_lo (a : Fin 800000 → BitVec 32) (e : Fin 800000) (h : e.val < 850000) : cat a ⟨e.val, h⟩ = a e := by
  unfold cat
  exact dif_pos e.isLt

theorem cat_hi (a : Fin 800000 → BitVec 32) (u : Fin 50000) (h : 800000 + u.val < 850000) :
    cat a ⟨800000 + u.val, h⟩ = BitVec.ofNat 32 u.val := by
  unfold cat
  have hn : ¬ ((⟨800000 + u.val, h⟩ : Fin 850000).val < 800000) := by
    show ¬ (800000 + u.val < 800000); omega
  rw [dif_neg hn]
  show BitVec.ofNat 32 (800000 + u.val - 800000) = _
  rw [Nat.add_sub_cancel_left]

section Lists
variable (ei : Edges)

theorem rsrc_lo (e : Fin 800000) (h : e.val < 850000) : rsrc ei ⟨e.val, h⟩ = src ei e := cat_lo _ e h
theorem rdst_lo (e : Fin 800000) (h : e.val < 850000) : rdst ei ⟨e.val, h⟩ = dst ei e := cat_lo _ e h
theorem rsrc_hi (u : Fin 50000) (h : 800000 + u.val < 850000) : rsrc ei ⟨800000 + u.val, h⟩ = BitVec.ofNat 32 u.val :=
  cat_hi _ u h
theorem rdst_hi (u : Fin 50000) (h : 800000 + u.val < 850000) : rdst ei ⟨800000 + u.val, h⟩ = BitVec.ofNat 32 u.val :=
  cat_hi _ u h

/-- A sum over the entries of the extended list whose target word names v: the sum over the edges whose target
    word names v, plus the term of v's own loop. -/
theorem sum_cat {M : Type*} [AddCommMonoid M] (v : Fin 50000) (g : Fin 850000 → M) :
    ∑ j ∈ Finset.univ.filter (fun j : Fin 850000 => Names (rdst ei j) v), g j
      = (∑ e ∈ Finset.univ.filter (fun e : Fin 800000 => Names (dst ei e) v), g ⟨e.val, by omega⟩)
        + g ⟨800000 + v.val, by omega⟩ := by
  rw [Finset.sum_filter, sum_split (show 800000 + 50000 = 850000 by norm_num), Finset.sum_filter]
  refine congr (congrArg HAdd.hAdd ?_) ?_
  · refine Finset.sum_congr rfl fun e _ => ?_
    rw [rdst_lo]
  · rw [Finset.sum_eq_single v]
    · rw [rdst_hi, if_pos ((names_ofNat v v).mpr rfl)]
    · intro u _ hne
      rw [rdst_hi, if_neg (fun hn => hne ((names_ofNat u v).mp hn))]
    · intro hv; exact absurd (Finset.mem_univ v) hv

/-! ## Degrees and scales -/

theorem rdeg_eq (v : Fin 50000) : rdeg ei v = kdeg ei v := by
  unfold rdeg kdeg
  exact sum_cat ei v (fun _ => (1 : EReal))

theorem rdinv_eq (v : Fin 50000) : rdinv ei v = kdinv ei v := by
  unfold rdinv kdinv
  rw [rdeg_eq]

/-- A degree is a real number, at least one. -/
theorem kdeg_real (v : Fin 50000) : ∃ r : ℝ, 1 ≤ r ∧ kdeg ei v = (r : EReal) := by
  refine ⟨(∑ _e ∈ Finset.univ.filter (fun e : Fin 800000 => Names (dst ei e) v), (1 : ℝ)) + 1, ?_, ?_⟩
  · have : (0 : ℝ) ≤ ∑ _e ∈ Finset.univ.filter (fun e : Fin 800000 => Names (dst ei e) v), (1 : ℝ) :=
      Finset.sum_nonneg fun _ _ => zero_le_one
    linarith
  · unfold kdeg
    rw [EReal.coe_add, coe_sum, EReal.coe_one]

/-- The scale of a real degree ≥ 1 is a real number. -/
theorem dinvOf_real (r : ℝ) (h : 1 ≤ r) : IsReal (dinvOf (r : EReal)) := by
  refine ⟨(Real.sqrt r)⁻¹, ?_⟩
  have hpos : (0 : EReal) < (r : EReal) := by exact_mod_cast (lt_of_lt_of_le one_pos h)
  have hc : Ideal.cmp .ogt (r : EReal) 0 = 1#1 := by
    unfold Ideal.cmp
    simp [hpos]
  unfold dinvOf
  rw [hc]
  unfold Scalar.select
  rw [if_pos (show (1#1 : BitVec 1) = 1 from rfl), Ideal.rsqrt_coe, if_neg (by linarith), if_neg (by linarith)]

theorem kdinv_real (v : Fin 50000) : IsReal (kdinv ei v) := by
  obtain ⟨r, hr, e⟩ := kdeg_real ei v
  unfold kdinv
  rw [e]
  exact dinvOf_real r hr

end Lists

/-! ## Identities of real numbers -/

theorem real_pre {ι : Type} (S : Finset ι) (h d : ι → ℝ) (dv hv bb r : ℝ) :
    ((∑ e ∈ S, h e * (d e * dv)) + hv * (dv * dv) + bb) + r
      = ((dv * ((∑ e ∈ S, h e * d e) + hv * dv)) + r) + bb := by
  have : ∑ e ∈ S, h e * (d e * dv) = dv * ∑ e ∈ S, h e * d e := by
    rw [Finset.mul_sum]; exact Finset.sum_congr rfl fun e _ => by ring
  rw [this]; ring

theorem real_sq_expand {ι : Type} (s : Finset ι) (p : ι → ℝ) (μ : ℝ) :
    ∑ i ∈ s, (p i - μ) * (p i - μ)
      = (∑ i ∈ s, p i * p i) - 2 * μ * (∑ i ∈ s, p i) + (s.card : ℝ) * (μ * μ) := by
  have e : ∀ i, (p i - μ) * (p i - μ) = p i * p i - 2 * μ * p i + μ * μ := fun i => by ring
  simp only [e]
  rw [Finset.sum_add_distrib, Finset.sum_sub_distrib, ← Finset.mul_sum, Finset.sum_const, nsmul_eq_mul]

/-- With c the reciprocal of the number of terms and μ the mean: the mean of the squared deviations is the mean of
    the squares minus the square of the mean. -/
theorem real_var {ι : Type} (s : Finset ι) (p : ι → ℝ) (c μ : ℝ) (hc : (s.card : ℝ) * c = 1)
    (hμ : μ = (∑ i ∈ s, p i) * c) :
    (∑ i ∈ s, (p i - μ) * (p i - μ)) * c = (∑ i ∈ s, p i * p i) * c - μ * μ := by
  rw [real_sq_expand]
  linear_combination (μ * μ) * hc + (2 * μ) * hμ

theorem real_var_nonneg {ι : Type} (s : Finset ι) (p : ι → ℝ) (c μ : ℝ) (hc0 : 0 ≤ c) :
    0 ≤ (∑ i ∈ s, (p i - μ) * (p i - μ)) * c :=
  mul_nonneg (Finset.sum_nonneg fun i _ => mul_self_nonneg _) hc0

/-! ## The same on the extended reals, for real entries -/

theorem ereal_pre {ι : Type} (S : Finset ι) (h d : ι → EReal) (dv hv bb r : EReal)
    (hh : ∀ e, IsReal (h e)) (hd : ∀ e, IsReal (d e)) (hdv : IsReal dv) (hhv : IsReal hv) (hbb : IsReal bb)
    (hr : IsReal r) :
    ((∑ e ∈ S, h e * (d e * dv)) + hv * (dv * dv) + bb) + r
      = ((dv * ((∑ e ∈ S, h e * d e) + hv * dv)) + r) + bb := by
  choose h' hh' using hh
  choose d' hd' using hd
  obtain ⟨dv', rfl⟩ := hdv
  obtain ⟨hv', rfl⟩ := hhv
  obtain ⟨bb', rfl⟩ := hbb
  obtain ⟨r', rfl⟩ := hr
  simp only [hh', hd']
  simp only [← EReal.coe_mul, ← coe_sum, ← EReal.coe_add]
  exact congrArg _ (real_pre S h' d' dv' hv' bb' r')

theorem ereal_var {ι : Type} (s : Finset ι) (P : ι → EReal) (hP : ∀ i, IsReal (P i)) (c : ℝ) (hc0 : 0 ≤ c)
    (hc : (s.card : ℝ) * c = 1) (μ : EReal) (hμ : μ = (∑ i ∈ s, P i) * (c : EReal)) :
    (∑ i ∈ s, (P i - μ) * (P i - μ)) * (c : EReal)
      = max ((∑ i ∈ s, P i * P i) * (c : EReal) - μ * μ) 0 := by
  choose p hp using hP
  have hμ' : μ = (((∑ i ∈ s, p i) * c : ℝ) : EReal) := by
    rw [hμ, EReal.coe_mul, coe_sum]; simp only [hp]
  subst hμ'
  simp only [hp]
  simp only [← EReal.coe_mul, ← EReal.coe_sub, ← coe_sum]
  rw [← real_var s p c _ hc rfl]
  exact (max_eq_left (EReal.coe_nonneg.mpr (real_var_nonneg s p c _ hc0))).symm

/-! ## The block -/

section Block
variable (X : Mat 50000 128) (W : Mat 128 128) (b : Row 128) (RW : Mat 128 128) (γ β : Row 128) (ei : Edges)

/-- A product of real matrices has real entries. -/
theorem mmT_real {X : Mat 50000 128} {W : Mat 128 128} (hX : Finite X) (hW : Finite W) (n : Fin 50000) (o : Fin 128) :
    IsReal (mmT X W n o) :=
  IsReal.sum _ _ fun _ _ => IsReal.mul (hX _) (hW _)

/-- What node v receives over the extended list: over the edges with the source's scale times v's, and its own row
    with v's scale squared. -/
theorem ragg_eq (v : Fin 50000) (o : Fin 128) :
    ragg X W ei v o
      = (∑ e ∈ Finset.univ.filter (fun e : Fin 800000 => Names (dst ei e) v),
            mmT X W (rowOf (src ei e)) o * (kdinv ei (rowOf (src ei e)) * kdinv ei v))
        + mmT X W v o * (kdinv ei v * kdinv ei v) := by
  unfold ragg
  rw [sum_cat]
  refine congr (congrArg HAdd.hAdd ?_) ?_
  · refine Finset.sum_congr rfl fun e he => ?_
    have hn : Names (dst ei e) v := (Finset.mem_filter.mp he).2
    unfold rnorm
    rw [rsrc_lo, rdst_lo, rdinv_eq, rdinv_eq, rowOf_of_names _ _ hn]
  · unfold rnorm
    rw [rsrc_hi, rdst_hi, rowOf_ofNat, rdinv_eq]

theorem rpre_eq (hX : Finite X) (hW : Finite W) (hb : Finite b) (hRW : Finite RW) (n : Fin 50000) (o : Fin 128) :
    rpre X W b RW ei n o = kpre X W b RW ei n o := by
  unfold rpre kpre kagg khs
  rw [ragg_eq]
  exact ereal_pre _ (fun e => mmT X W (rowOf (src ei e)) o) (fun e => kdinv ei (rowOf (src ei e))) (kdinv ei n)
    (mmT X W n o) (b (ix1 o)) (mmT X RW n o) (fun _ => mmT_real hX hW _ o) (fun _ => kdinv_real ei _)
    (kdinv_real ei n) (mmT_real hX hW n o) (hb _) (mmT_real hX hRW n o)

theorem kpre_real (hX : Finite X) (hW : Finite W) (hb : Finite b) (hRW : Finite RW) (n : Fin 50000) (o : Fin 128) :
    IsReal (kpre X W b RW ei n o) := by
  unfold kpre kagg khs
  exact (((kdinv_real ei n).mul ((IsReal.sum _ _ fun _ _ => (mmT_real hX hW _ o).mul (kdinv_real ei _)).add
    ((mmT_real hX hW n o).mul (kdinv_real ei n)))).add (mmT_real hX hRW n o)).add (hb _)

theorem div_cN (x : EReal) : Ideal.div x cN = x * (((1 / 50000 : ℝ)) : EReal) := by
  unfold cN
  exact Ideal.div_coe (by norm_num) x

theorem rmean_eq (hX : Finite X) (hW : Finite W) (hb : Finite b) (hRW : Finite RW) (o : Fin 128) :
    rmean X W b RW ei o = kmean X W b RW ei o := by
  unfold rmean kmean ksum
  exact congrArg (fun s => Ideal.div s cN) (Finset.sum_congr rfl fun n _ => rpre_eq X W b RW ei hX hW hb hRW n o)

theorem rvar_eq (hX : Finite X) (hW : Finite W) (hb : Finite b) (hRW : Finite RW) (o : Fin 128) :
    rvar X W b RW ei o = kvar X W b RW ei o := by
  unfold rvar
  rw [rmean_eq X W b RW ei hX hW hb hRW o]
  simp only [rpre_eq X W b RW ei hX hW hb hRW]
  unfold kvar ksumsq
  rw [div_cN, div_cN]
  refine ereal_var Finset.univ (fun n => kpre X W b RW ei n o) (fun n => kpre_real X W b RW ei hX hW hb hRW n o)
    (1 / 50000) (by norm_num) ?_ _ ?_
  · rw [Finset.card_univ, Fintype.card_fin]; norm_num
  · unfold kmean ksum
    exact div_cN _

theorem spec_eq (X : Mat 50000 128) (W : Mat 128 128) (b : Row 128) (RW : Mat 128 128) (γ β : Row 128) (ei : Edges)
    (hX : Cert.Gcn.Finite X) (hW : Cert.Gcn.Finite W) (hb : Cert.Gcn.Finite b) (hRW : Cert.Gcn.Finite RW)
    (n : Fin 50000) (o : Fin 128) :
    rout X W b RW γ β ei n o = kout X W b RW γ β ei n o := by
  unfold rout kout
  rw [rpre_eq X W b RW ei hX hW hb hRW n o, rmean_eq X W b RW ei hX hW hb hRW o, rvar_eq X W b RW ei hX hW hb hRW o]

end Block

end Cert.GcnBlock

end
-- ==== Proof.lean ====
/-
  The five claims of the certificate of a graph-convolution block with batch normalization.

  The programs take node features x (50000 × 128), two weight matrices W and RW (128 × 128), a bias row, a gain row, a
  shift row, and 800000 edges as pairs of node words. A node's degree is the number of edges whose target word names it,
  plus one for its own loop; its scale is the reciprocal square root of its degree. The projected features x · Wᵀ
  travel along the edges scaled by both ends' scales, every node also receives its own projected row scaled by its
  scale squared, the bias and the second projection x · RWᵀ are added, and the result is normalized column by column
  with the batch mean and the batch variance, scaled by the gain, shifted, and cut at zero.

  The kernel program computes this with three grid kernels among host operations: it scales a projected row by the
  source's scale before the row travels and by the target's after the rows are summed, counts the loop as "+ 1" and
  adds the loop's row separately, and takes the variance as the mean of the squares minus the square of the mean, cut
  at zero. The reference appends the 50000 loops to the edge list, scales every travelling row by the product of both
  scales, and takes the variance as the mean of the squared deviations.

  The frame of the kernel as printed and the frame of its reading on the extended reals are the generated frame
  certificates; the reference's frame is its run with the result dropped; the reading on the extended reals rewrote no
  operation. For the algebraic claim the kernel's result array is the first family of formulas at every entry and the
  reference's is the second; on real inputs — which the precondition grants for the six float arguments; the edge
  words are integers and need nothing — the two families are one function: a scale distributes over a finite sum of
  reals, the loop's term is the appended edge's term, and the mean of squared deviations is the mean of squares minus
  the square of the mean, which is then never negative.
-/
import proofs.«163069_j30202210025887_2_alg».proof.Defs
import proofs.«163069_j30202210025887_2_alg».proof.Proof.Gen.Kernel
import proofs.«163069_j30202210025887_2_alg».proof.Proof.Gen.Kernel.Skeleton
import proofs.«163069_j30202210025887_2_alg».proof.Proof.Gen.Kernel.Launch
import proofs.«163069_j30202210025887_2_alg».proof.Proof.Gen.Kernel.Points
import proofs.«163069_j30202210025887_2_alg».proof.Proof.Gen.Kernel.Frame
import proofs.«163069_j30202210025887_2_alg».proof.Proof.Gen.KernelIdeal
import proofs.«163069_j30202210025887_2_alg».proof.Proof.Gen.KernelIdeal.Skeleton
import proofs.«163069_j30202210025887_2_alg».proof.Proof.Gen.KernelIdeal.Launch
import proofs.«163069_j30202210025887_2_alg».proof.Proof.Gen.KernelIdeal.Points
import proofs.«163069_j30202210025887_2_alg».proof.Proof.Gen.KernelIdeal.Frame
import proofs.«163069_j30202210025887_2_alg».proof.Proof.Gen.ReferenceIdeal
import proofs.«163069_j30202210025887_2_alg».proof.Proof.Gen.Pre_finite_inputs
import proofs.«163069_j30202210025887_2_alg».proof.Proof.KerRun
import proofs.«163069_j30202210025887_2_alg».proof.Proof.KerValue
import proofs.«163069_j30202210025887_2_alg».proof.Proof.KerPre
import proofs.«163069_j30202210025887_2_alg».proof.Proof.RefRun
import proofs.«163069_j30202210025887_2_alg».proof.Proof.RefValue
import proofs.«163069_j30202210025887_2_alg».proof.Proof.SpecEq
import Idealize.ShloMosaic.Adequacy
import Idealize.ShloMosaic.Init

noncomputable section

namespace Cert.Proof

open Idealize.ShloMosaic Idealize.ShloMosaic.TcCoe Idealize.SL.Sem Idealize.ShloMosaic.ValueIdx

/-- The printed kernel's frame, generated whole. -/
theorem frame_kernel : Cert.frame_Kernel := fun m ρ _ => Cert.Kernel.Gen.frame m ρ

/-- The idealized kernel's frame, generated whole. -/
theorem frame_kernelIdeal : Cert.frame_KernelIdeal := fun m ρ _ => Cert.KernelIdeal.Gen.frame m ρ

/-- The reference's frame: its run with the result dropped. -/
theorem frame_reference : Cert.frame_ReferenceIdeal := fun m ρ _ =>
  (θ_run Cert.ReferenceIdeal.defs _ _).mono (fun _ h c => (h c).2) (Cert.ReferenceIdeal.RefRun.run m ρ)

/-- The idealization rewrote no operation. -/
theorem preserves : Cert.preserves_Kernel_KernelIdeal := trivial

/-- From memories agreeing on the seven arguments both idealized programs run; the kernel's result array is the
    "scale, sum, scale again" family of formulas at every entry, the reference's the "loops appended" family, and on
    the real inputs the precondition grants the two families are one function. -/
theorem algebraic : Cert.algebraic_KernelIdeal_ReferenceIdeal := by
  intro m ρ m' ρ' hpre hagree
  refine ⟨fun c => Cert.KernelIdeal.Gen.W8 (F := Ideal) m ρ c (Proc.devRef .tc Cert.KernelIdeal.main_v38),
    Cert.KernelIdeal.RunValue.run_named (F := Ideal) m ρ, ?_⟩
  refine (θ_run Cert.ReferenceIdeal.defs _ _).mono (fun _ h c => ⟨(h c).1.trans ?_, (h c).2⟩)
    (Cert.ReferenceIdeal.RefRun.run m' ρ')
  obtain ⟨a0, a1, a2, a3, a4, a5, a6⟩ := hagree c
  rw [a0, a1, a2, a3, a4, a5, a6]
  obtain ⟨hX, hW, hb, hRW, -, -⟩ := Cert.GcnBlock.finite_of_pre _ _ _ _ _ _ _ (hpre c)
  refine funext fun (i : Cert.KernelIdeal.S50000x128.Idx) => ?_
  obtain ⟨n, o, rfl⟩ : ∃ (n : Fin 50000) (o : Fin 128), i = ix2 n o := ⟨i 0, i 1, eq_ix2 i⟩
  exact (Cert.ReferenceIdeal.RefValue.result_apply _ _ _ _ _ _ _ n o).trans
    ((Cert.GcnBlock.spec_eq _ _ _ _ _ _ _ hX hW hb hRW n o).trans (Cert.KernelIdeal.HostValue.kernel_value m ρ c n o).symm)

/-- The certificate: the programs' stated side conditions witnessed, and the five claims. -/
theorem claim : Cert.Claim :=
  ⟨Cert.Kernel.Gen.facts, Cert.KernelIdeal.Gen.facts, Cert.ReferenceIdeal.Gen.facts, Cert.Pre_finite_inputs.Gen.facts,
    frame_kernel, frame_kernelIdeal, frame_reference, preserves, algebraic⟩

end Cert.Proof

end
